-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x2048x1024 .f32) (main_arg1 : FVec F S3072x1024 .f32) (main_arg2 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S4x2048x1024 : Shape := ⟨3, ![4, 2048, 1024]⟩
abbrev S3072x1024 : Shape := ⟨2, ![3072, 1024]⟩
abbrev S1024x1024 : Shape := ⟨2, ![1024, 1024]⟩
abbrev S1x512x1024 : Shape := ⟨3, ![1, 512, 1024]⟩
abbrev S512x1024 : Shape := ⟨2, ![512, 1024]⟩
abbrev S512x3072 : Shape := ⟨2, ![512, 3072]⟩
abbrev S1x256x128 : Shape := ⟨3, ![1, 256, 128]⟩
abbrev S256x1 : Shape := ⟨2, ![256, 1]⟩
abbrev S256x64 : Shape := ⟨2, ![256, 64]⟩
abbrev S256x128 : Shape := ⟨2, ![256, 128]⟩
abbrev S256x256 : Shape := ⟨2, ![256, 256]⟩
abbrev S256 : Shape := ⟨1, ![256]⟩
abbrev S1x256x64 : Shape := ⟨3, ![1, 256, 64]⟩

abbrev nBuf : Space → Nat
  | .hbm => 10
  | .vmem => 28
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S1024x1024, .f32⟩
  | .hbm, ⟨3, _⟩ => ⟨S3072x1024, .bf16⟩
  | .hbm, ⟨4, _⟩ => ⟨S1024x1024, .bf16⟩
  | .hbm, ⟨5, _⟩ => ⟨S4x2048x1024, .bf16⟩
  | .hbm, ⟨6, _⟩ => ⟨S4x2048x1024, .bf16⟩
  | .hbm, ⟨7, _⟩ => ⟨S4x2048x1024, .bf16⟩
  | .hbm, ⟨8, _⟩ => ⟨S4x2048x1024, .bf16⟩
  | .hbm, ⟨9, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S3072x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x256x128, .bf16⟩
  | .local _ .vmem, ⟨10, _⟩ => ⟨S1x256x128, .bf16⟩
  | .local _ .vmem, ⟨11, _⟩ => ⟨S1x256x128, .bf16⟩
  | .local _ .vmem, ⟨12, _⟩ => ⟨S1x256x128, .bf16⟩
  | .local _ .vmem, ⟨13, _⟩ => ⟨S1x256x128, .bf16⟩
  | .local _ .vmem, ⟨14, _⟩ => ⟨S1x256x128, .bf16⟩
  | .local _ .vmem, ⟨15, _⟩ => ⟨S1x256x128, .bf16⟩
  | .local _ .vmem, ⟨16, _⟩ => ⟨S1x256x128, .bf16⟩
  | .local _ .vmem, ⟨17, _⟩ => ⟨S256x1, .f32⟩
  | .local _ .vmem, ⟨18, _⟩ => ⟨S256x1, .f32⟩
  | .local _ .vmem, ⟨19, _⟩ => ⟨S256x64, .f32⟩
  | .local _ .vmem, ⟨20, _⟩ => ⟨S256x1, .f32⟩
  | .local _ .vmem, ⟨21, _⟩ => ⟨S256x1, .f32⟩
  | .local _ .vmem, ⟨22, _⟩ => ⟨S256x64, .f32⟩
  | .local _ .vmem, ⟨23, _⟩ => ⟨S1x512x1024, .bf16⟩
  | .local _ .vmem, ⟨24, _⟩ => ⟨S1x512x1024, .bf16⟩
  | .local _ .vmem, ⟨25, _⟩ => ⟨S1024x1024, .bf16⟩
  | .local _ .vmem, ⟨26, _⟩ => ⟨S1x512x1024, .f32⟩
  | .local _ .vmem, ⟨27, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc1_scratch3 : Ref sig .tc := ⟨.vmem, 20, rfl⟩
abbrev cc1_scratch4 : Ref sig .tc := ⟨.vmem, 21, rfl⟩
abbrev cc1_scratch5 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg2_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨4, ![4, 8, 8, 8], ![false, false, false, false]⟩

def k1_cond3 (i : grid1.Coords) : BitVec 1 :=
  let arg3 : BitVec 32 := BitVec.ofNat 32 (i 3).val
  let c7_i32 : BitVec 32 := 7#32
  let v6 : BitVec 1 := Scalar.cmpi .eq arg3 c7_i32
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let v0 : BitVec 32 := Scalar.minsi arg3 arg2
  let c0_i32 : BitVec 32 := 0#32
  ![arg0.toNat, v0.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let v0 : BitVec 32 := Scalar.minsi arg3 arg2
  let c0_i32 : BitVec 32 := 0#32
  ![arg0.toNat, v0.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage1_0 : Fin 2 → Memref sig .tc .vmem S1x256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true, false]

abbrev stage1_1 : Fin 2 → Memref sig .tc .vmem S1x256x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true, true]

abbrev stage1_2 : Fin 2 → Memref sig .tc .vmem S1x256x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true, true]

abbrev stage1_3 : Fin 2 → Memref sig .tc .vmem S1x256x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true, false]

abbrev grid2 : Pipeline.Grid := ⟨2, ![4, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1x512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  slices_S512x3072_o0_0_S512x1024 : S512x3072.Slices ![0, 0] S512x1024
  slices_S512x3072_o0_1024_S512x1024 : S512x3072.Slices ![0, 1024] S512x1024
  slices_S512x3072_o0_2048_S512x1024 : S512x3072.Slices ![0, 2048] S512x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  iota_S256x256_d0_w32 : S256x256.Iotas .tc 32 [0]
  iota_S256x256_d1_w32 : S256x256.Iotas .tc 32 [1]
  slices_S256x128_o0_0_S256x64 : S256x128.Slices ![0, 0] S256x64
  reduces_S256x256_S256 : S256x256.Reduces [1] S256
  shapeCasts_S256_S256x1 : S256.ShapeCasts S256x1
  broadcasts_S256x1_S256x256 : S256x1.Broadcasts S256x256
  broadcasts_S256x1_S256x64 : S256x1.Broadcasts S256x64
  slices_S256x128_o0_64_S256x64 : S256x128.Slices ![0, 64] S256x64
  inb_S1x256x128_S1x256x64_0_0_0 : ∀ a, (![0, 0, 0] : Fin 3 → Nat) a + S1x256x64.size a ≤ S1x256x128.size a
  h_S1x256x64 : 0 < S1x256x64.numel
  shapeCasts_S1x256x64_S256x64 : S1x256x64.ShapeCasts S256x64
  shapeCasts_S256x64_S1x256x64 : S256x64.ShapeCasts S1x256x64
  packedbf16_S1x256x128_S1x256x64_0_0_0 : (Rect.unit (s := S1x256x128) ![0, 0, 0] S1x256x64.size inb_S1x256x128_S1x256x64_0_0_0).PackedRows (EltTy.packing .bf16)
  inb_S1x256x128_S1x256x64_0_0_64 : ∀ a, (![0, 0, 64] : Fin 3 → Nat) a + S1x256x64.size a ≤ S1x256x128.size a
  packedbf16_S1x256x128_S1x256x64_0_0_64 : (Rect.unit (s := S1x256x128) ![0, 0, 64] S1x256x64.size inb_S1x256x128_S1x256x64_0_0_64).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S512x1024_S3072x1024_S512x3072_1_1_0_0_n_n_wf : DotDims.WF S512x1024 S3072x1024 S512x3072 [1] [1] [0] [0] [] []
  dot_S256x64_S256x64_S256x256_1_1_0_0_n_n_wf : DotDims.WF S256x64 S256x64 S256x256 [1] [1] [0] [0] [] []
  dot_S256x256_S256x64_S256x64_1_0_0_1_n_n_wf : DotDims.WF S256x256 S256x64 S256x64 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .f32 = 32 ∨ (Rect.block (s := S4x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S4x2048x1024.size a
  hwx0_2 : ∀ i : grid0.Coords, EltTy.bits .bf16 = 32 ∨ (Rect.block (s := S4x2048x1024) S1x512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S4x2048x1024.size a
  hwx0_3 : ∀ i : grid0.Coords, EltTy.bits .bf16 = 32 ∨ (Rect.block (s := S4x2048x1024) S1x512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S4x2048x1024.size a
  hwx0_4 : ∀ i : grid0.Coords, EltTy.bits .bf16 = 32 ∨ (Rect.block (s := S4x2048x1024) S1x512x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x128.size a ≤ S4x2048x1024.size a
  hwx1_0 : ∀ i : grid1.Coords, EltTy.bits .bf16 = 32 ∨ (Rect.block (s := S4x2048x1024) S1x256x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x128.size a ≤ S4x2048x1024.size a
  hwx1_1 : ∀ i : grid1.Coords, EltTy.bits .bf16 = 32 ∨ (Rect.block (s := S4x2048x1024) S1x256x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x128.size a ≤ S4x2048x1024.size a
  hwx1_2 : ∀ i : grid1.Coords, EltTy.bits .bf16 = 32 ∨ (Rect.block (s := S4x2048x1024) S1x256x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x128.size a ≤ S4x2048x1024.size a
  hwx1_3 : ∀ i : grid1.Coords, EltTy.bits .bf16 = 32 ∨ (Rect.block (s := S4x2048x1024) S1x256x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x1024.size a ≤ S4x2048x1024.size a
  hwx2_0 : ∀ i : grid2.Coords, EltTy.bits .bf16 = 32 ∨ (Rect.block (s := S4x2048x1024) S1x512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512x1024.size a ≤ S4x2048x1024.size a
  hwx2_2 : ∀ i : grid2.Coords, EltTy.bits .f32 = 32 ∨ (Rect.block (s := S4x2048x1024) S1x512x1024.size (cc2_transform_2 i) (hinb2_2 i)).WholeWords (EltTy.packing .f32)

variable [Facts₀]

def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S256x64_S256x64_S256x256_1_1_0_0_n_n : DotDims S256x64 S256x64 S256x256 where
  lhsContracting := [1]
  rhsContracting := [1]
  lhsNonContracting := [0]
  rhsNonContracting := [0]
  lhsBatch := []
  rhsBatch := []
  wf := dot_S256x64_S256x64_S256x256_1_1_0_0_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2_0) S1x256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S1x256x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_2) S1x256x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x256x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

abbrev win2_0 : Pipeline.Window sig grid2 :=
  Pipeline.Window.ofSpec (Memref.whole main_v3) S1x512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S1024x1024 : Shape := ⟨2, ![1024, 1024]⟩
abbrev S4x2048x3072 : Shape := ⟨3, ![4, 2048, 3072]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S2048x2048 : Shape := ⟨2, ![2048, 2048]⟩
abbrev S1x1x2048x2048 : Shape := ⟨4, ![1, 1, 2048, 2048]⟩
abbrev S4x16x2048 : Shape := ⟨3, ![4, 16, 2048]⟩
abbrev S4x16x2048x1 : Shape := ⟨4, ![4, 16, 2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S1024x1024, .f32⟩
  | .hbm, ⟨3, _⟩ => ⟨S4x2048x3072, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x16x64, .f32⟩
  | .hbm, ⟨8, _⟩ => ⟨S4x16x2048x64, .f32⟩
  | .hbm, ⟨9, _⟩ => ⟨S4x2048x16x64, .f32⟩
  | .hbm, ⟨10, _⟩ => ⟨S4x16x2048x64, .f32⟩
  | .hbm, ⟨11, _⟩ => ⟨S4x2048x16x64, .f32⟩
  | .hbm, ⟨12, _⟩ => ⟨S4x16x2048x64, .f32⟩
  | .hbm, ⟨13, _⟩ => ⟨S4x16x2048x2048, .f32⟩
  | .hbm, ⟨14, _⟩ => ⟨S_, .f32⟩
  | .hbm, ⟨15, _⟩ => ⟨S4x16x2048x2048, .f32⟩
  | .hbm, ⟨16, _⟩ => ⟨S4x16x2048x2048, .f32⟩
  | .hbm, ⟨17, _⟩ => ⟨S_, .i1⟩
  | .hbm, ⟨18, _⟩ => ⟨S2048x2048, .i1⟩
  | .hbm, ⟨19, _⟩ => ⟨S2048x2048, .i32⟩
  | .hbm, ⟨20, _⟩ => ⟨S_, .i32⟩
  | .hbm, ⟨21, _⟩ => ⟨S2048x2048, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S_, .i1⟩
  | .hbm, ⟨26, _⟩ => ⟨S2048x2048, .i1⟩
  | .hbm, ⟨27, _⟩ => ⟨S2048x2048, .i1⟩
  | .hbm, ⟨28, _⟩ => ⟨S1x1x2048x2048, .i1⟩
  | .hbm, ⟨29, _⟩ => ⟨S_, .f32⟩
  | .hbm, ⟨30, _⟩ => ⟨S_, .f32⟩
  | .hbm, ⟨31, _⟩ => ⟨S4x16x2048x2048, .i1⟩
  | .hbm, ⟨32, _⟩ => ⟨S4x16x2048x2048, .f32⟩
  | .hbm, ⟨33, _⟩ => ⟨S4x16x2048x2048, .f32⟩
  | .hbm, ⟨34, _⟩ => ⟨S_, .f32⟩
  | .hbm, ⟨35, _⟩ => ⟨S4x16x2048, .f32⟩
  | .hbm, ⟨36, _⟩ => ⟨S_, .f32⟩
  | .hbm, ⟨37, _⟩ => ⟨S4x16x2048, .f32⟩
  | .hbm, ⟨38, _⟩ => ⟨S4x16x2048, .f32⟩
  | .hbm, ⟨39, _⟩ => ⟨S4x16x2048x1, .f32⟩
  | .hbm, ⟨40, _⟩ => ⟨S4x16x2048x2048, .f32⟩
  | .hbm, ⟨41, _⟩ => ⟨S4x16x2048x2048, .f32⟩
  | .hbm, ⟨42, _⟩ => ⟨S4x16x2048x2048, .f32⟩
  | .hbm, ⟨43, _⟩ => ⟨S_, .f32⟩
  | .hbm, ⟨44, _⟩ => ⟨S4x16x2048, .f32⟩
  | .hbm, ⟨45, _⟩ => ⟨S4x16x2048x1, .f32⟩
  | .hbm, ⟨46, _⟩ => ⟨S4x16x2048x2048, .f32⟩
  | .hbm, ⟨47, _⟩ => ⟨S4x16x2048x2048, .f32⟩
  | .hbm, ⟨48, _⟩ => ⟨S4x16x2048x64, .f32⟩
  | .hbm, ⟨49, _⟩ => ⟨S4x2048x16x64, .f32⟩
  | .hbm, ⟨50, _⟩ => ⟨S4x2048x1024, .f32⟩
  | .hbm, ⟨51, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_0 : Ref sig .tc := ⟨.hbm, 25, rfl⟩
abbrev main_call0_v5 : Ref sig .tc := ⟨.hbm, 26, rfl⟩
abbrev main_v14 : Ref sig .tc := ⟨.hbm, 27, rfl⟩
abbrev main_v15 : Ref sig .tc := ⟨.hbm, 28, rfl⟩
abbrev main_cst_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]

class Facts₀ : Prop where
  slices_S4x2048x3072_S4x2048x1024_0_0_0 : S4x2048x3072.Slices ![0, 0, 0] S4x2048x1024
  slices_S4x2048x3072_S4x2048x1024_0_0_1024 : S4x2048x3072.Slices ![0, 0, 1024] S4x2048x1024
  slices_S4x2048x3072_S4x2048x1024_0_0_2048 : S4x2048x3072.Slices ![0, 0, 2048] S4x2048x1024
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  bcast_S_S2048x2048 : S_.BroadcastsInDim S2048x2048 (![] : Fin 0 → Fin S2048x2048.rank)
  bcast_S2048x2048_S1x1x2048x2048_2_3 : S2048x2048.BroadcastsInDim S1x1x2048x2048 (![2, 3] : Fin 2 → Fin S1x1x2048x2048.rank)
  bcast_S1x1x2048x2048_S4x16x2048x2048_0_1_2_3 : S1x1x2048x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S3072x1024_S4x2048x3072_2_1_01_0_n_n_wf : DotDims.WF S4x2048x1024 S3072x1024 S4x2048x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.KIRegion0.lean ====
/- The body half of the first pipeline of @main (the fused q/k/v projection, x · w_attnᵀ split in three, on a 4×4
   grid), at a PARAMETER `V` — the TensorCore's buffer contents when the region is entered. Each window's block at a
   grid point (`iblk0`); that each input window's staging buffer holds its block at every point, fetched there or
   not — the weight window, whose block index never moves, is fetched at the first point only —; what the body
   leaves in each of the three output windows' staging buffers as a closed function of the two input blocks
   (`out0_2`, `out0_3`, `out0_4`: one store each, which covers the buffer); the body's triple on whole staging
   memrefs (`sound_kernel0`: each output's buffer is read before it is overwritten, so it is taken at any
   contents); the proof data (`dat0`) and the body obligation at every grid point (`body_obligation0`). The
   matrix product, the three column slices, the scaling of the first and the roundings stay inside the payloads
   `k0_pay2`, `k0_pay3`, `k0_pay4`. -/
import proofs.«151496_j75222057222809_2_alg».proof.Proof.Gen.KernelIdeal.Launch
import proofs.«151496_j75222057222809_2_alg».proof.Proof.Gen.KernelIdeal.Skeleton
import proofs.«151496_j75222057222809_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # The q/k/v projection: custom_call 0, `cc0__qkv_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): unfetched, the block index
    has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight: one block, the whole array, fetched at the first point only) likewise: at every later
    point the buffer still holds the first point's block, which is that point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x512x1024 := Rect.unit (s := S1x512x1024) ![0, 0, 0] S1x512x1024.size inb_S1x512x1024_S1x512x1024_0_0_0
abbrev r0_1 : Rect S3072x1024 := Rect.unit (s := S3072x1024) ![0, 0] S3072x1024.size inb_S3072x1024_S3072x1024_0_0

/-! ## What the body leaves in each output window's buffer -/

/-- Window 2's staging buffer after the body, from the input windows' blocks: its 1 store as a piece (the payload is
    the skeleton's: the first third of the product's columns, scaled by 1/8 and rounded). -/
def out0_2 (x0 : Vec F S1x512x1024 .f32) (x1 : Vec F S3072x1024 .bf16) : Vec F S1x512x1024 .bf16 :=
  View.canon [⟨r0_0, k0_pay2 (View.ld x0 r0_0) (View.ld x1 r0_1)⟩]

/-- Its store tiles the buffer (checked by evaluation), so it covers it. -/
theorem cover0_2 (p0 : Vec F S1x512x1024 .bf16) (y : S1x512x1024.Idx) :
    ∃ pc ∈ ([⟨r0_0, p0⟩] : List (View.Piece (Elt F) S1x512x1024 .bf16)), y ∈ pc.1.set :=
  View.cover_of_tiled [⟨r0_0, p0⟩] S1x512x1024.size (by rfl) y

/-- Window 3's staging buffer after the body, from the input windows' blocks: its 1 store as a piece (the payload is
    the skeleton's: the middle third of the product's columns, rounded). -/
def out0_3 (x0 : Vec F S1x512x1024 .f32) (x1 : Vec F S3072x1024 .bf16) : Vec F S1x512x1024 .bf16 :=
  View.canon [⟨r0_0, k0_pay3 (View.ld x0 r0_0) (View.ld x1 r0_1)⟩]

/-- Its store tiles the buffer (checked by evaluation), so it covers it. -/
theorem cover0_3 (p0 : Vec F S1x512x1024 .bf16) (y : S1x512x1024.Idx) :
    ∃ pc ∈ ([⟨r0_0, p0⟩] : List (View.Piece (Elt F) S1x512x1024 .bf16)), y ∈ pc.1.set :=
  View.cover_of_tiled [⟨r0_0, p0⟩] S1x512x1024.size (by rfl) y

/-- Window 4's staging buffer after the body, from the input windows' blocks: its 1 store as a piece (the payload is
    the skeleton's: the last third of the product's columns, rounded). -/
def out0_4 (x0 : Vec F S1x512x1024 .f32) (x1 : Vec F S3072x1024 .bf16) : Vec F S1x512x1024 .bf16 :=
  View.canon [⟨r0_0, k0_pay4 (View.ld x0 r0_0) (View.ld x1 r0_1)⟩]

/-- Its store tiles the buffer (checked by evaluation), so it covers it. -/
theorem cover0_4 (p0 : Vec F S1x512x1024 .bf16) (y : S1x512x1024.Idx) :
    ∃ pc ∈ ([⟨r0_0, p0⟩] : List (View.Piece (Elt F) S1x512x1024 .bf16)), y ∈ pc.1.set :=
  View.cover_of_tiled [⟨r0_0, p0⟩] S1x512x1024.size (by rfl) y

/-! ## The body's triple -/

set_option maxHeartbeats 1000000 in
/-- The kernel body on whole staging memrefs, the inputs' at read contents `xW` and the outputs' at anything, runs to
    the continuation holding the inputs' as they were and each output's at `out0_W` of the inputs': the printed function
    is its skeleton, which is run statement by statement. -/
theorem sound_kernel0 (c : Dev nD) (E : Set ℕ) (i : grid0.Coords) (arg2 : Memref sig .tc .vmem S1x512x1024 .f32) (harg2 : arg2.IsWhole) (arg3 : Memref sig .tc .vmem S3072x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole)
    (x0 : Vec F S1x512x1024 .f32) (x1 : Vec F S3072x1024 .bf16) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare (out0_2 x0 x1) ∗ owns (c : Thread nD τ) arg5 fullShare (out0_3 x0 x1) ∗ owns (c : Thread nD τ) arg6 fullShare (out0_4 x0 x1)) -∗ K ⟨⟩))
      ⊢ wp frame (wpE (defs₀ (F := F)) Variants.none c none) E (cc0__qkv_kernel i arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The pipeline's proof data -/

/-- The proof data of pipeline 0 on core `c`: the arrays as the region finds them (`V`); after the body at
    point `t` each input's buffer at its block and each output's at `out0_W` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

/-- The proof data's arrays are the region-entry contents (the proof data's definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRegion1Base.lean ====
/-
  Region 1 (the attention kernel) — what its five control cases share.

  A grid point is (b, hp, qi, kt), laid out row-major over 4 × 8 × 8 × 8, so point t has kt = t % 8 and
  qi = (t / 8) % 8. The body has three conditionals: "kt = 0" (reset the six running statistics), "kt ≤ qi"
  (the tile is on or below the diagonal: fold it into the statistics) and "kt = 7" (divide and write the output
  block). Each is stated here from the printed scalar chain and decided over the 2048 points in closed form.
  The three inputs (the q, k and v blocks) are never idle; the output block is idle exactly where kt ≠ 7 and is
  not written back there. An input's staging buffer holds its block at every point, fetched there or not: where
  the pipeline does not fetch (the k / v index is min(kt, qi), which stops moving above the diagonal) the block
  index has not moved. The six scratch buffers (running maximum, running sum and running numerator of each of
  the two heads) are whole scoped buffers of the kernel's own; the region's invariant owns them beside the
  fourteen scoped buffers of the other two kernels.
-/
import proofs.«151496_j75222057222809_2_alg».proof.Proof.Gen.KernelIdeal.Launch
import proofs.«151496_j75222057222809_2_alg».proof.Proof.Gen.KernelIdeal.Skeleton
import proofs.«151496_j75222057222809_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's three conditions -/

/-- "kt = 0", from the grid coordinates. -/
abbrev cond1_0 (i : grid1.Coords) : Prop := (Scalar.cmpi .ne (Scalar.extui (Scalar.cmpi .eq (BitVec.ofNat 32 (i 3).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "kt ≤ qi", from the grid coordinates. -/
abbrev cond1_1 (i : grid1.Coords) : Prop := (Scalar.cmpi .ne (Scalar.extui (Scalar.cmpi .sle (BitVec.ofNat 32 (i 3).val) (BitVec.ofNat 32 (i 2).val))) 0#32) = 1#1
theorem hcond1_1 : ∀ t : Fin cfg1.N, cond1_1 (grid1.coords t) ↔ t.val % 8 ≤ (t.val / 8) % 8 :=
  (by decide +kernel : ∀ t : Fin grid1.N, cond1_1 (grid1.coords t) ↔ t.val % 8 ≤ (t.val / 8) % 8)

/-- "kt = 7", from the grid coordinates. -/
abbrev cond1_2 (i : grid1.Coords) : Prop := k1_cond3 i = 1#1
theorem hcond1_2 : ∀ t : Fin cfg1.N, cond1_2 (grid1.coords t) ↔ t.val % 8 = 7 :=
  (by decide +kernel : ∀ t : Fin grid1.N, cond1_2 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- The output block is idle exactly where kt ≠ 7, -/
theorem idleAt1_3 : ∀ t : Fin cfg1.N, t.val % 8 ≠ 7 → cfg1.idle 3 (grid1.coords t) = true := by decide +kernel
theorem liveAt1_3 : ∀ t : Fin cfg1.N, t.val % 8 = 7 → cfg1.idle 3 (grid1.coords t) = false := by decide +kernel
/-- and is not written back there. -/
theorem noFlush1_3 : ∀ t : Fin cfg1.N, t.val % 8 ≠ 7 → (cfg1.win 3).flush t = false := by decide +kernel

/-! ## The memrefs the body is called with -/

abbrev VO1_3 : View sig .tc .vmem S1x256x128 .bf16 := (Memref.whole cc1_stg3_0 : Memref sig .tc .vmem S1x256x128 .bf16).view
abbrev ms1_0 (t : Fin cfg1.N) : Memref sig .tc .vmem S1x256x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256x128 .bf16 := win1_3.stage (cfg1.slots t 3)
abbrev hs1_3 (t : Fin cfg1.N) : (ms1_3 t).IsWhole := hstage1_3 ((cfg1.slots t 3).cast nbuf1_3)
abbrev scM1_0 : Memref sig .tc .vmem S256x1 .f32 := Memref.whole cc1_scratch0
abbrev VS1_0 : View sig .tc .vmem S256x1 .f32 := scM1_0.view
abbrev scM1_1 : Memref sig .tc .vmem S256x1 .f32 := Memref.whole cc1_scratch1
abbrev VS1_1 : View sig .tc .vmem S256x1 .f32 := scM1_1.view
abbrev scM1_2 : Memref sig .tc .vmem S256x64 .f32 := Memref.whole cc1_scratch2
abbrev VS1_2 : View sig .tc .vmem S256x64 .f32 := scM1_2.view
abbrev scM1_3 : Memref sig .tc .vmem S256x1 .f32 := Memref.whole cc1_scratch3
abbrev VS1_3 : View sig .tc .vmem S256x1 .f32 := scM1_3.view
abbrev scM1_4 : Memref sig .tc .vmem S256x1 .f32 := Memref.whole cc1_scratch4
abbrev VS1_4 : View sig .tc .vmem S256x1 .f32 := scM1_4.view
abbrev scM1_5 : Memref sig .tc .vmem S256x64 .f32 := Memref.whole cc1_scratch5
abbrev VS1_5 : View sig .tc .vmem S256x64 .f32 := scM1_5.view

/-! ## The invariant's two shapes -/

/-- The six running statistics: maximum, sum and numerator of the first head, then of the second. -/
abbrev Scr (F : FTy → Type) : Type := Vec F S256x1 .f32 × Vec F S256x1 .f32 × Vec F S256x64 .f32 × Vec F S256x1 .f32 × Vec F S256x1 .f32 × Vec F S256x64 .f32

/-- A scoped buffer at some contents. -/
def anyBuf (c : Dev nD) (b : Ref sig .tc) : sProp 𝕄 := iprop(∃ f : Buf (Elt F) ((c : Thread nD τ).loc b), ((c : Thread nD τ).loc b) ↦{fullShare} f)

/-- The fourteen scoped buffers of the other two kernels, each at some contents. -/
def rest14 (c : Dev nD) : sProp 𝕄 :=
  iprop(anyBuf (F := F) c cc0_stg0_0 ∗ anyBuf (F := F) c cc0_stg0_1 ∗ anyBuf (F := F) c cc0_stg1_0 ∗ anyBuf (F := F) c cc0_stg2_0 ∗ anyBuf (F := F) c cc0_stg2_1 ∗ anyBuf (F := F) c cc0_stg3_0 ∗ anyBuf (F := F) c cc0_stg3_1 ∗ anyBuf (F := F) c cc0_stg4_0 ∗ anyBuf (F := F) c cc0_stg4_1 ∗ anyBuf (F := F) c cc2_stg0_0 ∗ anyBuf (F := F) c cc2_stg0_1 ∗ anyBuf (F := F) c cc2_stg1_0 ∗ anyBuf (F := F) c cc2_stg2_0 ∗ anyBuf (F := F) c cc2_stg2_1)

/-- The six scratch buffers at the statistics `s`. -/
def scrAt (c : Dev nD) (s : Scr F) : sProp 𝕄 :=
  iprop(owns (c : Thread nD τ) scM1_0 fullShare s.1 ∗ owns (c : Thread nD τ) scM1_1 fullShare s.2.1 ∗ owns (c : Thread nD τ) scM1_2 fullShare s.2.2.1
    ∗ owns (c : Thread nD τ) scM1_3 fullShare s.2.2.2.1 ∗ owns (c : Thread nD τ) scM1_4 fullShare s.2.2.2.2.1 ∗ owns (c : Thread nD τ) scM1_5 fullShare s.2.2.2.2.2)

/-- The six scratch buffers at anything. -/
def scrAny (c : Dev nD) : sProp 𝕄 :=
  iprop((∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d) ∗ (∃ d, owns (c : Thread nD τ) scM1_4 fullShare d) ∗ (∃ d, owns (c : Thread nD τ) scM1_5 fullShare d))

theorem scrAt_any (c : Dev nD) (s : Scr F) : scrAt c s ⊢ (scrAny c : sProp 𝕄) := by
  unfold scrAt scrAny
  iintro ⟨H0, H1, H2, H3, H4, H5⟩
  isplitl [H0]; · iexists _; iexact H0
  isplitl [H1]; · iexists _; iexact H1
  isplitl [H2]; · iexists _; iexact H2
  isplitl [H3]; · iexists _; iexact H3
  isplitl [H4]; · iexists _; iexact H4
  iexists _; iexact H5

/-- The class invariant, with the scratch buffers taken out of the scoped rest. -/
theorem PhiA1_open (c : Dev nD) :
    (Pipeline.ΦA spec1 c : sProp 𝕄) ⊢ iprop(scrAny c ∗ rest14 c ∗ ∃ r, prngReg c r) := by
  unfold Pipeline.ΦA scrAny rest14 anyBuf; rw [scopedRest1_eq]; simp only [← owns_whole]
  iintro ⟨⟨Ha0, Ha1, Ha2, Ha3, Ha4, Ha5, Ha6, Ha7, Ha8, ⟨%d0, HS0⟩, ⟨%d1, HS1⟩, ⟨%d2, HS2⟩, ⟨%d3, HS3⟩, ⟨%d4, HS4⟩, ⟨%d5, HS5⟩, Hb0, Hb1, Hb2, Hb3, Hb4⟩, Hg⟩
  isplitl [HS0 HS1 HS2 HS3 HS4 HS5]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  isplitr [Hg]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Hb0]; · iexact Hb0
    isplitl [Hb1]; · iexact Hb1
    isplitl [Hb2]; · iexact Hb2
    isplitl [Hb3]; · iexact Hb3
    iexact Hb4
  iexact Hg

/-- and put back. -/
theorem PhiA1_close (c : Dev nD) :
    iprop(scrAny c ∗ rest14 c ∗ ∃ r, prngReg c r) ⊢ (Pipeline.ΦA spec1 c : sProp 𝕄) := by
  unfold Pipeline.ΦA scrAny rest14 anyBuf; rw [scopedRest1_eq]; simp only [← owns_whole]
  iintro ⟨⟨⟨%d0, HS0⟩, ⟨%d1, HS1⟩, ⟨%d2, HS2⟩, ⟨%d3, HS3⟩, ⟨%d4, HS4⟩, ⟨%d5, HS5⟩⟩, ⟨Ha0, Ha1, Ha2, Ha3, Ha4, Ha5, Ha6, Ha7, Ha8, Hb0, Hb1, Hb2, Hb3, Hb4⟩, Hg⟩
  isplitr [Hg]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [Hb0]; · iexact Hb0
    isplitl [Hb1]; · iexact Hb1
    isplitl [Hb2]; · iexact Hb2
    isplitl [Hb3]; · iexact Hb3
    iexact Hb4
  iexact Hg

end Cert.KernelIdeal.Hand

end
-- ==== Proof.KIRegion1RunCE.lean ====
/-
  Region 1, the two cases in which the tile is above the diagonal (kt > qi): nothing is folded in.
  Case C (kt < 7): the body does nothing at all. Case E (kt = 7): it divides each head's numerator by its sum
  and writes the output block, leaving the statistics as they are.
-/
import proofs.«151496_j75222057222809_2_alg».proof.Proof.KIRegion1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

set_option maxHeartbeats 1000000 in
/-- CASE C (kt > qi, kt < 7): none of the three conditionals is taken; whatever the body is handed it hands back. -/
theorem kernelRun1_C (c : Dev nD) (i : grid1.Coords) (arg4 : Memref sig .tc .vmem S1x256x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S256x1 .f32) (harg8 : arg8.IsWhole) (arg9 : Memref sig .tc .vmem S256x1 .f32) (harg9 : arg9.IsWhole) (arg10 : Memref sig .tc .vmem S256x64 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x64 .f32) (harg13 : arg13.IsWhole) (hc0 : ¬cond1_0 i) (hc1 : ¬cond1_1 i) (hc2 : ¬cond1_2 i)
    (P : sProp 𝕄) (E : Set ℕ) (K : PUnit → sProp 𝕄) :
    iprop(P ∗ (P -∗ K ⟨⟩)) ⊢ wp frame (wpE (defs₀ (F := F)) Variants.none c none) E (cc1__attn_kernel i arg4 harg4 arg5 harg5 arg6 harg6 arg7 harg7 arg8 harg8 arg9 harg9 arg10 harg10 arg11 harg11 arg12 harg12 arg13 harg13) K := by
    simp only [cc1__attn_kernel_eq_skeleton]; unfold cc1__attn_kernel_skel
    simp only [k1_part1_eq_skeleton, k1_part2_eq_skeleton]
    iintro ⟨HP, Hk⟩
    sl_exec (disch := first | exact hc0 | exact hc1 | exact hc2)
    sl_step
    iapply Hk
    iexact HP

set_option maxHeartbeats 4000000 in
/-- CASE E (kt = 7 above the diagonal: the tile is skipped, the output block is written). On whole staging memrefs — the three input blocks at their contents, the output's at anything, the six statistics at what the point before left — the body runs to the continuation holding the inputs and the statistics as they were and the output's buffer with the two half-width stores written, as pieces the run itself finds. -/
noncomputable def kernelRun1_E (c : Dev nD) (i : grid1.Coords) (arg4 : Memref sig .tc .vmem S1x256x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S256x1 .f32) (harg8 : arg8.IsWhole) (arg9 : Memref sig .tc .vmem S256x1 .f32) (harg9 : arg9.IsWhole) (arg10 : Memref sig .tc .vmem S256x64 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x64 .f32) (harg13 : arg13.IsWhole) (hc0 : ¬cond1_0 i) (hc1 : ¬cond1_1 i) (hc2 : cond1_2 i)
    (x0 : Vec F S1x256x128 .bf16) (x1 : Vec F S1x256x128 .bf16) (x2 : Vec F S1x256x128 .bf16) (xs0 : Vec F S256x1 .f32) (xs1 : Vec F S256x1 .f32) (xs2 : Vec F S256x64 .f32) (xs3 : Vec F S256x1 .f32) (xs4 : Vec F S256x1 .f32) (xs5 : Vec F S256x64 .f32) :
    { L3 : List (View.Piece (Elt F) S1x256x128 .bf16) //
      ∀ (E : Set ℕ) (K : PUnit → sProp 𝕄),
        iprop(owns (c : Thread nD τ) arg4 fullShare x0
            ∗ owns (c : Thread nD τ) arg5 fullShare x1
            ∗ owns (c : Thread nD τ) arg6 fullShare x2
            ∗ (∃ d, owns (c : Thread nD τ) arg7 fullShare d)
            ∗ owns (c : Thread nD τ) arg8 fullShare xs0
            ∗ owns (c : Thread nD τ) arg9 fullShare xs1
            ∗ owns (c : Thread nD τ) arg10 fullShare xs2
            ∗ owns (c : Thread nD τ) arg11 fullShare xs3
            ∗ owns (c : Thread nD τ) arg12 fullShare xs4
            ∗ owns (c : Thread nD τ) arg13 fullShare xs5
            ∗ (iprop(owns (c : Thread nD τ) arg4 fullShare x0
                ∗ owns (c : Thread nD τ) arg5 fullShare x1
                ∗ owns (c : Thread nD τ) arg6 fullShare x2
                ∗ (∃ f, arg7.view.loc (c : Thread nD τ) ↦[arg7.view.set]{fullShare} arg7.view.writes (Elt F) f L3)
                ∗ owns (c : Thread nD τ) arg8 fullShare xs0
                ∗ owns (c : Thread nD τ) arg9 fullShare xs1
                ∗ owns (c : Thread nD τ) arg10 fullShare xs2
                ∗ owns (c : Thread nD τ) arg11 fullShare xs3
                ∗ owns (c : Thread nD τ) arg12 fullShare xs4
                ∗ owns (c : Thread nD τ) arg13 fullShare xs5) -∗ K ⟨⟩))
          ⊢ wp frame (wpE (defs₀ (F := F)) Variants.none c none) E (cc1__attn_kernel i arg4 harg4 arg5 harg5 arg6 harg6 arg7 harg7 arg8 harg8 arg9 harg9 arg10 harg10 arg11 harg11 arg12 harg12 arg13 harg13) K } := by
  refine ⟨?_, fun E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg4.eq_unread hf0; obtain rfl := harg5.eq_unread hf1; obtain rfl := harg6.eq_unread hf2; obtain rfl := harg8.eq_unread hfs0; obtain rfl := harg9.eq_unread hfs1; obtain rfl := harg10.eq_unread hfs2; obtain rfl := harg11.eq_unread hfs3; obtain rfl := harg12.eq_unread hfs4; obtain rfl := harg13.eq_unread hfs5
    sl_exec (disch := first | exact hc0 | exact hc1 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; iexact H3
    isplitl [HS0]
    · iexists _; isplitr; · ipureintro; exact harg8.read_unread _
      iexact HS0
    isplitl [HS1]
    · iexists _; isplitr; · ipureintro; exact harg9.read_unread _
      iexact HS1
    isplitl [HS2]
    · iexists _; isplitr; · ipureintro; exact harg10.read_unread _
      iexact HS2
    isplitl [HS3]
    · iexists _; isplitr; · ipureintro; exact harg11.read_unread _
      iexact HS3
    isplitl [HS4]
    · iexists _; isplitr; · ipureintro; exact harg12.read_unread _
      iexact HS4
    iexists _; isplitr; · ipureintro; exact harg13.read_unread _
    iexact HS5

end Cert.KernelIdeal.Hand

end
-- ==== Proof.KIRegion1RunA.lean ====
/-
  Region 1, case A: the first tile of a row block (kt = 0). The six running statistics are reset — the maxima to
  -∞, the sums and numerators to 0 — and the tile (always on or below the diagonal, since 0 ≤ qi) is folded in:
  new maximum, the old sum and numerator rescaled by exp(old maximum − new maximum), the tile's exponentials added.
-/
import proofs.«151496_j75222057222809_2_alg».proof.Proof.KIRegion1RunCE

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

set_option maxHeartbeats 4000000 in
/-- CASE A (kt = 0: the statistics are reset, then the first tile is folded in; the output block is idle). The statistics' buffers at anything on entry; each ends with the pieces its stores wrote (the reset first, then the update), which the run itself finds. -/
noncomputable def kernelRun1_A (c : Dev nD) (i : grid1.Coords) (arg4 : Memref sig .tc .vmem S1x256x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S256x1 .f32) (harg8 : arg8.IsWhole) (arg9 : Memref sig .tc .vmem S256x1 .f32) (harg9 : arg9.IsWhole) (arg10 : Memref sig .tc .vmem S256x64 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x64 .f32) (harg13 : arg13.IsWhole) (hc0 : cond1_0 i) (hc1 : cond1_1 i) (hc2 : ¬cond1_2 i)
    (x0 : Vec F S1x256x128 .bf16) (x1 : Vec F S1x256x128 .bf16) (x2 : Vec F S1x256x128 .bf16) :
    Σ' (LS0 : List (View.Piece (Elt F) S256x1 .f32)) (LS1 : List (View.Piece (Elt F) S256x1 .f32)) (LS2 : List (View.Piece (Elt F) S256x64 .f32)) (LS3 : List (View.Piece (Elt F) S256x1 .f32)) (LS4 : List (View.Piece (Elt F) S256x1 .f32)), { LS5 : List (View.Piece (Elt F) S256x64 .f32) //
      ∀ (xi3 : Vec F S1x256x128 .bf16) (E : Set ℕ) (K : PUnit → sProp 𝕄),
        iprop(owns (c : Thread nD τ) arg4 fullShare x0
            ∗ owns (c : Thread nD τ) arg5 fullShare x1
            ∗ owns (c : Thread nD τ) arg6 fullShare x2
            ∗ owns (c : Thread nD τ) arg7 fullShare xi3
            ∗ (∃ d, owns (c : Thread nD τ) arg8 fullShare d)
            ∗ (∃ d, owns (c : Thread nD τ) arg9 fullShare d)
            ∗ (∃ d, owns (c : Thread nD τ) arg10 fullShare d)
            ∗ (∃ d, owns (c : Thread nD τ) arg11 fullShare d)
            ∗ (∃ d, owns (c : Thread nD τ) arg12 fullShare d)
            ∗ (∃ d, owns (c : Thread nD τ) arg13 fullShare d)
            ∗ (iprop(owns (c : Thread nD τ) arg4 fullShare x0
                ∗ owns (c : Thread nD τ) arg5 fullShare x1
                ∗ owns (c : Thread nD τ) arg6 fullShare x2
                ∗ owns (c : Thread nD τ) arg7 fullShare xi3
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ (∃ f, arg11.view.loc (c : Thread nD τ) ↦[arg11.view.set]{fullShare} arg11.view.writes (Elt F) f LS3)
                ∗ (∃ f, arg12.view.loc (c : Thread nD τ) ↦[arg12.view.set]{fullShare} arg12.view.writes (Elt F) f LS4)
                ∗ (∃ f, arg13.view.loc (c : Thread nD τ) ↦[arg13.view.set]{fullShare} arg13.view.writes (Elt F) f LS5)) -∗ K ⟨⟩))
          ⊢ wp frame (wpE (defs₀ (F := F)) Variants.none c none) E (cc1__attn_kernel i arg4 harg4 arg5 harg5 arg6 harg6 arg7 harg7 arg8 harg8 arg9 harg9 arg10 harg10 arg11 harg11 arg12 harg12 arg13 harg13) K } := by
  refine ⟨?_, ?_, ?_, ?_, ?_, ?_, fun xi3 E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg4.eq_unread hf0; obtain rfl := harg5.eq_unread hf1; obtain rfl := harg6.eq_unread hf2; obtain rfl := harg7.eq_unread hf3
    sl_exec (disch := first | exact hc0 | exact hc1 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    iexists _; iexact HS5

end Cert.KernelIdeal.Hand

end
-- ==== Proof.KIRegion1RunB.lean ====
/-
  Region 1, case B: a tile on or below the diagonal that is neither the first nor the last of its row block
  (0 < kt ≤ qi, kt < 7). The tile is folded into the running statistics of both heads; nothing else happens.
-/
import proofs.«151496_j75222057222809_2_alg».proof.Proof.KIRegion1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

set_option maxHeartbeats 4000000 in
/-- CASE B (0 < kt ≤ qi, kt < 7: one more tile is folded into the statistics; the output block is idle). The statistics' buffers at what the point before left; each ends with the pieces its stores wrote, which the run itself finds. -/
noncomputable def kernelRun1_B (c : Dev nD) (i : grid1.Coords) (arg4 : Memref sig .tc .vmem S1x256x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S256x1 .f32) (harg8 : arg8.IsWhole) (arg9 : Memref sig .tc .vmem S256x1 .f32) (harg9 : arg9.IsWhole) (arg10 : Memref sig .tc .vmem S256x64 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x64 .f32) (harg13 : arg13.IsWhole) (hc0 : ¬cond1_0 i) (hc1 : cond1_1 i) (hc2 : ¬cond1_2 i)
    (x0 : Vec F S1x256x128 .bf16) (x1 : Vec F S1x256x128 .bf16) (x2 : Vec F S1x256x128 .bf16) (xs0 : Vec F S256x1 .f32) (xs1 : Vec F S256x1 .f32) (xs2 : Vec F S256x64 .f32) (xs3 : Vec F S256x1 .f32) (xs4 : Vec F S256x1 .f32) (xs5 : Vec F S256x64 .f32) :
    Σ' (LS0 : List (View.Piece (Elt F) S256x1 .f32)) (LS1 : List (View.Piece (Elt F) S256x1 .f32)) (LS2 : List (View.Piece (Elt F) S256x64 .f32)) (LS3 : List (View.Piece (Elt F) S256x1 .f32)) (LS4 : List (View.Piece (Elt F) S256x1 .f32)), { LS5 : List (View.Piece (Elt F) S256x64 .f32) //
      ∀ (xi3 : Vec F S1x256x128 .bf16) (E : Set ℕ) (K : PUnit → sProp 𝕄),
        iprop(owns (c : Thread nD τ) arg4 fullShare x0
            ∗ owns (c : Thread nD τ) arg5 fullShare x1
            ∗ owns (c : Thread nD τ) arg6 fullShare x2
            ∗ owns (c : Thread nD τ) arg7 fullShare xi3
            ∗ owns (c : Thread nD τ) arg8 fullShare xs0
            ∗ owns (c : Thread nD τ) arg9 fullShare xs1
            ∗ owns (c : Thread nD τ) arg10 fullShare xs2
            ∗ owns (c : Thread nD τ) arg11 fullShare xs3
            ∗ owns (c : Thread nD τ) arg12 fullShare xs4
            ∗ owns (c : Thread nD τ) arg13 fullShare xs5
            ∗ (iprop(owns (c : Thread nD τ) arg4 fullShare x0
                ∗ owns (c : Thread nD τ) arg5 fullShare x1
                ∗ owns (c : Thread nD τ) arg6 fullShare x2
                ∗ owns (c : Thread nD τ) arg7 fullShare xi3
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ (∃ f, arg11.view.loc (c : Thread nD τ) ↦[arg11.view.set]{fullShare} arg11.view.writes (Elt F) f LS3)
                ∗ (∃ f, arg12.view.loc (c : Thread nD τ) ↦[arg12.view.set]{fullShare} arg12.view.writes (Elt F) f LS4)
                ∗ (∃ f, arg13.view.loc (c : Thread nD τ) ↦[arg13.view.set]{fullShare} arg13.view.writes (Elt F) f LS5)) -∗ K ⟨⟩))
          ⊢ wp frame (wpE (defs₀ (F := F)) Variants.none c none) E (cc1__attn_kernel i arg4 harg4 arg5 harg5 arg6 harg6 arg7 harg7 arg8 harg8 arg9 harg9 arg10 harg10 arg11 harg11 arg12 harg12 arg13 harg13) K } := by
  refine ⟨?_, ?_, ?_, ?_, ?_, ?_, fun xi3 E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg4.eq_unread hf0; obtain rfl := harg5.eq_unread hf1; obtain rfl := harg6.eq_unread hf2; obtain rfl := harg7.eq_unread hf3; obtain rfl := harg8.eq_unread hfs0; obtain rfl := harg9.eq_unread hfs1; obtain rfl := harg10.eq_unread hfs2; obtain rfl := harg11.eq_unread hfs3; obtain rfl := harg12.eq_unread hfs4; obtain rfl := harg13.eq_unread hfs5
    sl_exec (disch := first | exact hc0 | exact hc1 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    iexists _; iexact HS5

end Cert.KernelIdeal.Hand

end
-- ==== Proof.KIRegion1RunD.lean ====
/-
  Region 1, case D: the diagonal tile of the last row block (kt = qi = 7). The tile is folded into the running
  statistics, and then each head's numerator is divided by its sum and written to its half of the output block.
-/
import proofs.«151496_j75222057222809_2_alg».proof.Proof.KIRegion1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

set_option maxHeartbeats 4000000 in
/-- CASE D (kt = qi = 7: the diagonal tile of the last row block is folded in and the output block is written). The statistics' buffers at what the point before left; each, and the output's buffer, ends with the pieces its stores wrote, which the run itself finds. -/
noncomputable def kernelRun1_D (c : Dev nD) (i : grid1.Coords) (arg4 : Memref sig .tc .vmem S1x256x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S256x1 .f32) (harg8 : arg8.IsWhole) (arg9 : Memref sig .tc .vmem S256x1 .f32) (harg9 : arg9.IsWhole) (arg10 : Memref sig .tc .vmem S256x64 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x64 .f32) (harg13 : arg13.IsWhole) (hc0 : ¬cond1_0 i) (hc1 : cond1_1 i) (hc2 : cond1_2 i)
    (x0 : Vec F S1x256x128 .bf16) (x1 : Vec F S1x256x128 .bf16) (x2 : Vec F S1x256x128 .bf16) (xs0 : Vec F S256x1 .f32) (xs1 : Vec F S256x1 .f32) (xs2 : Vec F S256x64 .f32) (xs3 : Vec F S256x1 .f32) (xs4 : Vec F S256x1 .f32) (xs5 : Vec F S256x64 .f32) :
    Σ' (L3 : List (View.Piece (Elt F) S1x256x128 .bf16)) (LS0 : List (View.Piece (Elt F) S256x1 .f32)) (LS1 : List (View.Piece (Elt F) S256x1 .f32)) (LS2 : List (View.Piece (Elt F) S256x64 .f32)) (LS3 : List (View.Piece (Elt F) S256x1 .f32)) (LS4 : List (View.Piece (Elt F) S256x1 .f32)), { LS5 : List (View.Piece (Elt F) S256x64 .f32) //
      ∀ (E : Set ℕ) (K : PUnit → sProp 𝕄),
        iprop(owns (c : Thread nD τ) arg4 fullShare x0
            ∗ owns (c : Thread nD τ) arg5 fullShare x1
            ∗ owns (c : Thread nD τ) arg6 fullShare x2
            ∗ (∃ d, owns (c : Thread nD τ) arg7 fullShare d)
            ∗ owns (c : Thread nD τ) arg8 fullShare xs0
            ∗ owns (c : Thread nD τ) arg9 fullShare xs1
            ∗ owns (c : Thread nD τ) arg10 fullShare xs2
            ∗ owns (c : Thread nD τ) arg11 fullShare xs3
            ∗ owns (c : Thread nD τ) arg12 fullShare xs4
            ∗ owns (c : Thread nD τ) arg13 fullShare xs5
            ∗ (iprop(owns (c : Thread nD τ) arg4 fullShare x0
                ∗ owns (c : Thread nD τ) arg5 fullShare x1
                ∗ owns (c : Thread nD τ) arg6 fullShare x2
                ∗ (∃ f, arg7.view.loc (c : Thread nD τ) ↦[arg7.view.set]{fullShare} arg7.view.writes (Elt F) f L3)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ (∃ f, arg11.view.loc (c : Thread nD τ) ↦[arg11.view.set]{fullShare} arg11.view.writes (Elt F) f LS3)
                ∗ (∃ f, arg12.view.loc (c : Thread nD τ) ↦[arg12.view.set]{fullShare} arg12.view.writes (Elt F) f LS4)
                ∗ (∃ f, arg13.view.loc (c : Thread nD τ) ↦[arg13.view.set]{fullShare} arg13.view.writes (Elt F) f LS5)) -∗ K ⟨⟩))
          ⊢ wp frame (wpE (defs₀ (F := F)) Variants.none c none) E (cc1__attn_kernel i arg4 harg4 arg5 harg5 arg6 harg6 arg7 harg7 arg8 harg8 arg9 harg9 arg10 harg10 arg11 harg11 arg12 harg12 arg13 harg13) K } := by
  refine ⟨?_, ?_, ?_, ?_, ?_, ?_, ?_, fun E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg4.eq_unread hf0; obtain rfl := harg5.eq_unread hf1; obtain rfl := harg6.eq_unread hf2; obtain rfl := harg8.eq_unread hfs0; obtain rfl := harg9.eq_unread hfs1; obtain rfl := harg10.eq_unread hfs2; obtain rfl := harg11.eq_unread hfs3; obtain rfl := harg12.eq_unread hfs4; obtain rfl := harg13.eq_unread hfs5
    sl_exec (disch := first | exact hc0 | exact hc1 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; iexact H3
    isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    iexists _; iexact HS5

end Cert.KernelIdeal.Hand

end
-- ==== Proof.KIRegion1Data.lean ====
/-
  Region 1 (the attention kernel) — what the buffers hold point by point, and the proof data.

  After the body at grid point t the six scratch buffers hold the running statistics of the row block so far and,
  where kt = 7, the output's staging buffer holds the finished block. Both are defined by recursion on the point:
  the case the point is in (decided by kt = t % 8 and qi = (t / 8) % 8), run on the point's input blocks and on what
  the point before left in the scratch buffers. Above the diagonal (kt > qi) the statistics pass through unchanged.
  What a case leaves in a buffer is read back from the stores the run made into it; the stores into a scratch buffer
  always include a store of the whole buffer, and the two half-width stores into the output block tile it, so the
  contents do not depend on what the buffer held before.
  The region's invariant before a point that is not the first owns the six scratch buffers at the statistics the point
  before left; the proof data's arrays are the region-entry contents, nothing is owed, all shares are full.
-/
import proofs.«151496_j75222057222809_2_alg».proof.Proof.KIRegion1RunD

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- A buffer's contents after a list of stores into it (last first), read through the view `v`, over junk. -/
def readBack {sh : Shape} {e : EltTy} (v : View sig .tc .vmem sh e) (L : List (View.Piece (Elt F) sh e)) : Vec F sh e :=
  v.read (Elt F) (v.writes (Elt F) v.junk L)

/-- What an idle output buffer is said to hold: nothing consults it. -/
def junkOut : Vec F S1x256x128 .bf16 := VO1_3.read (Elt F) VO1_3.junk

/-! ## Each case at a point -/

section AtPoint
variable (c : Dev nD) (t : Fin cfg1.N)

abbrev runA (hc0 : cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) := kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 hc2 x0 x1 x2
abbrev runB (hc0 : ¬cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) (s : Scr F) := kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 hc2 x0 x1 x2 s.1 s.2.1 s.2.2.1 s.2.2.2.1 s.2.2.2.2.1 s.2.2.2.2.2
abbrev runD (hc0 : ¬cond1_0 (grid1.coords t)) (hc1 : cond1_1 (grid1.coords t)) (hc2 : cond1_2 (grid1.coords t)) (x0 : Vec F S1x256x128 .bf16) (x1 : Vec F S1x256x128 .bf16) (x2 : Vec F S1x256x128 .bf16) (s : Scr F) := kernelRun1_D (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 hc2 x0 x1 x2 s.1 s.2.1 s.2.2.1 s.2.2.2.1 s.2.2.2.2.1 s.2.2.2.2.2
abbrev runE (hc0 : ¬cond1_0 (grid1.coords t)) (hc1 : ¬cond1_1 (grid1.coords t)) (hc2 : cond1_2 (grid1.coords t)) (x0 : Vec F S1x256x128 .bf16) (x1 : Vec F S1x256x128 .bf16) (x2 : Vec F S1x256x128 .bf16) (s : Scr F) := kernelRun1_E (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 hc2 x0 x1 x2 s.1 s.2.1 s.2.2.1 s.2.2.2.1 s.2.2.2.2.1 s.2.2.2.2.2

/-- The statistics case A leaves. -/
def scA (hc0 : cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) : Scr F :=
  (readBack VS1_0 (runA c t hc0 hc1 hc2 x0 x1 x2).1,
   readBack VS1_1 (runA c t hc0 hc1 hc2 x0 x1 x2).2.1,
   readBack VS1_2 (runA c t hc0 hc1 hc2 x0 x1 x2).2.2.1,
   readBack VS1_3 (runA c t hc0 hc1 hc2 x0 x1 x2).2.2.2.1,
   readBack VS1_4 (runA c t hc0 hc1 hc2 x0 x1 x2).2.2.2.2.1,
   readBack VS1_5 (runA c t hc0 hc1 hc2 x0 x1 x2).2.2.2.2.2.1)
/-- The statistics case B leaves. -/
def scB (hc0 : ¬cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) (s : Scr F) : Scr F :=
  (readBack VS1_0 (runB c t hc0 hc1 hc2 x0 x1 x2 s).1,
   readBack VS1_1 (runB c t hc0 hc1 hc2 x0 x1 x2 s).2.1,
   readBack VS1_2 (runB c t hc0 hc1 hc2 x0 x1 x2 s).2.2.1,
   readBack VS1_3 (runB c t hc0 hc1 hc2 x0 x1 x2 s).2.2.2.1,
   readBack VS1_4 (runB c t hc0 hc1 hc2 x0 x1 x2 s).2.2.2.2.1,
   readBack VS1_5 (runB c t hc0 hc1 hc2 x0 x1 x2 s).2.2.2.2.2.1)
/-- The statistics case D leaves, -/
def scD (hc0 : ¬cond1_0 (grid1.coords t)) (hc1 : cond1_1 (grid1.coords t)) (hc2 : cond1_2 (grid1.coords t)) (x0 : Vec F S1x256x128 .bf16) (x1 : Vec F S1x256x128 .bf16) (x2 : Vec F S1x256x128 .bf16) (s : Scr F) : Scr F :=
  (readBack VS1_0 (runD c t hc0 hc1 hc2 x0 x1 x2 s).2.1,
   readBack VS1_1 (runD c t hc0 hc1 hc2 x0 x1 x2 s).2.2.1,
   readBack VS1_2 (runD c t hc0 hc1 hc2 x0 x1 x2 s).2.2.2.1,
   readBack VS1_3 (runD c t hc0 hc1 hc2 x0 x1 x2 s).2.2.2.2.1,
   readBack VS1_4 (runD c t hc0 hc1 hc2 x0 x1 x2 s).2.2.2.2.2.1,
   readBack VS1_5 (runD c t hc0 hc1 hc2 x0 x1 x2 s).2.2.2.2.2.2.1)
/-- and the output block it writes. -/
def outD (hc0 : ¬cond1_0 (grid1.coords t)) (hc1 : cond1_1 (grid1.coords t)) (hc2 : cond1_2 (grid1.coords t)) (x0 : Vec F S1x256x128 .bf16) (x1 : Vec F S1x256x128 .bf16) (x2 : Vec F S1x256x128 .bf16) (s : Scr F) : Vec F S1x256x128 .bf16 :=
  readBack VO1_3 (runD c t hc0 hc1 hc2 x0 x1 x2 s).1
/-- The output block case E writes. -/
def outE (hc0 : ¬cond1_0 (grid1.coords t)) (hc1 : ¬cond1_1 (grid1.coords t)) (hc2 : cond1_2 (grid1.coords t)) (x0 : Vec F S1x256x128 .bf16) (x1 : Vec F S1x256x128 .bf16) (x2 : Vec F S1x256x128 .bf16) (s : Scr F) : Vec F S1x256x128 .bf16 :=
  readBack VO1_3 (runE c t hc0 hc1 hc2 x0 x1 x2 s).1

/-! ## The stores cover the buffers -/

theorem scoverA_0 (hc0 : cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) (y : S256x1.Idx) :
    ∃ pc ∈ (runA c t hc0 hc1 hc2 x0 x1 x2).1, y ∈ pc.1.set :=
  View.cover_of_wholeMem _ (by sl_whole_mem) y
theorem scoverB_0 (hc0 : ¬cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) (s : Scr F) (y : S256x1.Idx) :
    ∃ pc ∈ (runB c t hc0 hc1 hc2 x0 x1 x2 s).1, y ∈ pc.1.set :=
  View.cover_of_wholeMem _ (by sl_whole_mem) y
theorem scoverD_0 (hc0 : ¬cond1_0 (grid1.coords t)) (hc1 : cond1_1 (grid1.coords t)) (hc2 : cond1_2 (grid1.coords t)) (x0 : Vec F S1x256x128 .bf16) (x1 : Vec F S1x256x128 .bf16) (x2 : Vec F S1x256x128 .bf16) (s : Scr F) (y : S256x1.Idx) :
    ∃ pc ∈ (runD c t hc0 hc1 hc2 x0 x1 x2 s).2.1, y ∈ pc.1.set :=
  View.cover_of_wholeMem _ (by sl_whole_mem) y
theorem scoverA_1 (hc0 : cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) (y : S256x1.Idx) :
    ∃ pc ∈ (runA c t hc0 hc1 hc2 x0 x1 x2).2.1, y ∈ pc.1.set :=
  View.cover_of_wholeMem _ (by sl_whole_mem) y
theorem scoverB_1 (hc0 : ¬cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) (s : Scr F) (y : S256x1.Idx) :
    ∃ pc ∈ (runB c t hc0 hc1 hc2 x0 x1 x2 s).2.1, y ∈ pc.1.set :=
  View.cover_of_wholeMem _ (by sl_whole_mem) y
theorem scoverD_1 (hc0 : ¬cond1_0 (grid1.coords t)) (hc1 : cond1_1 (grid1.coords t)) (hc2 : cond1_2 (grid1.coords t)) (x0 : Vec F S1x256x128 .bf16) (x1 : Vec F S1x256x128 .bf16) (x2 : Vec F S1x256x128 .bf16) (s : Scr F) (y : S256x1.Idx) :
    ∃ pc ∈ (runD c t hc0 hc1 hc2 x0 x1 x2 s).2.2.1, y ∈ pc.1.set :=
  View.cover_of_wholeMem _ (by sl_whole_mem) y
theorem scoverA_2 (hc0 : cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) (y : S256x64.Idx) :
    ∃ pc ∈ (runA c t hc0 hc1 hc2 x0 x1 x2).2.2.1, y ∈ pc.1.set :=
  View.cover_of_wholeMem _ (by sl_whole_mem) y
theorem scoverB_2 (hc0 : ¬cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) (s : Scr F) (y : S256x64.Idx) :
    ∃ pc ∈ (runB c t hc0 hc1 hc2 x0 x1 x2 s).2.2.1, y ∈ pc.1.set :=
  View.cover_of_wholeMem _ (by sl_whole_mem) y
theorem scoverD_2 (hc0 : ¬cond1_0 (grid1.coords t)) (hc1 : cond1_1 (grid1.coords t)) (hc2 : cond1_2 (grid1.coords t)) (x0 : Vec F S1x256x128 .bf16) (x1 : Vec F S1x256x128 .bf16) (x2 : Vec F S1x256x128 .bf16) (s : Scr F) (y : S256x64.Idx) :
    ∃ pc ∈ (runD c t hc0 hc1 hc2 x0 x1 x2 s).2.2.2.1, y ∈ pc.1.set :=
  View.cover_of_wholeMem _ (by sl_whole_mem) y
theorem scoverA_3 (hc0 : cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) (y : S256x1.Idx) :
    ∃ pc ∈ (runA c t hc0 hc1 hc2 x0 x1 x2).2.2.2.1, y ∈ pc.1.set :=
  View.cover_of_wholeMem _ (by sl_whole_mem) y
theorem scoverB_3 (hc0 : ¬cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) (s : Scr F) (y : S256x1.Idx) :
    ∃ pc ∈ (runB c t hc0 hc1 hc2 x0 x1 x2 s).2.2.2.1, y ∈ pc.1.set :=
  View.cover_of_wholeMem _ (by sl_whole_mem) y
theorem scoverD_3 (hc0 : ¬cond1_0 (grid1.coords t)) (hc1 : cond1_1 (grid1.coords t)) (hc2 : cond1_2 (grid1.coords t)) (x0 : Vec F S1x256x128 .bf16) (x1 : Vec F S1x256x128 .bf16) (x2 : Vec F S1x256x128 .bf16) (s : Scr F) (y : S256x1.Idx) :
    ∃ pc ∈ (runD c t hc0 hc1 hc2 x0 x1 x2 s).2.2.2.2.1, y ∈ pc.1.set :=
  View.cover_of_wholeMem _ (by sl_whole_mem) y
theorem scoverA_4 (hc0 : cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) (y : S256x1.Idx) :
    ∃ pc ∈ (runA c t hc0 hc1 hc2 x0 x1 x2).2.2.2.2.1, y ∈ pc.1.set :=
  View.cover_of_wholeMem _ (by sl_whole_mem) y
theorem scoverB_4 (hc0 : ¬cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) (s : Scr F) (y : S256x1.Idx) :
    ∃ pc ∈ (runB c t hc0 hc1 hc2 x0 x1 x2 s).2.2.2.2.1, y ∈ pc.1.set :=
  View.cover_of_wholeMem _ (by sl_whole_mem) y
theorem scoverD_4 (hc0 : ¬cond1_0 (grid1.coords t)) (hc1 : cond1_1 (grid1.coords t)) (hc2 : cond1_2 (grid1.coords t)) (x0 : Vec F S1x256x128 .bf16) (x1 : Vec F S1x256x128 .bf16) (x2 : Vec F S1x256x128 .bf16) (s : Scr F) (y : S256x1.Idx) :
    ∃ pc ∈ (runD c t hc0 hc1 hc2 x0 x1 x2 s).2.2.2.2.2.1, y ∈ pc.1.set :=
  View.cover_of_wholeMem _ (by sl_whole_mem) y
theorem scoverA_5 (hc0 : cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) (y : S256x64.Idx) :
    ∃ pc ∈ (runA c t hc0 hc1 hc2 x0 x1 x2).2.2.2.2.2.1, y ∈ pc.1.set :=
  View.cover_of_wholeMem _ (by sl_whole_mem) y
theorem scoverB_5 (hc0 : ¬cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) (s : Scr F) (y : S256x64.Idx) :
    ∃ pc ∈ (runB c t hc0 hc1 hc2 x0 x1 x2 s).2.2.2.2.2.1, y ∈ pc.1.set :=
  View.cover_of_wholeMem _ (by sl_whole_mem) y
theorem scoverD_5 (hc0 : ¬cond1_0 (grid1.coords t)) (hc1 : cond1_1 (grid1.coords t)) (hc2 : cond1_2 (grid1.coords t)) (x0 : Vec F S1x256x128 .bf16) (x1 : Vec F S1x256x128 .bf16) (x2 : Vec F S1x256x128 .bf16) (s : Scr F) (y : S256x64.Idx) :
    ∃ pc ∈ (runD c t hc0 hc1 hc2 x0 x1 x2 s).2.2.2.2.2.2.1, y ∈ pc.1.set :=
  View.cover_of_wholeMem _ (by sl_whole_mem) y
theorem coverD_3 (hc0 : ¬cond1_0 (grid1.coords t)) (hc1 : cond1_1 (grid1.coords t)) (hc2 : cond1_2 (grid1.coords t)) (x0 : Vec F S1x256x128 .bf16) (x1 : Vec F S1x256x128 .bf16) (x2 : Vec F S1x256x128 .bf16) (s : Scr F) (y : S1x256x128.Idx) :
    ∃ pc ∈ (runD c t hc0 hc1 hc2 x0 x1 x2 s).1, y ∈ pc.1.set :=
  View.cover_of_tiledL (runD c t hc0 hc1 hc2 x0 x1 x2 s).1 (fun a => S1x256x64.size a) (by sl_kernel_rfl) y
theorem coverE_3 (hc0 : ¬cond1_0 (grid1.coords t)) (hc1 : ¬cond1_1 (grid1.coords t)) (hc2 : cond1_2 (grid1.coords t)) (x0 : Vec F S1x256x128 .bf16) (x1 : Vec F S1x256x128 .bf16) (x2 : Vec F S1x256x128 .bf16) (s : Scr F) (y : S1x256x128.Idx) :
    ∃ pc ∈ (runE c t hc0 hc1 hc2 x0 x1 x2 s).1, y ∈ pc.1.set :=
  View.cover_of_tiledL (runE c t hc0 hc1 hc2 x0 x1 x2 s).1 (fun a => S1x256x64.size a) (by sl_kernel_rfl) y

end AtPoint

end Cert.KernelIdeal.Hand

end
-- ==== Proof.KIRegion1Dat.lean ====
/-
  Region 1 (the attention kernel) — the accumulation over the grid and the proof data.

  `outsAt1 n` is what the output's staging buffer and the six scratch buffers hold after the body at position n of
  the row-major walk over (b, hp, qi, kt): with kt = n % 8 and qi = (n / 8) % 8, the first tile of a row block
  (kt = 0) restarts the statistics from the tile alone; a later tile on or below the diagonal (kt ≤ qi) updates what
  the point before left; a tile above the diagonal leaves the statistics alone; and at kt = 7 the output block is
  the quotient of the numerators by the sums, computed from the statistics as they then stand.
-/
import proofs.«151496_j75222057222809_2_alg».proof.Proof.KIRegion1Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The conditions at a point, from arithmetic on its position -/

theorem c0_of (t : Fin cfg1.N) (h : t.val % 8 = 0) : cond1_0 (grid1.coords t) := (hcond1_0 t).mpr h
theorem nc0_of (t : Fin cfg1.N) (h : ¬t.val % 8 = 0) : ¬cond1_0 (grid1.coords t) := fun hc => h ((hcond1_0 t).mp hc)
theorem c1_of (t : Fin cfg1.N) (h : t.val % 8 ≤ t.val / 8 % 8) : cond1_1 (grid1.coords t) := (hcond1_1 t).mpr h
theorem nc1_of (t : Fin cfg1.N) (h : ¬t.val % 8 ≤ t.val / 8 % 8) : ¬cond1_1 (grid1.coords t) := fun hc => h ((hcond1_1 t).mp hc)
theorem c2_of (t : Fin cfg1.N) (h : t.val % 8 = 7) : cond1_2 (grid1.coords t) := (hcond1_2 t).mpr h
theorem nc2_of (t : Fin cfg1.N) (h : ¬t.val % 8 = 7) : ¬cond1_2 (grid1.coords t) := fun hc => h ((hcond1_2 t).mp hc)

/-! ## What the buffers hold after each point -/

/-- THE ACCUMULATION: the output's staging buffer and the six statistics after the body at position `n`. -/
def outsAt1 (c : Dev nD) : (n : ℕ) → n < cfg1.N → Vec F S1x256x128 .bf16 × Scr F
  | 0, hn => (junkOut, scA c ⟨0, hn⟩ (c0_of _ (show 0 % 8 = 0 by decide)) (c1_of _ (show 0 % 8 ≤ 0 / 8 % 8 by decide)) (nc2_of _ (show ¬0 % 8 = 7 by decide)) (iblk1 V c 0 ⟨0, hn⟩) (iblk1 V c 1 ⟨0, hn⟩) (iblk1 V c 2 ⟨0, hn⟩))
  | n + 1, hn =>
    if h0 : (n + 1) % 8 = 0 then
      (junkOut, scA c ⟨n + 1, hn⟩ (c0_of _ h0) (c1_of _ (show (n + 1) % 8 ≤ (n + 1) / 8 % 8 by omega)) (nc2_of _ (show ¬(n + 1) % 8 = 7 by omega)) (iblk1 V c 0 ⟨n + 1, hn⟩) (iblk1 V c 1 ⟨n + 1, hn⟩) (iblk1 V c 2 ⟨n + 1, hn⟩))
    else if h1 : (n + 1) % 8 ≤ (n + 1) / 8 % 8 then
      if h2 : (n + 1) % 8 = 7 then
        (outD c ⟨n + 1, hn⟩ (nc0_of _ h0) (c1_of _ h1) (c2_of _ h2) (iblk1 V c 0 ⟨n + 1, hn⟩) (iblk1 V c 1 ⟨n + 1, hn⟩) (iblk1 V c 2 ⟨n + 1, hn⟩) (outsAt1 c n (Nat.lt_of_succ_lt hn)).2,
         scD c ⟨n + 1, hn⟩ (nc0_of _ h0) (c1_of _ h1) (c2_of _ h2) (iblk1 V c 0 ⟨n + 1, hn⟩) (iblk1 V c 1 ⟨n + 1, hn⟩) (iblk1 V c 2 ⟨n + 1, hn⟩) (outsAt1 c n (Nat.lt_of_succ_lt hn)).2)
      else
        (junkOut, scB c ⟨n + 1, hn⟩ (nc0_of _ h0) (c1_of _ h1) (nc2_of _ h2) (iblk1 V c 0 ⟨n + 1, hn⟩) (iblk1 V c 1 ⟨n + 1, hn⟩) (iblk1 V c 2 ⟨n + 1, hn⟩) (outsAt1 c n (Nat.lt_of_succ_lt hn)).2)
    else
      if h2 : (n + 1) % 8 = 7 then
        (outE c ⟨n + 1, hn⟩ (nc0_of _ h0) (nc1_of _ h1) (c2_of _ h2) (iblk1 V c 0 ⟨n + 1, hn⟩) (iblk1 V c 1 ⟨n + 1, hn⟩) (iblk1 V c 2 ⟨n + 1, hn⟩) (outsAt1 c n (Nat.lt_of_succ_lt hn)).2,
         (outsAt1 c n (Nat.lt_of_succ_lt hn)).2)
      else
        (junkOut, (outsAt1 c n (Nat.lt_of_succ_lt hn)).2)

/-- The point before `t`, for a point that is not the first. -/
abbrev prevLt (t : Fin cfg1.N) : t.val - 1 < cfg1.N := Nat.lt_of_le_of_lt (Nat.sub_le _ _) t.isLt

/-- At the first tile of a row block. -/
theorem outsAt1_A (c : Dev nD) (t : Fin cfg1.N) (h0 : t.val % 8 = 0) :
    outsAt1 V c t.val t.isLt = (junkOut, scA c t (c0_of t h0) (c1_of t (by omega)) (nc2_of t (by omega)) (iblk1 V c 0 t) (iblk1 V c 1 t) (iblk1 V c 2 t)) := by
  obtain ⟨n, hn⟩ := t
  cases n with
  | zero => rfl
  | succ n => exact (dif_pos h0).trans rfl

/-- At a later tile on or below the diagonal, not the last. -/
theorem outsAt1_B (c : Dev nD) (t : Fin cfg1.N) (h0 : ¬t.val % 8 = 0) (h1 : t.val % 8 ≤ t.val / 8 % 8) (h2 : ¬t.val % 8 = 7) :
    outsAt1 V c t.val t.isLt = (junkOut, scB c t (nc0_of t h0) (c1_of t h1) (nc2_of t h2) (iblk1 V c 0 t) (iblk1 V c 1 t) (iblk1 V c 2 t) (outsAt1 V c (t.val - 1) (prevLt t)).2) := by
  obtain ⟨n, hn⟩ := t
  cases n with
  | zero => exact absurd (Nat.zero_mod _) h0
  | succ n => exact (dif_neg h0).trans ((dif_pos h1).trans ((dif_neg h2).trans rfl))

/-- At a tile above the diagonal, not the last. -/
theorem outsAt1_C (c : Dev nD) (t : Fin cfg1.N) (h0 : ¬t.val % 8 = 0) (h1 : ¬t.val % 8 ≤ t.val / 8 % 8) (h2 : ¬t.val % 8 = 7) :
    outsAt1 V c t.val t.isLt = (junkOut, (outsAt1 V c (t.val - 1) (prevLt t)).2) := by
  obtain ⟨n, hn⟩ := t
  cases n with
  | zero => exact absurd (Nat.zero_mod _) h0
  | succ n => exact (dif_neg h0).trans ((dif_neg h1).trans ((dif_neg h2).trans rfl))

/-- At the diagonal tile of the last row block. -/
theorem outsAt1_D (c : Dev nD) (t : Fin cfg1.N) (h0 : ¬t.val % 8 = 0) (h1 : t.val % 8 ≤ t.val / 8 % 8) (h2 : t.val % 8 = 7) :
    outsAt1 V c t.val t.isLt = (outD c t (nc0_of t h0) (c1_of t h1) (c2_of t h2) (iblk1 V c 0 t) (iblk1 V c 1 t) (iblk1 V c 2 t) (outsAt1 V c (t.val - 1) (prevLt t)).2,
      scD c t (nc0_of t h0) (c1_of t h1) (c2_of t h2) (iblk1 V c 0 t) (iblk1 V c 1 t) (iblk1 V c 2 t) (outsAt1 V c (t.val - 1) (prevLt t)).2) := by
  obtain ⟨n, hn⟩ := t
  cases n with
  | zero => exact absurd (Nat.zero_mod _) h0
  | succ n => exact (dif_neg h0).trans ((dif_pos h1).trans ((dif_pos h2).trans rfl))

/-- At the last tile of an earlier row block (above the diagonal). -/
theorem outsAt1_E (c : Dev nD) (t : Fin cfg1.N) (h0 : ¬t.val % 8 = 0) (h1 : ¬t.val % 8 ≤ t.val / 8 % 8) (h2 : t.val % 8 = 7) :
    outsAt1 V c t.val t.isLt = (outE c t (nc0_of t h0) (nc1_of t h1) (c2_of t h2) (iblk1 V c 0 t) (iblk1 V c 1 t) (iblk1 V c 2 t) (outsAt1 V c (t.val - 1) (prevLt t)).2,
      (outsAt1 V c (t.val - 1) (prevLt t)).2) := by
  obtain ⟨n, hn⟩ := t
  cases n with
  | zero => exact absurd (Nat.zero_mod _) h0
  | succ n => exact (dif_neg h0).trans ((dif_neg h1).trans ((dif_pos h2).trans rfl))

/-! ## The region's invariant -/

/-- Before position `n`: at the first point the class invariant (every scoped buffer that is no staging buffer of this
    kernel at anything); afterwards the six scratch buffers at the statistics the point before left, the other
    scoped buffers at anything, the generator register at some state. -/
def PhiS (c : Dev nD) : (n : ℕ) → n ≤ cfg1.N → sProp 𝕄
  | 0, _ => Pipeline.ΦA spec1 c
  | n + 1, hn => iprop(scrAt c (outsAt1 V c n hn).2 ∗ rest14 c ∗ ∃ r, prngReg c r)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(scrAt c (outsAt1 V c n hn).2 ∗ rest14 c ∗ ∃ r, prngReg c r) := rfl

theorem PhiS_pos (c : Dev nD) (n : ℕ) (h : n ≤ cfg1.N) (hz : n ≠ 0) :
    PhiS V c n h = iprop(scrAt c (outsAt1 V c (n - 1) (by omega)).2 ∗ rest14 c ∗ ∃ r, prngReg c r) := by
  cases n with
  | zero => exact absurd rfl hz
  | succ n => rfl

/-! ## The proof data -/

/-- The proof data of the attention pipeline on core `c`: the arrays as the region finds them; after the body at point
    `t` each input's buffer at its block and the output's at `outsAt1`'s first component; the invariant `PhiS`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- An input's buffer is handed back holding its block. -/
theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]

/-- Before any point the invariant owns the scratch buffers at something, the other scoped buffers and the register. -/
theorem Phi_any (c : Dev nD) (t : Fin cfg1.N) :
    (dat1 V c).Φ t.castSucc ⊢ iprop(scrAny c ∗ rest14 c ∗ ∃ r, prngReg c r) := by
  rw [PhiS_castSucc]
  by_cases hz : t.val = 0
  · rw [PhiS_zero V c _ _ hz]; exact PhiA1_open c
  · rw [PhiS_pos V c _ _ hz]
    iintro ⟨HS, Hr, Hg⟩
    isplitl [HS]; · iapply scrAt_any c; iexact HS
    isplitl [Hr]; · iexact Hr
    iexact Hg

/-! ## The body obligation's two sides at a point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

end Cert.KernelIdeal.Hand

end
-- ==== Proof.KIRegion1.lean ====
/-
  Region 1 (the attention kernel) — the body obligation.

  At every grid point the body, handed the invariant, the three input blocks in their staging buffers and the
  output's staging buffer, runs to the end and hands back the invariant at the next point and the four buffers:
  the inputs as they were; the output untouched where it is idle (kt ≠ 7) and holding the finished block where it
  is not; the scratch buffers at the statistics after this point. One lemma per control case; the cases are told
  apart by kt = t % 8 and qi = (t / 8) % 8, and every point is in exactly one.
-/
import proofs.«151496_j75222057222809_2_alg».proof.Proof.KIRegion1Dat

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Case C in the form the obligation uses: the body does nothing, so it runs from its own postcondition. -/
theorem kernelRun1_C' (c : Dev nD) (i : grid1.Coords) (arg4 : Memref sig .tc .vmem S1x256x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S256x1 .f32) (harg8 : arg8.IsWhole) (arg9 : Memref sig .tc .vmem S256x1 .f32) (harg9 : arg9.IsWhole) (arg10 : Memref sig .tc .vmem S256x64 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x64 .f32) (harg13 : arg13.IsWhole) (hc0 : ¬cond1_0 i) (hc1 : ¬cond1_1 i) (hc2 : ¬cond1_2 i)
    (E : Set ℕ) (K : PUnit → sProp 𝕄) :
    (K ⟨⟩ : sProp 𝕄) ⊢ wp frame (wpE (defs₀ (F := F)) Variants.none c none) E (cc1__attn_kernel i arg4 harg4 arg5 harg5 arg6 harg6 arg7 harg7 arg8 harg8 arg9 harg9 arg10 harg10 arg11 harg11 arg12 harg12 arg13 harg13) K :=
  (show (K ⟨⟩ : sProp 𝕄) ⊢ iprop(K ⟨⟩ ∗ (K ⟨⟩ -∗ K ⟨⟩)) from by
    iintro H; isplitl [H]; · iexact H
    iintro H; iexact H).trans
    (kernelRun1_C c i arg4 harg4 arg5 harg5 arg6 harg6 arg7 harg7 arg8 harg8 arg9 harg9 arg10 harg10 arg11 harg11 arg12 harg12 arg13 harg13 hc0 hc1 hc2 (K ⟨⟩) E K)

set_option maxHeartbeats 4000000 in
/-- The first tile of a row block (kt = 0). -/
theorem sound_body1_A (c : Dev nD) (t : Fin cfg1.N) (h0 : t.val % 8 = 0) : bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  rw [Dat.leavesExact_idle (dat1 V c) 3 t (idleAt1_3 t (by omega)) (noFlush1_3 t (by omega))]
  rw [outsAt1_A V c t h0]
  dsimp only
  iintro ⟨HΦ, Ho, ⟨%d0, H0⟩, ⟨%d1, H1⟩, ⟨%d2, H2⟩, ⟨%d3, H3⟩⟩
  ihave HΦ' := Phi_any V c t $$ HΦ
  unfold scrAny
  icases HΦ' with ⟨⟨HS0, HS1, HS2, HS3, HS4, HS5⟩, Hr, Hg⟩
  iapply ((runA c t (c0_of t h0) (c1_of t (by omega)) (nc2_of t (by omega)) (iblk1 V c 0 t) (iblk1 V c 1 t) (iblk1 V c 2 t)).2.2.2.2.2.2 _ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, ⟨%e0, HS0⟩, ⟨%e1, HS1⟩, ⟨%e2, HS2⟩, ⟨%e3, HS3⟩, ⟨%e4, HS4⟩, ⟨%e5, HS5⟩⟩
  isplitl [HS0 HS1 HS2 HS3 HS4 HS5 Hr Hg]
  · isplitl [HS0 HS1 HS2 HS3 HS4 HS5]
    · unfold scrAt scA readBack; dsimp only
      isplitl [HS0]
      · unfold owns; iexists _; isplitr
        swap; · iexact HS0
        ipureintro; exact View.read_writes_of_cover _ _ _ _ _ (scoverA_0 c t _ _ _ _ _ _)
      isplitl [HS1]
      · unfold owns; iexists _; isplitr
        swap; · iexact HS1
        ipureintro; exact View.read_writes_of_cover _ _ _ _ _ (scoverA_1 c t _ _ _ _ _ _)
      isplitl [HS2]
      · unfold owns; iexists _; isplitr
        swap; · iexact HS2
        ipureintro; exact View.read_writes_of_cover _ _ _ _ _ (scoverA_2 c t _ _ _ _ _ _)
      isplitl [HS3]
      · unfold owns; iexists _; isplitr
        swap; · iexact HS3
        ipureintro; exact View.read_writes_of_cover _ _ _ _ _ (scoverA_3 c t _ _ _ _ _ _)
      isplitl [HS4]
      · unfold owns; iexists _; isplitr
        swap; · iexact HS4
        ipureintro; exact View.read_writes_of_cover _ _ _ _ _ (scoverA_4 c t _ _ _ _ _ _)
      unfold owns; iexists _; isplitr
      swap; · iexact HS5
      ipureintro; exact View.read_writes_of_cover _ _ _ _ _ (scoverA_5 c t _ _ _ _ _ _)
    isplitl [Hr]; · iexact Hr
    iexact Hg
  isplitl [Ho]; · iexact Ho
  isplitl [H0]; · iexact H0
  isplitl [H1]; · iexact H1
  isplitl [H2]; · iexact H2
  iexists _; iexact H3

set_option maxHeartbeats 4000000 in
/-- A later tile on or below the diagonal, not the last (0 < kt ≤ qi, kt < 7). -/
theorem sound_body1_B (c : Dev nD) (t : Fin cfg1.N) (h0 : ¬t.val % 8 = 0) (h1 : t.val % 8 ≤ t.val / 8 % 8) (h2 : ¬t.val % 8 = 7) : bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  rw [Dat.leavesExact_idle (dat1 V c) 3 t (idleAt1_3 t (by omega)) (noFlush1_3 t (by omega))]
  rw [outsAt1_B V c t h0 h1 h2]
  dsimp only
  rw [PhiS_castSucc, PhiS_pos V c _ _ (by omega)]
  unfold scrAt
  iintro ⟨⟨⟨HS0, HS1, HS2, HS3, HS4, HS5⟩, Hr, Hg⟩, Ho, ⟨%d0, H0⟩, ⟨%d1, H1⟩, ⟨%d2, H2⟩, ⟨%d3, H3⟩⟩
  iapply ((runB c t (nc0_of t h0) (c1_of t h1) (nc2_of t h2) (iblk1 V c 0 t) (iblk1 V c 1 t) (iblk1 V c 2 t) (outsAt1 V c (t.val - 1) (prevLt t)).2).2.2.2.2.2.2 _ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, ⟨%e0, HS0⟩, ⟨%e1, HS1⟩, ⟨%e2, HS2⟩, ⟨%e3, HS3⟩, ⟨%e4, HS4⟩, ⟨%e5, HS5⟩⟩
  isplitl [HS0 HS1 HS2 HS3 HS4 HS5 Hr Hg]
  · isplitl [HS0 HS1 HS2 HS3 HS4 HS5]
    · unfold scB readBack; dsimp only
      isplitl [HS0]
      · unfold owns; iexists _; isplitr
        swap; · iexact HS0
        ipureintro; exact View.read_writes_of_cover _ _ _ _ _ (scoverB_0 c t _ _ _ _ _ _ _)
      isplitl [HS1]
      · unfold owns; iexists _; isplitr
        swap; · iexact HS1
        ipureintro; exact View.read_writes_of_cover _ _ _ _ _ (scoverB_1 c t _ _ _ _ _ _ _)
      isplitl [HS2]
      · unfold owns; iexists _; isplitr
        swap; · iexact HS2
        ipureintro; exact View.read_writes_of_cover _ _ _ _ _ (scoverB_2 c t _ _ _ _ _ _ _)
      isplitl [HS3]
      · unfold owns; iexists _; isplitr
        swap; · iexact HS3
        ipureintro; exact View.read_writes_of_cover _ _ _ _ _ (scoverB_3 c t _ _ _ _ _ _ _)
      isplitl [HS4]
      · unfold owns; iexists _; isplitr
        swap; · iexact HS4
        ipureintro; exact View.read_writes_of_cover _ _ _ _ _ (scoverB_4 c t _ _ _ _ _ _ _)
      unfold owns; iexists _; isplitr
      swap; · iexact HS5
      ipureintro; exact View.read_writes_of_cover _ _ _ _ _ (scoverB_5 c t _ _ _ _ _ _ _)
    isplitl [Hr]; · iexact Hr
    iexact Hg
  isplitl [Ho]; · iexact Ho
  isplitl [H0]; · iexact H0
  isplitl [H1]; · iexact H1
  isplitl [H2]; · iexact H2
  iexists _; iexact H3

set_option maxHeartbeats 4000000 in
/-- A tile above the diagonal, not the last (kt > qi, kt < 7): nothing happens. -/
theorem sound_body1_C (c : Dev nD) (t : Fin cfg1.N) (h0 : ¬t.val % 8 = 0) (h1 : ¬t.val % 8 ≤ t.val / 8 % 8) (h2 : ¬t.val % 8 = 7) : bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  rw [Dat.leavesExact_idle (dat1 V c) 3 t (idleAt1_3 t (by omega)) (noFlush1_3 t (by omega))]
  rw [outsAt1_C V c t h0 h1 h2]
  dsimp only
  rw [PhiS_castSucc, PhiS_pos V c _ _ (by omega)]
  iintro ⟨HΦ, Ho, ⟨%d0, H0⟩, ⟨%d1, H1⟩, ⟨%d2, H2⟩, ⟨%d3, H3⟩⟩
  iapply (kernelRun1_C' c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) (nc0_of t h0) (nc1_of t h1) (nc2_of t h2) Set.univ _)
  isplitl [HΦ]; · iexact HΦ
  isplitl [Ho]; · iexact Ho
  isplitl [H0]; · iexact H0
  isplitl [H1]; · iexact H1
  isplitl [H2]; · iexact H2
  iexists _; iexact H3

set_option maxHeartbeats 4000000 in
/-- The diagonal tile of the last row block (kt = qi = 7). -/
theorem sound_body1_D (c : Dev nD) (t : Fin cfg1.N) (h0 : ¬t.val % 8 = 0) (h1 : t.val % 8 ≤ t.val / 8 % 8) (h2 : t.val % 8 = 7) : bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  rw [show (dat1 V c).leavesExact 3 t = owns (c : Thread nD τ) (ms1_3 t) fullShare ((dat1 V c).after 3 t) from by
    unfold Dat.leavesExact; rw [liveAt1_3 t h2], after1_3]
  rw [outsAt1_D V c t h0 h1 h2]
  dsimp only
  rw [PhiS_castSucc, PhiS_pos V c _ _ (by omega)]
  unfold scrAt
  iintro ⟨⟨⟨HS0, HS1, HS2, HS3, HS4, HS5⟩, Hr, Hg⟩, Ho, ⟨%d0, H0⟩, ⟨%d1, H1⟩, ⟨%d2, H2⟩, ⟨%d3, H3⟩⟩
  iapply ((runD c t (nc0_of t h0) (c1_of t h1) (c2_of t h2) (iblk1 V c 0 t) (iblk1 V c 1 t) (iblk1 V c 2 t) (outsAt1 V c (t.val - 1) (prevLt t)).2).2.2.2.2.2.2.2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, ⟨%e3, H3⟩, ⟨%e0, HS0⟩, ⟨%e1, HS1⟩, ⟨%e2, HS2⟩, ⟨%e3', HS3⟩, ⟨%e4, HS4⟩, ⟨%e5, HS5⟩⟩
  isplitl [HS0 HS1 HS2 HS3 HS4 HS5 Hr Hg]
  · isplitl [HS0 HS1 HS2 HS3 HS4 HS5]
    · unfold scD readBack; dsimp only
      isplitl [HS0]
      · unfold owns; iexists _; isplitr
        swap; · iexact HS0
        ipureintro; exact View.read_writes_of_cover _ _ _ _ _ (scoverD_0 c t _ _ _ _ _ _ _)
      isplitl [HS1]
      · unfold owns; iexists _; isplitr
        swap; · iexact HS1
        ipureintro; exact View.read_writes_of_cover _ _ _ _ _ (scoverD_1 c t _ _ _ _ _ _ _)
      isplitl [HS2]
      · unfold owns; iexists _; isplitr
        swap; · iexact HS2
        ipureintro; exact View.read_writes_of_cover _ _ _ _ _ (scoverD_2 c t _ _ _ _ _ _ _)
      isplitl [HS3]
      · unfold owns; iexists _; isplitr
        swap; · iexact HS3
        ipureintro; exact View.read_writes_of_cover _ _ _ _ _ (scoverD_3 c t _ _ _ _ _ _ _)
      isplitl [HS4]
      · unfold owns; iexists _; isplitr
        swap; · iexact HS4
        ipureintro; exact View.read_writes_of_cover _ _ _ _ _ (scoverD_4 c t _ _ _ _ _ _ _)
      unfold owns; iexists _; isplitr
      swap; · iexact HS5
      ipureintro; exact View.read_writes_of_cover _ _ _ _ _ (scoverD_5 c t _ _ _ _ _ _ _)
    isplitl [Hr]; · iexact Hr
    iexact Hg
  isplitl [Ho]; · iexact Ho
  isplitl [H0]; · iexact H0
  isplitl [H1]; · iexact H1
  isplitl [H2]; · iexact H2
  unfold outD readBack owns; iexists _; isplitr
  swap; · iexact H3
  ipureintro; exact View.read_writes_of_cover _ _ _ _ _ (coverD_3 c t _ _ _ _ _ _ _)

set_option maxHeartbeats 4000000 in
/-- The last tile of an earlier row block (kt = 7 > qi): the output block is written, the statistics stay. -/
theorem sound_body1_E (c : Dev nD) (t : Fin cfg1.N) (h0 : ¬t.val % 8 = 0) (h1 : ¬t.val % 8 ≤ t.val / 8 % 8) (h2 : t.val % 8 = 7) : bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  rw [show (dat1 V c).leavesExact 3 t = owns (c : Thread nD τ) (ms1_3 t) fullShare ((dat1 V c).after 3 t) from by
    unfold Dat.leavesExact; rw [liveAt1_3 t h2], after1_3]
  rw [outsAt1_E V c t h0 h1 h2]
  dsimp only
  rw [PhiS_castSucc, PhiS_pos V c _ _ (by omega)]
  unfold scrAt
  iintro ⟨⟨⟨HS0, HS1, HS2, HS3, HS4, HS5⟩, Hr, Hg⟩, Ho, ⟨%d0, H0⟩, ⟨%d1, H1⟩, ⟨%d2, H2⟩, ⟨%d3, H3⟩⟩
  iapply ((runE c t (nc0_of t h0) (nc1_of t h1) (c2_of t h2) (iblk1 V c 0 t) (iblk1 V c 1 t) (iblk1 V c 2 t) (outsAt1 V c (t.val - 1) (prevLt t)).2).2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, ⟨%e3, H3⟩, HS0, HS1, HS2, HS3, HS4, HS5⟩
  isplitl [HS0 HS1 HS2 HS3 HS4 HS5 Hr Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    isplitl [Hr]; · iexact Hr
    iexact Hg
  isplitl [Ho]; · iexact Ho
  isplitl [H0]; · iexact H0
  isplitl [H1]; · iexact H1
  isplitl [H2]; · iexact H2
  unfold outE readBack owns; iexists _; isplitr
  swap; · iexact H3
  ipureintro; exact View.read_writes_of_cover _ _ _ _ _ (coverE_3 c t _ _ _ _ _ _ _)

/-- The body at any point: every point is in exactly one of the five cases. -/
theorem sound_body1 (c : Dev nD) (t : Fin cfg1.N) : bodyPre1 V c t ⊢ wp frame (wpE (defs₀ (F := F)) Variants.none c none) Set.univ (bodyAt1 t) (fun _ => bodyPost1 V c t) := by
  by_cases h0 : t.val % 8 = 0
  · exact sound_body1_A V c t h0
  · by_cases h1 : t.val % 8 ≤ t.val / 8 % 8
    · by_cases h2 : t.val % 8 = 7
      · exact sound_body1_D V c t h0 h1 h2
      · exact sound_body1_B V c t h0 h1 h2
    · by_cases h2 : t.val % 8 = 7
      · exact sound_body1_E V c t h0 h1 h2
      · exact sound_body1_C V c t h0 h1 h2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After the last point the invariant gives the class invariant back: the statistics' values are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 2048 := N_1; omega)]
  refine .trans ?_ (PhiA1_close c)
  iintro ⟨HS, Hr, Hg⟩
  isplitl [HS]; · iapply scrAt_any c; iexact HS
  isplitl [Hr]; · iexact Hr
  iexact Hg

end Cert.KernelIdeal.Hand

end
-- ==== Proof.KIRegion2.lean ====
/- The body half of the third pipeline of @main (the output projection, attn_out · w_projᵀ, on a 4×4 grid), at a
   PARAMETER `V` — the TensorCore's buffer contents when the region is entered. Each window's block at a grid point
   (`iblk2`); that each input window's staging buffer holds its block at every point, fetched there or not — the
   weight window, whose block index never moves, is fetched at the first point only —; what the body leaves in the
   output window's staging buffer as a closed function of the two input blocks (`out2_2`: its one store, which
   covers the buffer); the body's triple on whole staging memrefs (`sound_kernel2`: the output's buffer is read
   before it is overwritten, so it is taken at any contents); the proof data (`dat2`) and the body obligation at
   every grid point (`body_obligation2`). The matrix product stays inside the payload `k2_pay1`. -/
import proofs.«151496_j75222057222809_2_alg».proof.Proof.Gen.KernelIdeal.Launch
import proofs.«151496_j75222057222809_2_alg».proof.Proof.Gen.KernelIdeal.Skeleton
import proofs.«151496_j75222057222809_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # The output projection: custom_call 2, `cc2__proj_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): unfetched, the block index
    has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the weight: one block, the whole array, fetched at the first point only) likewise: at every later
    point the buffer still holds the first point's block, which is that point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S1x512x1024 := Rect.unit (s := S1x512x1024) ![0, 0, 0] S1x512x1024.size inb_S1x512x1024_S1x512x1024_0_0_0
abbrev r2_1 : Rect S1024x1024 := Rect.unit (s := S1024x1024) ![0, 0] S1024x1024.size inb_S1024x1024_S1024x1024_0_0

/-! ## What the body leaves in the output window's buffer -/

/-- Window 2's staging buffer after the body, from the input windows' blocks: its 1 store as a piece (the payload is
    the skeleton's: the product of the activation block with the transposed weight, reshaped). -/
def out2_2 (x0 : Vec F S1x512x1024 .bf16) (x1 : Vec F S1024x1024 .bf16) : Vec F S1x512x1024 .f32 :=
  View.canon [⟨r2_0, k2_pay1 (View.ld x0 r2_0) (View.ld x1 r2_1)⟩]

/-- Its store tiles the buffer (checked by evaluation), so it covers it. -/
theorem cover2_2 (p0 : Vec F S1x512x1024 .f32) (y : S1x512x1024.Idx) :
    ∃ pc ∈ ([⟨r2_0, p0⟩] : List (View.Piece (Elt F) S1x512x1024 .f32)), y ∈ pc.1.set :=
  View.cover_of_tiled [⟨r2_0, p0⟩] S1x512x1024.size (by rfl) y

/-! ## The body's triple -/

set_option maxHeartbeats 1000000 in
/-- The kernel body on whole staging memrefs, the inputs' at read contents `xW` and the output's at anything, runs to
    the continuation holding the inputs' as they were and the output's at `out2_2` of the inputs': the printed function
    is its skeleton, which is run statement by statement. -/
theorem sound_kernel2 (c : Dev nD) (E : Set ℕ) (i : grid2.Coords) (arg2 : Memref sig .tc .vmem S1x512x1024 .bf16) (harg2 : arg2.IsWhole) (arg3 : Memref sig .tc .vmem S1024x1024 .bf16) (harg3 : arg3.IsWhole) (arg4 : Memref sig .tc .vmem S1x512x1024 .f32) (harg4 : arg4.IsWhole)
    (x0 : Vec F S1x512x1024 .bf16) (x1 : Vec F S1024x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2__proj_kernel i arg2 harg2 arg3 harg3 arg4 harg4) K := by
  simp only [cc2__proj_kernel_eq_skeleton]; unfold cc2__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at
    point `t` each input's buffer at its block and the output's at `out2_2` of the input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents (the proof data's definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIRun.lean ====
/-
  THE RUN of @main over its three kernel regions, at any float instance.

  @main is two host conversions (each weight array truncated to bf16) followed by three kernel regions with no host
  operation between or after them: the q/k/v projection, the causal attention, the output projection. Given each
  region's proof data at a parameter `V` (the buffer contents the region is entered from), this module

  * writes the contents of every unscoped buffer at each boundary of @main as a fold from the launch memory:
    `W0` the launch, `W1` after the host conversions, and `W2`, `W3`, `W4` after regions 0, 1, 2 — a region's
    arrays at what its pipeline leaves (an input as entered, an output with every write-back folded in point order),
    every other buffer as the region found it;
  * reads each argument array back through the fold to its launch contents (no host operation writes one, and a
    region either bypasses it or reads it through an input window);
  * presents each region as a segment over the thread state "every unscoped buffer whole at the boundary's contents,
    the generator register at some state, nothing owed", and @main as the list of its four segments;
  * concludes `run_all`: from any memory with zero counters every weakly fair execution of @main terminates, nothing
    faulting, and every final state holds EVERY unscoped buffer at `W4` — whence `frame` (the three arguments end
    as launched), `result` (the result array ends at what region 2's pipeline leaves in its output window) and
    `run_value` (the two together).

  Regions 0 and 2 keep one invariant at every point (the scoped buffers no window stages and the generator
  register, untouched). Region 1 carries accumulators in scoped buffers from point to point, so its invariant
  varies with the point; it is entered from, and left at, that same untouched state (`hin1`, `hout1`).
-/
import proofs.«151496_j75222057222809_2_alg».proof.Proof.KIRegion0
import proofs.«151496_j75222057222809_2_alg».proof.Proof.KIRegion1
import proofs.«151496_j75222057222809_2_alg».proof.Proof.KIRegion2
import proofs.«151496_j75222057222809_2_alg».proof.Proof.Gen.KernelIdeal.Launch
import proofs.«151496_j75222057222809_2_alg».proof.Proof.Gen.KernelIdeal.Skeleton
import proofs.«151496_j75222057222809_2_alg».proof.Proof.Gen.KernelIdeal.Points
import proofs.«151496_j75222057222809_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary of @main: a fold from the launch memory -/

/-- Core `c`'s buffers at launch. -/
abbrev W0 : Dev nD → Valuation τ sig (Elt F) := fun c b => (s₀ m ρ).mem ((c : Dev nD), b)
/-- After the host conversions (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b

/-- At region 0's exit: its arrays at what the pipeline leaves (the inputs as entered, each output's write-backs
    folded in point order), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents, region 1's entry contents). -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded in point order), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents, region 2's entry contents). -/
abbrev V3 : (c : Dev nD) → (b : Ref sig .tc) → Buf (Elt F) ((c : Thread nD τ).loc b) := fun c b => W3 m ρ c b
/-- At region 1's exit each of its arrays holds what the pipeline leaves, and every other buffer what it held at entry. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, each output's write-backs
    folded in point order), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves, and every other buffer what it held at entry. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ### The arguments end as launched

No host operation writes an argument (the conversions write the two bf16 copies), and no region writes one: regions
1 and 2 bypass all three, region 0 bypasses the weights and reads `main_arg0` through an input window. -/

/-- `main_arg0` ends as launched. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

/-- `main_arg1` ends as launched. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- `main_arg2` ends as launched. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-! ## The proof data family and the thread state -/

/-- Every pipeline's proof data, each at its region's entry contents — a literal match on the pipeline index, so
    that the pinned configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along; it is left
    at those references at the stretch's effect on `W`: the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W4`, the
    generator register at some state. -/
abbrev Tₙ (c : Dev nD) : sProp 𝕄 := iprop(StableHlo.held (c : Thread nD τ) (Pipeline.ucRefs τ sig) (W4 m ρ c) ∗ ∃ r, prngReg c r)

/-! ## The regions as segments -/

-- a library lemma stated over `pin pcs a p` unifies with the pinned configuration only when unification may unfold
-- plain definitions in a metavariable's type
set_option backward.isDefEq.respectTransparency.types false in
/-- Region 0 over the thread state: entered from every unscoped buffer at `W1`, left at `W2`. Its arrays
    are split out of the unscoped buffers and put back at the exit contents; the generator register goes into the
    region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- Region 1 over the thread state: entered from every unscoped buffer at `W2`, left at `W3`. Its arrays
    are split out of the unscoped buffers and put back at the exit contents; the generator register goes into the
    region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- Region 2 over the thread state: entered from every unscoped buffer at `W3`, left at `W4`. Its arrays
    are split out of the unscoped buffers and put back at the exit contents; the generator register goes into the
    region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: the host conversions from the launch contents, then a region per kernel. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]
/-- @main IS the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state holds every unscoped buffer of every core at the
    last boundary's contents `W4`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

/-- THE FRAME: @main runs and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

/-- THE RESULT: @main runs and its result array ends at what region 2's pipeline leaves in its output window (window 2),
    entered from the contents `V3` that regions 0 and 1 leave. -/
theorem result : θ_run defs (onTc (τ := τ) (main (F := F))) ⟨m, fun _ => 0, ρ⟩ (fun r => ∀ c : Dev nD,
      r.2.mem ((c.tc : Thread nD τ).loc main_v4) = (dat2 (V3 m ρ) c).arrAt 2 cfg2.N) :=
  (θ_run defs _ _).mono (fun _ h c => (h c _ (mem_uc main_v4 (by decide))).trans (W4_arr m ρ c 2)) (run_all m ρ)

/-- The two together, in the order a value claim states them: the result, then the three arguments. -/
theorem run_value : θ_run defs (onTc (τ := τ) (main (F := F))) ⟨m, fun _ => 0, ρ⟩ (fun r => ∀ c : Dev nD,
      r.2.mem ((c.tc : Thread nD τ).loc main_v4) = (dat2 (V3 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v4 (by decide))).trans (W4_arr m ρ c 2),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

/-- info: 'Cert.KernelIdeal.Hand.run_all' depends on axioms: [propext, Classical.choice, Quot.sound] -/
#guard_msgs in #print axioms run_all

end Cert.KernelIdeal.Hand

end
-- ==== Proof.KRegion0.lean ====
/- The body half of the first pipeline of @main (the fused q/k/v projection, x · w_attnᵀ split in three, on a 4×4
   grid), at a PARAMETER `V` — the TensorCore's buffer contents when the region is entered. Each window's block at a
   grid point (`iblk0`); that each input window's staging buffer holds its block at every point, fetched there or
   not — the weight window, whose block index never moves, is fetched at the first point only —; what the body
   leaves in each of the three output windows' staging buffers as a closed function of the two input blocks
   (`out0_2`, `out0_3`, `out0_4`: one store each, which covers the buffer); the body's triple on whole staging
   memrefs (`sound_kernel0`: each output's buffer is read before it is overwritten, so it is taken at any
   contents); the proof data (`dat0`) and the body obligation at every grid point (`body_obligation0`). The
   matrix product, the three column slices, the scaling of the first and the roundings stay inside the payloads
   `k0_pay2`, `k0_pay3`, `k0_pay4`. -/
import proofs.«151496_j75222057222809_2_alg».proof.Proof.Gen.Kernel.Launch
import proofs.«151496_j75222057222809_2_alg».proof.Proof.Gen.Kernel.Skeleton
import proofs.«151496_j75222057222809_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # The q/k/v projection: custom_call 0, `cc0__qkv_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): unfetched, the block index
    has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight: one block, the whole array, fetched at the first point only) likewise: at every later
    point the buffer still holds the first point's block, which is that point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x512x1024 := Rect.unit (s := S1x512x1024) ![0, 0, 0] S1x512x1024.size inb_S1x512x1024_S1x512x1024_0_0_0
abbrev r0_1 : Rect S3072x1024 := Rect.unit (s := S3072x1024) ![0, 0] S3072x1024.size inb_S3072x1024_S3072x1024_0_0

/-! ## What the body leaves in each output window's buffer -/

/-- Window 2's staging buffer after the body, from the input windows' blocks: its 1 store as a piece (the payload is
    the skeleton's: the first third of the product's columns, scaled by 1/8 and rounded). -/
def out0_2 (x0 : Vec F S1x512x1024 .f32) (x1 : Vec F S3072x1024 .bf16) : Vec F S1x512x1024 .bf16 :=
  View.canon [⟨r0_0, k0_pay2 (View.ld x0 r0_0) (View.ld x1 r0_1)⟩]

/-- Its store tiles the buffer (checked by evaluation), so it covers it. -/
theorem cover0_2 (p0 : Vec F S1x512x1024 .bf16) (y : S1x512x1024.Idx) :
    ∃ pc ∈ ([⟨r0_0, p0⟩] : List (View.Piece (Elt F) S1x512x1024 .bf16)), y ∈ pc.1.set :=
  View.cover_of_tiled [⟨r0_0, p0⟩] S1x512x1024.size (by rfl) y

/-- Window 3's staging buffer after the body, from the input windows' blocks: its 1 store as a piece (the payload is
    the skeleton's: the middle third of the product's columns, rounded). -/
def out0_3 (x0 : Vec F S1x512x1024 .f32) (x1 : Vec F S3072x1024 .bf16) : Vec F S1x512x1024 .bf16 :=
  View.canon [⟨r0_0, k0_pay3 (View.ld x0 r0_0) (View.ld x1 r0_1)⟩]

/-- Its store tiles the buffer (checked by evaluation), so it covers it. -/
theorem cover0_3 (p0 : Vec F S1x512x1024 .bf16) (y : S1x512x1024.Idx) :
    ∃ pc ∈ ([⟨r0_0, p0⟩] : List (View.Piece (Elt F) S1x512x1024 .bf16)), y ∈ pc.1.set :=
  View.cover_of_tiled [⟨r0_0, p0⟩] S1x512x1024.size (by rfl) y

/-- Window 4's staging buffer after the body, from the input windows' blocks: its 1 store as a piece (the payload is
    the skeleton's: the last third of the product's columns, rounded). -/
def out0_4 (x0 : Vec F S1x512x1024 .f32) (x1 : Vec F S3072x1024 .bf16) : Vec F S1x512x1024 .bf16 :=
  View.canon [⟨r0_0, k0_pay4 (View.ld x0 r0_0) (View.ld x1 r0_1)⟩]

/-- Its store tiles the buffer (checked by evaluation), so it covers it. -/
theorem cover0_4 (p0 : Vec F S1x512x1024 .bf16) (y : S1x512x1024.Idx) :
    ∃ pc ∈ ([⟨r0_0, p0⟩] : List (View.Piece (Elt F) S1x512x1024 .bf16)), y ∈ pc.1.set :=
  View.cover_of_tiled [⟨r0_0, p0⟩] S1x512x1024.size (by rfl) y

/-! ## The body's triple -/

set_option maxHeartbeats 1000000 in
/-- The kernel body on whole staging memrefs, the inputs' at read contents `xW` and the outputs' at anything, runs to
    the continuation holding the inputs' as they were and each output's at `out0_W` of the inputs': the printed function
    is its skeleton, which is run statement by statement. -/
theorem sound_kernel0 (c : Dev nD) (E : Set ℕ) (i : grid0.Coords) (arg2 : Memref sig .tc .vmem S1x512x1024 .f32) (harg2 : arg2.IsWhole) (arg3 : Memref sig .tc .vmem S3072x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole)
    (x0 : Vec F S1x512x1024 .f32) (x1 : Vec F S3072x1024 .bf16) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare (out0_2 x0 x1) ∗ owns (c : Thread nD τ) arg5 fullShare (out0_3 x0 x1) ∗ owns (c : Thread nD τ) arg6 fullShare (out0_4 x0 x1)) -∗ K ⟨⟩))
      ⊢ wp frame (wpE (defs₀ (F := F)) Variants.none c none) E (cc0__qkv_kernel i arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The pipeline's proof data -/

/-- The proof data of pipeline 0 on core `c`: the arrays as the region finds them (`V`); after the body at
    point `t` each input's buffer at its block and each output's at `out0_W` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

/-- The proof data's arrays are the region-entry contents (the proof data's definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1Base.lean ====
/-
  Region 1 (the attention kernel) — what its five control cases share.

  A grid point is (b, hp, qi, kt), laid out row-major over 4 × 8 × 8 × 8, so point t has kt = t % 8 and
  qi = (t / 8) % 8. The body has three conditionals: "kt = 0" (reset the six running statistics), "kt ≤ qi"
  (the tile is on or below the diagonal: fold it into the statistics) and "kt = 7" (divide and write the output
  block). Each is stated here from the printed scalar chain and decided over the 2048 points in closed form.
  The three inputs (the q, k and v blocks) are never idle; the output block is idle exactly where kt ≠ 7 and is
  not written back there. An input's staging buffer holds its block at every point, fetched there or not: where
  the pipeline does not fetch (the k / v index is min(kt, qi), which stops moving above the diagonal) the block
  index has not moved. The six scratch buffers (running maximum, running sum and running numerator of each of
  the two heads) are whole scoped buffers of the kernel's own; the region's invariant owns them beside the
  fourteen scoped buffers of the other two kernels.
-/
import proofs.«151496_j75222057222809_2_alg».proof.Proof.Gen.Kernel.Launch
import proofs.«151496_j75222057222809_2_alg».proof.Proof.Gen.Kernel.Skeleton
import proofs.«151496_j75222057222809_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's three conditions -/

/-- "kt = 0", from the grid coordinates. -/
abbrev cond1_0 (i : grid1.Coords) : Prop := (Scalar.cmpi .ne (Scalar.extui (Scalar.cmpi .eq (BitVec.ofNat 32 (i 3).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "kt ≤ qi", from the grid coordinates. -/
abbrev cond1_1 (i : grid1.Coords) : Prop := (Scalar.cmpi .ne (Scalar.extui (Scalar.cmpi .sle (BitVec.ofNat 32 (i 3).val) (BitVec.ofNat 32 (i 2).val))) 0#32) = 1#1
theorem hcond1_1 : ∀ t : Fin cfg1.N, cond1_1 (grid1.coords t) ↔ t.val % 8 ≤ (t.val / 8) % 8 :=
  (by decide +kernel : ∀ t : Fin grid1.N, cond1_1 (grid1.coords t) ↔ t.val % 8 ≤ (t.val / 8) % 8)

/-- "kt = 7", from the grid coordinates. -/
abbrev cond1_2 (i : grid1.Coords) : Prop := k1_cond3 i = 1#1
theorem hcond1_2 : ∀ t : Fin cfg1.N, cond1_2 (grid1.coords t) ↔ t.val % 8 = 7 :=
  (by decide +kernel : ∀ t : Fin grid1.N, cond1_2 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- The output block is idle exactly where kt ≠ 7, -/
theorem idleAt1_3 : ∀ t : Fin cfg1.N, t.val % 8 ≠ 7 → cfg1.idle 3 (grid1.coords t) = true := by decide +kernel
theorem liveAt1_3 : ∀ t : Fin cfg1.N, t.val % 8 = 7 → cfg1.idle 3 (grid1.coords t) = false := by decide +kernel
/-- and is not written back there. -/
theorem noFlush1_3 : ∀ t : Fin cfg1.N, t.val % 8 ≠ 7 → (cfg1.win 3).flush t = false := by decide +kernel

/-! ## The memrefs the body is called with -/

abbrev VO1_3 : View sig .tc .vmem S1x256x128 .bf16 := (Memref.whole cc1_stg3_0 : Memref sig .tc .vmem S1x256x128 .bf16).view
abbrev ms1_0 (t : Fin cfg1.N) : Memref sig .tc .vmem S1x256x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256x128 .bf16 := win1_3.stage (cfg1.slots t 3)
abbrev hs1_3 (t : Fin cfg1.N) : (ms1_3 t).IsWhole := hstage1_3 ((cfg1.slots t 3).cast nbuf1_3)
abbrev scM1_0 : Memref sig .tc .vmem S256x1 .f32 := Memref.whole cc1_scratch0
abbrev VS1_0 : View sig .tc .vmem S256x1 .f32 := scM1_0.view
abbrev scM1_1 : Memref sig .tc .vmem S256x1 .f32 := Memref.whole cc1_scratch1
abbrev VS1_1 : View sig .tc .vmem S256x1 .f32 := scM1_1.view
abbrev scM1_2 : Memref sig .tc .vmem S256x64 .f32 := Memref.whole cc1_scratch2
abbrev VS1_2 : View sig .tc .vmem S256x64 .f32 := scM1_2.view
abbrev scM1_3 : Memref sig .tc .vmem S256x1 .f32 := Memref.whole cc1_scratch3
abbrev VS1_3 : View sig .tc .vmem S256x1 .f32 := scM1_3.view
abbrev scM1_4 : Memref sig .tc .vmem S256x1 .f32 := Memref.whole cc1_scratch4
abbrev VS1_4 : View sig .tc .vmem S256x1 .f32 := scM1_4.view
abbrev scM1_5 : Memref sig .tc .vmem S256x64 .f32 := Memref.whole cc1_scratch5
abbrev VS1_5 : View sig .tc .vmem S256x64 .f32 := scM1_5.view

/-! ## The invariant's two shapes -/

/-- The six running statistics: maximum, sum and numerator of the first head, then of the second. -/
abbrev Scr (F : FTy → Type) : Type := Vec F S256x1 .f32 × Vec F S256x1 .f32 × Vec F S256x64 .f32 × Vec F S256x1 .f32 × Vec F S256x1 .f32 × Vec F S256x64 .f32

/-- A scoped buffer at some contents. -/
def anyBuf (c : Dev nD) (b : Ref sig .tc) : sProp 𝕄 := iprop(∃ f : Buf (Elt F) ((c : Thread nD τ).loc b), ((c : Thread nD τ).loc b) ↦{fullShare} f)

/-- The fourteen scoped buffers of the other two kernels, each at some contents. -/
def rest14 (c : Dev nD) : sProp 𝕄 :=
  iprop(anyBuf (F := F) c cc0_stg0_0 ∗ anyBuf (F := F) c cc0_stg0_1 ∗ anyBuf (F := F) c cc0_stg1_0 ∗ anyBuf (F := F) c cc0_stg2_0 ∗ anyBuf (F := F) c cc0_stg2_1 ∗ anyBuf (F := F) c cc0_stg3_0 ∗ anyBuf (F := F) c cc0_stg3_1 ∗ anyBuf (F := F) c cc0_stg4_0 ∗ anyBuf (F := F) c cc0_stg4_1 ∗ anyBuf (F := F) c cc2_stg0_0 ∗ anyBuf (F := F) c cc2_stg0_1 ∗ anyBuf (F := F) c cc2_stg1_0 ∗ anyBuf (F := F) c cc2_stg2_0 ∗ anyBuf (F := F) c cc2_stg2_1)

/-- The six scratch buffers at the statistics `s`. -/
def scrAt (c : Dev nD) (s : Scr F) : sProp 𝕄 :=
  iprop(owns (c : Thread nD τ) scM1_0 fullShare s.1 ∗ owns (c : Thread nD τ) scM1_1 fullShare s.2.1 ∗ owns (c : Thread nD τ) scM1_2 fullShare s.2.2.1
    ∗ owns (c : Thread nD τ) scM1_3 fullShare s.2.2.2.1 ∗ owns (c : Thread nD τ) scM1_4 fullShare s.2.2.2.2.1 ∗ owns (c : Thread nD τ) scM1_5 fullShare s.2.2.2.2.2)

/-- The six scratch buffers at anything. -/
def scrAny (c : Dev nD) : sProp 𝕄 :=
  iprop((∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d) ∗ (∃ d, owns (c : Thread nD τ) scM1_4 fullShare d) ∗ (∃ d, owns (c : Thread nD τ) scM1_5 fullShare d))

theorem scrAt_any (c : Dev nD) (s : Scr F) : scrAt c s ⊢ (scrAny c : sProp 𝕄) := by
  unfold scrAt scrAny
  iintro ⟨H0, H1, H2, H3, H4, H5⟩
  isplitl [H0]; · iexists _; iexact H0
  isplitl [H1]; · iexists _; iexact H1
  isplitl [H2]; · iexists _; iexact H2
  isplitl [H3]; · iexists _; iexact H3
  isplitl [H4]; · iexists _; iexact H4
  iexists _; iexact H5

/-- The class invariant, with the scratch buffers taken out of the scoped rest. -/
theorem PhiA1_open (c : Dev nD) :
    (Pipeline.ΦA spec1 c : sProp 𝕄) ⊢ iprop(scrAny c ∗ rest14 c ∗ ∃ r, prngReg c r) := by
  unfold Pipeline.ΦA scrAny rest14 anyBuf; rw [scopedRest1_eq]; simp only [← owns_whole]
  iintro ⟨⟨Ha0, Ha1, Ha2, Ha3, Ha4, Ha5, Ha6, Ha7, Ha8, ⟨%d0, HS0⟩, ⟨%d1, HS1⟩, ⟨%d2, HS2⟩, ⟨%d3, HS3⟩, ⟨%d4, HS4⟩, ⟨%d5, HS5⟩, Hb0, Hb1, Hb2, Hb3, Hb4⟩, Hg⟩
  isplitl [HS0 HS1 HS2 HS3 HS4 HS5]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  isplitr [Hg]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Hb0]; · iexact Hb0
    isplitl [Hb1]; · iexact Hb1
    isplitl [Hb2]; · iexact Hb2
    isplitl [Hb3]; · iexact Hb3
    iexact Hb4
  iexact Hg

/-- and put back. -/
theorem PhiA1_close (c : Dev nD) :
    iprop(scrAny c ∗ rest14 c ∗ ∃ r, prngReg c r) ⊢ (Pipeline.ΦA spec1 c : sProp 𝕄) := by
  unfold Pipeline.ΦA scrAny rest14 anyBuf; rw [scopedRest1_eq]; simp only [← owns_whole]
  iintro ⟨⟨⟨%d0, HS0⟩, ⟨%d1, HS1⟩, ⟨%d2, HS2⟩, ⟨%d3, HS3⟩, ⟨%d4, HS4⟩, ⟨%d5, HS5⟩⟩, ⟨Ha0, Ha1, Ha2, Ha3, Ha4, Ha5, Ha6, Ha7, Ha8, Hb0, Hb1, Hb2, Hb3, Hb4⟩, Hg⟩
  isplitr [Hg]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [Hb0]; · iexact Hb0
    isplitl [Hb1]; · iexact Hb1
    isplitl [Hb2]; · iexact Hb2
    isplitl [Hb3]; · iexact Hb3
    iexact Hb4
  iexact Hg

end Cert.Kernel.Hand

end
-- ==== Proof.KRegion1RunCE.lean ====
/-
  Region 1, the two cases in which the tile is above the diagonal (kt > qi): nothing is folded in.
  Case C (kt < 7): the body does nothing at all. Case E (kt = 7): it divides each head's numerator by its sum
  and writes the output block, leaving the statistics as they are.
-/
import proofs.«151496_j75222057222809_2_alg».proof.Proof.KRegion1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- CASE C (kt > qi, kt < 7): none of the three conditionals is taken; whatever the body is handed it hands back. -/
theorem kernelRun1_C (c : Dev nD) (i : grid1.Coords) (arg4 : Memref sig .tc .vmem S1x256x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S256x1 .f32) (harg8 : arg8.IsWhole) (arg9 : Memref sig .tc .vmem S256x1 .f32) (harg9 : arg9.IsWhole) (arg10 : Memref sig .tc .vmem S256x64 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x64 .f32) (harg13 : arg13.IsWhole) (hc0 : ¬cond1_0 i) (hc1 : ¬cond1_1 i) (hc2 : ¬cond1_2 i)
    (P : sProp 𝕄) (E : Set ℕ) (K : PUnit → sProp 𝕄) :
    iprop(P ∗ (P -∗ K ⟨⟩)) ⊢ wp frame (wpE (defs₀ (F := F)) Variants.none c none) E (cc1__attn_kernel i arg4 harg4 arg5 harg5 arg6 harg6 arg7 harg7 arg8 harg8 arg9 harg9 arg10 harg10 arg11 harg11 arg12 harg12 arg13 harg13) K := by
    simp only [cc1__attn_kernel_eq_skeleton]; unfold cc1__attn_kernel_skel
    simp only [k1_part1_eq_skeleton, k1_part2_eq_skeleton]
    iintro ⟨HP, Hk⟩
    sl_exec (disch := first | exact hc0 | exact hc1 | exact hc2)
    sl_step
    iapply Hk
    iexact HP

set_option maxHeartbeats 4000000 in
/-- CASE E (kt = 7 above the diagonal: the tile is skipped, the output block is written). On whole staging memrefs — the three input blocks at their contents, the output's at anything, the six statistics at what the point before left — the body runs to the continuation holding the inputs and the statistics as they were and the output's buffer with the two half-width stores written, as pieces the run itself finds. -/
noncomputable def kernelRun1_E (c : Dev nD) (i : grid1.Coords) (arg4 : Memref sig .tc .vmem S1x256x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S256x1 .f32) (harg8 : arg8.IsWhole) (arg9 : Memref sig .tc .vmem S256x1 .f32) (harg9 : arg9.IsWhole) (arg10 : Memref sig .tc .vmem S256x64 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x64 .f32) (harg13 : arg13.IsWhole) (hc0 : ¬cond1_0 i) (hc1 : ¬cond1_1 i) (hc2 : cond1_2 i)
    (x0 : Vec F S1x256x128 .bf16) (x1 : Vec F S1x256x128 .bf16) (x2 : Vec F S1x256x128 .bf16) (xs0 : Vec F S256x1 .f32) (xs1 : Vec F S256x1 .f32) (xs2 : Vec F S256x64 .f32) (xs3 : Vec F S256x1 .f32) (xs4 : Vec F S256x1 .f32) (xs5 : Vec F S256x64 .f32) :
    { L3 : List (View.Piece (Elt F) S1x256x128 .bf16) //
      ∀ (E : Set ℕ) (K : PUnit → sProp 𝕄),
        iprop(owns (c : Thread nD τ) arg4 fullShare x0
            ∗ owns (c : Thread nD τ) arg5 fullShare x1
            ∗ owns (c : Thread nD τ) arg6 fullShare x2
            ∗ (∃ d, owns (c : Thread nD τ) arg7 fullShare d)
            ∗ owns (c : Thread nD τ) arg8 fullShare xs0
            ∗ owns (c : Thread nD τ) arg9 fullShare xs1
            ∗ owns (c : Thread nD τ) arg10 fullShare xs2
            ∗ owns (c : Thread nD τ) arg11 fullShare xs3
            ∗ owns (c : Thread nD τ) arg12 fullShare xs4
            ∗ owns (c : Thread nD τ) arg13 fullShare xs5
            ∗ (iprop(owns (c : Thread nD τ) arg4 fullShare x0
                ∗ owns (c : Thread nD τ) arg5 fullShare x1
                ∗ owns (c : Thread nD τ) arg6 fullShare x2
                ∗ (∃ f, arg7.view.loc (c : Thread nD τ) ↦[arg7.view.set]{fullShare} arg7.view.writes (Elt F) f L3)
                ∗ owns (c : Thread nD τ) arg8 fullShare xs0
                ∗ owns (c : Thread nD τ) arg9 fullShare xs1
                ∗ owns (c : Thread nD τ) arg10 fullShare xs2
                ∗ owns (c : Thread nD τ) arg11 fullShare xs3
                ∗ owns (c : Thread nD τ) arg12 fullShare xs4
                ∗ owns (c : Thread nD τ) arg13 fullShare xs5) -∗ K ⟨⟩))
          ⊢ wp frame (wpE (defs₀ (F := F)) Variants.none c none) E (cc1__attn_kernel i arg4 harg4 arg5 harg5 arg6 harg6 arg7 harg7 arg8 harg8 arg9 harg9 arg10 harg10 arg11 harg11 arg12 harg12 arg13 harg13) K } := by
  refine ⟨?_, fun E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg4.eq_unread hf0; obtain rfl := harg5.eq_unread hf1; obtain rfl := harg6.eq_unread hf2; obtain rfl := harg8.eq_unread hfs0; obtain rfl := harg9.eq_unread hfs1; obtain rfl := harg10.eq_unread hfs2; obtain rfl := harg11.eq_unread hfs3; obtain rfl := harg12.eq_unread hfs4; obtain rfl := harg13.eq_unread hfs5
    sl_exec (disch := first | exact hc0 | exact hc1 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; iexact H3
    isplitl [HS0]
    · iexists _; isplitr; · ipureintro; exact harg8.read_unread _
      iexact HS0
    isplitl [HS1]
    · iexists _; isplitr; · ipureintro; exact harg9.read_unread _
      iexact HS1
    isplitl [HS2]
    · iexists _; isplitr; · ipureintro; exact harg10.read_unread _
      iexact HS2
    isplitl [HS3]
    · iexists _; isplitr; · ipureintro; exact harg11.read_unread _
      iexact HS3
    isplitl [HS4]
    · iexists _; isplitr; · ipureintro; exact harg12.read_unread _
      iexact HS4
    iexists _; isplitr; · ipureintro; exact harg13.read_unread _
    iexact HS5

end Cert.Kernel.Hand

end
-- ==== Proof.KRegion1RunA.lean ====
/-
  Region 1, case A: the first tile of a row block (kt = 0). The six running statistics are reset — the maxima to
  -∞, the sums and numerators to 0 — and the tile (always on or below the diagonal, since 0 ≤ qi) is folded in:
  new maximum, the old sum and numerator rescaled by exp(old maximum − new maximum), the tile's exponentials added.
-/
import proofs.«151496_j75222057222809_2_alg».proof.Proof.KRegion1RunCE

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 4000000 in
/-- CASE A (kt = 0: the statistics are reset, then the first tile is folded in; the output block is idle). The statistics' buffers at anything on entry; each ends with the pieces its stores wrote (the reset first, then the update), which the run itself finds. -/
noncomputable def kernelRun1_A (c : Dev nD) (i : grid1.Coords) (arg4 : Memref sig .tc .vmem S1x256x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S256x1 .f32) (harg8 : arg8.IsWhole) (arg9 : Memref sig .tc .vmem S256x1 .f32) (harg9 : arg9.IsWhole) (arg10 : Memref sig .tc .vmem S256x64 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x64 .f32) (harg13 : arg13.IsWhole) (hc0 : cond1_0 i) (hc1 : cond1_1 i) (hc2 : ¬cond1_2 i)
    (x0 : Vec F S1x256x128 .bf16) (x1 : Vec F S1x256x128 .bf16) (x2 : Vec F S1x256x128 .bf16) :
    Σ' (LS0 : List (View.Piece (Elt F) S256x1 .f32)) (LS1 : List (View.Piece (Elt F) S256x1 .f32)) (LS2 : List (View.Piece (Elt F) S256x64 .f32)) (LS3 : List (View.Piece (Elt F) S256x1 .f32)) (LS4 : List (View.Piece (Elt F) S256x1 .f32)), { LS5 : List (View.Piece (Elt F) S256x64 .f32) //
      ∀ (xi3 : Vec F S1x256x128 .bf16) (E : Set ℕ) (K : PUnit → sProp 𝕄),
        iprop(owns (c : Thread nD τ) arg4 fullShare x0
            ∗ owns (c : Thread nD τ) arg5 fullShare x1
            ∗ owns (c : Thread nD τ) arg6 fullShare x2
            ∗ owns (c : Thread nD τ) arg7 fullShare xi3
            ∗ (∃ d, owns (c : Thread nD τ) arg8 fullShare d)
            ∗ (∃ d, owns (c : Thread nD τ) arg9 fullShare d)
            ∗ (∃ d, owns (c : Thread nD τ) arg10 fullShare d)
            ∗ (∃ d, owns (c : Thread nD τ) arg11 fullShare d)
            ∗ (∃ d, owns (c : Thread nD τ) arg12 fullShare d)
            ∗ (∃ d, owns (c : Thread nD τ) arg13 fullShare d)
            ∗ (iprop(owns (c : Thread nD τ) arg4 fullShare x0
                ∗ owns (c : Thread nD τ) arg5 fullShare x1
                ∗ owns (c : Thread nD τ) arg6 fullShare x2
                ∗ owns (c : Thread nD τ) arg7 fullShare xi3
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ (∃ f, arg11.view.loc (c : Thread nD τ) ↦[arg11.view.set]{fullShare} arg11.view.writes (Elt F) f LS3)
                ∗ (∃ f, arg12.view.loc (c : Thread nD τ) ↦[arg12.view.set]{fullShare} arg12.view.writes (Elt F) f LS4)
                ∗ (∃ f, arg13.view.loc (c : Thread nD τ) ↦[arg13.view.set]{fullShare} arg13.view.writes (Elt F) f LS5)) -∗ K ⟨⟩))
          ⊢ wp frame (wpE (defs₀ (F := F)) Variants.none c none) E (cc1__attn_kernel i arg4 harg4 arg5 harg5 arg6 harg6 arg7 harg7 arg8 harg8 arg9 harg9 arg10 harg10 arg11 harg11 arg12 harg12 arg13 harg13) K } := by
  refine ⟨?_, ?_, ?_, ?_, ?_, ?_, fun xi3 E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg4.eq_unread hf0; obtain rfl := harg5.eq_unread hf1; obtain rfl := harg6.eq_unread hf2; obtain rfl := harg7.eq_unread hf3
    sl_exec (disch := first | exact hc0 | exact hc1 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    iexists _; iexact HS5

end Cert.Kernel.Hand

end
-- ==== Proof.KRegion1RunB.lean ====
/-
  Region 1, case B: a tile on or below the diagonal that is neither the first nor the last of its row block
  (0 < kt ≤ qi, kt < 7). The tile is folded into the running statistics of both heads; nothing else happens.
-/
import proofs.«151496_j75222057222809_2_alg».proof.Proof.KRegion1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 4000000 in
/-- CASE B (0 < kt ≤ qi, kt < 7: one more tile is folded into the statistics; the output block is idle). The statistics' buffers at what the point before left; each ends with the pieces its stores wrote, which the run itself finds. -/
noncomputable def kernelRun1_B (c : Dev nD) (i : grid1.Coords) (arg4 : Memref sig .tc .vmem S1x256x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S256x1 .f32) (harg8 : arg8.IsWhole) (arg9 : Memref sig .tc .vmem S256x1 .f32) (harg9 : arg9.IsWhole) (arg10 : Memref sig .tc .vmem S256x64 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x64 .f32) (harg13 : arg13.IsWhole) (hc0 : ¬cond1_0 i) (hc1 : cond1_1 i) (hc2 : ¬cond1_2 i)
    (x0 : Vec F S1x256x128 .bf16) (x1 : Vec F S1x256x128 .bf16) (x2 : Vec F S1x256x128 .bf16) (xs0 : Vec F S256x1 .f32) (xs1 : Vec F S256x1 .f32) (xs2 : Vec F S256x64 .f32) (xs3 : Vec F S256x1 .f32) (xs4 : Vec F S256x1 .f32) (xs5 : Vec F S256x64 .f32) :
    Σ' (LS0 : List (View.Piece (Elt F) S256x1 .f32)) (LS1 : List (View.Piece (Elt F) S256x1 .f32)) (LS2 : List (View.Piece (Elt F) S256x64 .f32)) (LS3 : List (View.Piece (Elt F) S256x1 .f32)) (LS4 : List (View.Piece (Elt F) S256x1 .f32)), { LS5 : List (View.Piece (Elt F) S256x64 .f32) //
      ∀ (xi3 : Vec F S1x256x128 .bf16) (E : Set ℕ) (K : PUnit → sProp 𝕄),
        iprop(owns (c : Thread nD τ) arg4 fullShare x0
            ∗ owns (c : Thread nD τ) arg5 fullShare x1
            ∗ owns (c : Thread nD τ) arg6 fullShare x2
            ∗ owns (c : Thread nD τ) arg7 fullShare xi3
            ∗ owns (c : Thread nD τ) arg8 fullShare xs0
            ∗ owns (c : Thread nD τ) arg9 fullShare xs1
            ∗ owns (c : Thread nD τ) arg10 fullShare xs2
            ∗ owns (c : Thread nD τ) arg11 fullShare xs3
            ∗ owns (c : Thread nD τ) arg12 fullShare xs4
            ∗ owns (c : Thread nD τ) arg13 fullShare xs5
            ∗ (iprop(owns (c : Thread nD τ) arg4 fullShare x0
                ∗ owns (c : Thread nD τ) arg5 fullShare x1
                ∗ owns (c : Thread nD τ) arg6 fullShare x2
                ∗ owns (c : Thread nD τ) arg7 fullShare xi3
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ (∃ f, arg11.view.loc (c : Thread nD τ) ↦[arg11.view.set]{fullShare} arg11.view.writes (Elt F) f LS3)
                ∗ (∃ f, arg12.view.loc (c : Thread nD τ) ↦[arg12.view.set]{fullShare} arg12.view.writes (Elt F) f LS4)
                ∗ (∃ f, arg13.view.loc (c : Thread nD τ) ↦[arg13.view.set]{fullShare} arg13.view.writes (Elt F) f LS5)) -∗ K ⟨⟩))
          ⊢ wp frame (wpE (defs₀ (F := F)) Variants.none c none) E (cc1__attn_kernel i arg4 harg4 arg5 harg5 arg6 harg6 arg7 harg7 arg8 harg8 arg9 harg9 arg10 harg10 arg11 harg11 arg12 harg12 arg13 harg13) K } := by
  refine ⟨?_, ?_, ?_, ?_, ?_, ?_, fun xi3 E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg4.eq_unread hf0; obtain rfl := harg5.eq_unread hf1; obtain rfl := harg6.eq_unread hf2; obtain rfl := harg7.eq_unread hf3; obtain rfl := harg8.eq_unread hfs0; obtain rfl := harg9.eq_unread hfs1; obtain rfl := harg10.eq_unread hfs2; obtain rfl := harg11.eq_unread hfs3; obtain rfl := harg12.eq_unread hfs4; obtain rfl := harg13.eq_unread hfs5
    sl_exec (disch := first | exact hc0 | exact hc1 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    iexists _; iexact HS5

end Cert.Kernel.Hand

end
-- ==== Proof.KRegion1RunD.lean ====
/-
  Region 1, case D: the diagonal tile of the last row block (kt = qi = 7). The tile is folded into the running
  statistics, and then each head's numerator is divided by its sum and written to its half of the output block.
-/
import proofs.«151496_j75222057222809_2_alg».proof.Proof.KRegion1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 4000000 in
/-- CASE D (kt = qi = 7: the diagonal tile of the last row block is folded in and the output block is written). The statistics' buffers at what the point before left; each, and the output's buffer, ends with the pieces its stores wrote, which the run itself finds. -/
noncomputable def kernelRun1_D (c : Dev nD) (i : grid1.Coords) (arg4 : Memref sig .tc .vmem S1x256x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S256x1 .f32) (harg8 : arg8.IsWhole) (arg9 : Memref sig .tc .vmem S256x1 .f32) (harg9 : arg9.IsWhole) (arg10 : Memref sig .tc .vmem S256x64 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x64 .f32) (harg13 : arg13.IsWhole) (hc0 : ¬cond1_0 i) (hc1 : cond1_1 i) (hc2 : cond1_2 i)
    (x0 : Vec F S1x256x128 .bf16) (x1 : Vec F S1x256x128 .bf16) (x2 : Vec F S1x256x128 .bf16) (xs0 : Vec F S256x1 .f32) (xs1 : Vec F S256x1 .f32) (xs2 : Vec F S256x64 .f32) (xs3 : Vec F S256x1 .f32) (xs4 : Vec F S256x1 .f32) (xs5 : Vec F S256x64 .f32) :
    Σ' (L3 : List (View.Piece (Elt F) S1x256x128 .bf16)) (LS0 : List (View.Piece (Elt F) S256x1 .f32)) (LS1 : List (View.Piece (Elt F) S256x1 .f32)) (LS2 : List (View.Piece (Elt F) S256x64 .f32)) (LS3 : List (View.Piece (Elt F) S256x1 .f32)) (LS4 : List (View.Piece (Elt F) S256x1 .f32)), { LS5 : List (View.Piece (Elt F) S256x64 .f32) //
      ∀ (E : Set ℕ) (K : PUnit → sProp 𝕄),
        iprop(owns (c : Thread nD τ) arg4 fullShare x0
            ∗ owns (c : Thread nD τ) arg5 fullShare x1
            ∗ owns (c : Thread nD τ) arg6 fullShare x2
            ∗ (∃ d, owns (c : Thread nD τ) arg7 fullShare d)
            ∗ owns (c : Thread nD τ) arg8 fullShare xs0
            ∗ owns (c : Thread nD τ) arg9 fullShare xs1
            ∗ owns (c : Thread nD τ) arg10 fullShare xs2
            ∗ owns (c : Thread nD τ) arg11 fullShare xs3
            ∗ owns (c : Thread nD τ) arg12 fullShare xs4
            ∗ owns (c : Thread nD τ) arg13 fullShare xs5
            ∗ (iprop(owns (c : Thread nD τ) arg4 fullShare x0
                ∗ owns (c : Thread nD τ) arg5 fullShare x1
                ∗ owns (c : Thread nD τ) arg6 fullShare x2
                ∗ (∃ f, arg7.view.loc (c : Thread nD τ) ↦[arg7.view.set]{fullShare} arg7.view.writes (Elt F) f L3)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ (∃ f, arg11.view.loc (c : Thread nD τ) ↦[arg11.view.set]{fullShare} arg11.view.writes (Elt F) f LS3)
                ∗ (∃ f, arg12.view.loc (c : Thread nD τ) ↦[arg12.view.set]{fullShare} arg12.view.writes (Elt F) f LS4)
                ∗ (∃ f, arg13.view.loc (c : Thread nD τ) ↦[arg13.view.set]{fullShare} arg13.view.writes (Elt F) f LS5)) -∗ K ⟨⟩))
          ⊢ wp frame (wpE (defs₀ (F := F)) Variants.none c none) E (cc1__attn_kernel i arg4 harg4 arg5 harg5 arg6 harg6 arg7 harg7 arg8 harg8 arg9 harg9 arg10 harg10 arg11 harg11 arg12 harg12 arg13 harg13) K } := by
  refine ⟨?_, ?_, ?_, ?_, ?_, ?_, ?_, fun E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg4.eq_unread hf0; obtain rfl := harg5.eq_unread hf1; obtain rfl := harg6.eq_unread hf2; obtain rfl := harg8.eq_unread hfs0; obtain rfl := harg9.eq_unread hfs1; obtain rfl := harg10.eq_unread hfs2; obtain rfl := harg11.eq_unread hfs3; obtain rfl := harg12.eq_unread hfs4; obtain rfl := harg13.eq_unread hfs5
    sl_exec (disch := first | exact hc0 | exact hc1 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; iexact H3
    isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    iexists _; iexact HS5

end Cert.Kernel.Hand

end
-- ==== Proof.KRegion1Data.lean ====
/-
  Region 1 (the attention kernel) — what the buffers hold point by point, and the proof data.

  After the body at grid point t the six scratch buffers hold the running statistics of the row block so far and,
  where kt = 7, the output's staging buffer holds the finished block. Both are defined by recursion on the point:
  the case the point is in (decided by kt = t % 8 and qi = (t / 8) % 8), run on the point's input blocks and on what
  the point before left in the scratch buffers. Above the diagonal (kt > qi) the statistics pass through unchanged.
  What a case leaves in a buffer is read back from the stores the run made into it; the stores into a scratch buffer
  always include a store of the whole buffer, and the two half-width stores into the output block tile it, so the
  contents do not depend on what the buffer held before.
  The region's invariant before a point that is not the first owns the six scratch buffers at the statistics the point
  before left; the proof data's arrays are the region-entry contents, nothing is owed, all shares are full.
-/
import proofs.«151496_j75222057222809_2_alg».proof.Proof.KRegion1RunD

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A buffer's contents after a list of stores into it (last first), read through the view `v`, over junk. -/
def readBack {sh : Shape} {e : EltTy} (v : View sig .tc .vmem sh e) (L : List (View.Piece (Elt F) sh e)) : Vec F sh e :=
  v.read (Elt F) (v.writes (Elt F) v.junk L)

/-- What an idle output buffer is said to hold: nothing consults it. -/
def junkOut : Vec F S1x256x128 .bf16 := VO1_3.read (Elt F) VO1_3.junk

/-! ## Each case at a point -/

section AtPoint
variable (c : Dev nD) (t : Fin cfg1.N)

abbrev runA (hc0 : cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) := kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 hc2 x0 x1 x2
abbrev runB (hc0 : ¬cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) (s : Scr F) := kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 hc2 x0 x1 x2 s.1 s.2.1 s.2.2.1 s.2.2.2.1 s.2.2.2.2.1 s.2.2.2.2.2
abbrev runD (hc0 : ¬cond1_0 (grid1.coords t)) (hc1 : cond1_1 (grid1.coords t)) (hc2 : cond1_2 (grid1.coords t)) (x0 : Vec F S1x256x128 .bf16) (x1 : Vec F S1x256x128 .bf16) (x2 : Vec F S1x256x128 .bf16) (s : Scr F) := kernelRun1_D (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 hc2 x0 x1 x2 s.1 s.2.1 s.2.2.1 s.2.2.2.1 s.2.2.2.2.1 s.2.2.2.2.2
abbrev runE (hc0 : ¬cond1_0 (grid1.coords t)) (hc1 : ¬cond1_1 (grid1.coords t)) (hc2 : cond1_2 (grid1.coords t)) (x0 : Vec F S1x256x128 .bf16) (x1 : Vec F S1x256x128 .bf16) (x2 : Vec F S1x256x128 .bf16) (s : Scr F) := kernelRun1_E (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 hc2 x0 x1 x2 s.1 s.2.1 s.2.2.1 s.2.2.2.1 s.2.2.2.2.1 s.2.2.2.2.2

/-- The statistics case A leaves. -/
def scA (hc0 : cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) : Scr F :=
  (readBack VS1_0 (runA c t hc0 hc1 hc2 x0 x1 x2).1,
   readBack VS1_1 (runA c t hc0 hc1 hc2 x0 x1 x2).2.1,
   readBack VS1_2 (runA c t hc0 hc1 hc2 x0 x1 x2).2.2.1,
   readBack VS1_3 (runA c t hc0 hc1 hc2 x0 x1 x2).2.2.2.1,
   readBack VS1_4 (runA c t hc0 hc1 hc2 x0 x1 x2).2.2.2.2.1,
   readBack VS1_5 (runA c t hc0 hc1 hc2 x0 x1 x2).2.2.2.2.2.1)
/-- The statistics case B leaves. -/
def scB (hc0 : ¬cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) (s : Scr F) : Scr F :=
  (readBack VS1_0 (runB c t hc0 hc1 hc2 x0 x1 x2 s).1,
   readBack VS1_1 (runB c t hc0 hc1 hc2 x0 x1 x2 s).2.1,
   readBack VS1_2 (runB c t hc0 hc1 hc2 x0 x1 x2 s).2.2.1,
   readBack VS1_3 (runB c t hc0 hc1 hc2 x0 x1 x2 s).2.2.2.1,
   readBack VS1_4 (runB c t hc0 hc1 hc2 x0 x1 x2 s).2.2.2.2.1,
   readBack VS1_5 (runB c t hc0 hc1 hc2 x0 x1 x2 s).2.2.2.2.2.1)
/-- The statistics case D leaves, -/
def scD (hc0 : ¬cond1_0 (grid1.coords t)) (hc1 : cond1_1 (grid1.coords t)) (hc2 : cond1_2 (grid1.coords t)) (x0 : Vec F S1x256x128 .bf16) (x1 : Vec F S1x256x128 .bf16) (x2 : Vec F S1x256x128 .bf16) (s : Scr F) : Scr F :=
  (readBack VS1_0 (runD c t hc0 hc1 hc2 x0 x1 x2 s).2.1,
   readBack VS1_1 (runD c t hc0 hc1 hc2 x0 x1 x2 s).2.2.1,
   readBack VS1_2 (runD c t hc0 hc1 hc2 x0 x1 x2 s).2.2.2.1,
   readBack VS1_3 (runD c t hc0 hc1 hc2 x0 x1 x2 s).2.2.2.2.1,
   readBack VS1_4 (runD c t hc0 hc1 hc2 x0 x1 x2 s).2.2.2.2.2.1,
   readBack VS1_5 (runD c t hc0 hc1 hc2 x0 x1 x2 s).2.2.2.2.2.2.1)
/-- and the output block it writes. -/
def outD (hc0 : ¬cond1_0 (grid1.coords t)) (hc1 : cond1_1 (grid1.coords t)) (hc2 : cond1_2 (grid1.coords t)) (x0 : Vec F S1x256x128 .bf16) (x1 : Vec F S1x256x128 .bf16) (x2 : Vec F S1x256x128 .bf16) (s : Scr F) : Vec F S1x256x128 .bf16 :=
  readBack VO1_3 (runD c t hc0 hc1 hc2 x0 x1 x2 s).1
/-- The output block case E writes. -/
def outE (hc0 : ¬cond1_0 (grid1.coords t)) (hc1 : ¬cond1_1 (grid1.coords t)) (hc2 : cond1_2 (grid1.coords t)) (x0 : Vec F S1x256x128 .bf16) (x1 : Vec F S1x256x128 .bf16) (x2 : Vec F S1x256x128 .bf16) (s : Scr F) : Vec F S1x256x128 .bf16 :=
  readBack VO1_3 (runE c t hc0 hc1 hc2 x0 x1 x2 s).1

/-! ## The stores cover the buffers -/

theorem scoverA_0 (hc0 : cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) (y : S256x1.Idx) :
    ∃ pc ∈ (runA c t hc0 hc1 hc2 x0 x1 x2).1, y ∈ pc.1.set :=
  View.cover_of_wholeMem _ (by sl_whole_mem) y
theorem scoverB_0 (hc0 : ¬cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) (s : Scr F) (y : S256x1.Idx) :
    ∃ pc ∈ (runB c t hc0 hc1 hc2 x0 x1 x2 s).1, y ∈ pc.1.set :=
  View.cover_of_wholeMem _ (by sl_whole_mem) y
theorem scoverD_0 (hc0 : ¬cond1_0 (grid1.coords t)) (hc1 : cond1_1 (grid1.coords t)) (hc2 : cond1_2 (grid1.coords t)) (x0 : Vec F S1x256x128 .bf16) (x1 : Vec F S1x256x128 .bf16) (x2 : Vec F S1x256x128 .bf16) (s : Scr F) (y : S256x1.Idx) :
    ∃ pc ∈ (runD c t hc0 hc1 hc2 x0 x1 x2 s).2.1, y ∈ pc.1.set :=
  View.cover_of_wholeMem _ (by sl_whole_mem) y
theorem scoverA_1 (hc0 : cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) (y : S256x1.Idx) :
    ∃ pc ∈ (runA c t hc0 hc1 hc2 x0 x1 x2).2.1, y ∈ pc.1.set :=
  View.cover_of_wholeMem _ (by sl_whole_mem) y
theorem scoverB_1 (hc0 : ¬cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) (s : Scr F) (y : S256x1.Idx) :
    ∃ pc ∈ (runB c t hc0 hc1 hc2 x0 x1 x2 s).2.1, y ∈ pc.1.set :=
  View.cover_of_wholeMem _ (by sl_whole_mem) y
theorem scoverD_1 (hc0 : ¬cond1_0 (grid1.coords t)) (hc1 : cond1_1 (grid1.coords t)) (hc2 : cond1_2 (grid1.coords t)) (x0 : Vec F S1x256x128 .bf16) (x1 : Vec F S1x256x128 .bf16) (x2 : Vec F S1x256x128 .bf16) (s : Scr F) (y : S256x1.Idx) :
    ∃ pc ∈ (runD c t hc0 hc1 hc2 x0 x1 x2 s).2.2.1, y ∈ pc.1.set :=
  View.cover_of_wholeMem _ (by sl_whole_mem) y
theorem scoverA_2 (hc0 : cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) (y : S256x64.Idx) :
    ∃ pc ∈ (runA c t hc0 hc1 hc2 x0 x1 x2).2.2.1, y ∈ pc.1.set :=
  View.cover_of_wholeMem _ (by sl_whole_mem) y
theorem scoverB_2 (hc0 : ¬cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) (s : Scr F) (y : S256x64.Idx) :
    ∃ pc ∈ (runB c t hc0 hc1 hc2 x0 x1 x2 s).2.2.1, y ∈ pc.1.set :=
  View.cover_of_wholeMem _ (by sl_whole_mem) y
theorem scoverD_2 (hc0 : ¬cond1_0 (grid1.coords t)) (hc1 : cond1_1 (grid1.coords t)) (hc2 : cond1_2 (grid1.coords t)) (x0 : Vec F S1x256x128 .bf16) (x1 : Vec F S1x256x128 .bf16) (x2 : Vec F S1x256x128 .bf16) (s : Scr F) (y : S256x64.Idx) :
    ∃ pc ∈ (runD c t hc0 hc1 hc2 x0 x1 x2 s).2.2.2.1, y ∈ pc.1.set :=
  View.cover_of_wholeMem _ (by sl_whole_mem) y
theorem scoverA_3 (hc0 : cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) (y : S256x1.Idx) :
    ∃ pc ∈ (runA c t hc0 hc1 hc2 x0 x1 x2).2.2.2.1, y ∈ pc.1.set :=
  View.cover_of_wholeMem _ (by sl_whole_mem) y
theorem scoverB_3 (hc0 : ¬cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) (s : Scr F) (y : S256x1.Idx) :
    ∃ pc ∈ (runB c t hc0 hc1 hc2 x0 x1 x2 s).2.2.2.1, y ∈ pc.1.set :=
  View.cover_of_wholeMem _ (by sl_whole_mem) y
theorem scoverD_3 (hc0 : ¬cond1_0 (grid1.coords t)) (hc1 : cond1_1 (grid1.coords t)) (hc2 : cond1_2 (grid1.coords t)) (x0 : Vec F S1x256x128 .bf16) (x1 : Vec F S1x256x128 .bf16) (x2 : Vec F S1x256x128 .bf16) (s : Scr F) (y : S256x1.Idx) :
    ∃ pc ∈ (runD c t hc0 hc1 hc2 x0 x1 x2 s).2.2.2.2.1, y ∈ pc.1.set :=
  View.cover_of_wholeMem _ (by sl_whole_mem) y
theorem scoverA_4 (hc0 : cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) (y : S256x1.Idx) :
    ∃ pc ∈ (runA c t hc0 hc1 hc2 x0 x1 x2).2.2.2.2.1, y ∈ pc.1.set :=
  View.cover_of_wholeMem _ (by sl_whole_mem) y
theorem scoverB_4 (hc0 : ¬cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) (s : Scr F) (y : S256x1.Idx) :
    ∃ pc ∈ (runB c t hc0 hc1 hc2 x0 x1 x2 s).2.2.2.2.1, y ∈ pc.1.set :=
  View.cover_of_wholeMem _ (by sl_whole_mem) y
theorem scoverD_4 (hc0 : ¬cond1_0 (grid1.coords t)) (hc1 : cond1_1 (grid1.coords t)) (hc2 : cond1_2 (grid1.coords t)) (x0 : Vec F S1x256x128 .bf16) (x1 : Vec F S1x256x128 .bf16) (x2 : Vec F S1x256x128 .bf16) (s : Scr F) (y : S256x1.Idx) :
    ∃ pc ∈ (runD c t hc0 hc1 hc2 x0 x1 x2 s).2.2.2.2.2.1, y ∈ pc.1.set :=
  View.cover_of_wholeMem _ (by sl_whole_mem) y
theorem scoverA_5 (hc0 : cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) (y : S256x64.Idx) :
    ∃ pc ∈ (runA c t hc0 hc1 hc2 x0 x1 x2).2.2.2.2.2.1, y ∈ pc.1.set :=
  View.cover_of_wholeMem _ (by sl_whole_mem) y
theorem scoverB_5 (hc0 : ¬cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) (s : Scr F) (y : S256x64.Idx) :
    ∃ pc ∈ (runB c t hc0 hc1 hc2 x0 x1 x2 s).2.2.2.2.2.1, y ∈ pc.1.set :=
  View.cover_of_wholeMem _ (by sl_whole_mem) y
theorem scoverD_5 (hc0 : ¬cond1_0 (grid1.coords t)) (hc1 : cond1_1 (grid1.coords t)) (hc2 : cond1_2 (grid1.coords t)) (x0 : Vec F S1x256x128 .bf16) (x1 : Vec F S1x256x128 .bf16) (x2 : Vec F S1x256x128 .bf16) (s : Scr F) (y : S256x64.Idx) :
    ∃ pc ∈ (runD c t hc0 hc1 hc2 x0 x1 x2 s).2.2.2.2.2.2.1, y ∈ pc.1.set :=
  View.cover_of_wholeMem _ (by sl_whole_mem) y
theorem coverD_3 (hc0 : ¬cond1_0 (grid1.coords t)) (hc1 : cond1_1 (grid1.coords t)) (hc2 : cond1_2 (grid1.coords t)) (x0 : Vec F S1x256x128 .bf16) (x1 : Vec F S1x256x128 .bf16) (x2 : Vec F S1x256x128 .bf16) (s : Scr F) (y : S1x256x128.Idx) :
    ∃ pc ∈ (runD c t hc0 hc1 hc2 x0 x1 x2 s).1, y ∈ pc.1.set :=
  View.cover_of_tiledL (runD c t hc0 hc1 hc2 x0 x1 x2 s).1 (fun a => S1x256x64.size a) (by sl_kernel_rfl) y
theorem coverE_3 (hc0 : ¬cond1_0 (grid1.coords t)) (hc1 : ¬cond1_1 (grid1.coords t)) (hc2 : cond1_2 (grid1.coords t)) (x0 : Vec F S1x256x128 .bf16) (x1 : Vec F S1x256x128 .bf16) (x2 : Vec F S1x256x128 .bf16) (s : Scr F) (y : S1x256x128.Idx) :
    ∃ pc ∈ (runE c t hc0 hc1 hc2 x0 x1 x2 s).1, y ∈ pc.1.set :=
  View.cover_of_tiledL (runE c t hc0 hc1 hc2 x0 x1 x2 s).1 (fun a => S1x256x64.size a) (by sl_kernel_rfl) y

end AtPoint

end Cert.Kernel.Hand

end
-- ==== Proof.KRegion1Dat.lean ====
/-
  Region 1 (the attention kernel) — the accumulation over the grid and the proof data.

  `outsAt1 n` is what the output's staging buffer and the six scratch buffers hold after the body at position n of
  the row-major walk over (b, hp, qi, kt): with kt = n % 8 and qi = (n / 8) % 8, the first tile of a row block
  (kt = 0) restarts the statistics from the tile alone; a later tile on or below the diagonal (kt ≤ qi) updates what
  the point before left; a tile above the diagonal leaves the statistics alone; and at kt = 7 the output block is
  the quotient of the numerators by the sums, computed from the statistics as they then stand.
-/
import proofs.«151496_j75222057222809_2_alg».proof.Proof.KRegion1Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The conditions at a point, from arithmetic on its position -/

theorem c0_of (t : Fin cfg1.N) (h : t.val % 8 = 0) : cond1_0 (grid1.coords t) := (hcond1_0 t).mpr h
theorem nc0_of (t : Fin cfg1.N) (h : ¬t.val % 8 = 0) : ¬cond1_0 (grid1.coords t) := fun hc => h ((hcond1_0 t).mp hc)
theorem c1_of (t : Fin cfg1.N) (h : t.val % 8 ≤ t.val / 8 % 8) : cond1_1 (grid1.coords t) := (hcond1_1 t).mpr h
theorem nc1_of (t : Fin cfg1.N) (h : ¬t.val % 8 ≤ t.val / 8 % 8) : ¬cond1_1 (grid1.coords t) := fun hc => h ((hcond1_1 t).mp hc)
theorem c2_of (t : Fin cfg1.N) (h : t.val % 8 = 7) : cond1_2 (grid1.coords t) := (hcond1_2 t).mpr h
theorem nc2_of (t : Fin cfg1.N) (h : ¬t.val % 8 = 7) : ¬cond1_2 (grid1.coords t) := fun hc => h ((hcond1_2 t).mp hc)

/-! ## What the buffers hold after each point -/

/-- THE ACCUMULATION: the output's staging buffer and the six statistics after the body at position `n`. -/
def outsAt1 (c : Dev nD) : (n : ℕ) → n < cfg1.N → Vec F S1x256x128 .bf16 × Scr F
  | 0, hn => (junkOut, scA c ⟨0, hn⟩ (c0_of _ (show 0 % 8 = 0 by decide)) (c1_of _ (show 0 % 8 ≤ 0 / 8 % 8 by decide)) (nc2_of _ (show ¬0 % 8 = 7 by decide)) (iblk1 V c 0 ⟨0, hn⟩) (iblk1 V c 1 ⟨0, hn⟩) (iblk1 V c 2 ⟨0, hn⟩))
  | n + 1, hn =>
    if h0 : (n + 1) % 8 = 0 then
      (junkOut, scA c ⟨n + 1, hn⟩ (c0_of _ h0) (c1_of _ (show (n + 1) % 8 ≤ (n + 1) / 8 % 8 by omega)) (nc2_of _ (show ¬(n + 1) % 8 = 7 by omega)) (iblk1 V c 0 ⟨n + 1, hn⟩) (iblk1 V c 1 ⟨n + 1, hn⟩) (iblk1 V c 2 ⟨n + 1, hn⟩))
    else if h1 : (n + 1) % 8 ≤ (n + 1) / 8 % 8 then
      if h2 : (n + 1) % 8 = 7 then
        (outD c ⟨n + 1, hn⟩ (nc0_of _ h0) (c1_of _ h1) (c2_of _ h2) (iblk1 V c 0 ⟨n + 1, hn⟩) (iblk1 V c 1 ⟨n + 1, hn⟩) (iblk1 V c 2 ⟨n + 1, hn⟩) (outsAt1 c n (Nat.lt_of_succ_lt hn)).2,
         scD c ⟨n + 1, hn⟩ (nc0_of _ h0) (c1_of _ h1) (c2_of _ h2) (iblk1 V c 0 ⟨n + 1, hn⟩) (iblk1 V c 1 ⟨n + 1, hn⟩) (iblk1 V c 2 ⟨n + 1, hn⟩) (outsAt1 c n (Nat.lt_of_succ_lt hn)).2)
      else
        (junkOut, scB c ⟨n + 1, hn⟩ (nc0_of _ h0) (c1_of _ h1) (nc2_of _ h2) (iblk1 V c 0 ⟨n + 1, hn⟩) (iblk1 V c 1 ⟨n + 1, hn⟩) (iblk1 V c 2 ⟨n + 1, hn⟩) (outsAt1 c n (Nat.lt_of_succ_lt hn)).2)
    else
      if h2 : (n + 1) % 8 = 7 then
        (outE c ⟨n + 1, hn⟩ (nc0_of _ h0) (nc1_of _ h1) (c2_of _ h2) (iblk1 V c 0 ⟨n + 1, hn⟩) (iblk1 V c 1 ⟨n + 1, hn⟩) (iblk1 V c 2 ⟨n + 1, hn⟩) (outsAt1 c n (Nat.lt_of_succ_lt hn)).2,
         (outsAt1 c n (Nat.lt_of_succ_lt hn)).2)
      else
        (junkOut, (outsAt1 c n (Nat.lt_of_succ_lt hn)).2)

/-- The point before `t`, for a point that is not the first. -/
abbrev prevLt (t : Fin cfg1.N) : t.val - 1 < cfg1.N := Nat.lt_of_le_of_lt (Nat.sub_le _ _) t.isLt

/-- At the first tile of a row block. -/
theorem outsAt1_A (c : Dev nD) (t : Fin cfg1.N) (h0 : t.val % 8 = 0) :
    outsAt1 V c t.val t.isLt = (junkOut, scA c t (c0_of t h0) (c1_of t (by omega)) (nc2_of t (by omega)) (iblk1 V c 0 t) (iblk1 V c 1 t) (iblk1 V c 2 t)) := by
  obtain ⟨n, hn⟩ := t
  cases n with
  | zero => rfl
  | succ n => exact (dif_pos h0).trans rfl

/-- At a later tile on or below the diagonal, not the last. -/
theorem outsAt1_B (c : Dev nD) (t : Fin cfg1.N) (h0 : ¬t.val % 8 = 0) (h1 : t.val % 8 ≤ t.val / 8 % 8) (h2 : ¬t.val % 8 = 7) :
    outsAt1 V c t.val t.isLt = (junkOut, scB c t (nc0_of t h0) (c1_of t h1) (nc2_of t h2) (iblk1 V c 0 t) (iblk1 V c 1 t) (iblk1 V c 2 t) (outsAt1 V c (t.val - 1) (prevLt t)).2) := by
  obtain ⟨n, hn⟩ := t
  cases n with
  | zero => exact absurd (Nat.zero_mod _) h0
  | succ n => exact (dif_neg h0).trans ((dif_pos h1).trans ((dif_neg h2).trans rfl))

/-- At a tile above the diagonal, not the last. -/
theorem outsAt1_C (c : Dev nD) (t : Fin cfg1.N) (h0 : ¬t.val % 8 = 0) (h1 : ¬t.val % 8 ≤ t.val / 8 % 8) (h2 : ¬t.val % 8 = 7) :
    outsAt1 V c t.val t.isLt = (junkOut, (outsAt1 V c (t.val - 1) (prevLt t)).2) := by
  obtain ⟨n, hn⟩ := t
  cases n with
  | zero => exact absurd (Nat.zero_mod _) h0
  | succ n => exact (dif_neg h0).trans ((dif_neg h1).trans ((dif_neg h2).trans rfl))

/-- At the diagonal tile of the last row block. -/
theorem outsAt1_D (c : Dev nD) (t : Fin cfg1.N) (h0 : ¬t.val % 8 = 0) (h1 : t.val % 8 ≤ t.val / 8 % 8) (h2 : t.val % 8 = 7) :
    outsAt1 V c t.val t.isLt = (outD c t (nc0_of t h0) (c1_of t h1) (c2_of t h2) (iblk1 V c 0 t) (iblk1 V c 1 t) (iblk1 V c 2 t) (outsAt1 V c (t.val - 1) (prevLt t)).2,
      scD c t (nc0_of t h0) (c1_of t h1) (c2_of t h2) (iblk1 V c 0 t) (iblk1 V c 1 t) (iblk1 V c 2 t) (outsAt1 V c (t.val - 1) (prevLt t)).2) := by
  obtain ⟨n, hn⟩ := t
  cases n with
  | zero => exact absurd (Nat.zero_mod _) h0
  | succ n => exact (dif_neg h0).trans ((dif_pos h1).trans ((dif_pos h2).trans rfl))

/-- At the last tile of an earlier row block (above the diagonal). -/
theorem outsAt1_E (c : Dev nD) (t : Fin cfg1.N) (h0 : ¬t.val % 8 = 0) (h1 : ¬t.val % 8 ≤ t.val / 8 % 8) (h2 : t.val % 8 = 7) :
    outsAt1 V c t.val t.isLt = (outE c t (nc0_of t h0) (nc1_of t h1) (c2_of t h2) (iblk1 V c 0 t) (iblk1 V c 1 t) (iblk1 V c 2 t) (outsAt1 V c (t.val - 1) (prevLt t)).2,
      (outsAt1 V c (t.val - 1) (prevLt t)).2) := by
  obtain ⟨n, hn⟩ := t
  cases n with
  | zero => exact absurd (Nat.zero_mod _) h0
  | succ n => exact (dif_neg h0).trans ((dif_neg h1).trans ((dif_pos h2).trans rfl))

/-! ## The region's invariant -/

/-- Before position `n`: at the first point the class invariant (every scoped buffer that is no staging buffer of this
    kernel at anything); afterwards the six scratch buffers at the statistics the point before left, the other
    scoped buffers at anything, the generator register at some state. -/
def PhiS (c : Dev nD) : (n : ℕ) → n ≤ cfg1.N → sProp 𝕄
  | 0, _ => Pipeline.ΦA spec1 c
  | n + 1, hn => iprop(scrAt c (outsAt1 V c n hn).2 ∗ rest14 c ∗ ∃ r, prngReg c r)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(scrAt c (outsAt1 V c n hn).2 ∗ rest14 c ∗ ∃ r, prngReg c r) := rfl

theorem PhiS_pos (c : Dev nD) (n : ℕ) (h : n ≤ cfg1.N) (hz : n ≠ 0) :
    PhiS V c n h = iprop(scrAt c (outsAt1 V c (n - 1) (by omega)).2 ∗ rest14 c ∗ ∃ r, prngReg c r) := by
  cases n with
  | zero => exact absurd rfl hz
  | succ n => rfl

/-! ## The proof data -/

/-- The proof data of the attention pipeline on core `c`: the arrays as the region finds them; after the body at point
    `t` each input's buffer at its block and the output's at `outsAt1`'s first component; the invariant `PhiS`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- An input's buffer is handed back holding its block. -/
theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]

/-- Before any point the invariant owns the scratch buffers at something, the other scoped buffers and the register. -/
theorem Phi_any (c : Dev nD) (t : Fin cfg1.N) :
    (dat1 V c).Φ t.castSucc ⊢ iprop(scrAny c ∗ rest14 c ∗ ∃ r, prngReg c r) := by
  rw [PhiS_castSucc]
  by_cases hz : t.val = 0
  · rw [PhiS_zero V c _ _ hz]; exact PhiA1_open c
  · rw [PhiS_pos V c _ _ hz]
    iintro ⟨HS, Hr, Hg⟩
    isplitl [HS]; · iapply scrAt_any c; iexact HS
    isplitl [Hr]; · iexact Hr
    iexact Hg

/-! ## The body obligation's two sides at a point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

end Cert.Kernel.Hand

end
-- ==== Proof.KRegion1.lean ====
/-
  Region 1 (the attention kernel) — the body obligation.

  At every grid point the body, handed the invariant, the three input blocks in their staging buffers and the
  output's staging buffer, runs to the end and hands back the invariant at the next point and the four buffers:
  the inputs as they were; the output untouched where it is idle (kt ≠ 7) and holding the finished block where it
  is not; the scratch buffers at the statistics after this point. One lemma per control case; the cases are told
  apart by kt = t % 8 and qi = (t / 8) % 8, and every point is in exactly one.
-/
import proofs.«151496_j75222057222809_2_alg».proof.Proof.KRegion1Dat

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case C in the form the obligation uses: the body does nothing, so it runs from its own postcondition. -/
theorem kernelRun1_C' (c : Dev nD) (i : grid1.Coords) (arg4 : Memref sig .tc .vmem S1x256x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S256x1 .f32) (harg8 : arg8.IsWhole) (arg9 : Memref sig .tc .vmem S256x1 .f32) (harg9 : arg9.IsWhole) (arg10 : Memref sig .tc .vmem S256x64 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x64 .f32) (harg13 : arg13.IsWhole) (hc0 : ¬cond1_0 i) (hc1 : ¬cond1_1 i) (hc2 : ¬cond1_2 i)
    (E : Set ℕ) (K : PUnit → sProp 𝕄) :
    (K ⟨⟩ : sProp 𝕄) ⊢ wp frame (wpE (defs₀ (F := F)) Variants.none c none) E (cc1__attn_kernel i arg4 harg4 arg5 harg5 arg6 harg6 arg7 harg7 arg8 harg8 arg9 harg9 arg10 harg10 arg11 harg11 arg12 harg12 arg13 harg13) K :=
  (show (K ⟨⟩ : sProp 𝕄) ⊢ iprop(K ⟨⟩ ∗ (K ⟨⟩ -∗ K ⟨⟩)) from by
    iintro H; isplitl [H]; · iexact H
    iintro H; iexact H).trans
    (kernelRun1_C c i arg4 harg4 arg5 harg5 arg6 harg6 arg7 harg7 arg8 harg8 arg9 harg9 arg10 harg10 arg11 harg11 arg12 harg12 arg13 harg13 hc0 hc1 hc2 (K ⟨⟩) E K)

set_option maxHeartbeats 4000000 in
/-- The first tile of a row block (kt = 0). -/
theorem sound_body1_A (c : Dev nD) (t : Fin cfg1.N) (h0 : t.val % 8 = 0) : bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  rw [Dat.leavesExact_idle (dat1 V c) 3 t (idleAt1_3 t (by omega)) (noFlush1_3 t (by omega))]
  rw [outsAt1_A V c t h0]
  dsimp only
  iintro ⟨HΦ, Ho, ⟨%d0, H0⟩, ⟨%d1, H1⟩, ⟨%d2, H2⟩, ⟨%d3, H3⟩⟩
  ihave HΦ' := Phi_any V c t $$ HΦ
  unfold scrAny
  icases HΦ' with ⟨⟨HS0, HS1, HS2, HS3, HS4, HS5⟩, Hr, Hg⟩
  iapply ((runA c t (c0_of t h0) (c1_of t (by omega)) (nc2_of t (by omega)) (iblk1 V c 0 t) (iblk1 V c 1 t) (iblk1 V c 2 t)).2.2.2.2.2.2 _ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, ⟨%e0, HS0⟩, ⟨%e1, HS1⟩, ⟨%e2, HS2⟩, ⟨%e3, HS3⟩, ⟨%e4, HS4⟩, ⟨%e5, HS5⟩⟩
  isplitl [HS0 HS1 HS2 HS3 HS4 HS5 Hr Hg]
  · isplitl [HS0 HS1 HS2 HS3 HS4 HS5]
    · unfold scrAt scA readBack; dsimp only
      isplitl [HS0]
      · unfold owns; iexists _; isplitr
        swap; · iexact HS0
        ipureintro; exact View.read_writes_of_cover _ _ _ _ _ (scoverA_0 c t _ _ _ _ _ _)
      isplitl [HS1]
      · unfold owns; iexists _; isplitr
        swap; · iexact HS1
        ipureintro; exact View.read_writes_of_cover _ _ _ _ _ (scoverA_1 c t _ _ _ _ _ _)
      isplitl [HS2]
      · unfold owns; iexists _; isplitr
        swap; · iexact HS2
        ipureintro; exact View.read_writes_of_cover _ _ _ _ _ (scoverA_2 c t _ _ _ _ _ _)
      isplitl [HS3]
      · unfold owns; iexists _; isplitr
        swap; · iexact HS3
        ipureintro; exact View.read_writes_of_cover _ _ _ _ _ (scoverA_3 c t _ _ _ _ _ _)
      isplitl [HS4]
      · unfold owns; iexists _; isplitr
        swap; · iexact HS4
        ipureintro; exact View.read_writes_of_cover _ _ _ _ _ (scoverA_4 c t _ _ _ _ _ _)
      unfold owns; iexists _; isplitr
      swap; · iexact HS5
      ipureintro; exact View.read_writes_of_cover _ _ _ _ _ (scoverA_5 c t _ _ _ _ _ _)
    isplitl [Hr]; · iexact Hr
    iexact Hg
  isplitl [Ho]; · iexact Ho
  isplitl [H0]; · iexact H0
  isplitl [H1]; · iexact H1
  isplitl [H2]; · iexact H2
  iexists _; iexact H3

set_option maxHeartbeats 4000000 in
/-- A later tile on or below the diagonal, not the last (0 < kt ≤ qi, kt < 7). -/
theorem sound_body1_B (c : Dev nD) (t : Fin cfg1.N) (h0 : ¬t.val % 8 = 0) (h1 : t.val % 8 ≤ t.val / 8 % 8) (h2 : ¬t.val % 8 = 7) : bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  rw [Dat.leavesExact_idle (dat1 V c) 3 t (idleAt1_3 t (by omega)) (noFlush1_3 t (by omega))]
  rw [outsAt1_B V c t h0 h1 h2]
  dsimp only
  rw [PhiS_castSucc, PhiS_pos V c _ _ (by omega)]
  unfold scrAt
  iintro ⟨⟨⟨HS0, HS1, HS2, HS3, HS4, HS5⟩, Hr, Hg⟩, Ho, ⟨%d0, H0⟩, ⟨%d1, H1⟩, ⟨%d2, H2⟩, ⟨%d3, H3⟩⟩
  iapply ((runB c t (nc0_of t h0) (c1_of t h1) (nc2_of t h2) (iblk1 V c 0 t) (iblk1 V c 1 t) (iblk1 V c 2 t) (outsAt1 V c (t.val - 1) (prevLt t)).2).2.2.2.2.2.2 _ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, ⟨%e0, HS0⟩, ⟨%e1, HS1⟩, ⟨%e2, HS2⟩, ⟨%e3, HS3⟩, ⟨%e4, HS4⟩, ⟨%e5, HS5⟩⟩
  isplitl [HS0 HS1 HS2 HS3 HS4 HS5 Hr Hg]
  · isplitl [HS0 HS1 HS2 HS3 HS4 HS5]
    · unfold scB readBack; dsimp only
      isplitl [HS0]
      · unfold owns; iexists _; isplitr
        swap; · iexact HS0
        ipureintro; exact View.read_writes_of_cover _ _ _ _ _ (scoverB_0 c t _ _ _ _ _ _ _)
      isplitl [HS1]
      · unfold owns; iexists _; isplitr
        swap; · iexact HS1
        ipureintro; exact View.read_writes_of_cover _ _ _ _ _ (scoverB_1 c t _ _ _ _ _ _ _)
      isplitl [HS2]
      · unfold owns; iexists _; isplitr
        swap; · iexact HS2
        ipureintro; exact View.read_writes_of_cover _ _ _ _ _ (scoverB_2 c t _ _ _ _ _ _ _)
      isplitl [HS3]
      · unfold owns; iexists _; isplitr
        swap; · iexact HS3
        ipureintro; exact View.read_writes_of_cover _ _ _ _ _ (scoverB_3 c t _ _ _ _ _ _ _)
      isplitl [HS4]
      · unfold owns; iexists _; isplitr
        swap; · iexact HS4
        ipureintro; exact View.read_writes_of_cover _ _ _ _ _ (scoverB_4 c t _ _ _ _ _ _ _)
      unfold owns; iexists _; isplitr
      swap; · iexact HS5
      ipureintro; exact View.read_writes_of_cover _ _ _ _ _ (scoverB_5 c t _ _ _ _ _ _ _)
    isplitl [Hr]; · iexact Hr
    iexact Hg
  isplitl [Ho]; · iexact Ho
  isplitl [H0]; · iexact H0
  isplitl [H1]; · iexact H1
  isplitl [H2]; · iexact H2
  iexists _; iexact H3

set_option maxHeartbeats 4000000 in
/-- A tile above the diagonal, not the last (kt > qi, kt < 7): nothing happens. -/
theorem sound_body1_C (c : Dev nD) (t : Fin cfg1.N) (h0 : ¬t.val % 8 = 0) (h1 : ¬t.val % 8 ≤ t.val / 8 % 8) (h2 : ¬t.val % 8 = 7) : bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  rw [Dat.leavesExact_idle (dat1 V c) 3 t (idleAt1_3 t (by omega)) (noFlush1_3 t (by omega))]
  rw [outsAt1_C V c t h0 h1 h2]
  dsimp only
  rw [PhiS_castSucc, PhiS_pos V c _ _ (by omega)]
  iintro ⟨HΦ, Ho, ⟨%d0, H0⟩, ⟨%d1, H1⟩, ⟨%d2, H2⟩, ⟨%d3, H3⟩⟩
  iapply (kernelRun1_C' c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) (nc0_of t h0) (nc1_of t h1) (nc2_of t h2) Set.univ _)
  isplitl [HΦ]; · iexact HΦ
  isplitl [Ho]; · iexact Ho
  isplitl [H0]; · iexact H0
  isplitl [H1]; · iexact H1
  isplitl [H2]; · iexact H2
  iexists _; iexact H3

set_option maxHeartbeats 4000000 in
/-- The diagonal tile of the last row block (kt = qi = 7). -/
theorem sound_body1_D (c : Dev nD) (t : Fin cfg1.N) (h0 : ¬t.val % 8 = 0) (h1 : t.val % 8 ≤ t.val / 8 % 8) (h2 : t.val % 8 = 7) : bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  rw [show (dat1 V c).leavesExact 3 t = owns (c : Thread nD τ) (ms1_3 t) fullShare ((dat1 V c).after 3 t) from by
    unfold Dat.leavesExact; rw [liveAt1_3 t h2], after1_3]
  rw [outsAt1_D V c t h0 h1 h2]
  dsimp only
  rw [PhiS_castSucc, PhiS_pos V c _ _ (by omega)]
  unfold scrAt
  iintro ⟨⟨⟨HS0, HS1, HS2, HS3, HS4, HS5⟩, Hr, Hg⟩, Ho, ⟨%d0, H0⟩, ⟨%d1, H1⟩, ⟨%d2, H2⟩, ⟨%d3, H3⟩⟩
  iapply ((runD c t (nc0_of t h0) (c1_of t h1) (c2_of t h2) (iblk1 V c 0 t) (iblk1 V c 1 t) (iblk1 V c 2 t) (outsAt1 V c (t.val - 1) (prevLt t)).2).2.2.2.2.2.2.2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, ⟨%e3, H3⟩, ⟨%e0, HS0⟩, ⟨%e1, HS1⟩, ⟨%e2, HS2⟩, ⟨%e3', HS3⟩, ⟨%e4, HS4⟩, ⟨%e5, HS5⟩⟩
  isplitl [HS0 HS1 HS2 HS3 HS4 HS5 Hr Hg]
  · isplitl [HS0 HS1 HS2 HS3 HS4 HS5]
    · unfold scD readBack; dsimp only
      isplitl [HS0]
      · unfold owns; iexists _; isplitr
        swap; · iexact HS0
        ipureintro; exact View.read_writes_of_cover _ _ _ _ _ (scoverD_0 c t _ _ _ _ _ _ _)
      isplitl [HS1]
      · unfold owns; iexists _; isplitr
        swap; · iexact HS1
        ipureintro; exact View.read_writes_of_cover _ _ _ _ _ (scoverD_1 c t _ _ _ _ _ _ _)
      isplitl [HS2]
      · unfold owns; iexists _; isplitr
        swap; · iexact HS2
        ipureintro; exact View.read_writes_of_cover _ _ _ _ _ (scoverD_2 c t _ _ _ _ _ _ _)
      isplitl [HS3]
      · unfold owns; iexists _; isplitr
        swap; · iexact HS3
        ipureintro; exact View.read_writes_of_cover _ _ _ _ _ (scoverD_3 c t _ _ _ _ _ _ _)
      isplitl [HS4]
      · unfold owns; iexists _; isplitr
        swap; · iexact HS4
        ipureintro; exact View.read_writes_of_cover _ _ _ _ _ (scoverD_4 c t _ _ _ _ _ _ _)
      unfold owns; iexists _; isplitr
      swap; · iexact HS5
      ipureintro; exact View.read_writes_of_cover _ _ _ _ _ (scoverD_5 c t _ _ _ _ _ _ _)
    isplitl [Hr]; · iexact Hr
    iexact Hg
  isplitl [Ho]; · iexact Ho
  isplitl [H0]; · iexact H0
  isplitl [H1]; · iexact H1
  isplitl [H2]; · iexact H2
  unfold outD readBack owns; iexists _; isplitr
  swap; · iexact H3
  ipureintro; exact View.read_writes_of_cover _ _ _ _ _ (coverD_3 c t _ _ _ _ _ _ _)

set_option maxHeartbeats 4000000 in
/-- The last tile of an earlier row block (kt = 7 > qi): the output block is written, the statistics stay. -/
theorem sound_body1_E (c : Dev nD) (t : Fin cfg1.N) (h0 : ¬t.val % 8 = 0) (h1 : ¬t.val % 8 ≤ t.val / 8 % 8) (h2 : t.val % 8 = 7) : bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  rw [show (dat1 V c).leavesExact 3 t = owns (c : Thread nD τ) (ms1_3 t) fullShare ((dat1 V c).after 3 t) from by
    unfold Dat.leavesExact; rw [liveAt1_3 t h2], after1_3]
  rw [outsAt1_E V c t h0 h1 h2]
  dsimp only
  rw [PhiS_castSucc, PhiS_pos V c _ _ (by omega)]
  unfold scrAt
  iintro ⟨⟨⟨HS0, HS1, HS2, HS3, HS4, HS5⟩, Hr, Hg⟩, Ho, ⟨%d0, H0⟩, ⟨%d1, H1⟩, ⟨%d2, H2⟩, ⟨%d3, H3⟩⟩
  iapply ((runE c t (nc0_of t h0) (nc1_of t h1) (c2_of t h2) (iblk1 V c 0 t) (iblk1 V c 1 t) (iblk1 V c 2 t) (outsAt1 V c (t.val - 1) (prevLt t)).2).2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, ⟨%e3, H3⟩, HS0, HS1, HS2, HS3, HS4, HS5⟩
  isplitl [HS0 HS1 HS2 HS3 HS4 HS5 Hr Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    isplitl [Hr]; · iexact Hr
    iexact Hg
  isplitl [Ho]; · iexact Ho
  isplitl [H0]; · iexact H0
  isplitl [H1]; · iexact H1
  isplitl [H2]; · iexact H2
  unfold outE readBack owns; iexists _; isplitr
  swap; · iexact H3
  ipureintro; exact View.read_writes_of_cover _ _ _ _ _ (coverE_3 c t _ _ _ _ _ _ _)

/-- The body at any point: every point is in exactly one of the five cases. -/
theorem sound_body1 (c : Dev nD) (t : Fin cfg1.N) : bodyPre1 V c t ⊢ wp frame (wpE (defs₀ (F := F)) Variants.none c none) Set.univ (bodyAt1 t) (fun _ => bodyPost1 V c t) := by
  by_cases h0 : t.val % 8 = 0
  · exact sound_body1_A V c t h0
  · by_cases h1 : t.val % 8 ≤ t.val / 8 % 8
    · by_cases h2 : t.val % 8 = 7
      · exact sound_body1_D V c t h0 h1 h2
      · exact sound_body1_B V c t h0 h1 h2
    · by_cases h2 : t.val % 8 = 7
      · exact sound_body1_E V c t h0 h1 h2
      · exact sound_body1_C V c t h0 h1 h2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After the last point the invariant gives the class invariant back: the statistics' values are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 2048 := N_1; omega)]
  refine .trans ?_ (PhiA1_close c)
  iintro ⟨HS, Hr, Hg⟩
  isplitl [HS]; · iapply scrAt_any c; iexact HS
  isplitl [Hr]; · iexact Hr
  iexact Hg

end Cert.Kernel.Hand

end
-- ==== Proof.KRegion2.lean ====
/- The body half of the third pipeline of @main (the output projection, attn_out · w_projᵀ, on a 4×4 grid), at a
   PARAMETER `V` — the TensorCore's buffer contents when the region is entered. Each window's block at a grid point
   (`iblk2`); that each input window's staging buffer holds its block at every point, fetched there or not — the
   weight window, whose block index never moves, is fetched at the first point only —; what the body leaves in the
   output window's staging buffer as a closed function of the two input blocks (`out2_2`: its one store, which
   covers the buffer); the body's triple on whole staging memrefs (`sound_kernel2`: the output's buffer is read
   before it is overwritten, so it is taken at any contents); the proof data (`dat2`) and the body obligation at
   every grid point (`body_obligation2`). The matrix product stays inside the payload `k2_pay1`. -/
import proofs.«151496_j75222057222809_2_alg».proof.Proof.Gen.Kernel.Launch
import proofs.«151496_j75222057222809_2_alg».proof.Proof.Gen.Kernel.Skeleton
import proofs.«151496_j75222057222809_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # The output projection: custom_call 2, `cc2__proj_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): unfetched, the block index
    has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the weight: one block, the whole array, fetched at the first point only) likewise: at every later
    point the buffer still holds the first point's block, which is that point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S1x512x1024 := Rect.unit (s := S1x512x1024) ![0, 0, 0] S1x512x1024.size inb_S1x512x1024_S1x512x1024_0_0_0
abbrev r2_1 : Rect S1024x1024 := Rect.unit (s := S1024x1024) ![0, 0] S1024x1024.size inb_S1024x1024_S1024x1024_0_0

/-! ## What the body leaves in the output window's buffer -/

/-- Window 2's staging buffer after the body, from the input windows' blocks: its 1 store as a piece (the payload is
    the skeleton's: the product of the activation block with the transposed weight, reshaped). -/
def out2_2 (x0 : Vec F S1x512x1024 .bf16) (x1 : Vec F S1024x1024 .bf16) : Vec F S1x512x1024 .f32 :=
  View.canon [⟨r2_0, k2_pay1 (View.ld x0 r2_0) (View.ld x1 r2_1)⟩]

/-- Its store tiles the buffer (checked by evaluation), so it covers it. -/
theorem cover2_2 (p0 : Vec F S1x512x1024 .f32) (y : S1x512x1024.Idx) :
    ∃ pc ∈ ([⟨r2_0, p0⟩] : List (View.Piece (Elt F) S1x512x1024 .f32)), y ∈ pc.1.set :=
  View.cover_of_tiled [⟨r2_0, p0⟩] S1x512x1024.size (by rfl) y

/-! ## The body's triple -/

set_option maxHeartbeats 1000000 in
/-- The kernel body on whole staging memrefs, the inputs' at read contents `xW` and the output's at anything, runs to
    the continuation holding the inputs' as they were and the output's at `out2_2` of the inputs': the printed function
    is its skeleton, which is run statement by statement. -/
theorem sound_kernel2 (c : Dev nD) (E : Set ℕ) (i : grid2.Coords) (arg2 : Memref sig .tc .vmem S1x512x1024 .bf16) (harg2 : arg2.IsWhole) (arg3 : Memref sig .tc .vmem S1024x1024 .bf16) (harg3 : arg3.IsWhole) (arg4 : Memref sig .tc .vmem S1x512x1024 .f32) (harg4 : arg4.IsWhole)
    (x0 : Vec F S1x512x1024 .bf16) (x1 : Vec F S1024x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2__proj_kernel i arg2 harg2 arg3 harg3 arg4 harg4) K := by
  simp only [cc2__proj_kernel_eq_skeleton]; unfold cc2__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at
    point `t` each input's buffer at its block and the output's at `out2_2` of the input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents (the proof data's definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRun.lean ====
/-
  THE RUN of @main over its three kernel regions, at any float instance.

  @main is two host conversions (each weight array truncated to bf16) followed by three kernel regions with no host
  operation between or after them: the q/k/v projection, the causal attention, the output projection. Given each
  region's proof data at a parameter `V` (the buffer contents the region is entered from), this module

  * writes the contents of every unscoped buffer at each boundary of @main as a fold from the launch memory:
    `W0` the launch, `W1` after the host conversions, and `W2`, `W3`, `W4` after regions 0, 1, 2 — a region's
    arrays at what its pipeline leaves (an input as entered, an output with every write-back folded in point order),
    every other buffer as the region found it;
  * reads each argument array back through the fold to its launch contents (no host operation writes one, and a
    region either bypasses it or reads it through an input window);
  * presents each region as a segment over the thread state "every unscoped buffer whole at the boundary's contents,
    the generator register at some state, nothing owed", and @main as the list of its four segments;
  * concludes `run_all`: from any memory with zero counters every weakly fair execution of @main terminates, nothing
    faulting, and every final state holds EVERY unscoped buffer at `W4` — whence `frame` (the three arguments end
    as launched), `result` (the result array ends at what region 2's pipeline leaves in its output window) and
    `run_value` (the two together).

  Regions 0 and 2 keep one invariant at every point (the scoped buffers no window stages and the generator
  register, untouched). Region 1 carries accumulators in scoped buffers from point to point, so its invariant
  varies with the point; it is entered from, and left at, that same untouched state (`hin1`, `hout1`).
-/
import proofs.«151496_j75222057222809_2_alg».proof.Proof.KRegion0
import proofs.«151496_j75222057222809_2_alg».proof.Proof.KRegion1
import proofs.«151496_j75222057222809_2_alg».proof.Proof.KRegion2
import proofs.«151496_j75222057222809_2_alg».proof.Proof.Gen.Kernel.Launch
import proofs.«151496_j75222057222809_2_alg».proof.Proof.Gen.Kernel.Skeleton
import proofs.«151496_j75222057222809_2_alg».proof.Proof.Gen.Kernel.Points
import proofs.«151496_j75222057222809_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of @main: a fold from the launch memory -/

/-- Core `c`'s buffers at launch. -/
abbrev W0 : Dev nD → Valuation τ sig (Elt F) := fun c b => (s₀ m ρ).mem ((c : Dev nD), b)
/-- After the host conversions (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b

/-- At region 0's exit: its arrays at what the pipeline leaves (the inputs as entered, each output's write-backs
    folded in point order), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents, region 1's entry contents). -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded in point order), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents, region 2's entry contents). -/
abbrev V3 : (c : Dev nD) → (b : Ref sig .tc) → Buf (Elt F) ((c : Thread nD τ).loc b) := fun c b => W3 m ρ c b
/-- At region 1's exit each of its arrays holds what the pipeline leaves, and every other buffer what it held at entry. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, each output's write-backs
    folded in point order), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves, and every other buffer what it held at entry. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ### The arguments end as launched

No host operation writes an argument (the conversions write the two bf16 copies), and no region writes one: regions
1 and 2 bypass all three, region 0 bypasses the weights and reads `main_arg0` through an input window. -/

/-- `main_arg0` ends as launched. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

/-- `main_arg1` ends as launched. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- `main_arg2` ends as launched. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-! ## The proof data family and the thread state -/

/-- Every pipeline's proof data, each at its region's entry contents — a literal match on the pipeline index, so
    that the pinned configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along; it is left
    at those references at the stretch's effect on `W`: the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W4`, the
    generator register at some state. -/
abbrev Tₙ (c : Dev nD) : sProp 𝕄 := iprop(StableHlo.held (c : Thread nD τ) (Pipeline.ucRefs τ sig) (W4 m ρ c) ∗ ∃ r, prngReg c r)

/-! ## The regions as segments -/

-- a library lemma stated over `pin pcs a p` unifies with the pinned configuration only when unification may unfold
-- plain definitions in a metavariable's type
set_option backward.isDefEq.respectTransparency.types false in
/-- Region 0 over the thread state: entered from every unscoped buffer at `W1`, left at `W2`. Its arrays
    are split out of the unscoped buffers and put back at the exit contents; the generator register goes into the
    region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- Region 1 over the thread state: entered from every unscoped buffer at `W2`, left at `W3`. Its arrays
    are split out of the unscoped buffers and put back at the exit contents; the generator register goes into the
    region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- Region 2 over the thread state: entered from every unscoped buffer at `W3`, left at `W4`. Its arrays
    are split out of the unscoped buffers and put back at the exit contents; the generator register goes into the
    region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: the host conversions from the launch contents, then a region per kernel. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]
/-- @main IS the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state holds every unscoped buffer of every core at the
    last boundary's contents `W4`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

/-- THE FRAME: @main runs and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

/-- THE RESULT: @main runs and its result array ends at what region 2's pipeline leaves in its output window (window 2),
    entered from the contents `V3` that regions 0 and 1 leave. -/
theorem result : θ_run defs (onTc (τ := τ) (main (F := F))) ⟨m, fun _ => 0, ρ⟩ (fun r => ∀ c : Dev nD,
      r.2.mem ((c.tc : Thread nD τ).loc main_v4) = (dat2 (V3 m ρ) c).arrAt 2 cfg2.N) :=
  (θ_run defs _ _).mono (fun _ h c => (h c _ (mem_uc main_v4 (by decide))).trans (W4_arr m ρ c 2)) (run_all m ρ)

/-- The two together, in the order a value claim states them: the result, then the three arguments. -/
theorem run_value : θ_run defs (onTc (τ := τ) (main (F := F))) ⟨m, fun _ => 0, ρ⟩ (fun r => ∀ c : Dev nD,
      r.2.mem ((c.tc : Thread nD τ).loc main_v4) = (dat2 (V3 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v4 (by decide))).trans (W4_arr m ρ c 2),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

/-- info: 'Cert.Kernel.Hand.run_all' depends on axioms: [propext, Classical.choice, Quot.sound] -/
#guard_msgs in #print axioms run_all

end Cert.Kernel.Hand

end
-- ==== Proof.Frames.lean ====
/-
  The two kernel programs' frame claims, as Defs.lean states them: each is the run over the three regions read at its
  float instance — the printed program at the bit-exact one, the idealized program at the ideal one. The precondition
  (finite inputs) is not used: the frame holds from any memory.
-/
import proofs.«151496_j75222057222809_2_alg».proof.Defs
import proofs.«151496_j75222057222809_2_alg».proof.Proof.KIRun
import proofs.«151496_j75222057222809_2_alg».proof.Proof.KRun
import proofs.«151496_j75222057222809_2_alg».proof.Proof.Gen.Kernel
import proofs.«151496_j75222057222809_2_alg».proof.Proof.Gen.KernelIdeal
import proofs.«151496_j75222057222809_2_alg».proof.Proof.Gen.Pre_finite_inputs

noncomputable section

namespace Cert.Proof.Frames

open Idealize.ShloMosaic Idealize.SL.Sem

/-- The printed kernel runs and leaves its three arguments as launched. -/
theorem frame_Kernel : Cert.frame_Kernel := fun m ρ _ => Cert.Kernel.Hand.frame (F := Bits) m ρ

/-- The idealized kernel runs and leaves its three arguments as launched. -/
theorem frame_KernelIdeal : Cert.frame_KernelIdeal := fun m ρ _ => Cert.KernelIdeal.Hand.frame (F := Ideal) m ρ

end Cert.Proof.Frames

end
-- ==== Proof.Small.lean ====
/-
  Two of the certificate's five claims, each by a single citation.
  * The reference program's frame: the reference is host operations only, and its generated run states, for every
    weakly fair execution from any memory with zero counters, termination with the result at the operations'
    composed term AND the three argument arrays as launched. The frame claim is the second half of that statement.
  * The idealization ledger: both rewritten constants are the same f32 pattern, named "neg_big"; the certificate's
    table gives that name the value ⊥ (the bottom extended real), so at the ideal instance the printed constant is ⊥,
    as a splat of any shape and as a scalar. That is the rule's statement, once per ledger entry.
-/
import proofs.«151496_j75222057222809_2_alg».proof.Defs
import proofs.«151496_j75222057222809_2_alg».proof.Proof.Gen.KernelIdeal
import proofs.«151496_j75222057222809_2_alg».proof.Proof.Gen.ReferenceIdeal
import proofs.«151496_j75222057222809_2_alg».proof.Proof.Gen.Pre_finite_inputs
import proofs.«151496_j75222057222809_2_alg».proof.Proof.Gen.ReferenceIdeal.Run

noncomputable section

namespace Cert.Proof.Small

open Idealize.ShloMosaic Idealize.ShloMosaic.TcCoe Idealize.SL.Sem

/-- The reference runs and leaves its three arguments as launched: the generated run's statement without its
    first conjunct (the result's value). -/
theorem frame_ReferenceIdeal : Cert.frame_ReferenceIdeal := fun m ρ _ =>
  (θ_run Cert.ReferenceIdeal.defs _ _).mono (fun _ h c => (h c).2) (Cert.ReferenceIdeal.Value.run (F := Ideal) m ρ)

/-- Both ledger entries: the table gives "neg_big" the value ⊥, and the printed constant is that value at the ideal
    instance. -/
theorem preserves : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl⟩

end Cert.Proof.Small

end
-- ==== Proof.KIValue1Pieces.lean ====
/-
  Region 1 (the attention kernel) — what each control case leaves, named.

  The runs found, for each buffer, the list of stores made into it. Read back, these are: for the six statistics,
  ONE STEP of the online softmax (`stepK`) applied to the point's q, k and v blocks and to the statistics before —
  in the first tile of a row block to the reset statistics (`initK`), because the step's loads come after the reset's
  stores and read them; for the output block, the two heads' numerators divided by their sums, side by side
  (`finK`), taken after the step where the point also folds a tile in. Nothing here looks inside a payload: the
  matmuls, maxima and exponentials stay behind the skeleton's names.
-/
import proofs.«151496_j75222057222809_2_alg».proof.Proof.KIRegion1Dat
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

theorem read_unread_w0 (x : Vec F S256x1 .f32) :
    View.read (Elt F) (View.whole cc1_scratch0) ((Memref.isWhole_whole cc1_scratch0).unread x) = x :=
  (Memref.isWhole_whole cc1_scratch0).read_unread x
theorem read_unread_w1 (x : Vec F S256x1 .f32) :
    View.read (Elt F) (View.whole cc1_scratch1) ((Memref.isWhole_whole cc1_scratch1).unread x) = x :=
  (Memref.isWhole_whole cc1_scratch1).read_unread x
theorem read_unread_w2 (x : Vec F S256x64 .f32) :
    View.read (Elt F) (View.whole cc1_scratch2) ((Memref.isWhole_whole cc1_scratch2).unread x) = x :=
  (Memref.isWhole_whole cc1_scratch2).read_unread x
theorem read_unread_w3 (x : Vec F S256x1 .f32) :
    View.read (Elt F) (View.whole cc1_scratch3) ((Memref.isWhole_whole cc1_scratch3).unread x) = x :=
  (Memref.isWhole_whole cc1_scratch3).read_unread x
theorem read_unread_w4 (x : Vec F S256x1 .f32) :
    View.read (Elt F) (View.whole cc1_scratch4) ((Memref.isWhole_whole cc1_scratch4).unread x) = x :=
  (Memref.isWhole_whole cc1_scratch4).read_unread x
theorem read_unread_w5 (x : Vec F S256x64 .f32) :
    View.read (Elt F) (View.whole cc1_scratch5) ((Memref.isWhole_whole cc1_scratch5).unread x) = x :=
  (Memref.isWhole_whole cc1_scratch5).read_unread x

/-- The statistics a reset leaves: the maxima at -∞, the sums and numerators at 0. -/
def initK : Scr F := (k1_pay1, k1_pay2, k1_pay3, k1_pay4, k1_pay5, k1_pay6)

/-- ONE TILE folded into the statistics, as whole arrays: `qi`, `kt` the tile's coordinates (for the causal mask), `x0`,
    `x1`, `x2` the q, k and v blocks, `s` the statistics before. Per head: the new maximum; the sum rescaled plus the
    tile's exponentials; the numerator rescaled plus the exponentials times v. -/
def stepK (qi kt : BitVec 32) (x0 x1 x2 : Vec F S1x256x128 .bf16) (s : Scr F) : Scr F :=
  (k1_pay22 (k1_pay17 qi kt x0 x1 s.1),
   k1_pay20 qi kt x0 x1 s.1 s.2.1,
   k1_pay21 (k1_pay15 x2) (k1_pay18 qi kt x0 x1 s.1) (k1_pay19 qi kt x0 x1 s.1) s.2.2.1,
   k1_pay8 (k1_pay25 (k1_pay11 x0) (k1_pay12 x1) (k1_pay14 qi kt) s.2.2.2.1),
   k1_pay28 (k1_pay11 x0) (k1_pay12 x1) (k1_pay14 qi kt) s.2.2.2.1 s.2.2.2.2.1,
   k1_pay7 (k1_pay23 (k1_pay13 x2)) (k1_pay27 (k1_pay11 x0) (k1_pay12 x1) (k1_pay14 qi kt) s.2.2.2.1)
     (k1_pay29 (k1_pay11 x0) (k1_pay12 x1) (k1_pay14 qi kt) s.2.2.2.1 s.2.2.2.2.2))

/-- THE OUTPUT BLOCK from the statistics: each head's numerator over its sum, the second head's in columns 64–127,
    the first head's in columns 0–63. -/
def finK (s : Scr F) : Vec F S1x256x128 .bf16 :=
  View.canon [⟨Rect.unit (s := S1x256x128) ![0, 0, 64] S1x256x64.size inb_S1x256x128_S1x256x64_0_0_64, k1_pay10 s.2.2.2.2.2 s.2.2.2.2.1⟩,
    ⟨Rect.unit (s := S1x256x128) ![0, 0, 0] S1x256x64.size inb_S1x256x128_S1x256x64_0_0_0, k1_pay9 s.2.2.1 s.2.1⟩]

/-! ## Case B: a later tile on or below the diagonal -/

theorem scB_0 (c : Dev nD) (t : Fin cfg1.N) (hc0 : ¬cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) (s : Scr F) :
    (scB c t hc0 hc1 hc2 x0 x1 x2 s).1 = (stepK (BitVec.ofNat 32 (grid1.coords t 2).val) (BitVec.ofNat 32 (grid1.coords t 3).val) x0 x1 x2 s).1 := by
  unfold scB readBack
  dsimp only
  rw [View.read_writes_eq_canon _ _ _ (scoverB_0 c t hc0 hc1 hc2 x0 x1 x2 s)]
  unfold runB kernelRun1_B
  dsimp only
  try sl_unfold_words
  rw [View.canon_cons_unit_zero hz2]
  unfold stepK
  dsimp only
  simp only [View.readAt_eq_ld, Memref.IsWhole.read_unread, View.ld_unit_zero (S := S1x256x128) hz3, View.ld_unit_zero (S := S256x1) hz2, View.ld_unit_zero (S := S256x64) hz2, read_unread_w0, read_unread_w1, read_unread_w2, read_unread_w3, read_unread_w4, read_unread_w5, View.readCov_unit_zero (S := S256x1) _ hz2, View.readCov_unit_zero (S := S256x64) _ hz2]

theorem scB_1 (c : Dev nD) (t : Fin cfg1.N) (hc0 : ¬cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) (s : Scr F) :
    (scB c t hc0 hc1 hc2 x0 x1 x2 s).2.1 = (stepK (BitVec.ofNat 32 (grid1.coords t 2).val) (BitVec.ofNat 32 (grid1.coords t 3).val) x0 x1 x2 s).2.1 := by
  unfold scB readBack
  dsimp only
  rw [View.read_writes_eq_canon _ _ _ (scoverB_1 c t hc0 hc1 hc2 x0 x1 x2 s)]
  unfold runB kernelRun1_B
  dsimp only
  try sl_unfold_words
  rw [View.canon_cons_unit_zero hz2]
  unfold stepK
  dsimp only
  simp only [View.readAt_eq_ld, Memref.IsWhole.read_unread, View.ld_unit_zero (S := S1x256x128) hz3, View.ld_unit_zero (S := S256x1) hz2, View.ld_unit_zero (S := S256x64) hz2, read_unread_w0, read_unread_w1, read_unread_w2, read_unread_w3, read_unread_w4, read_unread_w5, View.readCov_unit_zero (S := S256x1) _ hz2, View.readCov_unit_zero (S := S256x64) _ hz2]

theorem scB_2 (c : Dev nD) (t : Fin cfg1.N) (hc0 : ¬cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) (s : Scr F) :
    (scB c t hc0 hc1 hc2 x0 x1 x2 s).2.2.1 = (stepK (BitVec.ofNat 32 (grid1.coords t 2).val) (BitVec.ofNat 32 (grid1.coords t 3).val) x0 x1 x2 s).2.2.1 := by
  unfold scB readBack
  dsimp only
  rw [View.read_writes_eq_canon _ _ _ (scoverB_2 c t hc0 hc1 hc2 x0 x1 x2 s)]
  unfold runB kernelRun1_B
  dsimp only
  try sl_unfold_words
  rw [View.canon_cons_unit_zero hz2]
  unfold stepK
  dsimp only
  simp only [View.readAt_eq_ld, Memref.IsWhole.read_unread, View.ld_unit_zero (S := S1x256x128) hz3, View.ld_unit_zero (S := S256x1) hz2, View.ld_unit_zero (S := S256x64) hz2, read_unread_w0, read_unread_w1, read_unread_w2, read_unread_w3, read_unread_w4, read_unread_w5, View.readCov_unit_zero (S := S256x1) _ hz2, View.readCov_unit_zero (S := S256x64) _ hz2]

theorem scB_3 (c : Dev nD) (t : Fin cfg1.N) (hc0 : ¬cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) (s : Scr F) :
    (scB c t hc0 hc1 hc2 x0 x1 x2 s).2.2.2.1 = (stepK (BitVec.ofNat 32 (grid1.coords t 2).val) (BitVec.ofNat 32 (grid1.coords t 3).val) x0 x1 x2 s).2.2.2.1 := by
  unfold scB readBack
  dsimp only
  rw [View.read_writes_eq_canon _ _ _ (scoverB_3 c t hc0 hc1 hc2 x0 x1 x2 s)]
  unfold runB kernelRun1_B
  dsimp only
  try sl_unfold_words
  rw [View.canon_cons_unit_zero hz2]
  unfold stepK
  dsimp only
  simp only [View.readAt_eq_ld, Memref.IsWhole.read_unread, View.ld_unit_zero (S := S1x256x128) hz3, View.ld_unit_zero (S := S256x1) hz2, View.ld_unit_zero (S := S256x64) hz2, read_unread_w0, read_unread_w1, read_unread_w2, read_unread_w3, read_unread_w4, read_unread_w5, View.readCov_unit_zero (S := S256x1) _ hz2, View.readCov_unit_zero (S := S256x64) _ hz2]

theorem scB_4 (c : Dev nD) (t : Fin cfg1.N) (hc0 : ¬cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) (s : Scr F) :
    (scB c t hc0 hc1 hc2 x0 x1 x2 s).2.2.2.2.1 = (stepK (BitVec.ofNat 32 (grid1.coords t 2).val) (BitVec.ofNat 32 (grid1.coords t 3).val) x0 x1 x2 s).2.2.2.2.1 := by
  unfold scB readBack
  dsimp only
  rw [View.read_writes_eq_canon _ _ _ (scoverB_4 c t hc0 hc1 hc2 x0 x1 x2 s)]
  unfold runB kernelRun1_B
  dsimp only
  try sl_unfold_words
  rw [View.canon_cons_unit_zero hz2]
  unfold stepK
  dsimp only
  simp only [View.readAt_eq_ld, Memref.IsWhole.read_unread, View.ld_unit_zero (S := S1x256x128) hz3, View.ld_unit_zero (S := S256x1) hz2, View.ld_unit_zero (S := S256x64) hz2, read_unread_w0, read_unread_w1, read_unread_w2, read_unread_w3, read_unread_w4, read_unread_w5, View.readCov_unit_zero (S := S256x1) _ hz2, View.readCov_unit_zero (S := S256x64) _ hz2]

theorem scB_5 (c : Dev nD) (t : Fin cfg1.N) (hc0 : ¬cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) (s : Scr F) :
    (scB c t hc0 hc1 hc2 x0 x1 x2 s).2.2.2.2.2 = (stepK (BitVec.ofNat 32 (grid1.coords t 2).val) (BitVec.ofNat 32 (grid1.coords t 3).val) x0 x1 x2 s).2.2.2.2.2 := by
  unfold scB readBack
  dsimp only
  rw [View.read_writes_eq_canon _ _ _ (scoverB_5 c t hc0 hc1 hc2 x0 x1 x2 s)]
  unfold runB kernelRun1_B
  dsimp only
  try sl_unfold_words
  rw [View.canon_cons_unit_zero hz2]
  unfold stepK
  dsimp only
  simp only [View.readAt_eq_ld, Memref.IsWhole.read_unread, View.ld_unit_zero (S := S1x256x128) hz3, View.ld_unit_zero (S := S256x1) hz2, View.ld_unit_zero (S := S256x64) hz2, read_unread_w0, read_unread_w1, read_unread_w2, read_unread_w3, read_unread_w4, read_unread_w5, View.readCov_unit_zero (S := S256x1) _ hz2, View.readCov_unit_zero (S := S256x64) _ hz2]

/-- Case B leaves one tile's step. -/
theorem scB_eq (c : Dev nD) (t : Fin cfg1.N) (hc0 : ¬cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) (s : Scr F) :
    scB c t hc0 hc1 hc2 x0 x1 x2 s = stepK (BitVec.ofNat 32 (grid1.coords t 2).val) (BitVec.ofNat 32 (grid1.coords t 3).val) x0 x1 x2 s :=
  Prod.ext (scB_0 c t hc0 hc1 hc2 x0 x1 x2 s) (Prod.ext (scB_1 c t hc0 hc1 hc2 x0 x1 x2 s) (Prod.ext (scB_2 c t hc0 hc1 hc2 x0 x1 x2 s)
    (Prod.ext (scB_3 c t hc0 hc1 hc2 x0 x1 x2 s) (Prod.ext (scB_4 c t hc0 hc1 hc2 x0 x1 x2 s) (scB_5 c t hc0 hc1 hc2 x0 x1 x2 s)))))

/-! ## Case D: the diagonal tile of the last row block -/

theorem scD_0 (c : Dev nD) (t : Fin cfg1.N) (hc0 : ¬cond1_0 (grid1.coords t)) (hc1 : cond1_1 (grid1.coords t)) (hc2 : cond1_2 (grid1.coords t)) (x0 : Vec F S1x256x128 .bf16) (x1 : Vec F S1x256x128 .bf16) (x2 : Vec F S1x256x128 .bf16) (s : Scr F) :
    (scD c t hc0 hc1 hc2 x0 x1 x2 s).1 = (stepK (BitVec.ofNat 32 (grid1.coords t 2).val) (BitVec.ofNat 32 (grid1.coords t 3).val) x0 x1 x2 s).1 := by
  unfold scD readBack
  dsimp only
  rw [View.read_writes_eq_canon _ _ _ (scoverD_0 c t hc0 hc1 hc2 x0 x1 x2 s)]
  unfold runD kernelRun1_D
  dsimp only
  try sl_unfold_words
  rw [View.canon_cons_unit_zero hz2]
  unfold stepK
  dsimp only
  simp only [View.readAt_eq_ld, Memref.IsWhole.read_unread, View.ld_unit_zero (S := S1x256x128) hz3, View.ld_unit_zero (S := S256x1) hz2, View.ld_unit_zero (S := S256x64) hz2, read_unread_w0, read_unread_w1, read_unread_w2, read_unread_w3, read_unread_w4, read_unread_w5, View.readCov_unit_zero (S := S256x1) _ hz2, View.readCov_unit_zero (S := S256x64) _ hz2]

theorem scD_1 (c : Dev nD) (t : Fin cfg1.N) (hc0 : ¬cond1_0 (grid1.coords t)) (hc1 : cond1_1 (grid1.coords t)) (hc2 : cond1_2 (grid1.coords t)) (x0 : Vec F S1x256x128 .bf16) (x1 : Vec F S1x256x128 .bf16) (x2 : Vec F S1x256x128 .bf16) (s : Scr F) :
    (scD c t hc0 hc1 hc2 x0 x1 x2 s).2.1 = (stepK (BitVec.ofNat 32 (grid1.coords t 2).val) (BitVec.ofNat 32 (grid1.coords t 3).val) x0 x1 x2 s).2.1 := by
  unfold scD readBack
  dsimp only
  rw [View.read_writes_eq_canon _ _ _ (scoverD_1 c t hc0 hc1 hc2 x0 x1 x2 s)]
  unfold runD kernelRun1_D
  dsimp only
  try sl_unfold_words
  rw [View.canon_cons_unit_zero hz2]
  unfold stepK
  dsimp only
  simp only [View.readAt_eq_ld, Memref.IsWhole.read_unread, View.ld_unit_zero (S := S1x256x128) hz3, View.ld_unit_zero (S := S256x1) hz2, View.ld_unit_zero (S := S256x64) hz2, read_unread_w0, read_unread_w1, read_unread_w2, read_unread_w3, read_unread_w4, read_unread_w5, View.readCov_unit_zero (S := S256x1) _ hz2, View.readCov_unit_zero (S := S256x64) _ hz2]

theorem scD_2 (c : Dev nD) (t : Fin cfg1.N) (hc0 : ¬cond1_0 (grid1.coords t)) (hc1 : cond1_1 (grid1.coords t)) (hc2 : cond1_2 (grid1.coords t)) (x0 : Vec F S1x256x128 .bf16) (x1 : Vec F S1x256x128 .bf16) (x2 : Vec F S1x256x128 .bf16) (s : Scr F) :
    (scD c t hc0 hc1 hc2 x0 x1 x2 s).2.2.1 = (stepK (BitVec.ofNat 32 (grid1.coords t 2).val) (BitVec.ofNat 32 (grid1.coords t 3).val) x0 x1 x2 s).2.2.1 := by
  unfold scD readBack
  dsimp only
  rw [View.read_writes_eq_canon _ _ _ (scoverD_2 c t hc0 hc1 hc2 x0 x1 x2 s)]
  unfold runD kernelRun1_D
  dsimp only
  try sl_unfold_words
  rw [View.canon_cons_unit_zero hz2]
  unfold stepK
  dsimp only
  simp only [View.readAt_eq_ld, Memref.IsWhole.read_unread, View.ld_unit_zero (S := S1x256x128) hz3, View.ld_unit_zero (S := S256x1) hz2, View.ld_unit_zero (S := S256x64) hz2, read_unread_w0, read_unread_w1, read_unread_w2, read_unread_w3, read_unread_w4, read_unread_w5, View.readCov_unit_zero (S := S256x1) _ hz2, View.readCov_unit_zero (S := S256x64) _ hz2]

theorem scD_3 (c : Dev nD) (t : Fin cfg1.N) (hc0 : ¬cond1_0 (grid1.coords t)) (hc1 : cond1_1 (grid1.coords t)) (hc2 : cond1_2 (grid1.coords t)) (x0 : Vec F S1x256x128 .bf16) (x1 : Vec F S1x256x128 .bf16) (x2 : Vec F S1x256x128 .bf16) (s : Scr F) :
    (scD c t hc0 hc1 hc2 x0 x1 x2 s).2.2.2.1 = (stepK (BitVec.ofNat 32 (grid1.coords t 2).val) (BitVec.ofNat 32 (grid1.coords t 3).val) x0 x1 x2 s).2.2.2.1 := by
  unfold scD readBack
  dsimp only
  rw [View.read_writes_eq_canon _ _ _ (scoverD_3 c t hc0 hc1 hc2 x0 x1 x2 s)]
  unfold runD kernelRun1_D
  dsimp only
  try sl_unfold_words
  rw [View.canon_cons_unit_zero hz2]
  unfold stepK
  dsimp only
  simp only [View.readAt_eq_ld, Memref.IsWhole.read_unread, View.ld_unit_zero (S := S1x256x128) hz3, View.ld_unit_zero (S := S256x1) hz2, View.ld_unit_zero (S := S256x64) hz2, read_unread_w0, read_unread_w1, read_unread_w2, read_unread_w3, read_unread_w4, read_unread_w5, View.readCov_unit_zero (S := S256x1) _ hz2, View.readCov_unit_zero (S := S256x64) _ hz2]

theorem scD_4 (c : Dev nD) (t : Fin cfg1.N) (hc0 : ¬cond1_0 (grid1.coords t)) (hc1 : cond1_1 (grid1.coords t)) (hc2 : cond1_2 (grid1.coords t)) (x0 : Vec F S1x256x128 .bf16) (x1 : Vec F S1x256x128 .bf16) (x2 : Vec F S1x256x128 .bf16) (s : Scr F) :
    (scD c t hc0 hc1 hc2 x0 x1 x2 s).2.2.2.2.1 = (stepK (BitVec.ofNat 32 (grid1.coords t 2).val) (BitVec.ofNat 32 (grid1.coords t 3).val) x0 x1 x2 s).2.2.2.2.1 := by
  unfold scD readBack
  dsimp only
  rw [View.read_writes_eq_canon _ _ _ (scoverD_4 c t hc0 hc1 hc2 x0 x1 x2 s)]
  unfold runD kernelRun1_D
  dsimp only
  try sl_unfold_words
  rw [View.canon_cons_unit_zero hz2]
  unfold stepK
  dsimp only
  simp only [View.readAt_eq_ld, Memref.IsWhole.read_unread, View.ld_unit_zero (S := S1x256x128) hz3, View.ld_unit_zero (S := S256x1) hz2, View.ld_unit_zero (S := S256x64) hz2, read_unread_w0, read_unread_w1, read_unread_w2, read_unread_w3, read_unread_w4, read_unread_w5, View.readCov_unit_zero (S := S256x1) _ hz2, View.readCov_unit_zero (S := S256x64) _ hz2]

theorem scD_5 (c : Dev nD) (t : Fin cfg1.N) (hc0 : ¬cond1_0 (grid1.coords t)) (hc1 : cond1_1 (grid1.coords t)) (hc2 : cond1_2 (grid1.coords t)) (x0 : Vec F S1x256x128 .bf16) (x1 : Vec F S1x256x128 .bf16) (x2 : Vec F S1x256x128 .bf16) (s : Scr F) :
    (scD c t hc0 hc1 hc2 x0 x1 x2 s).2.2.2.2.2 = (stepK (BitVec.ofNat 32 (grid1.coords t 2).val) (BitVec.ofNat 32 (grid1.coords t 3).val) x0 x1 x2 s).2.2.2.2.2 := by
  unfold scD readBack
  dsimp only
  rw [View.read_writes_eq_canon _ _ _ (scoverD_5 c t hc0 hc1 hc2 x0 x1 x2 s)]
  unfold runD kernelRun1_D
  dsimp only
  try sl_unfold_words
  rw [View.canon_cons_unit_zero hz2]
  unfold stepK
  dsimp only
  simp only [View.readAt_eq_ld, Memref.IsWhole.read_unread, View.ld_unit_zero (S := S1x256x128) hz3, View.ld_unit_zero (S := S256x1) hz2, View.ld_unit_zero (S := S256x64) hz2, read_unread_w0, read_unread_w1, read_unread_w2, read_unread_w3, read_unread_w4, read_unread_w5, View.readCov_unit_zero (S := S256x1) _ hz2, View.readCov_unit_zero (S := S256x64) _ hz2]

/-- Case D leaves one tile's step. -/
theorem scD_eq (c : Dev nD) (t : Fin cfg1.N) (hc0 : ¬cond1_0 (grid1.coords t)) (hc1 : cond1_1 (grid1.coords t)) (hc2 : cond1_2 (grid1.coords t)) (x0 : Vec F S1x256x128 .bf16) (x1 : Vec F S1x256x128 .bf16) (x2 : Vec F S1x256x128 .bf16) (s : Scr F) :
    scD c t hc0 hc1 hc2 x0 x1 x2 s = stepK (BitVec.ofNat 32 (grid1.coords t 2).val) (BitVec.ofNat 32 (grid1.coords t 3).val) x0 x1 x2 s :=
  Prod.ext (scD_0 c t hc0 hc1 hc2 x0 x1 x2 s) (Prod.ext (scD_1 c t hc0 hc1 hc2 x0 x1 x2 s) (Prod.ext (scD_2 c t hc0 hc1 hc2 x0 x1 x2 s)
    (Prod.ext (scD_3 c t hc0 hc1 hc2 x0 x1 x2 s) (Prod.ext (scD_4 c t hc0 hc1 hc2 x0 x1 x2 s) (scD_5 c t hc0 hc1 hc2 x0 x1 x2 s)))))

/-! ## Case A: the first tile of a row block -/

theorem scA_0 (c : Dev nD) (t : Fin cfg1.N) (hc0 : cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) :
    (scA c t hc0 hc1 hc2 x0 x1 x2).1 = (stepK (BitVec.ofNat 32 (grid1.coords t 2).val) (BitVec.ofNat 32 (grid1.coords t 3).val) x0 x1 x2 initK).1 := by
  unfold scA readBack
  dsimp only
  rw [View.read_writes_eq_canon _ _ _ (scoverA_0 c t hc0 hc1 hc2 x0 x1 x2)]
  unfold runA kernelRun1_A
  dsimp only
  try sl_unfold_words
  rw [View.canon_cons_unit_zero hz2]
  unfold stepK initK
  dsimp only
  simp only [View.readAt_eq_ld, Memref.IsWhole.read_unread, View.ld_unit_zero (S := S1x256x128) hz3, View.ld_unit_zero (S := S256x1) hz2, View.ld_unit_zero (S := S256x64) hz2, read_unread_w0, read_unread_w1, read_unread_w2, read_unread_w3, read_unread_w4, read_unread_w5, View.readCov_unit_zero (S := S256x1) _ hz2, View.readCov_unit_zero (S := S256x64) _ hz2]

theorem scA_1 (c : Dev nD) (t : Fin cfg1.N) (hc0 : cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) :
    (scA c t hc0 hc1 hc2 x0 x1 x2).2.1 = (stepK (BitVec.ofNat 32 (grid1.coords t 2).val) (BitVec.ofNat 32 (grid1.coords t 3).val) x0 x1 x2 initK).2.1 := by
  unfold scA readBack
  dsimp only
  rw [View.read_writes_eq_canon _ _ _ (scoverA_1 c t hc0 hc1 hc2 x0 x1 x2)]
  unfold runA kernelRun1_A
  dsimp only
  try sl_unfold_words
  rw [View.canon_cons_unit_zero hz2]
  unfold stepK initK
  dsimp only
  simp only [View.readAt_eq_ld, Memref.IsWhole.read_unread, View.ld_unit_zero (S := S1x256x128) hz3, View.ld_unit_zero (S := S256x1) hz2, View.ld_unit_zero (S := S256x64) hz2, read_unread_w0, read_unread_w1, read_unread_w2, read_unread_w3, read_unread_w4, read_unread_w5, View.readCov_unit_zero (S := S256x1) _ hz2, View.readCov_unit_zero (S := S256x64) _ hz2]

theorem scA_2 (c : Dev nD) (t : Fin cfg1.N) (hc0 : cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) :
    (scA c t hc0 hc1 hc2 x0 x1 x2).2.2.1 = (stepK (BitVec.ofNat 32 (grid1.coords t 2).val) (BitVec.ofNat 32 (grid1.coords t 3).val) x0 x1 x2 initK).2.2.1 := by
  unfold scA readBack
  dsimp only
  rw [View.read_writes_eq_canon _ _ _ (scoverA_2 c t hc0 hc1 hc2 x0 x1 x2)]
  unfold runA kernelRun1_A
  dsimp only
  try sl_unfold_words
  rw [View.canon_cons_unit_zero hz2]
  unfold stepK initK
  dsimp only
  simp only [View.readAt_eq_ld, Memref.IsWhole.read_unread, View.ld_unit_zero (S := S1x256x128) hz3, View.ld_unit_zero (S := S256x1) hz2, View.ld_unit_zero (S := S256x64) hz2, read_unread_w0, read_unread_w1, read_unread_w2, read_unread_w3, read_unread_w4, read_unread_w5, View.readCov_unit_zero (S := S256x1) _ hz2, View.readCov_unit_zero (S := S256x64) _ hz2]

theorem scA_3 (c : Dev nD) (t : Fin cfg1.N) (hc0 : cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) :
    (scA c t hc0 hc1 hc2 x0 x1 x2).2.2.2.1 = (stepK (BitVec.ofNat 32 (grid1.coords t 2).val) (BitVec.ofNat 32 (grid1.coords t 3).val) x0 x1 x2 initK).2.2.2.1 := by
  unfold scA readBack
  dsimp only
  rw [View.read_writes_eq_canon _ _ _ (scoverA_3 c t hc0 hc1 hc2 x0 x1 x2)]
  unfold runA kernelRun1_A
  dsimp only
  try sl_unfold_words
  rw [View.canon_cons_unit_zero hz2]
  unfold stepK initK
  dsimp only
  simp only [View.readAt_eq_ld, Memref.IsWhole.read_unread, View.ld_unit_zero (S := S1x256x128) hz3, View.ld_unit_zero (S := S256x1) hz2, View.ld_unit_zero (S := S256x64) hz2, read_unread_w0, read_unread_w1, read_unread_w2, read_unread_w3, read_unread_w4, read_unread_w5, View.readCov_unit_zero (S := S256x1) _ hz2, View.readCov_unit_zero (S := S256x64) _ hz2]

theorem scA_4 (c : Dev nD) (t : Fin cfg1.N) (hc0 : cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) :
    (scA c t hc0 hc1 hc2 x0 x1 x2).2.2.2.2.1 = (stepK (BitVec.ofNat 32 (grid1.coords t 2).val) (BitVec.ofNat 32 (grid1.coords t 3).val) x0 x1 x2 initK).2.2.2.2.1 := by
  unfold scA readBack
  dsimp only
  rw [View.read_writes_eq_canon _ _ _ (scoverA_4 c t hc0 hc1 hc2 x0 x1 x2)]
  unfold runA kernelRun1_A
  dsimp only
  try sl_unfold_words
  rw [View.canon_cons_unit_zero hz2]
  unfold stepK initK
  dsimp only
  simp only [View.readAt_eq_ld, Memref.IsWhole.read_unread, View.ld_unit_zero (S := S1x256x128) hz3, View.ld_unit_zero (S := S256x1) hz2, View.ld_unit_zero (S := S256x64) hz2, read_unread_w0, read_unread_w1, read_unread_w2, read_unread_w3, read_unread_w4, read_unread_w5, View.readCov_unit_zero (S := S256x1) _ hz2, View.readCov_unit_zero (S := S256x64) _ hz2]

theorem scA_5 (c : Dev nD) (t : Fin cfg1.N) (hc0 : cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) :
    (scA c t hc0 hc1 hc2 x0 x1 x2).2.2.2.2.2 = (stepK (BitVec.ofNat 32 (grid1.coords t 2).val) (BitVec.ofNat 32 (grid1.coords t 3).val) x0 x1 x2 initK).2.2.2.2.2 := by
  unfold scA readBack
  dsimp only
  rw [View.read_writes_eq_canon _ _ _ (scoverA_5 c t hc0 hc1 hc2 x0 x1 x2)]
  unfold runA kernelRun1_A
  dsimp only
  try sl_unfold_words
  rw [View.canon_cons_unit_zero hz2]
  unfold stepK initK
  dsimp only
  simp only [View.readAt_eq_ld, Memref.IsWhole.read_unread, View.ld_unit_zero (S := S1x256x128) hz3, View.ld_unit_zero (S := S256x1) hz2, View.ld_unit_zero (S := S256x64) hz2, read_unread_w0, read_unread_w1, read_unread_w2, read_unread_w3, read_unread_w4, read_unread_w5, View.readCov_unit_zero (S := S256x1) _ hz2, View.readCov_unit_zero (S := S256x64) _ hz2]

/-- Case A leaves one tile's step from the reset statistics. -/
theorem scA_eq (c : Dev nD) (t : Fin cfg1.N) (hc0 : cond1_0 (grid1.coords t)) (hc1 : cond1_1 (grid1.coords t)) (hc2 : ¬cond1_2 (grid1.coords t)) (x0 : Vec F S1x256x128 .bf16) (x1 : Vec F S1x256x128 .bf16) (x2 : Vec F S1x256x128 .bf16) :
    scA c t hc0 hc1 hc2 x0 x1 x2 = stepK (BitVec.ofNat 32 (grid1.coords t 2).val) (BitVec.ofNat 32 (grid1.coords t 3).val) x0 x1 x2 initK :=
  Prod.ext (scA_0 c t hc0 hc1 hc2 x0 x1 x2) (Prod.ext (scA_1 c t hc0 hc1 hc2 x0 x1 x2) (Prod.ext (scA_2 c t hc0 hc1 hc2 x0 x1 x2)
    (Prod.ext (scA_3 c t hc0 hc1 hc2 x0 x1 x2) (Prod.ext (scA_4 c t hc0 hc1 hc2 x0 x1 x2) (scA_5 c t hc0 hc1 hc2 x0 x1 x2)))))

/-! ## The output block -/

/-- Case E writes the quotients of the statistics as they stand. -/
theorem outE_eq (c : Dev nD) (t : Fin cfg1.N) (hc0 : ¬cond1_0 (grid1.coords t)) (hc1 : ¬cond1_1 (grid1.coords t)) (hc2 : cond1_2 (grid1.coords t)) (x0 : Vec F S1x256x128 .bf16) (x1 : Vec F S1x256x128 .bf16) (x2 : Vec F S1x256x128 .bf16) (s : Scr F) :
    outE c t hc0 hc1 hc2 x0 x1 x2 s = finK s := by
  unfold outE readBack
  rw [View.read_writes_eq_canon _ _ _ (coverE_3 c t hc0 hc1 hc2 x0 x1 x2 s)]
  unfold runE kernelRun1_E
  dsimp only
  try sl_unfold_words
  unfold finK
  simp only [View.readAt_eq_ld, Memref.IsWhole.read_unread, View.ld_unit_zero (S := S1x256x128) hz3, View.ld_unit_zero (S := S256x1) hz2, View.ld_unit_zero (S := S256x64) hz2, read_unread_w0, read_unread_w1, read_unread_w2, read_unread_w3, read_unread_w4, read_unread_w5, View.readCov_unit_zero (S := S256x1) _ hz2, View.readCov_unit_zero (S := S256x64) _ hz2]

/-- Case D writes the quotients of the statistics after its own step. -/
theorem outD_eq (c : Dev nD) (t : Fin cfg1.N) (hc0 : ¬cond1_0 (grid1.coords t)) (hc1 : cond1_1 (grid1.coords t)) (hc2 : cond1_2 (grid1.coords t)) (x0 : Vec F S1x256x128 .bf16) (x1 : Vec F S1x256x128 .bf16) (x2 : Vec F S1x256x128 .bf16) (s : Scr F) :
    outD c t hc0 hc1 hc2 x0 x1 x2 s = finK (stepK (BitVec.ofNat 32 (grid1.coords t 2).val) (BitVec.ofNat 32 (grid1.coords t 3).val) x0 x1 x2 s) := by
  unfold outD readBack
  rw [View.read_writes_eq_canon _ _ _ (coverD_3 c t hc0 hc1 hc2 x0 x1 x2 s)]
  unfold runD kernelRun1_D
  dsimp only
  try sl_unfold_words
  unfold finK stepK
  dsimp only
  simp only [View.readAt_eq_ld, Memref.IsWhole.read_unread, View.ld_unit_zero (S := S1x256x128) hz3, View.ld_unit_zero (S := S256x1) hz2, View.ld_unit_zero (S := S256x64) hz2, read_unread_w0, read_unread_w1, read_unread_w2, read_unread_w3, read_unread_w4, read_unread_w5, View.readCov_unit_zero (S := S256x1) _ hz2, View.readCov_unit_zero (S := S256x64) _ hz2]

end Cert.KernelIdeal.Hand

end
-- ==== Proof.LibTiledSoftmax.lean ====
/-
  Softmax-weighted sums accumulated tile by tile, with masked columns, as pure mathematics.

  A row of scores is read in tiles `0, 1, 2, …` of `κ` columns each.  The score `S k c` of column `c` of
  tile `k` is a real number or `⊥` (a masked column); the value carried by that column is the real `w k c`.
  Three numbers are kept on the extended reals: a shift `m` (from `⊥`), a sum `l` (from `0`) and a weighted
  sum `a` (from `0`).  When a tile arrives the shift becomes the larger of the old shift and the tile's
  largest score, the old sums are rescaled by `exp (m - m')`, and the tile's terms `exp (S k c - m')`
  (times `w k c` for the weighted sum) are added.

  A masked column contributes `exp (⊥ - μ) = exp ⊥ = 0` everywhere, so its term is the real number `0`;
  an unmasked one contributes the real `exp (x - μ)`.  With that reading every quantity after the first tile
  is a real number (the first tile has an unmasked column), and the recursion is the real one: rescaling a
  term from the shift `μ` to the shift `μ'` is exact, for the zero terms too.  Hence, after tile `n`:

  * the shift is the largest score `M S n` of tiles `0 … n`, a real number  (`stat_fst`, `M_real`);
  * the sum is `∑ exp (S k c - M S n)` over all columns read so far, a real number `≥ 1`
    (`stat_snd`, `stat_snd_real`);
  * the weighted sum is `∑ exp (S k c - M S n) * w k c`  (`stat_trd`);
  * their quotient is the sum of the softmax weights `exp (S k c - M S n) / l` times the values
    (`stat_quotient`): a finite sum of reals is divided by a positive real term by term;
  * tiles that are masked entirely change nothing  (`M_padding`, `stat_padding`, `sum_exp_padding`,
    `sum_exp_mul_padding`, `sum_div_padding`).
-/
import Idealize.ShloMosaic.PureOps.Ideal

noncomputable section

namespace ProofLib.TiledSoftmax

open Idealize.ShloMosaic

/-! ## The recursion -/

section Defs

variable {κ : Type*} [Fintype κ]

/-- One tile: the new shift, the rescaled sum plus the tile's terms, the rescaled weighted sum plus the
    tile's weighted terms.  `Finset.univ.sup s` is the tile's largest score, `⊥` when every column is
    masked. -/
def step (s : κ → EReal) (v : κ → ℝ) (p : EReal × EReal × EReal) : EReal × EReal × EReal :=
  (max p.1 (Finset.univ.sup s),
   Ideal.exp (p.1 - max p.1 (Finset.univ.sup s)) * p.2.1
     + ∑ c, Ideal.exp (s c - max p.1 (Finset.univ.sup s)),
   Ideal.exp (p.1 - max p.1 (Finset.univ.sup s)) * p.2.2
     + ∑ c, Ideal.exp (s c - max p.1 (Finset.univ.sup s)) * (v c : EReal))

/-- The running statistics `(m, l, a)` after tile `k`, from `(⊥, 0, 0)`. -/
def stat (S : ℕ → κ → EReal) (w : ℕ → κ → ℝ) : ℕ → EReal × EReal × EReal
  | 0 => step (S 0) (w 0) (⊥, 0, 0)
  | k + 1 => step (S (k + 1)) (w (k + 1)) (stat S w k)

/-- The largest score of tiles `0 … n`. -/
def M (S : ℕ → κ → EReal) (n : ℕ) : EReal := (Finset.range (n + 1)).sup fun k => Finset.univ.sup (S k)

/-- The term of a score `x` under the real shift `μ`: `0` for a masked score. -/
def term (x : EReal) (μ : ℝ) : ℝ := if x = ⊥ then 0 else Real.exp (x.toReal - μ)

theorem stat_zero (S : ℕ → κ → EReal) (w : ℕ → κ → ℝ) : stat S w 0 = step (S 0) (w 0) (⊥, 0, 0) := rfl

theorem stat_succ (S : ℕ → κ → EReal) (w : ℕ → κ → ℝ) (k : ℕ) :
    stat S w (k + 1) = step (S (k + 1)) (w (k + 1)) (stat S w k) := rfl

end Defs

/-! ## The term of one column -/

section Term

/-- The coercion of the reals into the extended reals goes through finite sums. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- THE TERM IS REAL: for a score that is a real or `⊥`, `exp (x - μ)` is the real number `term x μ`. -/
theorem exp_sub_coe (x : EReal) (hx : x ≠ ⊤) (μ : ℝ) :
    Ideal.exp (x - (μ : EReal)) = ((term x μ : ℝ) : EReal) := by
  induction x using EReal.rec with
  | bot => rw [EReal.bot_sub, Ideal.exp_bot, term, if_pos rfl, EReal.coe_zero]
  | coe r =>
    rw [term, if_neg (EReal.coe_ne_bot r), EReal.toReal_coe, ← EReal.coe_sub]
    rfl
  | top => exact absurd rfl hx

theorem term_bot (μ : ℝ) : term ⊥ μ = 0 := if_pos rfl

theorem term_coe (r μ : ℝ) : term (r : EReal) μ = Real.exp (r - μ) := by
  rw [term, if_neg (EReal.coe_ne_bot r), EReal.toReal_coe]

theorem term_nonneg (x : EReal) (μ : ℝ) : 0 ≤ term x μ := by
  unfold term
  split_ifs
  · exact le_rfl
  · exact (Real.exp_pos _).le

/-- Moving a term from the shift `μ` to the shift `μ'` is exact; a masked term stays `0`. -/
theorem term_rescale (x : EReal) (μ μ' : ℝ) : Real.exp (μ - μ') * term x μ = term x μ' := by
  unfold term
  split_ifs
  · exact mul_zero _
  · rw [← Real.exp_add]
    congr 1
    ring

end Term

/-! ## The largest score -/

section Max

variable {κ : Type*} [Fintype κ]

theorem M_zero (S : ℕ → κ → EReal) : M S 0 = Finset.univ.sup (S 0) := by
  rw [M, Finset.range_one, Finset.sup_singleton]

/-- One more tile: the larger of the old maximum and the tile's. -/
theorem M_succ (S : ℕ → κ → EReal) (n : ℕ) :
    M S (n + 1) = max (M S n) (Finset.univ.sup (S (n + 1))) := by
  rw [M, Finset.range_add_one, Finset.sup_insert, max_comm]
  rfl

theorem le_M (S : ℕ → κ → EReal) {n k : ℕ} (hk : k ≤ n) (c : κ) : S k c ≤ M S n :=
  (Finset.le_sup (f := S k) (Finset.mem_univ c)).trans
    (Finset.le_sup (f := fun k => Finset.univ.sup (S k)) (Finset.mem_range.mpr (Nat.lt_succ_of_le hk)))

theorem M_ne_top (S : ℕ → κ → EReal) (hS : ∀ k c, S k c ≠ ⊤) (n : ℕ) : M S n ≠ ⊤ :=
  ((Finset.sup_lt_iff bot_lt_top).2 fun k _ =>
    (Finset.sup_lt_iff bot_lt_top).2 fun c _ => lt_top_iff_ne_top.2 (hS k c)).ne

theorem M_ne_bot (S : ℕ → κ → EReal) (h0 : ∃ c, S 0 c ≠ ⊥) (n : ℕ) : M S n ≠ ⊥ := by
  obtain ⟨c, hc⟩ := h0
  intro h
  exact hc (le_bot_iff.mp (h ▸ le_M S (Nat.zero_le n) c))

/-- THE MAXIMUM IS REAL: no score is `⊤`, and tile `0` has an unmasked column. -/
theorem M_real (S : ℕ → κ → EReal) (hS : ∀ k c, S k c ≠ ⊤) (h0 : ∃ c, S 0 c ≠ ⊥) (n : ℕ) :
    ∃ μ : ℝ, M S n = μ :=
  ⟨(M S n).toReal, (EReal.coe_toReal (M_ne_top S hS n) (M_ne_bot S h0 n)).symm⟩

/-- The maximum is one of the scores. -/
theorem M_attained (S : ℕ → κ → EReal) (h0 : ∃ c, S 0 c ≠ ⊥) (n : ℕ) :
    ∃ k, k ≤ n ∧ ∃ c, M S n = S k c := by
  obtain ⟨c0, _⟩ := h0
  haveI : Nonempty κ := ⟨c0⟩
  obtain ⟨k, hk, e1⟩ := Finset.exists_mem_eq_sup (Finset.range (n + 1)) Finset.nonempty_range_add_one
    fun k => Finset.univ.sup (S k)
  obtain ⟨c, _, e2⟩ := Finset.exists_mem_eq_sup Finset.univ Finset.univ_nonempty (S k)
  exact ⟨k, Nat.lt_succ_iff.mp (Finset.mem_range.mp hk), c, e1.trans e2⟩

/-- Tiles masked entirely do not move the maximum. -/
theorem M_padding (S : ℕ → κ → EReal) {n n' : ℕ} (hnn : n ≤ n')
    (hpad : ∀ k, n < k → k ≤ n' → ∀ c, S k c = ⊥) : M S n' = M S n := by
  induction n', hnn using Nat.le_induction with
  | base => rfl
  | succ m hm ih =>
    have hb : Finset.univ.sup (S (m + 1)) = ⊥ :=
      (Finset.sup_eq_bot_iff _ _).2 fun c _ => hpad (m + 1) (Nat.lt_succ_of_le hm) le_rfl c
    rw [M_succ, ih fun k h1 h2 => hpad k h1 (Nat.le_succ_of_le h2), hb]
    exact max_eq_left bot_le

end Max

/-! ## One tile, on real numbers -/

section Step

variable {κ : Type*} [Fintype κ]

/-- The tile's plain and weighted sums of terms, read on the extended reals, are real. -/
theorem sum_exp_coe (s : κ → EReal) (hs : ∀ c, s c ≠ ⊤) (μ : ℝ) :
    ∑ c, Ideal.exp (s c - (μ : EReal)) = ((∑ c, term (s c) μ : ℝ) : EReal) := by
  rw [coe_sum]
  exact Finset.sum_congr rfl fun c _ => exp_sub_coe (s c) (hs c) μ

theorem sum_exp_mul_coe (s : κ → EReal) (hs : ∀ c, s c ≠ ⊤) (v : κ → ℝ) (μ : ℝ) :
    ∑ c, Ideal.exp (s c - (μ : EReal)) * (v c : EReal) = ((∑ c, term (s c) μ * v c : ℝ) : EReal) := by
  rw [coe_sum]
  exact Finset.sum_congr rfl fun c _ => by rw [exp_sub_coe (s c) (hs c) μ, EReal.coe_mul]

/-- THE FIRST TILE: from the shift `⊥` the rescaling factor is `exp ⊥ = 0`, the old sums `0` stay `0`,
    and the new statistics are the tile's own. -/
theorem step_bot (s : κ → EReal) (hs : ∀ c, s c ≠ ⊤) (v : κ → ℝ) (μ : ℝ)
    (hμ : Finset.univ.sup s = (μ : EReal)) :
    step s v (⊥, 0, 0)
      = ((μ : EReal), ((∑ c, term (s c) μ : ℝ) : EReal), ((∑ c, term (s c) μ * v c : ℝ) : EReal)) := by
  have hm : max (⊥ : EReal) (Finset.univ.sup s) = (μ : EReal) := by rw [hμ]; exact max_eq_right bot_le
  unfold step
  dsimp only
  rw [hm, EReal.bot_sub, Ideal.exp_bot, mul_zero, zero_add, zero_add, sum_exp_coe s hs μ,
    sum_exp_mul_coe s hs v μ]

/-- A LATER TILE: from real statistics every quantity is real, and the step is the real one. -/
theorem step_coe (s : κ → EReal) (hs : ∀ c, s c ≠ ⊤) (v : κ → ℝ) (μ0 L A μ : ℝ)
    (hμ : max (μ0 : EReal) (Finset.univ.sup s) = (μ : EReal)) :
    step s v ((μ0 : EReal), (L : EReal), (A : EReal))
      = ((μ : EReal), ((Real.exp (μ0 - μ) * L + ∑ c, term (s c) μ : ℝ) : EReal),
          ((Real.exp (μ0 - μ) * A + ∑ c, term (s c) μ * v c : ℝ) : EReal)) := by
  have hα : Ideal.exp ((μ0 : EReal) - (μ : EReal)) = ((Real.exp (μ0 - μ) : ℝ) : EReal) := by
    rw [← EReal.coe_sub]
    rfl
  unfold step
  dsimp only
  rw [hμ, hα, sum_exp_coe s hs μ, sum_exp_mul_coe s hs v μ, ← EReal.coe_mul, ← EReal.coe_mul,
    ← EReal.coe_add, ← EReal.coe_add]

end Step

/-! ## The statistics after tile `n` -/

section Stat

variable {κ : Type*} [Fintype κ]

/-- Rescaling the sum over tiles `0 … n` and adding tile `n + 1`'s terms gives the sum over tiles
    `0 … n + 1` under the new shift; `g` weighs the terms (`1` for the plain sum). -/
theorem sum_rescale_succ (S : ℕ → κ → EReal) (g : ℕ → κ → ℝ) (n : ℕ) (μ0 μ : ℝ) :
    Real.exp (μ0 - μ) * (∑ k ∈ Finset.range (n + 1), ∑ c, term (S k c) μ0 * g k c)
        + ∑ c, term (S (n + 1) c) μ * g (n + 1) c
      = ∑ k ∈ Finset.range (n + 1 + 1), ∑ c, term (S k c) μ * g k c := by
  rw [Finset.sum_range_succ _ (n + 1), Finset.mul_sum]
  congr 1
  refine Finset.sum_congr rfl fun k _ => ?_
  rw [Finset.mul_sum]
  refine Finset.sum_congr rfl fun c _ => ?_
  rw [← mul_assoc, term_rescale]

/-- THE INVARIANT, one statement about the triple: after tile `n`, with `μ` the (real) largest score so
    far, the statistics are `μ`, the sum of all terms under the shift `μ`, and the weighted sum of all terms
    under the shift `μ`. -/
theorem stat_eq (S : ℕ → κ → EReal) (w : ℕ → κ → ℝ) (hS : ∀ k c, S k c ≠ ⊤) (h0 : ∃ c, S 0 c ≠ ⊥)
    (n : ℕ) (μ : ℝ) (hμ : M S n = (μ : EReal)) :
    stat S w n
      = ((μ : EReal), ((∑ k ∈ Finset.range (n + 1), ∑ c, term (S k c) μ : ℝ) : EReal),
          ((∑ k ∈ Finset.range (n + 1), ∑ c, term (S k c) μ * w k c : ℝ) : EReal)) := by
  induction n generalizing μ with
  | zero =>
    rw [stat_zero, step_bot (S 0) (hS 0) (w 0) μ ((M_zero S).symm.trans hμ), Finset.sum_range_one,
      Finset.sum_range_one]
  | succ n ih =>
    obtain ⟨μ0, hμ0⟩ := M_real S hS h0 n
    have hm : max (μ0 : EReal) (Finset.univ.sup (S (n + 1))) = (μ : EReal) := by
      rw [← hμ0, ← M_succ, hμ]
    have h1 := sum_rescale_succ S (fun _ _ => 1) n μ0 μ
    simp only [mul_one] at h1
    rw [stat_succ, ih μ0 hμ0, step_coe (S (n + 1)) (hS (n + 1)) (w (n + 1)) μ0 _ _ μ hm, h1,
      sum_rescale_succ S w n μ0 μ]

end Stat

/-! ## The facts, stated on the extended reals -/

section Facts

variable {κ : Type*} [Fintype κ]

/-- A weighted double sum of terms under a real shift, read on the extended reals, is real. -/
theorem sum_sum_exp_mul_coe (S : ℕ → κ → EReal) (hS : ∀ k c, S k c ≠ ⊤) (g : ℕ → κ → ℝ)
    (s : Finset ℕ) (μ : ℝ) :
    ∑ k ∈ s, ∑ c, Ideal.exp (S k c - (μ : EReal)) * (g k c : EReal)
      = ((∑ k ∈ s, ∑ c, term (S k c) μ * g k c : ℝ) : EReal) := by
  rw [coe_sum]
  exact Finset.sum_congr rfl fun k _ => sum_exp_mul_coe (S k) (hS k) (g k) μ

theorem sum_sum_exp_coe (S : ℕ → κ → EReal) (hS : ∀ k c, S k c ≠ ⊤) (s : Finset ℕ) (μ : ℝ) :
    ∑ k ∈ s, ∑ c, Ideal.exp (S k c - (μ : EReal))
      = ((∑ k ∈ s, ∑ c, term (S k c) μ : ℝ) : EReal) := by
  rw [coe_sum]
  exact Finset.sum_congr rfl fun k _ => sum_exp_coe (S k) (hS k) μ

/-- (1) THE SHIFT after tile `n` is the largest score of tiles `0 … n`. -/
theorem stat_fst (S : ℕ → κ → EReal) (w : ℕ → κ → ℝ) (hS : ∀ k c, S k c ≠ ⊤) (h0 : ∃ c, S 0 c ≠ ⊥)
    (n : ℕ) : (stat S w n).1 = M S n := by
  obtain ⟨μ, hμ⟩ := M_real S hS h0 n
  rw [stat_eq S w hS h0 n μ hμ, hμ]

/-- (2) THE SUM after tile `n` is the sum of `exp (score - largest score)` over every column read. -/
theorem stat_snd (S : ℕ → κ → EReal) (w : ℕ → κ → ℝ) (hS : ∀ k c, S k c ≠ ⊤) (h0 : ∃ c, S 0 c ≠ ⊥)
    (n : ℕ) : (stat S w n).2.1 = ∑ k ∈ Finset.range (n + 1), ∑ c, Ideal.exp (S k c - M S n) := by
  obtain ⟨μ, hμ⟩ := M_real S hS h0 n
  rw [stat_eq S w hS h0 n μ hμ, hμ, sum_sum_exp_coe S hS]

/-- The real sum of all terms under the largest score is at least `1`: the largest score's own term is
    `exp 0`, and no term is negative. -/
theorem one_le_sum_term (S : ℕ → κ → EReal) (h0 : ∃ c, S 0 c ≠ ⊥) (n : ℕ) (μ : ℝ)
    (hμ : M S n = (μ : EReal)) : 1 ≤ ∑ k ∈ Finset.range (n + 1), ∑ c, term (S k c) μ := by
  obtain ⟨k, hk, c, e⟩ := M_attained S h0 n
  have h1 : term (S k c) μ = 1 := by rw [← e, hμ, term_coe, sub_self, Real.exp_zero]
  calc (1 : ℝ) = term (S k c) μ := h1.symm
    _ ≤ ∑ c', term (S k c') μ :=
        Finset.single_le_sum (f := fun c' => term (S k c') μ) (fun c' _ => term_nonneg _ _)
          (Finset.mem_univ c)
    _ ≤ ∑ k' ∈ Finset.range (n + 1), ∑ c', term (S k' c') μ :=
        Finset.single_le_sum (f := fun k' => ∑ c', term (S k' c') μ)
          (fun k' _ => Finset.sum_nonneg fun c' _ => term_nonneg _ _)
          (Finset.mem_range.mpr (Nat.lt_succ_of_le hk))

/-- (2, continued) THE SUM IS A REAL NUMBER, at least `1`. -/
theorem stat_snd_real (S : ℕ → κ → EReal) (w : ℕ → κ → ℝ) (hS : ∀ k c, S k c ≠ ⊤)
    (h0 : ∃ c, S 0 c ≠ ⊥) (n : ℕ) : ∃ L : ℝ, 1 ≤ L ∧ (stat S w n).2.1 = (L : EReal) := by
  obtain ⟨μ, hμ⟩ := M_real S hS h0 n
  exact ⟨_, one_le_sum_term S h0 n μ hμ, by rw [stat_eq S w hS h0 n μ hμ]⟩

/-- (3) THE WEIGHTED SUM after tile `n`. -/
theorem stat_trd (S : ℕ → κ → EReal) (w : ℕ → κ → ℝ) (hS : ∀ k c, S k c ≠ ⊤) (h0 : ∃ c, S 0 c ≠ ⊥)
    (n : ℕ) :
    (stat S w n).2.2 = ∑ k ∈ Finset.range (n + 1), ∑ c, Ideal.exp (S k c - M S n) * (w k c : EReal) := by
  obtain ⟨μ, hμ⟩ := M_real S hS h0 n
  rw [stat_eq S w hS h0 n μ hμ, hμ, sum_sum_exp_mul_coe S hS w]

/-- Dividing one real term by a nonzero real, on the extended reals. -/
theorem div_coe_coe (x L : ℝ) (hL : L ≠ 0) :
    Ideal.div (x : EReal) (L : EReal) = ((x * (1 / L) : ℝ) : EReal) := by
  rw [Ideal.div_coe hL, ← EReal.coe_mul]

/-- (4) THE QUOTIENT of the weighted sum by the sum is the sum of the softmax weights times the values:
    a finite sum of reals is divided by a positive real term by term. -/
theorem stat_quotient (S : ℕ → κ → EReal) (w : ℕ → κ → ℝ) (hS : ∀ k c, S k c ≠ ⊤)
    (h0 : ∃ c, S 0 c ≠ ⊥) (n : ℕ) :
    Ideal.div (stat S w n).2.2 (stat S w n).2.1
      = ∑ k ∈ Finset.range (n + 1), ∑ c,
          Ideal.div (Ideal.exp (S k c - M S n)) ((stat S w n).2.1) * (w k c : EReal) := by
  obtain ⟨μ, hμ⟩ := M_real S hS h0 n
  have hL : (∑ k ∈ Finset.range (n + 1), ∑ c, term (S k c) μ) ≠ 0 :=
    (lt_of_lt_of_le one_pos (one_le_sum_term S h0 n μ hμ)).ne'
  rw [stat_eq S w hS h0 n μ hμ, hμ]
  dsimp only
  generalize (∑ k ∈ Finset.range (n + 1), ∑ c, term (S k c) μ) = L at hL ⊢
  rw [div_coe_coe _ _ hL, Finset.sum_mul, coe_sum]
  refine Finset.sum_congr rfl fun k _ => ?_
  rw [Finset.sum_mul, coe_sum]
  refine Finset.sum_congr rfl fun c _ => ?_
  rw [exp_sub_coe (S k c) (hS k c) μ, div_coe_coe _ _ hL, ← EReal.coe_mul]
  congr 1
  ring

end Facts

/-! ## Tiles masked entirely -/

section Padding

variable {κ : Type*} [Fintype κ]

/-- A sum over tiles `0 … n'` whose terms vanish beyond tile `n` is the sum over tiles `0 … n`. -/
theorem sum_range_padding {α : Type*} [AddCommMonoid α] (f : ℕ → α) {n n' : ℕ} (hnn : n ≤ n')
    (hz : ∀ k, n < k → k ≤ n' → f k = 0) :
    ∑ k ∈ Finset.range (n' + 1), f k = ∑ k ∈ Finset.range (n + 1), f k := by
  symm
  refine Finset.sum_subset (Finset.range_subset_range.mpr (Nat.succ_le_succ hnn)) fun k hk hk' => ?_
  exact hz k (Nat.lt_of_succ_le (not_lt.mp fun h => hk' (Finset.mem_range.mpr h)))
    (Nat.lt_succ_iff.mp (Finset.mem_range.mp hk))

/-- (5) PADDING, the sum: tiles of nothing but masked columns add `exp (⊥ - μ) = 0` each. -/
theorem sum_exp_padding (S : ℕ → κ → EReal) {n n' : ℕ} (hnn : n ≤ n')
    (hpad : ∀ k, n < k → k ≤ n' → ∀ c, S k c = ⊥) :
    ∑ k ∈ Finset.range (n' + 1), ∑ c, Ideal.exp (S k c - M S n')
      = ∑ k ∈ Finset.range (n + 1), ∑ c, Ideal.exp (S k c - M S n) := by
  rw [M_padding S hnn hpad]
  refine sum_range_padding _ hnn fun k h1 h2 => Finset.sum_eq_zero fun c _ => ?_
  rw [hpad k h1 h2 c, EReal.bot_sub, Ideal.exp_bot]

/-- (5) PADDING, the weighted sum: a masked column's term is `0`, times anything `0`. -/
theorem sum_exp_mul_padding (S : ℕ → κ → EReal) (g : ℕ → κ → EReal) {n n' : ℕ} (hnn : n ≤ n')
    (hpad : ∀ k, n < k → k ≤ n' → ∀ c, S k c = ⊥) :
    ∑ k ∈ Finset.range (n' + 1), ∑ c, Ideal.exp (S k c - M S n') * g k c
      = ∑ k ∈ Finset.range (n + 1), ∑ c, Ideal.exp (S k c - M S n) * g k c := by
  rw [M_padding S hnn hpad]
  refine sum_range_padding _ hnn fun k h1 h2 => Finset.sum_eq_zero fun c _ => ?_
  rw [hpad k h1 h2 c, EReal.bot_sub, Ideal.exp_bot, zero_mul]

/-- (5) PADDING, the softmax-weighted sum, for any nonzero divisor: `0 / l = 0`. -/
theorem sum_div_padding (S : ℕ → κ → EReal) (g : ℕ → κ → EReal) (l : EReal) (hl : l ≠ 0) {n n' : ℕ}
    (hnn : n ≤ n') (hpad : ∀ k, n < k → k ≤ n' → ∀ c, S k c = ⊥) :
    ∑ k ∈ Finset.range (n' + 1), ∑ c, Ideal.div (Ideal.exp (S k c - M S n')) l * g k c
      = ∑ k ∈ Finset.range (n + 1), ∑ c, Ideal.div (Ideal.exp (S k c - M S n)) l * g k c := by
  rw [M_padding S hnn hpad]
  refine sum_range_padding _ hnn fun k h1 h2 => Finset.sum_eq_zero fun c _ => ?_
  rw [hpad k h1 h2 c, EReal.bot_sub, Ideal.exp_bot, Ideal.div, if_neg hl, zero_mul, zero_mul]

/-- (5) PADDING, the statistics themselves: tiles masked entirely leave the triple as it was. -/
theorem stat_padding (S : ℕ → κ → EReal) (w : ℕ → κ → ℝ) (hS : ∀ k c, S k c ≠ ⊤)
    (h0 : ∃ c, S 0 c ≠ ⊥) {n n' : ℕ} (hnn : n ≤ n')
    (hpad : ∀ k, n < k → k ≤ n' → ∀ c, S k c = ⊥) : stat S w n' = stat S w n := by
  obtain ⟨μ, hμ⟩ := M_real S hS h0 n
  have h1 : ∑ k ∈ Finset.range (n' + 1), ∑ c, term (S k c) μ
      = ∑ k ∈ Finset.range (n + 1), ∑ c, term (S k c) μ :=
    sum_range_padding _ hnn fun k h1 h2 => Finset.sum_eq_zero fun c _ => by
      rw [hpad k h1 h2 c, term_bot]
  have h2 : ∑ k ∈ Finset.range (n' + 1), ∑ c, term (S k c) μ * w k c
      = ∑ k ∈ Finset.range (n + 1), ∑ c, term (S k c) μ * w k c :=
    sum_range_padding _ hnn fun k h1 h2 => Finset.sum_eq_zero fun c _ => by
      rw [hpad k h1 h2 c, term_bot, zero_mul]
  rw [stat_eq S w hS h0 n' μ ((M_padding S hnn hpad).trans hμ), stat_eq S w hS h0 n μ hμ, h1, h2]

/-- (5) PADDING, the quotient's right-hand side with each tile count's own sum as divisor. -/
theorem sum_div_stat_padding (S : ℕ → κ → EReal) (w : ℕ → κ → ℝ) (hS : ∀ k c, S k c ≠ ⊤)
    (h0 : ∃ c, S 0 c ≠ ⊥) {n n' : ℕ} (hnn : n ≤ n')
    (hpad : ∀ k, n < k → k ≤ n' → ∀ c, S k c = ⊥) :
    ∑ k ∈ Finset.range (n' + 1), ∑ c,
        Ideal.div (Ideal.exp (S k c - M S n')) ((stat S w n').2.1) * (w k c : EReal)
      = ∑ k ∈ Finset.range (n + 1), ∑ c,
        Ideal.div (Ideal.exp (S k c - M S n)) ((stat S w n).2.1) * (w k c : EReal) := by
  obtain ⟨L, hL1, hL⟩ := stat_snd_real S w hS h0 n
  have hl : (stat S w n).2.1 ≠ 0 := by
    rw [hL]
    exact_mod_cast (lt_of_lt_of_le one_pos hL1).ne'
  rw [stat_padding S w hS h0 hnn hpad]
  exact sum_div_padding S (fun k c => (w k c : EReal)) _ hl hnn hpad

end Padding

end ProofLib.TiledSoftmax

end
-- ==== Proof.KIValue1Index.lean ====
/-
  Region 1 (the attention kernel), one tile read at an index, at the ideal instance.

  The six statistics a tile's step leaves are whole arrays over the skeleton's payloads. Read at one row `r`
  (and, for a numerator, one column `d` of a head), with every layout operation followed to the entry it reads:
  the scores of the row against the tile's 256 columns are, where the causal mask allows, the sum over the head's 64
  feature columns of q times k, and `⊥` where it does not (the masked fill is the named constant, `⊥` at the ideal
  instance); the row's new maximum is the larger of the old one and the scores' maximum; the new sum is the old one
  rescaled by the exponential of the maxima's difference plus the sum of the scores' exponentials under the new
  maximum; the new numerator entry is the old one rescaled plus the sum of those exponentials times the tile's
  values in column `d`. That is one step of the tiled softmax recursion at that row. Besides: the reset
  statistics are `⊥`, `0`, `0` at every entry, and the output block holds each head's numerator divided by its sum.
-/
import proofs.«151496_j75222057222809_2_alg».proof.Proof.KIValue1Pieces
import proofs.«151496_j75222057222809_2_alg».proof.Proof.LibTiledSoftmax
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandValue

open Cert.KernelIdeal Cert.KernelIdeal.Gen Idealize.ShloMosaic Idealize.ShloMosaic.TcCoe Idealize.SL.Sem
open Idealize.ShloMosaic.ValueIdx

/-! ## Column vectors read at an index -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two float words of the reset -/

/-- The word `0xFF800000` is `-∞`. -/
theorem ofBits_neg_inf : Ideal.ofBits .f32 0xFF800000#32 = ⊥ := by
  simp [Ideal.ofBits, Ideal.ieee]

/-- The masked fill, the named constant, is `⊥` at the ideal instance. -/
theorem neg_big_eq : Named.named (F := Ideal) κ "neg_big" (φ := .f32) 0xFF333332#32 = (⊥ : EReal) :=
  IdealRules.named_const.ideal_named_scalar _ _ _ _ rfl

/-! ## The causal mask -/

/-- The mask bit of row `r` of row block `qi` against column `col` of tile `kt`: the signed comparison
    `qi · 256 + r ≥ kt · 256 + col` on 32-bit words. -/
def maskBit (qi kt : BitVec 32) (r col : Fin 256) : BitVec 1 :=
  IntOp.cmpi .sge (IntOp.addi (Scalar.muli qi 256#32) (BitVec.ofNat 32 r.val))
    (IntOp.addi (Scalar.muli kt 256#32) (BitVec.ofNat 32 col.val))

/-- The mask payload at `(r, col)` is that bit. -/
theorem pay14_apply (qi kt : BitVec 32) (r col : Fin 256) : k1_pay14 qi kt (ix2 r col) = maskBit qi kt r col := by
  unfold k1_pay14 maskBit
  show IntOp.cmpi .sge (IntOp.addi (Scalar.muli qi 256#32) (iota .tc S256x256 32 [0] iota_S256x256_d0_w32 (ix2 r col)))
    (IntOp.addi (Scalar.muli kt 256#32) (iota .tc S256x256 32 [1] iota_S256x256_d1_w32 (ix2 r col))) = _
  rw [iota_single_apply, iota_single_apply]

/-- Signed comparison of two small words is the comparison of the numbers. -/
theorem sle_ofNat_small (m n : ℕ) (hm : m < 2 ^ 31) (hn : n < 2 ^ 31) :
    (BitVec.ofNat 32 m).sle (BitVec.ofNat 32 n) = decide (m ≤ n) := by
  have e : ∀ k, k < 2 ^ 31 → (BitVec.ofNat 32 k).toInt = (k : ℤ) := by
    intro k hk
    rw [BitVec.toInt_eq_toNat_cond, BitVec.toNat_ofNat, Nat.mod_eq_of_lt (by omega), if_pos (by omega)]
  unfold BitVec.sle
  rw [e m hm, e n hn]
  simp

/-- With the block coordinates below 8 nothing wraps: the bit is set exactly when the column's position in the
    sequence is at most the row's. -/
theorem maskBit_eq (a b : Fin 8) (r col : Fin 256) :
    maskBit (BitVec.ofNat 32 a.val) (BitVec.ofNat 32 b.val) r col
      = BitVec.ofBool (decide (256 * b.val + col.val ≤ 256 * a.val + r.val)) := by
  have hx : ∀ (a : Fin 8) (r : Fin 256),
      IntOp.addi (Scalar.muli (BitVec.ofNat 32 a.val) 256#32) (BitVec.ofNat 32 r.val)
        = BitVec.ofNat 32 (256 * a.val + r.val) := by
    intro a r
    apply BitVec.eq_of_toNat_eq
    show (BitVec.ofNat 32 a.val * 256#32 + BitVec.ofNat 32 r.val).toNat = _
    simp only [BitVec.toNat_add, BitVec.toNat_mul, BitVec.toNat_ofNat]
    have := a.isLt
    have := r.isLt
    omega
  have ha := a.isLt
  have hb := b.isLt
  have hr := r.isLt
  have hc := col.isLt
  unfold maskBit IntOp.cmpi
  dsimp only
  rw [hx a r, hx b col, sle_ofNat_small _ _ (by omega) (by omega)]

theorem maskBit_iff (a b : Fin 8) (r col : Fin 256) :
    maskBit (BitVec.ofNat 32 a.val) (BitVec.ofNat 32 b.val) r col = 1#1
      ↔ 256 * b.val + col.val ≤ 256 * a.val + r.val := by
  rw [maskBit_eq]
  by_cases h : 256 * b.val + col.val ≤ 256 * a.val + r.val
  · simp [h]
  · simp [h]

theorem maskBit_eq_zero (a b : Fin 8) (r col : Fin 256) (h : ¬256 * b.val + col.val ≤ 256 * a.val + r.val) :
    maskBit (BitVec.ofNat 32 a.val) (BitVec.ofNat 32 b.val) r col = 0#1 :=
  eq_zero_of_ne_one fun h1 => h ((maskBit_iff a b r col).mp h1)

/-! ## The two matrix products at an index -/

/-- A `[256, 64]` block times the transpose of another, accumulated into zero, at `(r, col)`: the sum over the 64
    contracted columns. -/
theorem qk_matmul_apply (v1 v2 : FVec Ideal S256x64 .bf16) (r col : Fin 256) :
    matmul dot_S256x64_S256x64_S256x256_1_1_0_0_n_n none v1 v2 (constant S256x256 .f32 0x00000000#32) (ix2 r col)
      = ∑ dd : Fin 64, v1 (ix2 r dd) * v2 (ix2 col dd) := by
  show FloatOps.matmul dot_S256x64_S256x64_S256x256_1_1_0_0_n_n none v1 v2 (constant S256x256 .f32 0x00000000#32) (ix2 r col) = _
  rw [Ideal.matmul_constant_zero_apply, ← Equiv.sum_comp (contrEquiv1 dot_S256x64_S256x64_S256x256_1_1_0_0_n_n 64 rfl rfl).symm]
  refine Finset.sum_congr rfl fun k _ => ?_
  have hk := contrEquiv1_symm_val dot_S256x64_S256x64_S256x256_1_1_0_0_n_n 64 rfl rfl k
  have el : dot_S256x64_S256x64_S256x256_1_1_0_0_n_n.lhsIdx (ix2 r col) ((contrEquiv1 dot_S256x64_S256x64_S256x256_1_1_0_0_n_n 64 rfl rfl).symm k) = ix2 r k := funext fun a => Fin.ext (by
    match a with
    | ⟨0, _⟩ =>
      show (dot_S256x64_S256x64_S256x256_1_1_0_0_n_n.lhsIdx (ix2 r col) _ 0).val = r.val
      unfold DotDims.lhsIdx
      rw [dif_neg (show ¬(0 : Fin S256x64.rank) ∈ dot_S256x64_S256x64_S256x256_1_1_0_0_n_n.lhsBatch by decide), dif_pos (show (0 : Fin S256x64.rank) ∈ dot_S256x64_S256x64_S256x256_1_1_0_0_n_n.lhsNonContracting by decide)]
      rfl
    | ⟨1, _⟩ => exact (dot_S256x64_S256x64_S256x256_1_1_0_0_n_n.lhsIdx_val_of_single rfl _ _).trans hk)
  have er : dot_S256x64_S256x64_S256x256_1_1_0_0_n_n.rhsIdx (ix2 r col) ((contrEquiv1 dot_S256x64_S256x64_S256x256_1_1_0_0_n_n 64 rfl rfl).symm k) = ix2 col k := funext fun a => Fin.ext (by
    match a with
    | ⟨0, _⟩ =>
      show (dot_S256x64_S256x64_S256x256_1_1_0_0_n_n.rhsIdx (ix2 r col) _ 0).val = col.val
      unfold DotDims.rhsIdx
      rw [dif_neg (show ¬(0 : Fin S256x64.rank) ∈ dot_S256x64_S256x64_S256x256_1_1_0_0_n_n.rhsBatch by decide), dif_pos (show (0 : Fin S256x64.rank) ∈ dot_S256x64_S256x64_S256x256_1_1_0_0_n_n.rhsNonContracting by decide)]
      rfl
    | ⟨1, _⟩ => exact (dot_S256x64_S256x64_S256x256_1_1_0_0_n_n.rhsIdx_val_of_single rfl _ _).trans hk)
  rw [el, er]

/-- A `[256, 256]` block times a `[256, 64]` block, accumulated into zero, at `(r, d)`: the sum over the 256
    contracted columns of the first, rows of the second. -/
theorem pv_matmul_apply (p : FVec Ideal S256x256 .bf16) (v : FVec Ideal S256x64 .bf16) (r : Fin 256) (d : Fin 64) :
    matmul dot_S256x256_S256x64_S256x64_1_0_0_1_n_n none p v (constant S256x64 .f32 0x00000000#32) (ix2 r d)
      = ∑ col : Fin 256, p (ix2 r col) * v (ix2 col d) := by
  show FloatOps.matmul dot_S256x256_S256x64_S256x64_1_0_0_1_n_n none p v (constant S256x64 .f32 0x00000000#32) (ix2 r d) = _
  rw [Ideal.matmul_constant_zero_apply, ← Equiv.sum_comp (contrEquiv1 dot_S256x256_S256x64_S256x64_1_0_0_1_n_n 256 rfl rfl).symm]
  refine Finset.sum_congr rfl fun k _ => ?_
  have hk := contrEquiv1_symm_val dot_S256x256_S256x64_S256x64_1_0_0_1_n_n 256 rfl rfl k
  have el : dot_S256x256_S256x64_S256x64_1_0_0_1_n_n.lhsIdx (ix2 r d) ((contrEquiv1 dot_S256x256_S256x64_S256x64_1_0_0_1_n_n 256 rfl rfl).symm k) = ix2 r k := funext fun a => Fin.ext (by
    match a with
    | ⟨0, _⟩ =>
      show (dot_S256x256_S256x64_S256x64_1_0_0_1_n_n.lhsIdx (ix2 r d) _ 0).val = r.val
      unfold DotDims.lhsIdx
      rw [dif_neg (show ¬(0 : Fin S256x256.rank) ∈ dot_S256x256_S256x64_S256x64_1_0_0_1_n_n.lhsBatch by decide), dif_pos (show (0 : Fin S256x256.rank) ∈ dot_S256x256_S256x64_S256x64_1_0_0_1_n_n.lhsNonContracting by decide)]
      rfl
    | ⟨1, _⟩ => exact (dot_S256x256_S256x64_S256x64_1_0_0_1_n_n.lhsIdx_val_of_single rfl _ _).trans hk)
  have er : dot_S256x256_S256x64_S256x64_1_0_0_1_n_n.rhsIdx (ix2 r d) ((contrEquiv1 dot_S256x256_S256x64_S256x64_1_0_0_1_n_n 256 rfl rfl).symm k) = ix2 k d := funext fun a => Fin.ext (by
    match a with
    | ⟨0, _⟩ => exact (dot_S256x256_S256x64_S256x64_1_0_0_1_n_n.rhsIdx_val_of_single rfl _ _).trans hk
    | ⟨1, _⟩ =>
      show (dot_S256x256_S256x64_S256x64_1_0_0_1_n_n.rhsIdx (ix2 r d) _ 1).val = d.val
      unfold DotDims.rhsIdx
      rw [dif_neg (show ¬(1 : Fin S256x64.rank) ∈ dot_S256x256_S256x64_S256x64_1_0_0_1_n_n.rhsBatch by decide), dif_pos (show (1 : Fin S256x64.rank) ∈ dot_S256x256_S256x64_S256x64_1_0_0_1_n_n.rhsNonContracting by decide)]
      rfl)
  rw [el, er]

/-! ## The scores of a row -/

/-- Feature column `dd` of head `e` among a block's 128 columns. -/
abbrev hcol (e : Fin 2) (dd : Fin 64) : Fin 128 :=
  ⟨64 * e.val + dd.val, by have := e.isLt; have := dd.isLt; omega⟩

/-- THE MASKED SCORE of row `r` against column `col` of the tile, for head `e`: where the mask allows, the sum over
    the head's 64 feature columns of q times k; `⊥` elsewhere. -/
def score (e : Fin 2) (qi kt : BitVec 32) (x0 x1 : Vec Ideal S1x256x128 .bf16) (r col : Fin 256) : EReal :=
  if maskBit qi kt r col = 1#1 then
    ∑ dd : Fin 64, (x0 (ix3 (0 : Fin 1) r (hcol e dd)) : EReal) * (x1 (ix3 (0 : Fin 1) col (hcol e dd)) : EReal)
  else ⊥

/-- Head 0's columns of a block viewed `[256, 128]`: entry `(p, dd)` is the block's entry `(0, p, dd)`. -/
theorem head0_apply (x : Vec Ideal S1x256x128 .bf16) (hc : S1x256x128.ShapeCasts S256x128)
    (hs : S256x128.Slices ![0, 0] S256x64) (p : Fin 256) (dd : Fin 64) :
    extractStridedSlice S256x64 ![0, 0] (shapeCast S256x128 x hc) hs (ix2 p dd) = x (ix3 (0 : Fin 1) p (hcol 0 dd)) := by
  refine (slice2_axis1_eq 0 _ hs p dd).trans ?_
  refine (shapeCast_1ab_ab_apply x hc p _).trans ?_
  exact congrArg (fun c => x (ix3 (0 : Fin 1) p c)) (Fin.ext (by show 0 + dd.val = 64 * 0 + dd.val; omega))

/-- Head 1's columns: entry `(p, dd)` is the block's entry `(0, p, 64 + dd)`. -/
theorem head1_apply (x : Vec Ideal S1x256x128 .bf16) (hc : S1x256x128.ShapeCasts S256x128)
    (hs : S256x128.Slices ![0, 64] S256x64) (p : Fin 256) (dd : Fin 64) :
    extractStridedSlice S256x64 ![0, 64] (shapeCast S256x128 x hc) hs (ix2 p dd) = x (ix3 (0 : Fin 1) p (hcol 1 dd)) := by
  refine (slice2_axis1_eq 64 _ hs p dd).trans ?_
  refine (shapeCast_1ab_ab_apply x hc p _).trans ?_
  exact congrArg (fun c => x (ix3 (0 : Fin 1) p c)) (Fin.ext (by show 64 + dd.val = 64 * 1 + dd.val; omega))

/-- A select between a value and `⊥` on the mask bit is the `if`. -/
theorem select_mask (b : BitVec 1) (A : EReal) : Scalar.select b A (⊥ : EReal) = if b = 1#1 then A else ⊥ := by
  by_cases h : b = 1#1
  · rw [h, select_one, if_pos rfl]
  · rw [eq_zero_of_ne_one h, select_zero, if_neg (by decide)]

/-- Head 0's score payload at `(r, col)`. -/
theorem pay16_apply (qi kt : BitVec 32) (x0 x1 : Vec Ideal S1x256x128 .bf16) (r col : Fin 256) :
    k1_pay16 (F := Ideal) qi kt x0 x1 (ix2 r col) = score 0 qi kt x0 x1 r col := by
  unfold k1_pay16 k1_pay11 k1_pay12
  dsimp only
  refine (select_apply _ _ _ _).trans ?_
  rw [pay14_apply, broadcast_apply, neg_big_eq, qk_matmul_apply, select_mask]
  unfold score
  refine if_congr Iff.rfl (Finset.sum_congr rfl fun dd _ => ?_) rfl
  rw [head0_apply, head0_apply]

/-- Head 1's score payload at `(r, col)`. -/
theorem pay24_apply (qi kt : BitVec 32) (x0 x1 : Vec Ideal S1x256x128 .bf16) (r col : Fin 256) :
    k1_pay24 (F := Ideal) (k1_pay11 x0) (k1_pay12 x1) (k1_pay14 qi kt) (ix2 r col) = score 1 qi kt x0 x1 r col := by
  unfold k1_pay24 k1_pay11 k1_pay12
  dsimp only
  refine (select_apply _ _ _ _).trans ?_
  rw [pay14_apply, broadcast_apply, neg_big_eq, qk_matmul_apply, select_mask]
  unfold score
  refine if_congr Iff.rfl (Finset.sum_congr rfl fun dd _ => ?_) rfl
  rw [head1_apply, head1_apply]

/-! ## A row's maximum and sum, as columns -/

/-- The fold of `max` from `⊥` over a finite type is the supremum. -/
theorem fold_max_bot {ι : Type*} [Fintype ι] (f : ι → EReal) :
    (Finset.univ : Finset ι).fold max (⊥ : EReal) f = Finset.univ.sup f := rfl

/-- The lane maximum of a `[256, 256]` array, kept as a column: at `(r, u)` the supremum of row `r`. -/
theorem rowmax_apply (sc : FVec Ideal S256x256 .f32) (hr : S256x256.Reduces [1] S256) (hφ : FKind.Formats .f32)
    (hacc : (0xFF800000#32 : BitVec 32) = FKind.maximumf.neutral .f32 hφ) (hc : S256.ShapeCasts S256x1)
    (r : Fin 256) (u : Fin 1) :
    shapeCast S256x1 (multiReduction .maximumf [1] S256 sc 0xFF800000#32 hr hφ hacc) hc (ix2 r u)
      = Finset.univ.sup fun col : Fin 256 => sc (ix2 r col) := by
  refine (shapeCast_a_a1_apply _ hc r u).trans ?_
  refine (Ideal.multiReduction_maximumf_single sc 0xFF800000#32 hr hφ hacc (ix1 r)).trans ?_
  have hl : ∀ k : Fin 256, hr.lift (ix1 r) k = ix2 r k := fun k => funext fun a => Fin.ext (by
    match a with
    | ⟨0, _⟩ => rfl
    | ⟨1, _⟩ => rfl)
  show (Finset.univ : Finset (Fin 256)).fold max (Ideal.ofBits .f32 0xFF800000#32) (fun k => sc (hr.lift (ix1 r) k)) = _
  rw [ofBits_neg_inf]
  exact congrArg (fun f : Fin 256 → EReal => Finset.univ.sup f) (funext fun k => congrArg sc (hl k))

/-- The lane sum of a `[256, 256]` array, kept as a column: at `(r, u)` the sum of row `r`. -/
theorem rowsum_apply (ex : FVec Ideal S256x256 .f32) (hr : S256x256.Reduces [1] S256) (hφ : FKind.Formats .f32)
    (hacc : (0x00000000#32 : BitVec 32) = FKind.add.neutral .f32 hφ) (hc : S256.ShapeCasts S256x1)
    (r : Fin 256) (u : Fin 1) :
    shapeCast S256x1 (multiReduction .add [1] S256 ex 0x00000000#32 hr hφ hacc) hc (ix2 r u)
      = ∑ col : Fin 256, ex (ix2 r col) := by
  refine (shapeCast_a_a1_apply _ hc r u).trans ?_
  refine (Ideal.multiReduction_add_single ex 0x00000000#32 hr hφ hacc (ix1 r)).trans ?_
  have hl : ∀ k : Fin 256, hr.lift (ix1 r) k = ix2 r k := fun k => funext fun a => Fin.ext (by
    match a with
    | ⟨0, _⟩ => rfl
    | ⟨1, _⟩ => rfl)
  show ∑ k : Fin 256, ex (hr.lift (ix1 r) k) = _
  exact Finset.sum_congr rfl fun k _ => congrArg ex (hl k)

/-! ## Head 0's payloads at an index -/

/-- The new maximum of row `r`. -/
theorem pay17_apply (qi kt : BitVec 32) (x0 x1 : Vec Ideal S1x256x128 .bf16) (v30 : Vec Ideal S256x1 .f32) (r : Fin 256)
    (u : Fin 1) :
    k1_pay17 (F := Ideal) qi kt x0 x1 v30 (ix2 r u)
      = max (v30 (ix2 r u)) (Finset.univ.sup (score 0 qi kt x0 x1 r)) := by
  unfold k1_pay17
  try dsimp only
  refine (maximumf_apply _ _ _).trans ?_
  refine congrArg (max (v30 (ix2 r u))) ?_
  refine (rowmax_apply _ _ _ _ _ r u).trans ?_
  exact congrArg (fun f : Fin 256 → EReal => Finset.univ.sup f) (funext fun col => pay16_apply qi kt x0 x1 r col)

/-- The rescaling factor of row `r`. -/
theorem pay18_apply (qi kt : BitVec 32) (x0 x1 : Vec Ideal S1x256x128 .bf16) (v30 : Vec Ideal S256x1 .f32) (r : Fin 256)
    (u : Fin 1) :
    k1_pay18 (F := Ideal) qi kt x0 x1 v30 (ix2 r u)
      = Ideal.exp (v30 (ix2 r u) - max (v30 (ix2 r u)) (Finset.univ.sup (score 0 qi kt x0 x1 r))) := by
  unfold k1_pay18
  try dsimp only
  show Ideal.exp (v30 (ix2 r u) - k1_pay17 (F := Ideal) qi kt x0 x1 v30 (ix2 r u)) = _
  rw [pay17_apply]

/-- The exponential of a score under the new maximum. -/
theorem pay19_apply (qi kt : BitVec 32) (x0 x1 : Vec Ideal S1x256x128 .bf16) (v30 : Vec Ideal S256x1 .f32)
    (r col : Fin 256) :
    k1_pay19 (F := Ideal) qi kt x0 x1 v30 (ix2 r col)
      = Ideal.exp (score 0 qi kt x0 x1 r col
          - max (v30 (ix2 r (0 : Fin 1))) (Finset.univ.sup (score 0 qi kt x0 x1 r))) := by
  unfold k1_pay19
  try dsimp only
  show Ideal.exp (k1_pay16 (F := Ideal) qi kt x0 x1 (ix2 r col)
    - broadcastTo S256x256 (k1_pay17 (F := Ideal) qi kt x0 x1 v30) _ (ix2 r col)) = _
  rw [pay16_apply, broadcastTo_a1_ab_apply, pay17_apply]

/-- The new sum of row `r`. -/
theorem pay20_apply (qi kt : BitVec 32) (x0 x1 : Vec Ideal S1x256x128 .bf16) (v30 v39 : Vec Ideal S256x1 .f32)
    (r : Fin 256) :
    k1_pay20 (F := Ideal) qi kt x0 x1 v30 v39 (ix2 r (0 : Fin 1))
      = Ideal.exp (v30 (ix2 r (0 : Fin 1))
            - max (v30 (ix2 r (0 : Fin 1))) (Finset.univ.sup (score 0 qi kt x0 x1 r))) * v39 (ix2 r (0 : Fin 1))
        + ∑ col : Fin 256, Ideal.exp (score 0 qi kt x0 x1 r col
            - max (v30 (ix2 r (0 : Fin 1))) (Finset.univ.sup (score 0 qi kt x0 x1 r))) := by
  unfold k1_pay20
  try dsimp only
  rw [shapeCast_self]
  refine (addf_apply _ _ _).trans ?_
  refine congrArg₂ (· + ·) ?_ ?_
  · refine (mulf_apply _ _ _).trans ?_
    rw [pay18_apply]
  · refine (rowsum_apply _ _ _ _ _ r 0).trans ?_
    exact Finset.sum_congr rfl fun col _ => pay19_apply qi kt x0 x1 v30 r col

/-- The new numerator entry `(r, d)`. -/
theorem pay21_apply (qi kt : BitVec 32) (x0 x1 x2 : Vec Ideal S1x256x128 .bf16) (v30 : Vec Ideal S256x1 .f32)
    (v47 : Vec Ideal S256x64 .f32) (r : Fin 256) (d : Fin 64) :
    k1_pay21 (F := Ideal) (k1_pay15 x2) (k1_pay18 qi kt x0 x1 v30) (k1_pay19 qi kt x0 x1 v30) v47 (ix2 r d)
      = Ideal.exp (v30 (ix2 r (0 : Fin 1))
            - max (v30 (ix2 r (0 : Fin 1))) (Finset.univ.sup (score 0 qi kt x0 x1 r))) * v47 (ix2 r d)
        + ∑ col : Fin 256, Ideal.exp (score 0 qi kt x0 x1 r col
            - max (v30 (ix2 r (0 : Fin 1))) (Finset.univ.sup (score 0 qi kt x0 x1 r)))
              * x2 (ix3 (0 : Fin 1) col (hcol 0 d)) := by
  unfold k1_pay21
  try dsimp only
  rw [shapeCast_self]
  refine (addf_apply _ _ _).trans ?_
  refine congrArg₂ (· + ·) ?_ ?_
  · refine (mulf_apply _ _ _).trans ?_
    rw [broadcastTo_a1_ab_apply, pay18_apply]
  · refine (pv_matmul_apply _ _ r d).trans ?_
    refine Finset.sum_congr rfl fun col _ => ?_
    rw [truncf_apply, pay19_apply]
    unfold k1_pay15 k1_pay13
    try dsimp only
    rw [head0_apply]

/-! ## One tile at a row: the recursion's step -/

/-- HEAD 0, ONE TILE AT ROW `r` (numerator column `d`): the three statistics after the tile are one step of the
    tiled softmax recursion on the row's masked scores, with the tile's values in column `d` of head 0. -/
theorem step_head0 (qi kt : BitVec 32) (x0 x1 x2 : Vec Ideal S1x256x128 .bf16) (s : Hand.Scr Ideal) (r : Fin 256)
    (d : Fin 64) (w : Fin 256 → ℝ) (hw : ∀ col, x2 (ix3 (0 : Fin 1) col (hcol 0 d)) = (w col : EReal)) :
    ((Hand.stepK qi kt x0 x1 x2 s).1 (ix2 r (0 : Fin 1)), (Hand.stepK qi kt x0 x1 x2 s).2.1 (ix2 r (0 : Fin 1)),
        (Hand.stepK qi kt x0 x1 x2 s).2.2.1 (ix2 r d))
      = ProofLib.TiledSoftmax.step (score 0 qi kt x0 x1 r) w
          (s.1 (ix2 r (0 : Fin 1)), s.2.1 (ix2 r (0 : Fin 1)), s.2.2.1 (ix2 r d)) := by
  unfold Hand.stepK ProofLib.TiledSoftmax.step
  dsimp only
  refine Prod.ext ?_ (Prod.ext ?_ ?_)
  · show k1_pay22 (F := Ideal) (k1_pay17 qi kt x0 x1 s.1) (ix2 r (0 : Fin 1)) = _
    unfold k1_pay22
    try dsimp only
    rw [shapeCast_self, pay17_apply]
  · show k1_pay20 (F := Ideal) qi kt x0 x1 s.1 s.2.1 (ix2 r (0 : Fin 1)) = _
    rw [pay20_apply]
  · show k1_pay21 (F := Ideal) (k1_pay15 x2) (k1_pay18 qi kt x0 x1 s.1) (k1_pay19 qi kt x0 x1 s.1) s.2.2.1 (ix2 r d) = _
    rw [pay21_apply]
    simp only [hw]

/-! ## Head 1's payloads at an index -/

/-- The new maximum of row `r`, head 1. -/
theorem pay25_apply (qi kt : BitVec 32) (x0 x1 : Vec Ideal S1x256x128 .bf16) (v65 : Vec Ideal S256x1 .f32) (r : Fin 256)
    (u : Fin 1) :
    k1_pay25 (F := Ideal) (k1_pay11 x0) (k1_pay12 x1) (k1_pay14 qi kt) v65 (ix2 r u)
      = max (v65 (ix2 r u)) (Finset.univ.sup (score 1 qi kt x0 x1 r)) := by
  unfold k1_pay25
  try dsimp only
  refine (maximumf_apply _ _ _).trans ?_
  refine congrArg (max (v65 (ix2 r u))) ?_
  refine (rowmax_apply _ _ _ _ _ r u).trans ?_
  exact congrArg (fun f : Fin 256 → EReal => Finset.univ.sup f) (funext fun col => pay24_apply qi kt x0 x1 r col)

/-- The rescaling factor of row `r`, head 1. -/
theorem pay26_apply (qi kt : BitVec 32) (x0 x1 : Vec Ideal S1x256x128 .bf16) (v65 : Vec Ideal S256x1 .f32) (r : Fin 256)
    (u : Fin 1) :
    k1_pay26 (F := Ideal) (k1_pay11 x0) (k1_pay12 x1) (k1_pay14 qi kt) v65 (ix2 r u)
      = Ideal.exp (v65 (ix2 r u) - max (v65 (ix2 r u)) (Finset.univ.sup (score 1 qi kt x0 x1 r))) := by
  unfold k1_pay26
  try dsimp only
  show Ideal.exp (v65 (ix2 r u) - k1_pay25 (F := Ideal) (k1_pay11 x0) (k1_pay12 x1) (k1_pay14 qi kt) v65 (ix2 r u)) = _
  rw [pay25_apply]

/-- The exponential of a score under the new maximum, head 1. -/
theorem pay27_apply (qi kt : BitVec 32) (x0 x1 : Vec Ideal S1x256x128 .bf16) (v65 : Vec Ideal S256x1 .f32)
    (r col : Fin 256) :
    k1_pay27 (F := Ideal) (k1_pay11 x0) (k1_pay12 x1) (k1_pay14 qi kt) v65 (ix2 r col)
      = Ideal.exp (score 1 qi kt x0 x1 r col
          - max (v65 (ix2 r (0 : Fin 1))) (Finset.univ.sup (score 1 qi kt x0 x1 r))) := by
  unfold k1_pay27
  try dsimp only
  show Ideal.exp (k1_pay24 (F := Ideal) (k1_pay11 x0) (k1_pay12 x1) (k1_pay14 qi kt) (ix2 r col)
    - broadcastTo S256x256 (k1_pay25 (F := Ideal) (k1_pay11 x0) (k1_pay12 x1) (k1_pay14 qi kt) v65) _ (ix2 r col)) = _
  rw [pay24_apply, broadcastTo_a1_ab_apply, pay25_apply]

/-- The new sum of row `r`, head 1. -/
theorem pay28_apply (qi kt : BitVec 32) (x0 x1 : Vec Ideal S1x256x128 .bf16) (v65 v74 : Vec Ideal S256x1 .f32)
    (r : Fin 256) :
    k1_pay28 (F := Ideal) (k1_pay11 x0) (k1_pay12 x1) (k1_pay14 qi kt) v65 v74 (ix2 r (0 : Fin 1))
      = Ideal.exp (v65 (ix2 r (0 : Fin 1))
            - max (v65 (ix2 r (0 : Fin 1))) (Finset.univ.sup (score 1 qi kt x0 x1 r))) * v74 (ix2 r (0 : Fin 1))
        + ∑ col : Fin 256, Ideal.exp (score 1 qi kt x0 x1 r col
            - max (v65 (ix2 r (0 : Fin 1))) (Finset.univ.sup (score 1 qi kt x0 x1 r))) := by
  unfold k1_pay28
  try dsimp only
  rw [shapeCast_self]
  refine (addf_apply _ _ _).trans ?_
  refine congrArg₂ (· + ·) ?_ ?_
  · refine (mulf_apply _ _ _).trans ?_
    rw [pay26_apply]
  · refine (rowsum_apply _ _ _ _ _ r 0).trans ?_
    exact Finset.sum_congr rfl fun col _ => pay27_apply qi kt x0 x1 v65 r col

/-- The new numerator entry `(r, d)`, head 1. -/
theorem pay7_apply (qi kt : BitVec 32) (x0 x1 x2 : Vec Ideal S1x256x128 .bf16) (v65 : Vec Ideal S256x1 .f32)
    (v82 : Vec Ideal S256x64 .f32) (r : Fin 256) (d : Fin 64) :
    k1_pay7 (F := Ideal) (k1_pay23 (k1_pay13 x2)) (k1_pay27 (k1_pay11 x0) (k1_pay12 x1) (k1_pay14 qi kt) v65)
        (k1_pay29 (k1_pay11 x0) (k1_pay12 x1) (k1_pay14 qi kt) v65 v82) (ix2 r d)
      = Ideal.exp (v65 (ix2 r (0 : Fin 1))
            - max (v65 (ix2 r (0 : Fin 1))) (Finset.univ.sup (score 1 qi kt x0 x1 r))) * v82 (ix2 r d)
        + ∑ col : Fin 256, Ideal.exp (score 1 qi kt x0 x1 r col
            - max (v65 (ix2 r (0 : Fin 1))) (Finset.univ.sup (score 1 qi kt x0 x1 r)))
              * x2 (ix3 (0 : Fin 1) col (hcol 1 d)) := by
  unfold k1_pay7
  try dsimp only
  rw [shapeCast_self]
  refine (addf_apply _ _ _).trans ?_
  refine congrArg₂ (· + ·) ?_ ?_
  · unfold k1_pay29
    try dsimp only
    refine (mulf_apply _ _ _).trans ?_
    rw [broadcastTo_a1_ab_apply, pay26_apply]
  · refine (pv_matmul_apply _ _ r d).trans ?_
    refine Finset.sum_congr rfl fun col _ => ?_
    rw [truncf_apply, pay27_apply]
    unfold k1_pay23 k1_pay13
    try dsimp only
    rw [head1_apply]

/-- HEAD 1, ONE TILE AT ROW `r` (numerator column `d`): the same step, on head 1's scores and the tile's values in
    column `64 + d`. -/
theorem step_head1 (qi kt : BitVec 32) (x0 x1 x2 : Vec Ideal S1x256x128 .bf16) (s : Hand.Scr Ideal) (r : Fin 256)
    (d : Fin 64) (w : Fin 256 → ℝ) (hw : ∀ col, x2 (ix3 (0 : Fin 1) col (hcol 1 d)) = (w col : EReal)) :
    ((Hand.stepK qi kt x0 x1 x2 s).2.2.2.1 (ix2 r (0 : Fin 1)),
        (Hand.stepK qi kt x0 x1 x2 s).2.2.2.2.1 (ix2 r (0 : Fin 1)),
        (Hand.stepK qi kt x0 x1 x2 s).2.2.2.2.2 (ix2 r d))
      = ProofLib.TiledSoftmax.step (score 1 qi kt x0 x1 r) w
          (s.2.2.2.1 (ix2 r (0 : Fin 1)), s.2.2.2.2.1 (ix2 r (0 : Fin 1)), s.2.2.2.2.2 (ix2 r d)) := by
  unfold Hand.stepK ProofLib.TiledSoftmax.step
  dsimp only
  refine Prod.ext ?_ (Prod.ext ?_ ?_)
  · show k1_pay8 (F := Ideal) (k1_pay25 (k1_pay11 x0) (k1_pay12 x1) (k1_pay14 qi kt) s.2.2.2.1) (ix2 r (0 : Fin 1)) = _
    unfold k1_pay8
    try dsimp only
    rw [shapeCast_self, pay25_apply]
  · show k1_pay28 (F := Ideal) (k1_pay11 x0) (k1_pay12 x1) (k1_pay14 qi kt) s.2.2.2.1 s.2.2.2.2.1 (ix2 r (0 : Fin 1)) = _
    rw [pay28_apply]
  · show k1_pay7 (F := Ideal) (k1_pay23 (k1_pay13 x2)) (k1_pay27 (k1_pay11 x0) (k1_pay12 x1) (k1_pay14 qi kt) s.2.2.2.1)
        (k1_pay29 (k1_pay11 x0) (k1_pay12 x1) (k1_pay14 qi kt) s.2.2.2.1 s.2.2.2.2.2) (ix2 r d) = _
    rw [pay7_apply]
    simp only [hw]

/-! ## The reset statistics and the output block -/

/-- Head 0's reset statistics at a row: `⊥`, `0`, `0`. -/
theorem init_head0 (r : Fin 256) (d : Fin 64) :
    ((Hand.initK (F := Ideal)).1 (ix2 r (0 : Fin 1)), (Hand.initK (F := Ideal)).2.1 (ix2 r (0 : Fin 1)),
        (Hand.initK (F := Ideal)).2.2.1 (ix2 r d))
      = ((⊥ : EReal), (0 : EReal), (0 : EReal)) := by
  unfold Hand.initK k1_pay1 k1_pay2 k1_pay3
  dsimp only
  simp only [shapeCast_self]
  show (Ideal.ofBits .f32 0xFF800000#32, Ideal.ofBits .f32 0x00000000#32, Ideal.ofBits .f32 0x00000000#32) = _
  rw [ofBits_neg_inf, Ideal.ofBits_zero_f32]

/-- Head 1's reset statistics at a row: `⊥`, `0`, `0`. -/
theorem init_head1 (r : Fin 256) (d : Fin 64) :
    ((Hand.initK (F := Ideal)).2.2.2.1 (ix2 r (0 : Fin 1)), (Hand.initK (F := Ideal)).2.2.2.2.1 (ix2 r (0 : Fin 1)),
        (Hand.initK (F := Ideal)).2.2.2.2.2 (ix2 r d))
      = ((⊥ : EReal), (0 : EReal), (0 : EReal)) := by
  unfold Hand.initK k1_pay4 k1_pay5 k1_pay6
  dsimp only
  simp only [shapeCast_self]
  show (Ideal.ofBits .f32 0xFF800000#32, Ideal.ofBits .f32 0x00000000#32, Ideal.ofBits .f32 0x00000000#32) = _
  rw [ofBits_neg_inf, Ideal.ofBits_zero_f32]

/-- The six reset statistics at a row, one by one. -/
theorem init_at (r : Fin 256) (d : Fin 64) :
    (Hand.initK (F := Ideal)).1 (ix2 r (0 : Fin 1)) = (⊥ : EReal)
      ∧ (Hand.initK (F := Ideal)).2.1 (ix2 r (0 : Fin 1)) = (0 : EReal)
      ∧ (Hand.initK (F := Ideal)).2.2.1 (ix2 r d) = (0 : EReal)
      ∧ (Hand.initK (F := Ideal)).2.2.2.1 (ix2 r (0 : Fin 1)) = (⊥ : EReal)
      ∧ (Hand.initK (F := Ideal)).2.2.2.2.1 (ix2 r (0 : Fin 1)) = (0 : EReal)
      ∧ (Hand.initK (F := Ideal)).2.2.2.2.2 (ix2 r d) = (0 : EReal) := by
  have h0 := init_head0 r d
  have h1 := init_head1 r d
  simp only [Prod.mk.injEq] at h0 h1
  exact ⟨h0.1, h0.2.1, h0.2.2, h1.1, h1.2.1, h1.2.2⟩

/-- Head 0's output piece at `(u, r, d)`: the numerator entry over the row's sum. -/
theorem pay9_apply (v9 : Vec Ideal S256x64 .f32) (v10 : Vec Ideal S256x1 .f32) (u : Fin 1) (r : Fin 256) (d : Fin 64) :
    k1_pay9 (F := Ideal) v9 v10 (ix3 u r d) = Ideal.div (v9 (ix2 r d)) (v10 (ix2 r (0 : Fin 1))) := by
  unfold k1_pay9
  try dsimp only
  refine (shapeCast_ab_1ab_apply _ _ u r d).trans ?_
  rw [truncf_apply, divf_apply, broadcastTo_a1_ab_apply]

/-- Head 1's output piece at `(u, r, d)`. -/
theorem pay10_apply (v13 : Vec Ideal S256x64 .f32) (v14 : Vec Ideal S256x1 .f32) (u : Fin 1) (r : Fin 256) (d : Fin 64) :
    k1_pay10 (F := Ideal) v13 v14 (ix3 u r d) = Ideal.div (v13 (ix2 r d)) (v14 (ix2 r (0 : Fin 1))) := by
  unfold k1_pay10
  try dsimp only
  refine (shapeCast_ab_1ab_apply _ _ u r d).trans ?_
  rw [truncf_apply, divf_apply, broadcastTo_a1_ab_apply]

/-- THE OUTPUT BLOCK in head 1's columns: written last, through the rectangle at column offset 64. -/
theorem fin_head1 (s : Hand.Scr Ideal) (r : Fin 256) (d : Fin 64) :
    Hand.finK s (ix3 (0 : Fin 1) r (hcol 1 d))
      = Ideal.div (s.2.2.2.2.2 (ix2 r d)) (s.2.2.2.2.1 (ix2 r (0 : Fin 1))) := by
  have hy : (Rect.unit (s := S1x256x128) ![0, 0, 64] S1x256x64.size inb_S1x256x128_S1x256x64_0_0_64).emb
      (ix3 (0 : Fin 1) r d) = ix3 (0 : Fin 1) r (hcol 1 d) :=
    funext fun a => Fin.ext (by
      match a with
      | ⟨0, _⟩ => rfl
      | ⟨1, _⟩ => show 0 + 1 * r.val = r.val; omega
      | ⟨2, _⟩ => show 64 + 1 * d.val = 64 * 1 + d.val; omega)
  unfold Hand.finK
  rw [← hy]
  refine (View.canon_cons_emb _ _ _ _).trans ?_
  exact pay10_apply _ _ _ r d

/-- THE OUTPUT BLOCK in head 0's columns: off the later store's rectangle, under the earlier one's. -/
theorem fin_head0 (s : Hand.Scr Ideal) (r : Fin 256) (d : Fin 64) :
    Hand.finK s (ix3 (0 : Fin 1) r (hcol 0 d)) = Ideal.div (s.2.2.1 (ix2 r d)) (s.2.1 (ix2 r (0 : Fin 1))) := by
  have hy : (Rect.unit (s := S1x256x128) ![0, 0, 0] S1x256x64.size inb_S1x256x128_S1x256x64_0_0_0).emb
      (ix3 (0 : Fin 1) r d) = ix3 (0 : Fin 1) r (hcol 0 d) :=
    funext fun a => Fin.ext (by
      match a with
      | ⟨0, _⟩ => rfl
      | ⟨1, _⟩ => show 0 + 1 * r.val = r.val; omega
      | ⟨2, _⟩ => show 0 + 1 * d.val = 64 * 0 + d.val; omega)
  have hn : ix3 (0 : Fin 1) r (hcol 0 d)
      ∉ (Rect.unit (s := S1x256x128) ![0, 0, 64] S1x256x64.size inb_S1x256x128_S1x256x64_0_0_64).set := by
    rw [Rect.mem_set_unit]
    intro h
    have h2 := (h (2 : Fin 3)).1
    have hd := d.isLt
    have h2' : 64 ≤ 64 * 0 + d.val := h2
    omega
  unfold Hand.finK
  refine (View.canon_cons_of_not_mem _ _ ?_).trans ?_
  · exact hn
  · rw [← hy]
    refine (View.canon_cons_emb _ _ _ _).trans ?_
    exact pay9_apply _ _ _ r d

end Cert.KernelIdeal.HandValue

end
-- ==== Proof.KIValue1Fold.lean ====
/-
  Region 1 (the attention kernel) — the statistics along the grid, as a fold of steps.

  `statAt n` is the six running statistics after the body at position n: at the first tile of a row block
  (n % 8 = 0) one step from the reset statistics; at a later tile on or below the diagonal (n % 8 ≤ n / 8 % 8) one step
  from what the position before left; above the diagonal, what the position before left. The scratch buffers hold
  exactly this after every point, and where n % 8 = 7 the output's staging buffer holds the quotients `finK` of it.
-/
import proofs.«151496_j75222057222809_2_alg».proof.Proof.KIValue1Pieces

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The running statistics after the body at position `n`. -/
def statAt (c : Dev nD) : (n : ℕ) → n < cfg1.N → Scr F
  | 0, hn => stepK (BitVec.ofNat 32 (grid1.coords ⟨0, hn⟩ 2).val) (BitVec.ofNat 32 (grid1.coords ⟨0, hn⟩ 3).val) (iblk1 V c 0 ⟨0, hn⟩) (iblk1 V c 1 ⟨0, hn⟩) (iblk1 V c 2 ⟨0, hn⟩) initK
  | n + 1, hn =>
    if (n + 1) % 8 = 0 then stepK (BitVec.ofNat 32 (grid1.coords ⟨n + 1, hn⟩ 2).val) (BitVec.ofNat 32 (grid1.coords ⟨n + 1, hn⟩ 3).val) (iblk1 V c 0 ⟨n + 1, hn⟩) (iblk1 V c 1 ⟨n + 1, hn⟩) (iblk1 V c 2 ⟨n + 1, hn⟩) initK
    else if (n + 1) % 8 ≤ (n + 1) / 8 % 8 then stepK (BitVec.ofNat 32 (grid1.coords ⟨n + 1, hn⟩ 2).val) (BitVec.ofNat 32 (grid1.coords ⟨n + 1, hn⟩ 3).val) (iblk1 V c 0 ⟨n + 1, hn⟩) (iblk1 V c 1 ⟨n + 1, hn⟩) (iblk1 V c 2 ⟨n + 1, hn⟩) (statAt c n (Nat.lt_of_succ_lt hn))
    else statAt c n (Nat.lt_of_succ_lt hn)

theorem statAt_first (c : Dev nD) (t : Fin cfg1.N) (h0 : t.val % 8 = 0) :
    statAt V c t.val t.isLt = stepK (BitVec.ofNat 32 (grid1.coords t 2).val) (BitVec.ofNat 32 (grid1.coords t 3).val) (iblk1 V c 0 t) (iblk1 V c 1 t) (iblk1 V c 2 t) initK := by
  obtain ⟨n, hn⟩ := t
  cases n with
  | zero => rfl
  | succ n => exact (if_pos h0).trans rfl

theorem statAt_step (c : Dev nD) (t : Fin cfg1.N) (h0 : ¬t.val % 8 = 0) (h1 : t.val % 8 ≤ t.val / 8 % 8) :
    statAt V c t.val t.isLt = stepK (BitVec.ofNat 32 (grid1.coords t 2).val) (BitVec.ofNat 32 (grid1.coords t 3).val) (iblk1 V c 0 t) (iblk1 V c 1 t) (iblk1 V c 2 t) (statAt V c (t.val - 1) (prevLt t)) := by
  obtain ⟨n, hn⟩ := t
  cases n with
  | zero => exact absurd (Nat.zero_mod _) h0
  | succ n => exact (if_neg h0).trans ((if_pos h1).trans rfl)

theorem statAt_skip (c : Dev nD) (t : Fin cfg1.N) (h0 : ¬t.val % 8 = 0) (h1 : ¬t.val % 8 ≤ t.val / 8 % 8) :
    statAt V c t.val t.isLt = statAt V c (t.val - 1) (prevLt t) := by
  obtain ⟨n, hn⟩ := t
  cases n with
  | zero => exact absurd (Nat.zero_mod _) h0
  | succ n => exact (if_neg h0).trans ((if_neg h1).trans rfl)

/-- The scratch buffers hold the running statistics after every point. -/
theorem outsAt1_stat (c : Dev nD) : ∀ (n : ℕ) (hn : n < cfg1.N), (outsAt1 V c n hn).2 = statAt V c n hn := by
  intro n
  induction n with
  | zero =>
    intro hn
    rw [outsAt1_A V c ⟨0, hn⟩ rfl, statAt_first V c ⟨0, hn⟩ rfl]
    exact scA_eq c ⟨0, hn⟩ _ _ _ _ _ _
  | succ n ih =>
    intro hn
    by_cases h0 : (n + 1) % 8 = 0
    · rw [outsAt1_A V c ⟨n + 1, hn⟩ h0, statAt_first V c ⟨n + 1, hn⟩ h0]
      exact scA_eq c ⟨n + 1, hn⟩ _ _ _ _ _ _
    · by_cases h1 : (n + 1) % 8 ≤ (n + 1) / 8 % 8
      · rw [statAt_step V c ⟨n + 1, hn⟩ h0 h1]
        by_cases h2 : (n + 1) % 8 = 7
        · rw [outsAt1_D V c ⟨n + 1, hn⟩ h0 h1 h2]
          refine (scD_eq c ⟨n + 1, hn⟩ _ _ _ _ _ _ _).trans ?_
          exact congrArg _ (ih _)
        · rw [outsAt1_B V c ⟨n + 1, hn⟩ h0 h1 h2]
          refine (scB_eq c ⟨n + 1, hn⟩ _ _ _ _ _ _ _).trans ?_
          exact congrArg _ (ih _)
      · rw [statAt_skip V c ⟨n + 1, hn⟩ h0 h1]
        by_cases h2 : (n + 1) % 8 = 7
        · rw [outsAt1_E V c ⟨n + 1, hn⟩ h0 h1 h2]; exact ih _
        · rw [outsAt1_C V c ⟨n + 1, hn⟩ h0 h1 h2]; exact ih _

/-- At the last tile of a row block the output's staging buffer holds the quotients of the running statistics. -/
theorem outsAt1_out (c : Dev nD) (t : Fin cfg1.N) (h2 : t.val % 8 = 7) :
    (outsAt1 V c t.val t.isLt).1 = finK (statAt V c t.val t.isLt) := by
  have h0 : ¬t.val % 8 = 0 := by omega
  by_cases h1 : t.val % 8 ≤ t.val / 8 % 8
  · rw [outsAt1_D V c t h0 h1 h2, statAt_step V c t h0 h1]
    dsimp only
    refine (outD_eq c t _ _ _ _ _ _ _).trans ?_
    exact congrArg (fun s : Scr F => finK (F := F) (stepK (BitVec.ofNat 32 (grid1.coords t 2).val) (BitVec.ofNat 32 (grid1.coords t 3).val) (iblk1 V c 0 t) (iblk1 V c 1 t) (iblk1 V c 2 t) s)) (outsAt1_stat V c _ _)
  · rw [outsAt1_E V c t h0 h1 h2, statAt_skip V c t h0 h1]
    dsimp only
    refine (outE_eq c t _ _ _ _ _ _ _).trans ?_
    exact congrArg (finK (F := F)) (outsAt1_stat V c _ _)

end Cert.KernelIdeal.Hand

end
-- ==== Proof.KIValue1Blocks.lean ====
/-
  Region 1 (the attention kernel) — a point's coordinates and its three input blocks, as arithmetic on its position.

  Position t of the row-major walk over (b, hp, qi, kt) ∈ 4 × 8 × 8 × 8 has b = t / 512, hp = t / 64 % 8,
  qi = t / 8 % 8, kt = t % 8. The q block there is rows 256·qi … 256·qi + 255 of batch b of the q array, columns
  128·hp … 128·hp + 127; the k and v blocks are the same columns of rows 256·min(kt, qi) … of the k and v arrays:
  above the diagonal the index map stays on the diagonal block.
-/
import proofs.«151496_j75222057222809_2_alg».proof.Proof.KIValue1Fold

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The grid coordinates of a position -/

theorem coords1 : ∀ t : Fin cfg1.N, (grid1.coords t 0).val = t.val / 512 ∧ (grid1.coords t 1).val = t.val / 64 % 8
    ∧ (grid1.coords t 2).val = t.val / 8 % 8 ∧ (grid1.coords t 3).val = t.val % 8 :=
  (by decide +kernel : ∀ t : Fin grid1.N, (grid1.coords t 0).val = t.val / 512 ∧ (grid1.coords t 1).val = t.val / 64 % 8
    ∧ (grid1.coords t 2).val = t.val / 8 % 8 ∧ (grid1.coords t 3).val = t.val % 8)

/-! ## The windows' block indices at a position -/

theorem idx1_0 : ∀ t : Fin cfg1.N, win1_0.index t 0 = t.val / 512 ∧ win1_0.index t 1 = t.val / 8 % 8 ∧ win1_0.index t 2 = t.val / 64 % 8 :=
  (by decide +kernel : ∀ t : Fin grid1.N, win1_0.index t 0 = t.val / 512 ∧ win1_0.index t 1 = t.val / 8 % 8 ∧ win1_0.index t 2 = t.val / 64 % 8)
theorem idx1_1 : ∀ t : Fin cfg1.N, win1_1.index t 0 = t.val / 512 ∧ win1_1.index t 1 = min (t.val % 8) (t.val / 8 % 8) ∧ win1_1.index t 2 = t.val / 64 % 8 :=
  (by decide +kernel : ∀ t : Fin grid1.N, win1_1.index t 0 = t.val / 512 ∧ win1_1.index t 1 = min (t.val % 8) (t.val / 8 % 8) ∧ win1_1.index t 2 = t.val / 64 % 8)
theorem idx1_2 : ∀ t : Fin cfg1.N, win1_2.index t 0 = t.val / 512 ∧ win1_2.index t 1 = min (t.val % 8) (t.val / 8 % 8) ∧ win1_2.index t 2 = t.val / 64 % 8 :=
  (by decide +kernel : ∀ t : Fin grid1.N, win1_2.index t 0 = t.val / 512 ∧ win1_2.index t 1 = min (t.val % 8) (t.val / 8 % 8) ∧ win1_2.index t 2 = t.val / 64 % 8)
theorem idx1_3 : ∀ t : Fin cfg1.N, win1_3.index t 0 = t.val / 512 ∧ win1_3.index t 1 = t.val / 8 % 8 ∧ win1_3.index t 2 = t.val / 64 % 8 :=
  (by decide +kernel : ∀ t : Fin grid1.N, win1_3.index t 0 = t.val / 512 ∧ win1_3.index t 1 = t.val / 8 % 8 ∧ win1_3.index t 2 = t.val / 64 % 8)

/-! ## The input blocks as entries of their arrays -/

/-- The q block at position t: entry (0, r, x) is the q array at (b, 256·qi + r, 128·hp + x). -/
theorem iblk1_0_apply (c : Dev nD) (t : Fin cfg1.N) (y : S1x256x128.Idx) (k : S4x2048x1024.Idx)
    (h0 : (k 0).val = t.val / 512) (h1 : (k 1).val = 256 * (t.val / 8 % 8) + (y 1).val) (h2 : (k 2).val = 128 * (t.val / 64 % 8) + (y 2).val) :
    (iblk1 V c 0 t : Vec F S1x256x128 .bf16) y = (V c main_v2_0 : S4x2048x1024.Idx → Elt F .bf16) k := by
  obtain ⟨i0, i1, i2⟩ := idx1_0 t
  have hy0 : (y 0).val = 0 := by have h : (y 0).val < 1 := (y 0).isLt; omega
  unfold iblk1
  rw [View.read_apply]
  show V c main_v2_0 _ = V c main_v2_0 _
  congr 1
  funext a
  apply Fin.ext
  match a with
  | ⟨0, _⟩ => show win1_0.index t 0 * 1 + 1 * (y 0).val = (k 0).val; rw [i0, h0, hy0]; omega
  | ⟨1, _⟩ => show win1_0.index t 1 * 256 + 1 * (y 1).val = (k 1).val; rw [i1, h1]; omega
  | ⟨2, _⟩ => show win1_0.index t 2 * 128 + 1 * (y 2).val = (k 2).val; rw [i2, h2]; omega

/-- The k block at position t: entry (0, col, x) is the k array at (b, 256·min(kt, qi) + col, 128·hp + x). -/
theorem iblk1_1_apply (c : Dev nD) (t : Fin cfg1.N) (y : S1x256x128.Idx) (k : S4x2048x1024.Idx)
    (h0 : (k 0).val = t.val / 512) (h1 : (k 1).val = 256 * min (t.val % 8) (t.val / 8 % 8) + (y 1).val) (h2 : (k 2).val = 128 * (t.val / 64 % 8) + (y 2).val) :
    (iblk1 V c 1 t : Vec F S1x256x128 .bf16) y = (V c main_v2_1 : S4x2048x1024.Idx → Elt F .bf16) k := by
  obtain ⟨i0, i1, i2⟩ := idx1_1 t
  have hy0 : (y 0).val = 0 := by have h : (y 0).val < 1 := (y 0).isLt; omega
  unfold iblk1
  rw [View.read_apply]
  show V c main_v2_1 _ = V c main_v2_1 _
  congr 1
  funext a
  apply Fin.ext
  match a with
  | ⟨0, _⟩ => show win1_1.index t 0 * 1 + 1 * (y 0).val = (k 0).val; rw [i0, h0, hy0]; omega
  | ⟨1, _⟩ => show win1_1.index t 1 * 256 + 1 * (y 1).val = (k 1).val; rw [i1, h1]; omega
  | ⟨2, _⟩ => show win1_1.index t 2 * 128 + 1 * (y 2).val = (k 2).val; rw [i2, h2]; omega

/-- The v block at position t: entry (0, col, x) is the v array at (b, 256·min(kt, qi) + col, 128·hp + x). -/
theorem iblk1_2_apply (c : Dev nD) (t : Fin cfg1.N) (y : S1x256x128.Idx) (k : S4x2048x1024.Idx)
    (h0 : (k 0).val = t.val / 512) (h1 : (k 1).val = 256 * min (t.val % 8) (t.val / 8 % 8) + (y 1).val) (h2 : (k 2).val = 128 * (t.val / 64 % 8) + (y 2).val) :
    (iblk1 V c 2 t : Vec F S1x256x128 .bf16) y = (V c main_v2_2 : S4x2048x1024.Idx → Elt F .bf16) k := by
  obtain ⟨i0, i1, i2⟩ := idx1_2 t
  have hy0 : (y 0).val = 0 := by have h : (y 0).val < 1 := (y 0).isLt; omega
  unfold iblk1
  rw [View.read_apply]
  show V c main_v2_2 _ = V c main_v2_2 _
  congr 1
  funext a
  apply Fin.ext
  match a with
  | ⟨0, _⟩ => show win1_2.index t 0 * 1 + 1 * (y 0).val = (k 0).val; rw [i0, h0, hy0]; omega
  | ⟨1, _⟩ => show win1_2.index t 1 * 256 + 1 * (y 1).val = (k 1).val; rw [i1, h1]; omega
  | ⟨2, _⟩ => show win1_2.index t 2 * 128 + 1 * (y 2).val = (k 2).val; rw [i2, h2]; omega

end Cert.KernelIdeal.Hand

end
-- ==== Proof.RefSpec.lean ====
/-
  THE SPECIFICATION of causal multi-head attention, index by index on the extended reals, over literal shapes:
  a batch of 4 sequences of 2048 tokens of width 1024, 16 heads of width 64.

  With x the activations [4, 2048, 1024], wa the stacked q/k/v projection weights [3072, 1024] (rows 0..1023 for q,
  1024..2047 for k, 2048..3071 for v) and wp the output projection weights [1024, 1024]:
    q, k, v at (b, t, f)  : the row-by-row products  ∑ₖ x[b,t,k] · wa[row f, k];
    the score  s[b,h,t,j] : (∑_d q[b,t,64h+d] · k[b,j,64h+d]) · (1/8) for j ≤ t, and −∞ (⊥) above the diagonal;
    the row maximum m[b,h,t] : the fold of max from −∞ over j (then once more against −∞);
    p[b,h,t,j] = exp (s − m),   l[b,h,t] = 0 + ∑ⱼ p,
    the head output o[b,t,f] = ∑ⱼ (p[b, f/64, t, j] / l[b, f/64, t]) · v[b,j,f],
    the result  G[b,t,g] = ∑_c o[b,t,c] · wp[g,c].
  Float literals stay as the patterns they are printed as (1/8 is 0x3E000000, zero is 0x00000000).
  The row maximum is also given by its universal property: it is the supremum over j, bounds every score of its row
  from above, and is attained.
-/
import Idealize.ShloMosaic.Lib.ValueIdx
import Idealize.ShloMosaic.PureOps.Ideal
import Idealize.ShloMosaic.PureOps.Ideal.Laws

noncomputable section

namespace Cert.ReferenceIdeal.RefValue

open Idealize.ShloMosaic Idealize.ShloMosaic.ValueIdx

/-- Index types of the three argument arrays. -/
abbrev XIdx : Type := (⟨3, ![4, 2048, 1024]⟩ : Shape).Idx
abbrev WaIdx : Type := (⟨2, ![3072, 1024]⟩ : Shape).Idx
abbrev WpIdx : Type := (⟨2, ![1024, 1024]⟩ : Shape).Idx

/-- A feature's head, its lane inside the head, and the feature of a head and a lane: f = 64 · (f / 64) + f % 64. -/
def headOf (f : Fin 1024) : Fin 16 := ⟨f.val / 64, by have := f.isLt; omega⟩
def laneOf (f : Fin 1024) : Fin 64 := ⟨f.val % 64, by omega⟩
def colOf (h : Fin 16) (d : Fin 64) : Fin 1024 := ⟨64 * h.val + d.val, by have := h.isLt; have := d.isLt; omega⟩
theorem colOf_head_lane (f : Fin 1024) : colOf (headOf f) (laneOf f) = f :=
  Fin.ext (by show 64 * (f.val / 64) + f.val % 64 = f.val; omega)
theorem headOf_colOf (h : Fin 16) (d : Fin 64) : headOf (colOf h d) = h :=
  Fin.ext (by have := h.isLt; have := d.isLt; show (64 * h.val + d.val) / 64 = h.val; omega)
theorem laneOf_colOf (h : Fin 16) (d : Fin 64) : laneOf (colOf h d) = d :=
  Fin.ext (by have := h.isLt; have := d.isLt; show (64 * h.val + d.val) % 64 = d.val; omega)

/-- The rows of the stacked weight that project feature f of q, of k, of v. -/
def rowQ (f : Fin 1024) : Fin 3072 := ⟨f.val, by have := f.isLt; omega⟩
def rowK (f : Fin 1024) : Fin 3072 := ⟨1024 + f.val, by have := f.isLt; omega⟩
def rowV (f : Fin 1024) : Fin 3072 := ⟨2048 + f.val, by have := f.isLt; omega⟩

variable (x : XIdx → EReal) (wa : WaIdx → EReal) (wp : WpIdx → EReal)

/-- One row of the stacked projection at token (b, t). -/
def projR (r : Fin 3072) (b : Fin 4) (t : Fin 2048) : EReal := ∑ k : Fin 1024, x (ix3 b t k) * wa (ix2 r k)
def qR (b : Fin 4) (t : Fin 2048) (f : Fin 1024) : EReal := projR x wa (rowQ f) b t
def kR (b : Fin 4) (t : Fin 2048) (f : Fin 1024) : EReal := projR x wa (rowK f) b t
def vR (b : Fin 4) (t : Fin 2048) (f : Fin 1024) : EReal := projR x wa (rowV f) b t

/-- The masked, scaled score of query token t against key token j in head h. -/
def sR (b : Fin 4) (h : Fin 16) (t j : Fin 2048) : EReal :=
  if j.val ≤ t.val then (∑ d : Fin 64, qR x wa b t (colOf h d) * kR x wa b j (colOf h d)) * Ideal.ofBits .f32 0x3E000000#32 else ⊥

/-- The row maximum: the fold of max from −∞ over the keys, and once more against −∞. -/
def mR (b : Fin 4) (h : Fin 16) (t : Fin 2048) : EReal :=
  max ⊥ ((Finset.univ : Finset (Fin 2048)).fold max ⊥ fun j => sR x wa b h t j)

/-- The row maximum is the supremum of the row's scores; -/
theorem mR_eq_sup (b : Fin 4) (h : Fin 16) (t : Fin 2048) :
    mR x wa b h t = (Finset.univ : Finset (Fin 2048)).sup fun j => sR x wa b h t j := by
  unfold mR; rw [max_eq_right bot_le]; rfl
/-- it bounds every score of its row; -/
theorem sR_le_mR (b : Fin 4) (h : Fin 16) (t j : Fin 2048) : sR x wa b h t j ≤ mR x wa b h t := by
  rw [mR_eq_sup]; exact Finset.le_sup (f := fun j => sR x wa b h t j) (Finset.mem_univ j)
/-- and it is one of them. -/
theorem mR_attained (b : Fin 4) (h : Fin 16) (t : Fin 2048) : ∃ j : Fin 2048, mR x wa b h t = sR x wa b h t j := by
  rw [mR_eq_sup]
  obtain ⟨j, -, hj⟩ := Finset.exists_mem_eq_sup (Finset.univ : Finset (Fin 2048)) ⟨0, Finset.mem_univ _⟩ fun j => sR x wa b h t j
  exact ⟨j, hj⟩

def pR (b : Fin 4) (h : Fin 16) (t j : Fin 2048) : EReal := Ideal.exp (sR x wa b h t j - mR x wa b h t)
def lR (b : Fin 4) (h : Fin 16) (t : Fin 2048) : EReal := Ideal.ofBits .f32 0x00000000#32 + ∑ j : Fin 2048, pR x wa b h t j
def oR (b : Fin 4) (t : Fin 2048) (f : Fin 1024) : EReal :=
  ∑ j : Fin 2048, Ideal.div (pR x wa b (headOf f) t j) (lR x wa b (headOf f) t) * vR x wa b j f

/-- The result array as one function of the three argument arrays. -/
def Gref : XIdx → EReal := fun i => ∑ c : Fin 1024, oR x wa (i 0) (i 1) c * wp (ix2 (i 2) c)

theorem Gref_apply (b : Fin 4) (t : Fin 2048) (g : Fin 1024) :
    Gref x wa wp (ix3 b t g) = ∑ c : Fin 1024, oR x wa b t c * wp (ix2 g c) := rfl

end Cert.ReferenceIdeal.RefValue

end
-- ==== Proof.AttnSpec.lean ====
/-
  Causal attention over three given arrays q, k, v of shape [4, 2048, 1024] (16 heads of width 64 side by side), index
  by index on the extended reals — the form the tiled kernel arrives at:
    the score  sA[b,h,t,j] = ∑_d q[b,t,64h+d] · k[b,j,64h+d]  for j ≤ t, and −∞ (⊥) above the diagonal
               (any scaling is already inside q);
    the row maximum  mA[b,h,t] = the supremum over j of the scores;
    the row sum      lA[b,h,t] = ∑ⱼ exp (sA − mA);
    the output       oA[b,t,f] = ∑ⱼ (exp (sA[b, f/64, t, j] − mA) / lA) · v[b,j,f].
-/
import proofs.«151496_j75222057222809_2_alg».proof.Proof.RefSpec

noncomputable section

namespace Cert.AttnSpec

open Idealize.ShloMosaic Idealize.ShloMosaic.ValueIdx Cert.ReferenceIdeal.RefValue

variable (q k v : XIdx → EReal)

/-- The masked score of query token t against key token j in head h. -/
def sA (b : Fin 4) (h : Fin 16) (t j : Fin 2048) : EReal :=
  if j.val ≤ t.val then ∑ d : Fin 64, q (ix3 b t (colOf h d)) * k (ix3 b j (colOf h d)) else ⊥

/-- The row maximum: the supremum of the row's scores. -/
def mA (b : Fin 4) (h : Fin 16) (t : Fin 2048) : EReal := Finset.univ.sup fun j : Fin 2048 => sA q k b h t j

/-- The row sum of exponentials under the maximum. -/
def lA (b : Fin 4) (h : Fin 16) (t : Fin 2048) : EReal := ∑ j : Fin 2048, Ideal.exp (sA q k b h t j - mA q k b h t)

/-- The attention output at token (b, t), feature f (head f / 64). -/
def oA (b : Fin 4) (t : Fin 2048) (f : Fin 1024) : EReal :=
  ∑ j : Fin 2048, Ideal.div (Ideal.exp (sA q k b (headOf f) t j - mA q k b (headOf f) t)) (lA q k b (headOf f) t) * v (ix3 b j f)

end Cert.AttnSpec

end
-- ==== Proof.KIValue1Tiles.lean ====
/-
  The tiled statistics against the whole-row formula.

  Key token j of a row is column j % 256 of tile j / 256. A sum or a supremum over the 2048 key tokens is the same
  taken tile by tile. For a query token T the tiles after T / 256 hold nothing but masked scores (⊥), so the running
  statistics stop changing there; and the statistics after all eight tiles are the whole row's: the supremum of the
  scores, the sum of the exponentials under it, the exponentials weighted by v. Their quotient is the attention
  output `oA`.
-/
import proofs.«151496_j75222057222809_2_alg».proof.Proof.LibTiledSoftmax
import proofs.«151496_j75222057222809_2_alg».proof.Proof.AttnSpec

noncomputable section

namespace Cert.AttnSpec

open Idealize.ShloMosaic Idealize.ShloMosaic.ValueIdx Cert.ReferenceIdeal.RefValue ProofLib.TiledSoftmax

/-- Key token 256·k + col: column `col` of tile `k`. -/
def tileIdx (k : Fin 8) (col : Fin 256) : Fin 2048 := ⟨256 * k.val + col.val, by have := k.isLt; have := col.isLt; omega⟩

/-- The tile and the column of a key token. -/
theorem tileIdx_div_mod (j : Fin 2048) :
    tileIdx ⟨j.val / 256, by have := j.isLt; omega⟩ ⟨j.val % 256, by omega⟩ = j :=
  Fin.ext (by show 256 * (j.val / 256) + j.val % 256 = j.val; omega)

/-- The tiles as a bijection with the key tokens. -/
def tileEquiv : Fin 8 × Fin 256 ≃ Fin 2048 where
  toFun p := tileIdx p.1 p.2
  invFun j := (⟨j.val / 256, by have := j.isLt; omega⟩, ⟨j.val % 256, by omega⟩)
  left_inv p := by
    obtain ⟨k, col⟩ := p
    have := k.isLt; have := col.isLt
    refine Prod.ext (Fin.ext ?_) (Fin.ext ?_)
    · show (256 * k.val + col.val) / 256 = k.val; omega
    · show (256 * k.val + col.val) % 256 = col.val; omega
  right_inv j := tileIdx_div_mod j

/-- A sum over the key tokens, tile by tile. -/
theorem sum_tiles {α : Type*} [AddCommMonoid α] (F : Fin 2048 → α) :
    ∑ j, F j = ∑ k ∈ Finset.range 8, ∑ col : Fin 256, (if hk : k < 8 then F (tileIdx ⟨k, hk⟩ col) else 0) := by
  rw [Finset.sum_range fun k => ∑ col : Fin 256, (if hk : k < 8 then F (tileIdx ⟨k, hk⟩ col) else 0),
    ← tileEquiv.sum_comp F, Fintype.sum_prod_type]
  refine Finset.sum_congr rfl fun k _ => Finset.sum_congr rfl fun col _ => ?_
  rw [dif_pos k.isLt]
  rfl

/-- A supremum over the key tokens, tile by tile. -/
theorem sup_tiles (F : Fin 2048 → EReal) :
    Finset.univ.sup F = (Finset.range 8).sup fun k => Finset.univ.sup fun col : Fin 256 => (if hk : k < 8 then F (tileIdx ⟨k, hk⟩ col) else ⊥) := by
  refine le_antisymm (Finset.sup_le fun j _ => ?_) (Finset.sup_le fun k hk => Finset.sup_le fun col _ => ?_)
  · have hj : j.val / 256 < 8 := by have := j.isLt; omega
    refine le_trans ?_ (Finset.le_sup (f := fun k => Finset.univ.sup fun col : Fin 256 => (if hk : k < 8 then F (tileIdx ⟨k, hk⟩ col) else ⊥))
      (Finset.mem_range.mpr hj))
    refine le_trans ?_ (Finset.le_sup (f := fun col : Fin 256 => (if hk : j.val / 256 < 8 then F (tileIdx ⟨j.val / 256, hk⟩ col) else ⊥))
      (Finset.mem_univ ⟨j.val % 256, by omega⟩))
    rw [dif_pos hj, tileIdx_div_mod]
  · have hk' : k < 8 := Finset.mem_range.mp hk
    rw [dif_pos hk']
    exact Finset.le_sup (Finset.mem_univ _)

variable (q k v : XIdx → EReal)

/-- The scores of query token T against tile `kk`. -/
def Stile (b : Fin 4) (h : Fin 16) (T : Fin 2048) : ℕ → Fin 256 → EReal :=
  fun kk col => if hk : kk < 8 then sA q k b h T (tileIdx ⟨kk, hk⟩ col) else ⊥

/-- The values of feature f at tile `kk`, as reals. -/
def Wtile (b : Fin 4) (f : Fin 1024) : ℕ → Fin 256 → ℝ :=
  fun kk col => if hk : kk < 8 then (v (ix3 b (tileIdx ⟨kk, hk⟩ col) f)).toReal else 0

variable {q k v}

/-- A score is never +∞: it is ⊥ or a finite sum of products of reals. -/
theorem sA_ne_top (hq : ∀ i, ∃ r : ℝ, q i = r) (hk : ∀ i, ∃ r : ℝ, k i = r) (b : Fin 4) (h : Fin 16) (T j : Fin 2048) :
    sA q k b h T j ≠ ⊤ := by
  choose qf hqf using hq
  choose kf hkf using hk
  unfold sA
  split
  · rw [show (∑ d : Fin 64, q (ix3 b T (colOf h d)) * k (ix3 b j (colOf h d)))
        = ((∑ d : Fin 64, qf (ix3 b T (colOf h d)) * kf (ix3 b j (colOf h d)) : ℝ) : EReal) from by
      rw [coe_sum]; exact Finset.sum_congr rfl fun d _ => by rw [hqf, hkf, EReal.coe_mul]]
    exact EReal.coe_ne_top _
  · exact bot_ne_top

/-- On or below the diagonal a score is not −∞. -/
theorem sA_ne_bot (hq : ∀ i, ∃ r : ℝ, q i = r) (hk : ∀ i, ∃ r : ℝ, k i = r) (b : Fin 4) (h : Fin 16) (T j : Fin 2048)
    (hj : j.val ≤ T.val) : sA q k b h T j ≠ ⊥ := by
  choose qf hqf using hq
  choose kf hkf using hk
  unfold sA
  rw [if_pos hj, show (∑ d : Fin 64, q (ix3 b T (colOf h d)) * k (ix3 b j (colOf h d)))
        = ((∑ d : Fin 64, qf (ix3 b T (colOf h d)) * kf (ix3 b j (colOf h d)) : ℝ) : EReal) from by
      rw [coe_sum]; exact Finset.sum_congr rfl fun d _ => by rw [hqf, hkf, EReal.coe_mul]]
  exact EReal.coe_ne_bot _

theorem Stile_ne_top (hq : ∀ i, ∃ r : ℝ, q i = r) (hk : ∀ i, ∃ r : ℝ, k i = r) (b : Fin 4) (h : Fin 16) (T : Fin 2048)
    (kk : ℕ) (col : Fin 256) : Stile q k b h T kk col ≠ ⊤ := by
  unfold Stile
  split
  · exact sA_ne_top hq hk b h T _
  · exact bot_ne_top

theorem Stile_zero_ne_bot (hq : ∀ i, ∃ r : ℝ, q i = r) (hk : ∀ i, ∃ r : ℝ, k i = r) (b : Fin 4) (h : Fin 16) (T : Fin 2048) :
    ∃ col, Stile q k b h T 0 col ≠ ⊥ :=
  ⟨⟨0, by decide⟩, by
    unfold Stile
    rw [dif_pos (by decide : 0 < 8)]
    exact sA_ne_bot hq hk b h T _ (by show 256 * 0 + 0 ≤ T.val; omega)⟩

/-- The tiles after the query token's own hold only masked scores. -/
theorem Stile_pad (b : Fin 4) (h : Fin 16) (T : Fin 2048) (kk : ℕ) (hkk : T.val / 256 < kk) (col : Fin 256) :
    Stile q k b h T kk col = ⊥ := by
  unfold Stile
  split
  · unfold sA
    rw [if_neg]
    show ¬(256 * kk + col.val ≤ T.val)
    omega
  · rfl

/-- THE TILED STATISTICS ARE THE ROW'S: after the query token's own tile, numerator over sum is the attention output. -/
theorem attn_tiles (hq : ∀ i, ∃ r : ℝ, q i = r) (hk : ∀ i, ∃ r : ℝ, k i = r) (hv : ∀ i, ∃ r : ℝ, v i = r)
    (b : Fin 4) (T : Fin 2048) (f : Fin 1024) :
    Ideal.div (stat (Stile q k b (headOf f) T) (Wtile v b f) (T.val / 256)).2.2
        (stat (Stile q k b (headOf f) T) (Wtile v b f) (T.val / 256)).2.1
      = oA q k v b T f := by
  have hS := Stile_ne_top hq hk b (headOf f) T
  have h0 := Stile_zero_ne_bot hq hk b (headOf f) T
  have hn : T.val / 256 ≤ 7 := by have := T.isLt; omega
  have hpad : ∀ kk, T.val / 256 < kk → kk ≤ 7 → ∀ col, Stile q k b (headOf f) T kk col = ⊥ :=
    fun kk h1 _ col => Stile_pad b (headOf f) T kk h1 col
  rw [← stat_padding _ _ hS h0 hn hpad, stat_quotient _ _ hS h0 7, stat_snd _ _ hS h0 7]
  have hM : M (Stile q k b (headOf f) T) 7 = mA q k b (headOf f) T := by
    unfold M mA
    rw [sup_tiles]
    rfl
  have hL : (∑ kk ∈ Finset.range (7 + 1), ∑ col : Fin 256, Ideal.exp (Stile q k b (headOf f) T kk col - M (Stile q k b (headOf f) T) 7))
      = lA q k b (headOf f) T := by
    unfold lA
    rw [hM, sum_tiles]
    refine Finset.sum_congr rfl fun kk hkk => Finset.sum_congr rfl fun col _ => ?_
    have hk8 : kk < 8 := Finset.mem_range.mp hkk
    unfold Stile
    rw [dif_pos hk8, dif_pos hk8]
  rw [hL, hM]
  unfold oA
  rw [sum_tiles]
  refine Finset.sum_congr rfl fun kk hkk => Finset.sum_congr rfl fun col _ => ?_
  have hk8 : kk < 8 := Finset.mem_range.mp hkk
  obtain ⟨r, hr⟩ := hv (ix3 b (tileIdx ⟨kk, hk8⟩ col) f)
  unfold Stile Wtile
  rw [dif_pos hk8, dif_pos hk8, dif_pos hk8, hr, EReal.toReal_coe]

end Cert.AttnSpec

end
-- ==== Proof.KIValue1Row.lean ====
/-
  Region 1 (the attention kernel) — one row of one head along the grid.

  Fix a head e of the pair and a row r of the 256-row block. At every grid position n, the running maximum, sum and
  (for a lane d) numerator held for that row are the tiled-softmax statistics of the row's scores after tile
  min(kt, qi): the first tile of a row block restarts them, a tile on or below the diagonal is one more step, a tile
  above it changes nothing. The row's scores against tile kk, read off the point's blocks, are the masked inner
  products of row 256·qi + r of q with rows 256·kk … of k over the head's 64 lanes; the weights are v's lane.
-/
import proofs.«151496_j75222057222809_2_alg».proof.Proof.KIValue1Index
import proofs.«151496_j75222057222809_2_alg».proof.Proof.KIValue1Blocks
import proofs.«151496_j75222057222809_2_alg».proof.Proof.KIValue1Tiles

set_option maxRecDepth 16384

noncomputable section

namespace Cert.KernelIdeal.HandValue

open Idealize.ShloMosaic Idealize.ShloMosaic.TcCoe Idealize.SL.Sem Idealize.ShloMosaic.ValueIdx
open Cert.KernelIdeal Cert.KernelIdeal.Gen Cert.KernelIdeal.Hand
open ProofLib.TiledSoftmax Cert.AttnSpec Cert.ReferenceIdeal.RefValue

variable (V : (c : Dev nD) → (b : Ref sig .tc) → Buf (Elt Ideal) ((c : Thread nD τ).loc b)) (c : Dev nD)

/-- The three statistics of head `e` at row `r`, lane `d`. -/
def tri (e : Fin 2) (s : Scr Ideal) (r : Fin 256) (d : Fin 64) : EReal × EReal × EReal :=
  match e with
  | ⟨0, _⟩ => (s.1 (ix2 r 0), s.2.1 (ix2 r 0), s.2.2.1 (ix2 r d))
  | ⟨1, _⟩ => (s.2.2.2.1 (ix2 r 0), s.2.2.2.2.1 (ix2 r 0), s.2.2.2.2.2 (ix2 r d))

/-- Position 8·g + kk, tile kk of row block g. -/
def PT (g kk : ℕ) (h : 8 * g + kk < 2048) : Fin cfg1.N := ⟨8 * g + kk, by rw [show cfg1.N = 2048 from N_1]; exact h⟩

/-- Row r's scores against tile kk of row block g, from that position's blocks. -/
def ST (g : ℕ) (e : Fin 2) (r : Fin 256) : ℕ → Fin 256 → EReal := fun kk col =>
  if h : 8 * g + kk < 2048 ∧ kk < 8 then
    score e (BitVec.ofNat 32 (grid1.coords (PT g kk h.1) 2).val) (BitVec.ofNat 32 (grid1.coords (PT g kk h.1) 3).val)
      (iblk1 V c 0 (PT g kk h.1)) (iblk1 V c 1 (PT g kk h.1)) r col
  else ⊥

/-- The weights: lane d of head e of the v block at tile kk of row block g. -/
def WT (g : ℕ) (e : Fin 2) (d : Fin 64) : ℕ → Fin 256 → ℝ := fun kk col =>
  if h : 8 * g + kk < 2048 ∧ kk < 8 then ((iblk1 V c 2 (PT g kk h.1) : Vec Ideal S1x256x128 .bf16) (ix3 0 col (hcol e d))).toReal else 0

theorem PT_div_mod (t : Fin cfg1.N) (h : 8 * (t.val / 8) + t.val % 8 < 2048) : PT (t.val / 8) (t.val % 8) h = t :=
  Fin.ext (by show 8 * (t.val / 8) + t.val % 8 = t.val; omega)

theorem lt2048 (t : Fin cfg1.N) : t.val < 2048 := lt_of_lt_of_eq t.isLt (show cfg1.N = 2048 from N_1)

theorem ST_at (t : Fin cfg1.N) (e : Fin 2) (r : Fin 256) :
    ST V c (t.val / 8) e r (t.val % 8) = score e (BitVec.ofNat 32 (grid1.coords t 2).val) (BitVec.ofNat 32 (grid1.coords t 3).val) (iblk1 V c 0 t) (iblk1 V c 1 t) r := by
  have ht := lt2048 t
  have h : 8 * (t.val / 8) + t.val % 8 < 2048 ∧ t.val % 8 < 8 := ⟨by omega, by omega⟩
  funext col
  unfold ST
  rw [dif_pos h, PT_div_mod t h.1]

theorem WT_at (hv : ∀ i, ∃ x : ℝ, (V c main_v2_2 : XIdx → EReal) i = (x : EReal)) (t : Fin cfg1.N) (e : Fin 2) (d : Fin 64) (col : Fin 256) :
    (iblk1 V c 2 t : Vec Ideal S1x256x128 .bf16) (ix3 0 col (hcol e d)) = (WT V c (t.val / 8) e d (t.val % 8) col : EReal) := by
  have ht := lt2048 t
  have h : 8 * (t.val / 8) + t.val % 8 < 2048 ∧ t.val % 8 < 8 := ⟨by omega, by omega⟩
  unfold WT
  rw [dif_pos h, PT_div_mod t h.1]
  have hl := (hcol e d).isLt
  have hc := col.isLt
  have hmin : min (t.val % 8) (t.val / 8 % 8) < 8 := lt_of_le_of_lt (min_le_left _ _) (by omega)
  obtain ⟨x, hx⟩ := hv (ix3 (⟨t.val / 512, by omega⟩ : Fin 4) (⟨256 * min (t.val % 8) (t.val / 8 % 8) + col.val, by omega⟩ : Fin 2048)
    (⟨128 * (t.val / 64 % 8) + (hcol e d).val, by omega⟩ : Fin 1024))
  rw [iblk1_2_apply V c t (ix3 0 col (hcol e d)) (ix3 (⟨t.val / 512, by omega⟩ : Fin 4) (⟨256 * min (t.val % 8) (t.val / 8 % 8) + col.val, by omega⟩ : Fin 2048)
    (⟨128 * (t.val / 64 % 8) + (hcol e d).val, by omega⟩ : Fin 1024)) rfl rfl rfl, hx, EReal.toReal_coe]

/-- ONE STEP at a position, for one row of one head: the step of the tiled statistics on that tile's scores. -/
theorem step_at (hv : ∀ i, ∃ x : ℝ, (V c main_v2_2 : XIdx → EReal) i = (x : EReal)) (t : Fin cfg1.N) (e : Fin 2) (r : Fin 256) (d : Fin 64) (s : Scr Ideal) :
    tri e (stepK (BitVec.ofNat 32 (grid1.coords t 2).val) (BitVec.ofNat 32 (grid1.coords t 3).val) (iblk1 V c 0 t) (iblk1 V c 1 t) (iblk1 V c 2 t) s) r d
      = step (ST V c (t.val / 8) e r (t.val % 8)) (WT V c (t.val / 8) e d (t.val % 8)) (tri e s r d) := by
  rw [ST_at]
  match e with
  | ⟨0, _⟩ => exact step_head0 _ _ _ _ _ s r d _ (fun col => WT_at V c hv t ⟨0, by decide⟩ d col)
  | ⟨1, _⟩ => exact step_head1 _ _ _ _ _ s r d _ (fun col => WT_at V c hv t ⟨1, by decide⟩ d col)

theorem tri_init (e : Fin 2) (r : Fin 256) (d : Fin 64) : tri e (initK (F := Ideal)) r d = (⊥, 0, 0) := by
  match e with
  | ⟨0, _⟩ => exact Prod.ext (init_at r d).1 (Prod.ext (init_at r d).2.1 (init_at r d).2.2.1)
  | ⟨1, _⟩ => exact Prod.ext (init_at r d).2.2.2.1 (Prod.ext (init_at r d).2.2.2.2.1 (init_at r d).2.2.2.2.2)

/-- THE ROW ALONG THE GRID: at every position the row's statistics are those of its tiles up to min(kt, qi). -/
theorem row_stat (hv : ∀ i, ∃ x : ℝ, (V c main_v2_2 : XIdx → EReal) i = (x : EReal)) (e : Fin 2) (r : Fin 256) (d : Fin 64) :
    ∀ (n : ℕ) (hn : n < cfg1.N), tri e (statAt V c n hn) r d
      = stat (ST V c (n / 8) e r) (WT V c (n / 8) e d) (min (n % 8) (n / 8 % 8)) := by
  intro n
  induction n with
  | zero =>
    intro hn
    rw [statAt_first V c ⟨0, hn⟩ rfl, step_at V c hv ⟨0, hn⟩ e r d, tri_init]
    rfl
  | succ n ih =>
    intro hn
    by_cases h0 : (n + 1) % 8 = 0
    · rw [statAt_first V c ⟨n + 1, hn⟩ h0, step_at V c hv ⟨n + 1, hn⟩ e r d, tri_init]
      show step (ST V c ((n + 1) / 8) e r ((n + 1) % 8)) (WT V c ((n + 1) / 8) e d ((n + 1) % 8)) (⊥, 0, 0) = _
      rw [h0, Nat.zero_min]
      rfl
    · by_cases h1 : (n + 1) % 8 ≤ (n + 1) / 8 % 8
      · rw [statAt_step V c ⟨n + 1, hn⟩ h0 h1, step_at V c hv ⟨n + 1, hn⟩ e r d]
        show step (ST V c ((n + 1) / 8) e r ((n + 1) % 8)) (WT V c ((n + 1) / 8) e d ((n + 1) % 8))
          (tri e (statAt V c (n + 1 - 1) _) r d) = _
        have e8 : n / 8 = (n + 1) / 8 := by omega
        have em : (n + 1) % 8 = n % 8 + 1 := by omega
        rw [show tri e (statAt V c (n + 1 - 1) (prevLt ⟨n + 1, hn⟩)) r d = tri e (statAt V c n (Nat.lt_of_succ_lt hn)) r d from rfl,
          ih (Nat.lt_of_succ_lt hn), e8, min_eq_left (by omega : n % 8 ≤ (n + 1) / 8 % 8), min_eq_left h1, em]
        rfl
      · rw [statAt_skip V c ⟨n + 1, hn⟩ h0 h1]
        show tri e (statAt V c (n + 1 - 1) _) r d = _
        have e8 : n / 8 = (n + 1) / 8 := by omega
        rw [show tri e (statAt V c (n + 1 - 1) (prevLt ⟨n + 1, hn⟩)) r d = tri e (statAt V c n (Nat.lt_of_succ_lt hn)) r d from rfl,
          ih (Nat.lt_of_succ_lt hn), e8, min_eq_right (by omega : (n + 1) / 8 % 8 ≤ n % 8), min_eq_right (by omega : (n + 1) / 8 % 8 ≤ (n + 1) % 8)]

end Cert.KernelIdeal.HandValue

end
-- ==== Proof.KIValue1Final.lean ====
/-
  Region 1 (the attention kernel) — the array it leaves.

  The output block is written back exactly at the last tile of each row block. There its staging buffer holds, at
  row r and column 64·e + d, head e's numerator over its sum — the tiled statistics of row 256·qi + r after tile qi,
  which are those of the whole row: the attention output `oA` of the region's q, k and v arrays at token
  (b, 256·qi + r) and feature 128·hp + 64·e + d. The 256 flushing points' blocks tile the array.
-/
import proofs.«151496_j75222057222809_2_alg».proof.Proof.KIValue1Row

set_option maxRecDepth 16384

noncomputable section

namespace Cert.KernelIdeal.HandValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand
open ProofLib.TiledSoftmax Cert.AttnSpec Cert.ReferenceIdeal.RefValue

/-- The tiled statistics depend only on the tiles read so far. -/
theorem stat_congr {κ : Type*} [Fintype κ] {S S' : ℕ → κ → EReal} {w w' : ℕ → κ → ℝ} :
    ∀ n : ℕ, (∀ k, k ≤ n → S k = S' k ∧ w k = w' k) → stat S w n = stat S' w' n := by
  intro n
  induction n with
  | zero => intro h; rw [stat_zero, stat_zero, (h 0 le_rfl).1, (h 0 le_rfl).2]
  | succ n ih =>
    intro h
    rw [stat_succ, stat_succ, (h (n + 1) le_rfl).1, (h (n + 1) le_rfl).2, ih fun k hk => h k (Nat.le_succ_of_le hk)]

variable (V : (c : Dev nD) → (b : Ref sig .tc) → Buf (Elt Ideal) ((c : Thread nD τ).loc b)) (c : Dev nD)

/-- The array region 1 leaves: the attention output of the q, k and v arrays as the region finds them. -/
def GA : S4x2048x1024.Idx → EReal := fun i =>
  oA (V c main_v2_0) (V c main_v2_1) (V c main_v2_2) ⟨(i 0).val, (i 0).isLt⟩ ⟨(i 1).val, (i 1).isLt⟩ ⟨(i 2).val, (i 2).isLt⟩

/-- The output block's quotient, for either head. -/
theorem fin_tri (e : Fin 2) (s : Scr Ideal) (r : Fin 256) (d : Fin 64) :
    finK s (ix3 0 r (hcol e d)) = Ideal.div (tri e s r d).2.2 (tri e s r d).2.1 := by
  match e with
  | ⟨0, _⟩ => exact fin_head0 s r d
  | ⟨1, _⟩ => exact fin_head1 s r d

section Tiles

/-- Up to the diagonal tile, a position's blocks give the arrays' own tile scores and weights. -/
theorem tile_eq (t : Fin cfg1.N) (e : Fin 2) (r : Fin 256) (d : Fin 64) (kk : ℕ) (hkk : kk ≤ t.val / 8 % 8)
    (bF : Fin 4) (hF : Fin 16) (TF : Fin 2048) (fF : Fin 1024)
    (hb : bF.val = t.val / 512) (hh : hF.val = 2 * (t.val / 64 % 8) + e.val) (hT : TF.val = 256 * (t.val / 8 % 8) + r.val)
    (hf : fF.val = 128 * (t.val / 64 % 8) + (hcol e d).val) :
    ST V c (t.val / 8) e r kk = Stile (V c main_v2_0) (V c main_v2_1) bF hF TF kk
      ∧ WT V c (t.val / 8) e d kk = Wtile (V c main_v2_2) bF fF kk := by
  have ht := lt2048 t
  have hk8 : kk < 8 := by omega
  have hP : 8 * (t.val / 8) + kk < 2048 ∧ kk < 8 := ⟨by omega, hk8⟩
  obtain ⟨c0, c1, c2, c3⟩ := coords1 (PT (t.val / 8) kk hP.1)
  have hPv : (PT (t.val / 8) kk hP.1).val = 8 * (t.val / 8) + kk := rfl
  have hl := (hcol e d).isLt
  have hlv : (hcol e d).val = 64 * e.val + d.val := rfl
  have he := e.isLt
  refine ⟨funext fun col => ?_, funext fun col => ?_⟩
  · unfold ST Stile
    rw [dif_pos hP, dif_pos hk8, c2, c3, hPv]
    unfold score sA
    have hqi : (8 * (t.val / 8) + kk) / 8 % 8 = t.val / 8 % 8 := by omega
    have hkt : (8 * (t.val / 8) + kk) % 8 = kk := by omega
    rw [hqi, hkt]
    have hmask := maskBit_iff ⟨t.val / 8 % 8, by omega⟩ ⟨kk, hk8⟩ r col
    by_cases hle : 256 * kk + col.val ≤ 256 * (t.val / 8 % 8) + r.val
    · rw [if_pos (hmask.mpr hle), if_pos (show (tileIdx ⟨kk, hk8⟩ col).val ≤ TF.val from by rw [hT]; exact hle)]
      refine Finset.sum_congr rfl fun dd _ => ?_
      have hdd := dd.isLt
      rw [iblk1_0_apply V c (PT (t.val / 8) kk hP.1) _ (ix3 bF TF (colOf hF dd)) (by rw [hPv, hb]; omega)
          (by rw [hPv, hT]; show _ = 256 * ((8 * (t.val / 8) + kk) / 8 % 8) + r.val; rw [hqi])
          (by rw [hPv]; show 64 * hF.val + dd.val = 128 * ((8 * (t.val / 8) + kk) / 64 % 8) + (64 * e.val + dd.val); rw [hh]; omega),
        iblk1_1_apply V c (PT (t.val / 8) kk hP.1) _ (ix3 bF (tileIdx ⟨kk, hk8⟩ col) (colOf hF dd)) (by rw [hPv, hb]; omega)
          (by rw [hPv]; show 256 * kk + col.val = 256 * min ((8 * (t.val / 8) + kk) % 8) ((8 * (t.val / 8) + kk) / 8 % 8) + col.val; rw [hqi, hkt, min_eq_left hkk])
          (by rw [hPv]; show 64 * hF.val + dd.val = 128 * ((8 * (t.val / 8) + kk) / 64 % 8) + (64 * e.val + dd.val); rw [hh]; omega)]
    · rw [if_neg (fun h => hle (hmask.mp h)), if_neg (show ¬(tileIdx ⟨kk, hk8⟩ col).val ≤ TF.val from by rw [hT]; exact hle)]
  · unfold WT Wtile
    rw [dif_pos hP, dif_pos hk8]
    have hqi : (8 * (t.val / 8) + kk) / 8 % 8 = t.val / 8 % 8 := by omega
    have hkt : (8 * (t.val / 8) + kk) % 8 = kk := by omega
    rw [iblk1_2_apply V c (PT (t.val / 8) kk hP.1) _ (ix3 bF (tileIdx ⟨kk, hk8⟩ col) fF) (by rw [hPv, hb]; omega)
      (by rw [hPv]; show 256 * kk + col.val = 256 * min ((8 * (t.val / 8) + kk) % 8) ((8 * (t.val / 8) + kk) / 8 % 8) + col.val; rw [hqi, hkt, min_eq_left hkk])
      (by rw [hPv]; show fF.val = 128 * ((8 * (t.val / 8) + kk) / 64 % 8) + (hcol e d).val; rw [hf]; omega)]

/-- What a flushing point writes back: the block of the attention output. -/
theorem flushed1_eq (hq : ∀ i, ∃ x : ℝ, (V c main_v2_0 : XIdx → EReal) i = (x : EReal)) (hk : ∀ i, ∃ x : ℝ, (V c main_v2_1 : XIdx → EReal) i = (x : EReal))
    (hv : ∀ i, ∃ x : ℝ, (V c main_v2_2 : XIdx → EReal) i = (x : EReal)) (t : Fin cfg1.N) (hfl : (cfg1.win 3).flush t = true) :
    (dat1 V c).flushed 3 t = ((cfg1.win 3).blk t).view.read (Elt Ideal) (GA V c) := by
  have h7 : t.val % 8 = 7 := (flush1_3 t).mp hfl
  have ht := lt2048 t
  obtain ⟨i0, i1, i2⟩ := idx1_3 t
  show (cfg1.win 3).cut (grid1.coords t) ((dat1 V c).after 3 t) = _
  rw [after1_3, outsAt1_out V c t h7]
  refine funext fun (j : S1x256x128.Idx) => ?_
  obtain ⟨u, r, x, rfl⟩ : ∃ (u : Fin 1) (r : Fin 256) (x : Fin 128), j = ix3 u r x := ⟨j 0, j 1, j 2, eq_ix3 j⟩
  obtain ⟨e, d, rfl⟩ : ∃ (e : Fin 2) (d : Fin 64), x = hcol e d :=
    ⟨⟨x.val / 64, by have := x.isLt; omega⟩, ⟨x.val % 64, by omega⟩, Fin.ext (by show x.val = 64 * (x.val / 64) + x.val % 64; omega)⟩
  obtain rfl : u = 0 := Fin.ext (by have := u.isLt; omega)
  have hl := (hcol e d).isLt
  have hlv : (hcol e d).val = 64 * e.val + d.val := rfl
  have he := e.isLt
  -- the token and the feature this entry is
  let bF : Fin 4 := ⟨t.val / 512, by omega⟩
  let TF : Fin 2048 := ⟨256 * (t.val / 8 % 8) + r.val, by have := r.isLt; omega⟩
  let fF : Fin 1024 := ⟨128 * (t.val / 64 % 8) + (hcol e d).val, by omega⟩
  have hhead : (headOf fF).val = 2 * (t.val / 64 % 8) + e.val := by
    show (128 * (t.val / 64 % 8) + (hcol e d).val) / 64 = _; rw [hlv]; have := d.isLt; omega
  show finK (statAt V c t.val t.isLt) (ix3 0 r (hcol e d)) = GA V c (((cfg1.win 3).blk t).view.emb (ix3 0 r (hcol e d)))
  have hG : GA V c (((cfg1.win 3).blk t).view.emb (ix3 0 r (hcol e d))) = oA (V c main_v2_0) (V c main_v2_1) (V c main_v2_2) bF TF fF := by
    unfold GA
    congr 1
    · exact Fin.ext (show win1_3.index t 0 * 1 + 1 * 0 = t.val / 512 by rw [i0]; omega)
    · exact Fin.ext (show win1_3.index t 1 * 256 + 1 * r.val = 256 * (t.val / 8 % 8) + r.val by rw [i1]; omega)
    · exact Fin.ext (show win1_3.index t 2 * 128 + 1 * (hcol e d).val = 128 * (t.val / 64 % 8) + (hcol e d).val by rw [i2]; omega)
  rw [hG, fin_tri, row_stat V c hv e r d t.val t.isLt, h7, min_eq_right (by omega : t.val / 8 % 8 ≤ 7),
    stat_congr (t.val / 8 % 8) (fun kk hkk => tile_eq V c t e r d kk hkk bF (headOf fF) TF fF rfl hhead rfl rfl),
    ← attn_tiles hq hk hv bF TF fF]
  have hTd : TF.val / 256 = t.val / 8 % 8 := by show (256 * (t.val / 8 % 8) + r.val) / 256 = _; have := r.isLt; omega
  rw [hTd]

end Tiles

/-! ## The blocks tile the array -/

theorem mem_blk1_3 (t : Fin cfg1.N) (i : S4x2048x1024.Idx) :
    i ∈ ((cfg1.win 3).blk t).view.set ↔ ∀ a : Fin 3, win1_3.index t a * S1x256x128.size a ≤ (i a).val ∧ (i a).val < win1_3.index t a * S1x256x128.size a + S1x256x128.size a := by
  show i ∈ ((View.whole main_v3).slice (win1_3.rect t)).set ↔ _
  rw [View.set_slice_whole, Rect.mem_set_unit]
  exact Iff.rfl

/-- Entry (b, T, f) is in the block written back at the last tile of row block T / 256 of head pair f / 128. -/
theorem covered1_3 (i : S4x2048x1024.Idx) :
    ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  have hN : 512 * (i 0).val + 64 * ((i 2).val / 128) + 8 * ((i 1).val / 256) + 7 < cfg1.N := by rw [show cfg1.N = 2048 from N_1]; omega
  refine ⟨⟨512 * (i 0).val + 64 * ((i 2).val / 128) + 8 * ((i 1).val / 256) + 7, hN⟩, (flush1_3 _).mpr (by show (512 * (i 0).val + 64 * ((i 2).val / 128) + 8 * ((i 1).val / 256) + 7) % 8 = 7; omega), ?_⟩
  obtain ⟨e0, e1, e2⟩ := idx1_3 ⟨512 * (i 0).val + 64 * ((i 2).val / 128) + 8 * ((i 1).val / 256) + 7, hN⟩
  rw [mem_blk1_3]
  intro a
  match a with
  | ⟨0, _⟩ => show win1_3.index _ (0 : Fin 3) * 1 ≤ (i 0).val ∧ (i 0).val < win1_3.index _ (0 : Fin 3) * 1 + 1; rw [e0]; show (512 * (i 0).val + 64 * ((i 2).val / 128) + 8 * ((i 1).val / 256) + 7) / 512 * 1 ≤ (i 0).val ∧ (i 0).val < (512 * (i 0).val + 64 * ((i 2).val / 128) + 8 * ((i 1).val / 256) + 7) / 512 * 1 + 1; omega
  | ⟨1, _⟩ => show win1_3.index _ (1 : Fin 3) * 256 ≤ (i 1).val ∧ (i 1).val < win1_3.index _ (1 : Fin 3) * 256 + 256; rw [e1]; show (512 * (i 0).val + 64 * ((i 2).val / 128) + 8 * ((i 1).val / 256) + 7) / 8 % 8 * 256 ≤ (i 1).val ∧ (i 1).val < (512 * (i 0).val + 64 * ((i 2).val / 128) + 8 * ((i 1).val / 256) + 7) / 8 % 8 * 256 + 256; omega
  | ⟨2, _⟩ => show win1_3.index _ (2 : Fin 3) * 128 ≤ (i 2).val ∧ (i 2).val < win1_3.index _ (2 : Fin 3) * 128 + 128; rw [e2]; show (512 * (i 0).val + 64 * ((i 2).val / 128) + 8 * ((i 1).val / 256) + 7) / 64 % 8 * 128 ≤ (i 2).val ∧ (i 2).val < (512 * (i 0).val + 64 * ((i 2).val / 128) + 8 * ((i 1).val / 256) + 7) / 64 % 8 * 128 + 128; omega

/-- THE ARRAY region 1 leaves, when the q, k and v arrays it finds hold real numbers: causal attention of them. -/
theorem final1 (hq : ∀ i, ∃ x : ℝ, (V c main_v2_0 : XIdx → EReal) i = (x : EReal)) (hk : ∀ i, ∃ x : ℝ, (V c main_v2_1 : XIdx → EReal) i = (x : EReal))
    (hv : ∀ i, ∃ x : ℝ, (V c main_v2_2 : XIdx → EReal) i = (x : EReal)) :
    (dat1 V c).arrAt 3 cfg1.N = GA V c :=
  (dat1 V c).arrAt_eq_of_cover 3 (GA V c) (fun t hfl => flushed1_eq V c hq hk hv t hfl) covered1_3

end Cert.KernelIdeal.HandValue

end
-- ==== Proof.KIValue0.lean ====
/- The value of the fused q/k/v projection (the first pipeline of @main), at the ideal instance: after the region
   each of the three output arrays holds, at every index (b, s, n), the sum over k of the input at (b, s, k) times
   one row of the weight at k — row n for the first output, which is also scaled by 1/8; row n + 1024 for the second;
   row n + 2048 for the third. Each is one function of the two input arrays as the region finds them.

   The steps. The body's payloads at an index of the block: a change of format is the identity on the extended
   reals, the reshapes between [1, 512, 1024] and [512, 1024] move no entry, a matrix product accumulated into zero is
   the sum over the one contracted axis of the operands' products, and a column slice of the product at offset o
   reads column o + n; so each payload at (u, r, n) is the sum over k of the input block at (0, r, k) times the
   weight block at (o + n, k), the first times the constant. The printed index maps, decided over the 16 grid points:
   the input's block moves with each output's, the weight's block is the whole array, and each output's block at
   point t is (t / 4, t % 4, 0). Hence what point t writes back is block t of that function, and since the point
   (b * 4 + s / 512) covers index (b, s, n), the blocks cover the array. -/
import proofs.«151496_j75222057222809_2_alg».proof.Proof.KIRegion0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Idealize.ShloMosaic Idealize.ShloMosaic.TcCoe Idealize.SL.Sem
open Idealize.ShloMosaic.Pipeline (Dat)
open Idealize.ShloMosaic.ValueIdx

/-! ## The specification -/

/-- Row `o + n` of the weight, for a column `n` of one third of the product. -/
abbrev wrow (o : Nat) (ho : o + 1024 ≤ 3072) (n : Fin 1024) : Fin 3072 := ⟨o + n.val, by omega⟩

/-- The query projection: at (b, s, n) the sum over k of x (b, s, k) · w (n, k), scaled by 1/8. -/
def Gq (x : S4x2048x1024.Idx → EReal) (w : S3072x1024.Idx → EReal) : S4x2048x1024.Idx → EReal :=
  fun i => (∑ k : Fin 1024, x (ix3 (⟨(i 0).val, (i 0).isLt⟩ : Fin 4) (⟨(i 1).val, (i 1).isLt⟩ : Fin 2048) k) * w (ix2 (wrow 0 (by decide) ⟨(i 2).val, (i 2).isLt⟩) k)) * Ideal.ofBits .f32 0x3E000000#32

/-- The key projection: at (b, s, n) the sum over k of x (b, s, k) · w (1024 + n, k). -/
def Gk (x : S4x2048x1024.Idx → EReal) (w : S3072x1024.Idx → EReal) : S4x2048x1024.Idx → EReal :=
  fun i => ∑ k : Fin 1024, x (ix3 (⟨(i 0).val, (i 0).isLt⟩ : Fin 4) (⟨(i 1).val, (i 1).isLt⟩ : Fin 2048) k) * w (ix2 (wrow 1024 (by decide) ⟨(i 2).val, (i 2).isLt⟩) k)

/-- The value projection: at (b, s, n) the sum over k of x (b, s, k) · w (2048 + n, k). -/
def Gv (x : S4x2048x1024.Idx → EReal) (w : S3072x1024.Idx → EReal) : S4x2048x1024.Idx → EReal :=
  fun i => ∑ k : Fin 1024, x (ix3 (⟨(i 0).val, (i 0).isLt⟩ : Fin 4) (⟨(i 1).val, (i 1).isLt⟩ : Fin 2048) k) * w (ix2 (wrow 2048 (by decide) ⟨(i 2).val, (i 2).isLt⟩) k)

/-! ## The body's payloads at an index -/

/-- The matrix product of a [512, 1024] block with the transpose of a [3072, 1024] block, accumulated into zero, at
    (r, m): the sum over the contracted axis (axis 1 of both operands). -/
theorem qkv_matmul_apply (v1 : FVec Ideal S512x1024 .bf16) (v3 : FVec Ideal S3072x1024 .bf16) (r : Fin 512) (m : Fin 3072) :
    matmul dot_S512x1024_S3072x1024_S512x3072_1_1_0_0_n_n none v1 v3 (constant S512x3072 .f32 0x00000000#32) (ix2 r m)
      = ∑ k : Fin 1024, v1 (ix2 r k) * v3 (ix2 m k) := by
  show FloatOps.matmul dot_S512x1024_S3072x1024_S512x3072_1_1_0_0_n_n none v1 v3 (constant S512x3072 .f32 0x00000000#32) (ix2 r m) = _
  rw [Ideal.matmul_constant_zero_apply, ← Equiv.sum_comp (contrEquiv1 dot_S512x1024_S3072x1024_S512x3072_1_1_0_0_n_n 1024 rfl rfl).symm]
  refine Finset.sum_congr rfl fun k _ => ?_
  have hk := contrEquiv1_symm_val dot_S512x1024_S3072x1024_S512x3072_1_1_0_0_n_n 1024 rfl rfl k
  have el : dot_S512x1024_S3072x1024_S512x3072_1_1_0_0_n_n.lhsIdx (ix2 r m) ((contrEquiv1 dot_S512x1024_S3072x1024_S512x3072_1_1_0_0_n_n 1024 rfl rfl).symm k) = ix2 r k := funext fun a => Fin.ext (by
    match a with
    | ⟨0, _⟩ =>
      show (dot_S512x1024_S3072x1024_S512x3072_1_1_0_0_n_n.lhsIdx (ix2 r m) _ 0).val = r.val
      unfold DotDims.lhsIdx
      rw [dif_neg (show ¬(0 : Fin S512x1024.rank) ∈ dot_S512x1024_S3072x1024_S512x3072_1_1_0_0_n_n.lhsBatch by decide), dif_pos (show (0 : Fin S512x1024.rank) ∈ dot_S512x1024_S3072x1024_S512x3072_1_1_0_0_n_n.lhsNonContracting by decide)]
      rfl
    | ⟨1, _⟩ => exact (dot_S512x1024_S3072x1024_S512x3072_1_1_0_0_n_n.lhsIdx_val_of_single rfl _ _).trans hk)
  have er : dot_S512x1024_S3072x1024_S512x3072_1_1_0_0_n_n.rhsIdx (ix2 r m) ((contrEquiv1 dot_S512x1024_S3072x1024_S512x3072_1_1_0_0_n_n 1024 rfl rfl).symm k) = ix2 m k := funext fun a => Fin.ext (by
    match a with
    | ⟨0, _⟩ =>
      show (dot_S512x1024_S3072x1024_S512x3072_1_1_0_0_n_n.rhsIdx (ix2 r m) _ 0).val = m.val
      unfold DotDims.rhsIdx
      rw [dif_neg (show ¬(0 : Fin S3072x1024.rank) ∈ dot_S512x1024_S3072x1024_S512x3072_1_1_0_0_n_n.rhsBatch by decide), dif_pos (show (0 : Fin S3072x1024.rank) ∈ dot_S512x1024_S3072x1024_S512x3072_1_1_0_0_n_n.rhsNonContracting by decide)]
      rfl
    | ⟨1, _⟩ => exact (dot_S512x1024_S3072x1024_S512x3072_1_1_0_0_n_n.rhsIdx_val_of_single rfl _ _).trans hk)
  rw [el, er]

/-- The whole [512, 3072] product at (r, m): the sum over k of the input block at (0, r, k) times the weight block at
    (m, k). -/
theorem pay0_1_apply (x0 : Vec Ideal S1x512x1024 .f32) (x1 : Vec Ideal S3072x1024 .bf16) (r : Fin 512) (m : Fin 3072) :
    k0_pay1 x0 x1 (ix2 r m) = ∑ k : Fin 1024, x0 (ix3 (0 : Fin 1) r k) * x1 (ix2 m k) := by
  unfold k0_pay1
  refine (qkv_matmul_apply _ _ r m).trans ?_
  refine Finset.sum_congr rfl fun k _ => ?_
  rw [truncf_apply, shapeCast_1ab_ab_apply, shapeCast_self]

/-- The first payload at (u, r, n): column n of the product, scaled by the constant. -/
theorem pay0_2_apply (x0 : Vec Ideal S1x512x1024 .f32) (x1 : Vec Ideal S3072x1024 .bf16) (u : Fin 1) (r : Fin 512) (n : Fin 1024) :
    k0_pay2 x0 x1 (ix3 u r n) = (∑ k : Fin 1024, x0 (ix3 (0 : Fin 1) r k) * x1 (ix2 (wrow 0 (by decide) n) k)) * Ideal.ofBits .f32 0x3E000000#32 := by
  unfold k0_pay2
  refine (shapeCast_ab_1ab_apply _ _ u r n).trans ?_
  rw [truncf_apply, mulf_apply, broadcast_apply]
  rw [slice2_axis1_apply 0 (k0_pay1 x0 x1) slices_S512x3072_o0_0_S512x1024 r n (wrow 0 (by decide) n) rfl, pay0_1_apply]
  rfl

/-- The second payload at (u, r, n): column 1024 + n of the product. -/
theorem pay0_3_apply (x0 : Vec Ideal S1x512x1024 .f32) (x1 : Vec Ideal S3072x1024 .bf16) (u : Fin 1) (r : Fin 512) (n : Fin 1024) :
    k0_pay3 x0 x1 (ix3 u r n) = ∑ k : Fin 1024, x0 (ix3 (0 : Fin 1) r k) * x1 (ix2 (wrow 1024 (by decide) n) k) := by
  unfold k0_pay3
  refine (shapeCast_ab_1ab_apply _ _ u r n).trans ?_
  rw [truncf_apply]
  rw [slice2_axis1_apply 1024 (k0_pay1 x0 x1) slices_S512x3072_o0_1024_S512x1024 r n (wrow 1024 (by decide) n) rfl, pay0_1_apply]

/-- The third payload at (u, r, n): column 2048 + n of the product. -/
theorem pay0_4_apply (x0 : Vec Ideal S1x512x1024 .f32) (x1 : Vec Ideal S3072x1024 .bf16) (u : Fin 1) (r : Fin 512) (n : Fin 1024) :
    k0_pay4 x0 x1 (ix3 u r n) = ∑ k : Fin 1024, x0 (ix3 (0 : Fin 1) r k) * x1 (ix2 (wrow 2048 (by decide) n) k) := by
  unfold k0_pay4
  refine (shapeCast_ab_1ab_apply _ _ u r n).trans ?_
  rw [truncf_apply]
  rw [slice2_axis1_apply 2048 (k0_pay1 x0 x1) slices_S512x3072_o0_2048_S512x1024 r n (wrow 2048 (by decide) n) rfl, pay0_1_apply]

/-! ## From blocks to the arrays -/

variable (V : (c : Dev nD) → (b : Ref sig .tc) → Buf (Elt Ideal) ((c : Thread nD τ).loc b))

theorem zeroOff0_3 : (![0, 0, 0] : Fin 3 → Nat) = fun _ => 0 := funext fun a => by fin_cases a <;> rfl
theorem zeroOff0_2 : (![0, 0] : Fin 2 → Nat) = fun _ => 0 := funext fun a => by fin_cases a <;> rfl

/-- The printed index maps, decided over the grid: the weight's block is the whole array, and the input's and each
    output's block at point `t` is (t / 4, t % 4, 0). -/
theorem idx_facts0 : ∀ t : Fin cfg0.N, win0_1.index t (0 : Fin 2) = 0 ∧ win0_1.index t (1 : Fin 2) = 0
    ∧ (win0_0.index t (0 : Fin 3) = t.val / 4 ∧ win0_0.index t (1 : Fin 3) = t.val % 4 ∧ win0_0.index t (2 : Fin 3) = 0)
    ∧ (win0_2.index t (0 : Fin 3) = t.val / 4 ∧ win0_2.index t (1 : Fin 3) = t.val % 4 ∧ win0_2.index t (2 : Fin 3) = 0)
    ∧ (win0_3.index t (0 : Fin 3) = t.val / 4 ∧ win0_3.index t (1 : Fin 3) = t.val % 4 ∧ win0_3.index t (2 : Fin 3) = 0)
    ∧ (win0_4.index t (0 : Fin 3) = t.val / 4 ∧ win0_4.index t (1 : Fin 3) = t.val % 4 ∧ win0_4.index t (2 : Fin 3) = 0) :=
  (by decide +kernel : ∀ t : Fin grid0.N, _)

/-- The input block at (0, r, k), where the output block's index (u, r, n) lands in the array: the input array at the
    same batch and row, column k — for an output window whose block moves as the input's does (`e`: its block index). -/
theorem in0_0_at (c : Dev nD) (t : Fin cfg0.N) (u : Fin 1) (r : Fin 512) (k : Fin 1024) (b : Fin 4) (s : Fin 2048)
    (hb : b.val = t.val / 4 * 1 + 1 * u.val) (hs : s.val = t.val % 4 * 512 + 1 * r.val) :
    Hand.iblk0 V c 0 t (ix3 (0 : Fin 1) r k) = V c main_arg0 (ix3 b s k) := by
  obtain ⟨-, -, ⟨a0, a1, a2⟩, -⟩ := idx_facts0 t
  have hu : u.val = 0 := by omega
  show V c main_arg0 (((cfg0.win 0).blk t).view.emb (ix3 (0 : Fin 1) r k)) = _
  refine congrArg (V c main_arg0) (funext fun a => Fin.ext ?_)
  match a with
  | ⟨0, _⟩ => show win0_0.index t (0 : Fin 3) * 1 + 1 * 0 = b.val; omega
  | ⟨1, _⟩ => show win0_0.index t (1 : Fin 3) * 512 + 1 * r.val = s.val; omega
  | ⟨2, _⟩ => show win0_0.index t (2 : Fin 3) * 1024 + 1 * k.val = k.val; omega

/-- The weight block is the weight array. -/
theorem in0_1_at (c : Dev nD) (t : Fin cfg0.N) (m : Fin 3072) (k : Fin 1024) :
    Hand.iblk0 V c 1 t (ix2 m k) = V c main_v0 (ix2 m k) := by
  obtain ⟨w0, w1, -⟩ := idx_facts0 t
  show V c main_v0 (((cfg0.win 1).blk t).view.emb (ix2 m k)) = _
  refine congrArg (V c main_v0) (funext fun a => Fin.ext ?_)
  match a with
  | ⟨0, _⟩ => show win0_1.index t (0 : Fin 2) * 3072 + 1 * m.val = m.val; omega
  | ⟨1, _⟩ => show win0_1.index t (1 : Fin 2) * 1024 + 1 * k.val = k.val; omega

/-! ## Output window 2: the query projection -/

/-- WHAT POINT `t` WRITES BACK to window 2's array is block `t` of `Gq` of the two input arrays as the region finds them. -/
theorem flushed0_2_eq (c : Dev nD) (t : Fin cfg0.N) :
    (Hand.dat0 V c).flushed 2 t = ((cfg0.win 2).blk t).view.read (Elt Ideal) (Gq (V c main_arg0) (V c main_v0)) := by
  show (cfg0.win 2).cut (grid0.coords t) ((Hand.dat0 V c).after 2 t) = _
  rw [Hand.after0_2]
  unfold Hand.out0_2
  rw [View.canon_unit_zero zeroOff0_3]
  simp only [View.ld_unit_zero (S := S1x512x1024) zeroOff0_3, View.ld_unit_zero (S := S3072x1024) zeroOff0_2]
  obtain ⟨-, -, -, ⟨o0, o1, o2⟩, -, -⟩ := idx_facts0 t
  refine funext fun (j : S1x512x1024.Idx) => ?_
  obtain ⟨u, r, n, rfl⟩ : ∃ (u : Fin 1) (r : Fin 512) (n : Fin 1024), j = ix3 u r n := ⟨j 0, j 1, j 2, eq_ix3 j⟩
  show k0_pay2 (Hand.iblk0 V c 0 t) (Hand.iblk0 V c 1 t) (ix3 u r n) = Gq (V c main_arg0) (V c main_v0) (((cfg0.win 2).blk t).view.emb (ix3 u r n))
  refine (pay0_2_apply (Hand.iblk0 V c 0 t) (Hand.iblk0 V c 1 t) u r n).trans ?_
  unfold Gq
  refine congrArg (fun s : EReal => s * Ideal.ofBits .f32 0x3E000000#32) (Finset.sum_congr rfl fun k _ => ?_)
  have h0 := in0_0_at V c t u r k (⟨((((cfg0.win 2).blk t).view.emb (ix3 u r n)) 0).val, ((((cfg0.win 2).blk t).view.emb (ix3 u r n)) 0).isLt⟩ : Fin 4) (⟨((((cfg0.win 2).blk t).view.emb (ix3 u r n)) 1).val, ((((cfg0.win 2).blk t).view.emb (ix3 u r n)) 1).isLt⟩ : Fin 2048)
    (by show win0_2.index t (0 : Fin 3) * 1 + 1 * u.val = t.val / 4 * 1 + 1 * u.val; rw [o0])
    (by show win0_2.index t (1 : Fin 3) * 512 + 1 * r.val = t.val % 4 * 512 + 1 * r.val; rw [o1])
  have hm : wrow 0 (by decide) n = wrow 0 (by decide) (⟨((((cfg0.win 2).blk t).view.emb (ix3 u r n)) 2).val, ((((cfg0.win 2).blk t).view.emb (ix3 u r n)) 2).isLt⟩ : Fin 1024) := Fin.ext (by
    show 0 + n.val = 0 + (win0_2.index t (2 : Fin 3) * 1024 + 1 * n.val); omega)
  rw [h0, in0_1_at V c t, hm]

/-- An index of window 2's array is in point `t`'s block iff each coordinate is in the block's range on its axis. -/
theorem mem_blk0_2 (t : Fin cfg0.N) (i : S4x2048x1024.Idx) :
    i ∈ ((cfg0.win 2).blk t).view.set ↔ ∀ a : Fin 3, win0_2.index t a * S1x512x1024.size a ≤ (i a).val ∧ (i a).val < win0_2.index t a * S1x512x1024.size a + S1x512x1024.size a := by
  show i ∈ ((View.whole main_v2_0).slice (win0_2.rect t)).set ↔ _
  rw [View.set_slice_whole, Rect.mem_set_unit]
  exact Iff.rfl

/-- Every index (b, s, n) of window 2's array is in the block of the point b * 4 + s / 512, which writes it back. -/
theorem covered0_2 (i : S4x2048x1024.Idx) :
    ∃ t : Fin cfg0.N, (cfg0.win 2).flush t = true ∧ i ∈ ((cfg0.win 2).blk t).view.set := by
  have hi0 : (i 0).val < 4 := (i 0).isLt
  have hi1 : (i 1).val < 2048 := (i 1).isLt
  have hi2 : (i 2).val < 1024 := (i 2).isLt
  have hN : (i 0).val * 4 + (i 1).val / 512 < cfg0.N := by rw [show cfg0.N = 16 from N_0]; omega
  refine ⟨⟨(i 0).val * 4 + (i 1).val / 512, hN⟩, flush0_2 _, ?_⟩
  obtain ⟨-, -, -, ⟨o0, o1, o2⟩, -, -⟩ := idx_facts0 ⟨(i 0).val * 4 + (i 1).val / 512, hN⟩
  rw [mem_blk0_2]
  intro a
  match a with
  | ⟨0, _⟩ => show win0_2.index _ (0 : Fin 3) * 1 ≤ (i 0).val ∧ (i 0).val < win0_2.index _ (0 : Fin 3) * 1 + 1; rw [o0]; show ((i 0).val * 4 + (i 1).val / 512) / 4 * 1 ≤ (i 0).val ∧ (i 0).val < ((i 0).val * 4 + (i 1).val / 512) / 4 * 1 + 1; omega
  | ⟨1, _⟩ => show win0_2.index _ (1 : Fin 3) * 512 ≤ (i 1).val ∧ (i 1).val < win0_2.index _ (1 : Fin 3) * 512 + 512; rw [o1]; show ((i 0).val * 4 + (i 1).val / 512) % 4 * 512 ≤ (i 1).val ∧ (i 1).val < ((i 0).val * 4 + (i 1).val / 512) % 4 * 512 + 512; omega
  | ⟨2, _⟩ => show win0_2.index _ (2 : Fin 3) * 1024 ≤ (i 2).val ∧ (i 2).val < win0_2.index _ (2 : Fin 3) * 1024 + 1024; rw [o2]; omega

/-- THE ARRAY after the region: the query projection of the two input arrays as the region finds them. -/
theorem final0_2 (c : Dev nD) : (Hand.dat0 V c).arrAt 2 cfg0.N = Gq (V c main_arg0) (V c main_v0) :=
  (Hand.dat0 V c).arrAt_eq_of_cover 2 (Gq (V c main_arg0) (V c main_v0)) (fun t _ => flushed0_2_eq V c t) covered0_2

/-! ## Output window 3: the key projection -/

/-- WHAT POINT `t` WRITES BACK to window 3's array is block `t` of `Gk` of the two input arrays as the region finds them. -/
theorem flushed0_3_eq (c : Dev nD) (t : Fin cfg0.N) :
    (Hand.dat0 V c).flushed 3 t = ((cfg0.win 3).blk t).view.read (Elt Ideal) (Gk (V c main_arg0) (V c main_v0)) := by
  show (cfg0.win 3).cut (grid0.coords t) ((Hand.dat0 V c).after 3 t) = _
  rw [Hand.after0_3]
  unfold Hand.out0_3
  rw [View.canon_unit_zero zeroOff0_3]
  simp only [View.ld_unit_zero (S := S1x512x1024) zeroOff0_3, View.ld_unit_zero (S := S3072x1024) zeroOff0_2]
  obtain ⟨-, -, -, -, ⟨o0, o1, o2⟩, -⟩ := idx_facts0 t
  refine funext fun (j : S1x512x1024.Idx) => ?_
  obtain ⟨u, r, n, rfl⟩ : ∃ (u : Fin 1) (r : Fin 512) (n : Fin 1024), j = ix3 u r n := ⟨j 0, j 1, j 2, eq_ix3 j⟩
  show k0_pay3 (Hand.iblk0 V c 0 t) (Hand.iblk0 V c 1 t) (ix3 u r n) = Gk (V c main_arg0) (V c main_v0) (((cfg0.win 3).blk t).view.emb (ix3 u r n))
  refine (pay0_3_apply (Hand.iblk0 V c 0 t) (Hand.iblk0 V c 1 t) u r n).trans ?_
  unfold Gk
  refine Finset.sum_congr rfl fun k _ => ?_
  have h0 := in0_0_at V c t u r k (⟨((((cfg0.win 3).blk t).view.emb (ix3 u r n)) 0).val, ((((cfg0.win 3).blk t).view.emb (ix3 u r n)) 0).isLt⟩ : Fin 4) (⟨((((cfg0.win 3).blk t).view.emb (ix3 u r n)) 1).val, ((((cfg0.win 3).blk t).view.emb (ix3 u r n)) 1).isLt⟩ : Fin 2048)
    (by show win0_3.index t (0 : Fin 3) * 1 + 1 * u.val = t.val / 4 * 1 + 1 * u.val; rw [o0])
    (by show win0_3.index t (1 : Fin 3) * 512 + 1 * r.val = t.val % 4 * 512 + 1 * r.val; rw [o1])
  have hm : wrow 1024 (by decide) n = wrow 1024 (by decide) (⟨((((cfg0.win 3).blk t).view.emb (ix3 u r n)) 2).val, ((((cfg0.win 3).blk t).view.emb (ix3 u r n)) 2).isLt⟩ : Fin 1024) := Fin.ext (by
    show 1024 + n.val = 1024 + (win0_3.index t (2 : Fin 3) * 1024 + 1 * n.val); omega)
  rw [h0, in0_1_at V c t, hm]

/-- An index of window 3's array is in point `t`'s block iff each coordinate is in the block's range on its axis. -/
theorem mem_blk0_3 (t : Fin cfg0.N) (i : S4x2048x1024.Idx) :
    i ∈ ((cfg0.win 3).blk t).view.set ↔ ∀ a : Fin 3, win0_3.index t a * S1x512x1024.size a ≤ (i a).val ∧ (i a).val < win0_3.index t a * S1x512x1024.size a + S1x512x1024.size a := by
  show i ∈ ((View.whole main_v2_1).slice (win0_3.rect t)).set ↔ _
  rw [View.set_slice_whole, Rect.mem_set_unit]
  exact Iff.rfl

/-- Every index (b, s, n) of window 3's array is in the block of the point b * 4 + s / 512, which writes it back. -/
theorem covered0_3 (i : S4x2048x1024.Idx) :
    ∃ t : Fin cfg0.N, (cfg0.win 3).flush t = true ∧ i ∈ ((cfg0.win 3).blk t).view.set := by
  have hi0 : (i 0).val < 4 := (i 0).isLt
  have hi1 : (i 1).val < 2048 := (i 1).isLt
  have hi2 : (i 2).val < 1024 := (i 2).isLt
  have hN : (i 0).val * 4 + (i 1).val / 512 < cfg0.N := by rw [show cfg0.N = 16 from N_0]; omega
  refine ⟨⟨(i 0).val * 4 + (i 1).val / 512, hN⟩, flush0_3 _, ?_⟩
  obtain ⟨-, -, -, -, ⟨o0, o1, o2⟩, -⟩ := idx_facts0 ⟨(i 0).val * 4 + (i 1).val / 512, hN⟩
  rw [mem_blk0_3]
  intro a
  match a with
  | ⟨0, _⟩ => show win0_3.index _ (0 : Fin 3) * 1 ≤ (i 0).val ∧ (i 0).val < win0_3.index _ (0 : Fin 3) * 1 + 1; rw [o0]; show ((i 0).val * 4 + (i 1).val / 512) / 4 * 1 ≤ (i 0).val ∧ (i 0).val < ((i 0).val * 4 + (i 1).val / 512) / 4 * 1 + 1; omega
  | ⟨1, _⟩ => show win0_3.index _ (1 : Fin 3) * 512 ≤ (i 1).val ∧ (i 1).val < win0_3.index _ (1 : Fin 3) * 512 + 512; rw [o1]; show ((i 0).val * 4 + (i 1).val / 512) % 4 * 512 ≤ (i 1).val ∧ (i 1).val < ((i 0).val * 4 + (i 1).val / 512) % 4 * 512 + 512; omega
  | ⟨2, _⟩ => show win0_3.index _ (2 : Fin 3) * 1024 ≤ (i 2).val ∧ (i 2).val < win0_3.index _ (2 : Fin 3) * 1024 + 1024; rw [o2]; omega

/-- THE ARRAY after the region: the key projection of the two input arrays as the region finds them. -/
theorem final0_3 (c : Dev nD) : (Hand.dat0 V c).arrAt 3 cfg0.N = Gk (V c main_arg0) (V c main_v0) :=
  (Hand.dat0 V c).arrAt_eq_of_cover 3 (Gk (V c main_arg0) (V c main_v0)) (fun t _ => flushed0_3_eq V c t) covered0_3

/-! ## Output window 4: the value projection -/

/-- WHAT POINT `t` WRITES BACK to window 4's array is block `t` of `Gv` of the two input arrays as the region finds them. -/
theorem flushed0_4_eq (c : Dev nD) (t : Fin cfg0.N) :
    (Hand.dat0 V c).flushed 4 t = ((cfg0.win 4).blk t).view.read (Elt Ideal) (Gv (V c main_arg0) (V c main_v0)) := by
  show (cfg0.win 4).cut (grid0.coords t) ((Hand.dat0 V c).after 4 t) = _
  rw [Hand.after0_4]
  unfold Hand.out0_4
  rw [View.canon_unit_zero zeroOff0_3]
  simp only [View.ld_unit_zero (S := S1x512x1024) zeroOff0_3, View.ld_unit_zero (S := S3072x1024) zeroOff0_2]
  obtain ⟨-, -, -, -, -, ⟨o0, o1, o2⟩⟩ := idx_facts0 t
  refine funext fun (j : S1x512x1024.Idx) => ?_
  obtain ⟨u, r, n, rfl⟩ : ∃ (u : Fin 1) (r : Fin 512) (n : Fin 1024), j = ix3 u r n := ⟨j 0, j 1, j 2, eq_ix3 j⟩
  show k0_pay4 (Hand.iblk0 V c 0 t) (Hand.iblk0 V c 1 t) (ix3 u r n) = Gv (V c main_arg0) (V c main_v0) (((cfg0.win 4).blk t).view.emb (ix3 u r n))
  refine (pay0_4_apply (Hand.iblk0 V c 0 t) (Hand.iblk0 V c 1 t) u r n).trans ?_
  unfold Gv
  refine Finset.sum_congr rfl fun k _ => ?_
  have h0 := in0_0_at V c t u r k (⟨((((cfg0.win 4).blk t).view.emb (ix3 u r n)) 0).val, ((((cfg0.win 4).blk t).view.emb (ix3 u r n)) 0).isLt⟩ : Fin 4) (⟨((((cfg0.win 4).blk t).view.emb (ix3 u r n)) 1).val, ((((cfg0.win 4).blk t).view.emb (ix3 u r n)) 1).isLt⟩ : Fin 2048)
    (by show win0_4.index t (0 : Fin 3) * 1 + 1 * u.val = t.val / 4 * 1 + 1 * u.val; rw [o0])
    (by show win0_4.index t (1 : Fin 3) * 512 + 1 * r.val = t.val % 4 * 512 + 1 * r.val; rw [o1])
  have hm : wrow 2048 (by decide) n = wrow 2048 (by decide) (⟨((((cfg0.win 4).blk t).view.emb (ix3 u r n)) 2).val, ((((cfg0.win 4).blk t).view.emb (ix3 u r n)) 2).isLt⟩ : Fin 1024) := Fin.ext (by
    show 2048 + n.val = 2048 + (win0_4.index t (2 : Fin 3) * 1024 + 1 * n.val); omega)
  rw [h0, in0_1_at V c t, hm]

/-- An index of window 4's array is in point `t`'s block iff each coordinate is in the block's range on its axis. -/
theorem mem_blk0_4 (t : Fin cfg0.N) (i : S4x2048x1024.Idx) :
    i ∈ ((cfg0.win 4).blk t).view.set ↔ ∀ a : Fin 3, win0_4.index t a * S1x512x1024.size a ≤ (i a).val ∧ (i a).val < win0_4.index t a * S1x512x1024.size a + S1x512x1024.size a := by
  show i ∈ ((View.whole main_v2_2).slice (win0_4.rect t)).set ↔ _
  rw [View.set_slice_whole, Rect.mem_set_unit]
  exact Iff.rfl

/-- Every index (b, s, n) of window 4's array is in the block of the point b * 4 + s / 512, which writes it back. -/
theorem covered0_4 (i : S4x2048x1024.Idx) :
    ∃ t : Fin cfg0.N, (cfg0.win 4).flush t = true ∧ i ∈ ((cfg0.win 4).blk t).view.set := by
  have hi0 : (i 0).val < 4 := (i 0).isLt
  have hi1 : (i 1).val < 2048 := (i 1).isLt
  have hi2 : (i 2).val < 1024 := (i 2).isLt
  have hN : (i 0).val * 4 + (i 1).val / 512 < cfg0.N := by rw [show cfg0.N = 16 from N_0]; omega
  refine ⟨⟨(i 0).val * 4 + (i 1).val / 512, hN⟩, flush0_4 _, ?_⟩
  obtain ⟨-, -, -, -, -, ⟨o0, o1, o2⟩⟩ := idx_facts0 ⟨(i 0).val * 4 + (i 1).val / 512, hN⟩
  rw [mem_blk0_4]
  intro a
  match a with
  | ⟨0, _⟩ => show win0_4.index _ (0 : Fin 3) * 1 ≤ (i 0).val ∧ (i 0).val < win0_4.index _ (0 : Fin 3) * 1 + 1; rw [o0]; show ((i 0).val * 4 + (i 1).val / 512) / 4 * 1 ≤ (i 0).val ∧ (i 0).val < ((i 0).val * 4 + (i 1).val / 512) / 4 * 1 + 1; omega
  | ⟨1, _⟩ => show win0_4.index _ (1 : Fin 3) * 512 ≤ (i 1).val ∧ (i 1).val < win0_4.index _ (1 : Fin 3) * 512 + 512; rw [o1]; show ((i 0).val * 4 + (i 1).val / 512) % 4 * 512 ≤ (i 1).val ∧ (i 1).val < ((i 0).val * 4 + (i 1).val / 512) % 4 * 512 + 512; omega
  | ⟨2, _⟩ => show win0_4.index _ (2 : Fin 3) * 1024 ≤ (i 2).val ∧ (i 2).val < win0_4.index _ (2 : Fin 3) * 1024 + 1024; rw [o2]; omega

/-- THE ARRAY after the region: the value projection of the two input arrays as the region finds them. -/
theorem final0_4 (c : Dev nD) : (Hand.dat0 V c).arrAt 4 cfg0.N = Gv (V c main_arg0) (V c main_v0) :=
  (Hand.dat0 V c).arrAt_eq_of_cover 4 (Gv (V c main_arg0) (V c main_v0)) (fun t _ => flushed0_4_eq V c t) covered0_4

end Cert.KernelIdeal.HandValue

end
-- ==== Proof.KIValue2.lean ====
/- The value of the output projection (the third pipeline of @main), at the ideal instance: after the region the
   output array holds, at every index (b, s, n), the sum over k of the activation at (b, s, k) times the weight at
   (n, k) — the product of the activation with the transposed weight, one function of the two input arrays as the
   region finds them.

   The steps. The body's payload at an index of its block: a change of format is the identity on the extended reals,
   the reshapes between [1, 512, 1024] and [512, 1024] move no entry, and a matrix product accumulated into zero is
   the sum over the one contracted axis of the operands' products; so the payload at (u, r, n) is the sum over k of
   the activation block at (0, r, k) times the weight block at (n, k). The printed index maps, decided over the 16
   grid points: the activation's block moves with the output's, the weight's block is the whole array, and the
   output's block at point t is (t / 4, t % 4, 0). Hence what point t writes back is block t of that one function,
   and since the point (b * 4 + s / 512) covers index (b, s, n), the blocks cover the array. -/
import proofs.«151496_j75222057222809_2_alg».proof.Proof.KIRegion2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Idealize.ShloMosaic Idealize.ShloMosaic.TcCoe Idealize.SL.Sem
open Idealize.ShloMosaic.Pipeline (Dat)
open Idealize.ShloMosaic.ValueIdx

/-! ## The specification -/

/-- The projection as one function of the activation array `a` and the weight array `w`: at (b, s, n) the sum over
    k of a (b, s, k) · w (n, k). -/
def G2 (a : S4x2048x1024.Idx → EReal) (w : S1024x1024.Idx → EReal) : S4x2048x1024.Idx → EReal :=
  fun i => ∑ k : Fin 1024, a (ix3 (⟨(i 0).val, (i 0).isLt⟩ : Fin 4) (⟨(i 1).val, (i 1).isLt⟩ : Fin 2048) k) * w (ix2 (⟨(i 2).val, (i 2).isLt⟩ : Fin 1024) k)

/-! ## The body's payload at an index -/

/-- The matrix product of a [512, 1024] block with the transpose of a [1024, 1024] block, accumulated into zero, at
    (r, n): the sum over the contracted axis (axis 1 of both operands). -/
theorem proj_matmul_apply (v1 : FVec Ideal S512x1024 .bf16) (v3 : FVec Ideal S1024x1024 .bf16) (r : Fin 512) (n : Fin 1024) :
    matmul dot_S512x1024_S1024x1024_S512x1024_1_1_0_0_n_n none v1 v3 (constant S512x1024 .f32 0x00000000#32) (ix2 r n)
      = ∑ k : Fin 1024, v1 (ix2 r k) * v3 (ix2 n k) := by
  show FloatOps.matmul dot_S512x1024_S1024x1024_S512x1024_1_1_0_0_n_n none v1 v3 (constant S512x1024 .f32 0x00000000#32) (ix2 r n) = _
  rw [Ideal.matmul_constant_zero_apply, ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 r n) ((contrEquiv1 dot_S512x1024_S1024x1024_S512x1024_1_1_0_0_n_n 1024 rfl rfl).symm k) = ix2 r k := funext fun a => Fin.ext (by
    match a with
    | ⟨0, _⟩ =>
      show (dot_S512x1024_S1024x1024_S512x1024_1_1_0_0_n_n.lhsIdx (ix2 r n) _ 0).val = r.val
      unfold DotDims.lhsIdx
      rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
      rfl
    | ⟨1, _⟩ => exact (dot_S512x1024_S1024x1024_S512x1024_1_1_0_0_n_n.lhsIdx_val_of_single rfl _ _).trans hk)
  have er : dot_S512x1024_S1024x1024_S512x1024_1_1_0_0_n_n.rhsIdx (ix2 r n) ((contrEquiv1 dot_S512x1024_S1024x1024_S512x1024_1_1_0_0_n_n 1024 rfl rfl).symm k) = ix2 n k := funext fun a => Fin.ext (by
    match a with
    | ⟨0, _⟩ =>
      show (dot_S512x1024_S1024x1024_S512x1024_1_1_0_0_n_n.rhsIdx (ix2 r n) _ 0).val = n.val
      unfold DotDims.rhsIdx
      rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
      rfl
    | ⟨1, _⟩ => exact (dot_S512x1024_S1024x1024_S512x1024_1_1_0_0_n_n.rhsIdx_val_of_single rfl _ _).trans hk)
  rw [el, er]

/-- The body's payload at (u, r, n) of its block: the sum over k of the activation block at (0, r, k) times the
    weight block at (n, k). -/
theorem pay2_apply (x0 : Vec Ideal S1x512x1024 .bf16) (x1 : Vec Ideal S1024x1024 .bf16) (u : Fin 1) (r : Fin 512) (n : Fin 1024) :
    k2_pay1 x0 x1 (ix3 u r n) = ∑ k : Fin 1024, x0 (ix3 (0 : Fin 1) r k) * x1 (ix2 n k) := by
  unfold k2_pay1
  refine (shapeCast_ab_1ab_apply _ _ u r n).trans ?_
  refine (proj_matmul_apply _ _ r n).trans ?_
  refine Finset.sum_congr rfl fun k _ => ?_
  rw [shapeCast_1ab_ab_apply, shapeCast_self]

/-! ## From blocks to the array -/

variable (V : (c : Dev nD) → (b : Ref sig .tc) → Buf (Elt Ideal) ((c : Thread nD τ).loc b))

theorem zeroOff2_3 : (![0, 0, 0] : Fin 3 → Nat) = fun _ => 0 := funext fun a => by fin_cases a <;> rfl
theorem zeroOff2_2 : (![0, 0] : Fin 2 → Nat) = fun _ => 0 := funext fun a => by fin_cases a <;> rfl

/-- The printed index maps, decided over the grid: the activation's block moves with the output's, the weight's block
    is the whole array, and the output's block at point `t` is (t / 4, t % 4, 0). -/
theorem idx_facts2 : ∀ t : Fin cfg2.N, win2_0.index t (0 : Fin 3) = win2_2.index t (0 : Fin 3)
    ∧ win2_0.index t (1 : Fin 3) = win2_2.index t (1 : Fin 3)
    ∧ win2_0.index t (2 : Fin 3) = 0
    ∧ win2_1.index t (0 : Fin 2) = 0
    ∧ win2_1.index t (1 : Fin 2) = 0
    ∧ win2_2.index t (0 : Fin 3) = t.val / 4
    ∧ win2_2.index t (1 : Fin 3) = t.val % 4
    ∧ win2_2.index t (2 : Fin 3) = 0 :=
  (by decide +kernel : ∀ t : Fin grid2.N, _)

/-- WHAT POINT `t` WRITES BACK is block `t` of `G2` of the two input arrays as the region finds them. -/
theorem flushed2_eq (c : Dev nD) (t : Fin cfg2.N) :
    (Hand.dat2 V c).flushed 2 t = ((cfg2.win 2).blk t).view.read (Elt Ideal) (G2 (V c main_v3) (V c main_v1)) := by
  show (cfg2.win 2).cut (grid2.coords t) ((Hand.dat2 V c).after 2 t) = _
  rw [Hand.after2_2]
  unfold Hand.out2_2
  rw [View.canon_unit_zero zeroOff2_3]
  simp only [View.ld_unit_zero (S := S1x512x1024) zeroOff2_3, View.ld_unit_zero (S := S1024x1024) zeroOff2_2]
  obtain ⟨e0, e1, e2, e3, e4, e5, e6, e7⟩ := idx_facts2 t
  refine funext fun (j : S1x512x1024.Idx) => ?_
  obtain ⟨u, r, n, rfl⟩ : ∃ (u : Fin 1) (r : Fin 512) (n : Fin 1024), j = ix3 u r n := ⟨j 0, j 1, j 2, eq_ix3 j⟩
  show k2_pay1 (Hand.iblk2 V c 0 t) (Hand.iblk2 V c 1 t) (ix3 u r n) = G2 (V c main_v3) (V c main_v1) (((cfg2.win 2).blk t).view.emb (ix3 u r n))
  refine (pay2_apply (Hand.iblk2 V c 0 t) (Hand.iblk2 V c 1 t) u r n).trans ?_
  unfold G2
  refine Finset.sum_congr rfl fun k _ => ?_
  have hu : u.val = 0 := by omega
  have h0 : Hand.iblk2 V c 0 t (ix3 (0 : Fin 1) r k)
      = V c main_v3 (ix3 (⟨((((cfg2.win 2).blk t).view.emb (ix3 u r n)) 0).val, ((((cfg2.win 2).blk t).view.emb (ix3 u r n)) 0).isLt⟩ : Fin 4) (⟨((((cfg2.win 2).blk t).view.emb (ix3 u r n)) 1).val, ((((cfg2.win 2).blk t).view.emb (ix3 u r n)) 1).isLt⟩ : Fin 2048) k) := by
    show V c main_v3 (((cfg2.win 0).blk t).view.emb (ix3 (0 : Fin 1) r k)) = _
    refine congrArg (V c main_v3) (funext fun a => Fin.ext ?_)
    match a with
    | ⟨0, _⟩ => show win2_0.index t (0 : Fin 3) * 1 + 1 * 0 = win2_2.index t (0 : Fin 3) * 1 + 1 * u.val; omega
    | ⟨1, _⟩ => show win2_0.index t (1 : Fin 3) * 512 + 1 * r.val = win2_2.index t (1 : Fin 3) * 512 + 1 * r.val; rw [e1]
    | ⟨2, _⟩ => show win2_0.index t (2 : Fin 3) * 1024 + 1 * k.val = k.val; omega
  have h1 : Hand.iblk2 V c 1 t (ix2 n k)
      = V c main_v1 (ix2 (⟨((((cfg2.win 2).blk t).view.emb (ix3 u r n)) 2).val, ((((cfg2.win 2).blk t).view.emb (ix3 u r n)) 2).isLt⟩ : Fin 1024) k) := by
    show V c main_v1 (((cfg2.win 1).blk t).view.emb (ix2 n k)) = _
    refine congrArg (V c main_v1) (funext fun a => Fin.ext ?_)
    match a with
    | ⟨0, _⟩ => show win2_1.index t (0 : Fin 2) * 1024 + 1 * n.val = win2_2.index t (2 : Fin 3) * 1024 + 1 * n.val; omega
    | ⟨1, _⟩ => show win2_1.index t (1 : Fin 2) * 1024 + 1 * k.val = k.val; omega
  rw [h0, h1]

/-- An index of the array is in point `t`'s block iff each coordinate is in the block's range on its axis. -/
theorem mem_blk2 (t : Fin cfg2.N) (i : S4x2048x1024.Idx) :
    i ∈ ((cfg2.win 2).blk t).view.set ↔ ∀ a : Fin 3, win2_2.index t a * S1x512x1024.size a ≤ (i a).val ∧ (i a).val < win2_2.index t a * S1x512x1024.size a + S1x512x1024.size a := by
  show i ∈ ((View.whole main_v4).slice (win2_2.rect t)).set ↔ _
  rw [View.set_slice_whole, Rect.mem_set_unit]
  exact Iff.rfl

/-- Every index (b, s, n) of the array is in the block of the point b * 4 + s / 512, which writes it back. -/
theorem covered2 (i : S4x2048x1024.Idx) :
    ∃ t : Fin cfg2.N, (cfg2.win 2).flush t = true ∧ i ∈ ((cfg2.win 2).blk t).view.set := by
  have hi0 : (i 0).val < 4 := (i 0).isLt
  have hi1 : (i 1).val < 2048 := (i 1).isLt
  have hi2 : (i 2).val < 1024 := (i 2).isLt
  have hN : (i 0).val * 4 + (i 1).val / 512 < cfg2.N := by rw [show cfg2.N = 16 from N_2]; omega
  refine ⟨⟨(i 0).val * 4 + (i 1).val / 512, hN⟩, flush2_2 _, ?_⟩
  obtain ⟨e0, e1, e2, e3, e4, e5, e6, e7⟩ := idx_facts2 ⟨(i 0).val * 4 + (i 1).val / 512, hN⟩
  rw [mem_blk2]
  intro a
  match a with
  | ⟨0, _⟩ => show win2_2.index _ (0 : Fin 3) * 1 ≤ (i 0).val ∧ (i 0).val < win2_2.index _ (0 : Fin 3) * 1 + 1; rw [e5]; show ((i 0).val * 4 + (i 1).val / 512) / 4 * 1 ≤ (i 0).val ∧ (i 0).val < ((i 0).val * 4 + (i 1).val / 512) / 4 * 1 + 1; omega
  | ⟨1, _⟩ => show win2_2.index _ (1 : Fin 3) * 512 ≤ (i 1).val ∧ (i 1).val < win2_2.index _ (1 : Fin 3) * 512 + 512; rw [e6]; show ((i 0).val * 4 + (i 1).val / 512) % 4 * 512 ≤ (i 1).val ∧ (i 1).val < ((i 0).val * 4 + (i 1).val / 512) % 4 * 512 + 512; omega
  | ⟨2, _⟩ => show win2_2.index _ (2 : Fin 3) * 1024 ≤ (i 2).val ∧ (i 2).val < win2_2.index _ (2 : Fin 3) * 1024 + 1024; rw [e7]; omega

/-- THE ARRAY after the region: the projection of the two input arrays as the region finds them. -/
theorem final2 (c : Dev nD) : (Hand.dat2 V c).arrAt 2 cfg2.N = G2 (V c main_v3) (V c main_v1) :=
  (Hand.dat2 V c).arrAt_eq_of_cover 2 (G2 (V c main_v3) (V c main_v1)) (fun t _ => flushed2_eq V c t) covered2

end Cert.KernelIdeal.HandValue

end
-- ==== Proof.RefOuter.lean ====
/-
  The reference program's last four stages read at an index with literal coordinates (the ideal instance):
  * the result at (b, t, g) is the sum over c of the merged head outputs at (b, t, c) times wp[g, c];
  * the merged head outputs at (b, t, f) are the per-head outputs at (b, head f/64, t, lane f%64): the reshape
    [4,2048,16,64] → [4,2048,1024] is row-major, so feature f sits at head f/64, lane f%64, and the transpose swaps the
    token and head axes;
  * the per-head output at (b, h, t, d) is the sum over key tokens j of the attention weight at (b, h, t, j) times the
    value at (b, h, j, d).
-/
import proofs.«151496_j75222057222809_2_alg».proof.Proof.Gen.ReferenceIdeal.Read
import proofs.«151496_j75222057222809_2_alg».proof.Proof.RefSpec

noncomputable section

namespace Cert.ReferenceIdeal.RefValue

open Cert.ReferenceIdeal Cert.ReferenceIdeal.Gen Cert.ReferenceIdeal.Read Idealize.ShloMosaic Idealize.ShloMosaic.ValueIdx

variable (x : XIdx → EReal) (wa : WaIdx → EReal) (wp : WpIdx → EReal)

/-- The output projection at (b, t, g). -/
theorem v31_at (b : Fin 4) (t : Fin 2048) (g : Fin 1024) :
    val_main_v31 (F := Ideal) x wa wp (ix3 b t g) = ∑ c : Fin 1024, val_main_v30 (F := Ideal) x wa (ix3 b t c) * wp (ix2 g c) := by
  rw [val_main_v31_apply]
  refine Finset.sum_congr rfl fun c _ => ?_
  have el : lidx_main_v31 (ix3 b t g) c = ix3 b t c :=
    funext fun a => Fin.ext (by match a with | ⟨0, _⟩ => rfl | ⟨1, _⟩ => rfl | ⟨2, _⟩ => rfl)
  have er : ridx_main_v31 (ix3 b t g) c = ix2 g c :=
    funext fun a => Fin.ext (by match a with | ⟨0, _⟩ => rfl | ⟨1, _⟩ => rfl)
  rw [el, er]

/-- Merging the heads: feature f of token (b, t) is lane f % 64 of head f / 64. -/
theorem v30_at (b : Fin 4) (t : Fin 2048) (f : Fin 1024) :
    val_main_v30 (F := Ideal) x wa (ix3 b t f) = val_main_v28 (F := Ideal) x wa (ix4 b (headOf f) t (laneOf f)) := by
  rw [val_main_v30_apply, val_main_v29_apply]
  refine congrArg _ (funext fun a => Fin.ext ?_)
  have hb := b.isLt; have ht := t.isLt; have hf := f.isLt
  match a with
  | ⟨0, _⟩ => show ((b.val * 2048 + t.val) * 1024 + f.val) / 2097152 = b.val; omega
  | ⟨1, _⟩ => show ((b.val * 2048 + t.val) * 1024 + f.val) / 64 % 16 = f.val / 64; omega
  | ⟨2, _⟩ => show ((b.val * 2048 + t.val) * 1024 + f.val) / 1024 % 2048 = t.val; omega
  | ⟨3, _⟩ => show ((b.val * 2048 + t.val) * 1024 + f.val) % 64 = f.val % 64; omega

/-- The weighted sum of the values at (b, h, t, d). -/
theorem v28_at (b : Fin 4) (h : Fin 16) (t : Fin 2048) (d : Fin 64) :
    val_main_v28 (F := Ideal) x wa (ix4 b h t d)
      = ∑ j : Fin 2048, val_main_v27 (F := Ideal) x wa (ix4 b h t j) * val_main_v9 (F := Ideal) x wa (ix4 b h j d) := by
  rw [val_main_v28_apply]
  refine Finset.sum_congr rfl fun j _ => ?_
  have el : lidx_main_v28 (ix4 b h t d) j = ix4 b h t j :=
    funext fun a => Fin.ext (by match a with | ⟨0, _⟩ => rfl | ⟨1, _⟩ => rfl | ⟨2, _⟩ => rfl | ⟨3, _⟩ => rfl)
  have er : ridx_main_v28 (ix4 b h t d) j = ix4 b h j d :=
    funext fun a => Fin.ext (by match a with | ⟨0, _⟩ => rfl | ⟨1, _⟩ => rfl | ⟨2, _⟩ => rfl | ⟨3, _⟩ => rfl)
  rw [el, er]

end Cert.ReferenceIdeal.RefValue

end
-- ==== Proof.RefSoftmax.lean ====
/-
  The reference program's softmax stages read at an index with literal coordinates (the ideal instance), each in terms
  of the stage before it:
  * the attention weight at (b, h, t, j) is the exponential at (b, h, t, j) divided by the row sum at (b, h, t);
  * the row sum is zero plus the sum over the keys of the exponentials;
  * the exponential at (b, h, t, j) is exp of the masked score there minus the row maximum at (b, h, t);
  * the row maximum is the maximum of −∞ and the fold of max from −∞ over the keys of the masked scores (the one
    stage the generated reading leaves out: a reduction over an axis, read as a fold over that axis's coordinates).
-/
import proofs.«151496_j75222057222809_2_alg».proof.Proof.Gen.ReferenceIdeal.Read
import proofs.«151496_j75222057222809_2_alg».proof.Proof.RefSpec

noncomputable section

namespace Cert.ReferenceIdeal.RefValue

open Cert.ReferenceIdeal Cert.ReferenceIdeal.Gen Cert.ReferenceIdeal.Read Idealize.ShloMosaic Idealize.ShloMosaic.ValueIdx

variable (x : XIdx → EReal) (wa : WaIdx → EReal) (wp : WpIdx → EReal)

/-- The attention weight. -/
theorem v27_at (b : Fin 4) (h : Fin 16) (t j : Fin 2048) :
    val_main_v27 (F := Ideal) x wa (ix4 b h t j)
      = Ideal.div (val_main_v23 (F := Ideal) x wa (ix4 b h t j)) (val_main_v24 (F := Ideal) x wa (ix3 b h t)) := by
  have e : idx_main_v25 (idx_main_v26 (ix4 b h t j)) = ix3 b h t := funext fun a => Fin.ext (by match a with | ⟨0, _⟩ => rfl | ⟨1, _⟩ => rfl | ⟨2, _⟩ => rfl)
  rw [val_main_v27_apply, val_main_v26_apply, val_main_v25_apply, e]
  rfl

/-- The row sum. -/
theorem v24_at (b : Fin 4) (h : Fin 16) (t : Fin 2048) :
    val_main_v24 (F := Ideal) x wa (ix3 b h t)
      = Ideal.ofBits .f32 0x00000000#32 + ∑ j : Fin 2048, val_main_v23 (F := Ideal) x wa (ix4 b h t j) := by
  rw [val_main_v24_apply]
  refine congrArg₂ (· + ·) rfl (Finset.sum_congr rfl fun j _ => congrArg _ (funext fun a => Fin.ext (by match a with | ⟨0, _⟩ => rfl | ⟨1, _⟩ => rfl | ⟨2, _⟩ => rfl | ⟨3, _⟩ => rfl)))

/-- The exponential of the score against the row maximum. -/
theorem v23_at (b : Fin 4) (h : Fin 16) (t j : Fin 2048) :
    val_main_v23 (F := Ideal) x wa (ix4 b h t j)
      = Ideal.exp (val_main_v16 (F := Ideal) x wa (ix4 b h t j) - val_main_v19 (F := Ideal) x wa (ix3 b h t)) := by
  have e : idx_main_v20 (idx_main_v21 (ix4 b h t j)) = ix3 b h t := funext fun a => Fin.ext (by match a with | ⟨0, _⟩ => rfl | ⟨1, _⟩ => rfl | ⟨2, _⟩ => rfl)
  rw [val_main_v23_apply, val_main_v22_apply, val_main_v21_apply, val_main_v20_apply, e]
  rfl

/-- The row maximum, as a fold of max over the keys. -/
theorem v19_at (b : Fin 4) (h : Fin 16) (t : Fin 2048) :
    val_main_v19 (F := Ideal) x wa (ix3 b h t)
      = max (Ideal.ofBits .f32 0xFF800000#32)
          ((Finset.univ : Finset (Fin 2048)).fold max (Ideal.ofBits .f32 0xFF800000#32)
            fun j => val_main_v16 (F := Ideal) x wa (ix4 b h t j)) := by
  rw [val_main_v19_apply, val_main_v18_apply, val_main_cst_2_apply, Ideal.maximumf_def, Ideal.ofBits_def]
  refine congrArg (max _) ?_
  unfold val_main_v17
  generalize val_main_v16 (F := Ideal) x wa = y
  rw [Host.reduce_eq_fold_single (FloatOps.maximumf (F := Ideal) (φ := .f32)) y _
    reducesTo_S4x16x2048x2048_S4x16x2048_d3 (by decide) h_S_ (ix3 b h t)]
  exact Finset.fold_congr fun j _ => congrArg y (funext fun a => Fin.ext (by match a with | ⟨0, _⟩ => rfl | ⟨1, _⟩ => rfl | ⟨2, _⟩ => rfl | ⟨3, _⟩ => rfl))

end Cert.ReferenceIdeal.RefValue

end
-- ==== Proof.RefScores.lean ====
/-
  The reference program's score stages read at an index with literal coordinates (the ideal instance):
  * the causal mask: the comparison of the two position counters, as 32-bit words, is 1 exactly when the key position
    is at most the query position (both are below 2048, far inside the signed range);
  * the masked score at (b, h, t, j) is the raw score times 1/8 where j ≤ t, and the −∞ pattern elsewhere;
  * the raw score is the sum over the 64 lanes of the head of query (b, h, t, d) times key (b, h, j, d).
-/
import proofs.«151496_j75222057222809_2_alg».proof.Proof.Gen.ReferenceIdeal.Read
import proofs.«151496_j75222057222809_2_alg».proof.Proof.RefSpec
import Idealize.ShloMosaic.Lib.Affine

noncomputable section

namespace Cert.ReferenceIdeal.RefValue

open Cert.ReferenceIdeal Cert.ReferenceIdeal.Gen Cert.ReferenceIdeal.Read Idealize.ShloMosaic Idealize.ShloMosaic.ValueIdx

variable (x : XIdx → EReal) (wa : WaIdx → EReal) (wp : WpIdx → EReal)

/-- The lower-triangle bit: for positions below 2048 the signed comparison of the words is the comparison of the numbers. -/
theorem tril_bit (t j : Fin 2048) :
    IntOp.cmpi .sge (IntOp.addi (BitVec.ofNat 32 t.val) 0#32) (BitVec.ofNat 32 j.val) = if j.val ≤ t.val then 1#1 else 0#1 := by
  have ht := t.isLt; have hj := j.isLt
  have e0 : IntOp.addi (BitVec.ofNat 32 t.val) 0#32 = BitVec.ofNat 32 t.val := BitVec.add_zero _
  rw [e0]
  have hT : Affine.IsInt (BitVec.ofNat 32 t.val) (t.val : Int) := Affine.ofNat _ (by omega)
  have hJ : Affine.IsInt (BitVec.ofNat 32 j.val) (j.val : Int) := Affine.ofNat _ (by omega)
  by_cases hjt : j.val ≤ t.val
  · rw [if_pos hjt]; exact Affine.sge_holds hT hJ (by omega)
  · rw [if_neg hjt]; exact eq_zero_of_ne_one (Affine.sge_fails hT hJ (by omega))

/-- The masked, scaled score. -/
theorem v16_at (b : Fin 4) (h : Fin 16) (t j : Fin 2048) :
    val_main_v16 (F := Ideal) x wa (ix4 b h t j)
      = if j.val ≤ t.val then val_main_v10 (F := Ideal) x wa (ix4 b h t j) * Ideal.ofBits .f32 0x3E000000#32
        else Ideal.ofBits .f32 0xFF800000#32 := by
  rw [val_main_v16_apply, val_main_call1_v1_apply, val_main_v15_apply, val_main_v14_apply, val_main_call0_v4_apply,
    val_main_call0_v2_apply, val_main_call0_v0_apply, val_main_call0_v1_apply, val_main_call0_c_apply,
    val_main_call0_v3_apply, val_main_v13_apply, val_main_c_apply, val_main_call0_v5_apply, val_main_call0_c_0_apply,
    val_main_call1_v2_apply, val_main_call1_v0_apply, val_main_cst_0_apply, val_main_v12_apply, val_main_v11_apply,
    val_main_cst_apply]
  show Scalar.select (Scalar.select (IntOp.cmpi .sge (IntOp.addi (BitVec.ofNat 32 t.val) 0#32) (BitVec.ofNat 32 j.val)) 1#1 0#1) _ _ = _
  rw [tril_bit]
  by_cases hjt : j.val ≤ t.val
  · rw [if_pos hjt, if_pos hjt, select_one, select_one]; rfl
  · rw [if_neg hjt, if_neg hjt, select_zero, select_zero]; rfl

/-- The raw score: query against key over the lanes of the head. -/
theorem v10_at (b : Fin 4) (h : Fin 16) (t j : Fin 2048) :
    val_main_v10 (F := Ideal) x wa (ix4 b h t j)
      = ∑ d : Fin 64, val_main_v5 (F := Ideal) x wa (ix4 b h t d) * val_main_v7 (F := Ideal) x wa (ix4 b h j d) := by
  rw [val_main_v10_apply]
  refine Finset.sum_congr rfl fun d _ => ?_
  have el : lidx_main_v10 (ix4 b h t j) d = ix4 b h t d := funext fun a => Fin.ext (by match a with | ⟨0, _⟩ => rfl | ⟨1, _⟩ => rfl | ⟨2, _⟩ => rfl | ⟨3, _⟩ => rfl)
  have er : ridx_main_v10 (ix4 b h t j) d = ix4 b h j d := funext fun a => Fin.ext (by match a with | ⟨0, _⟩ => rfl | ⟨1, _⟩ => rfl | ⟨2, _⟩ => rfl | ⟨3, _⟩ => rfl)
  rw [el, er]

end Cert.ReferenceIdeal.RefValue

end
-- ==== Proof.RefProj.lean ====
/-
  The reference program's projection stages read at an index with literal coordinates (the ideal instance):
  * one row r of the stacked projection at token (b, t) is the sum over k of x[b, t, k] · wa[r, k];
  * the query, key and value at (b, h, t, d) are rows 64·h + d of the first, second and third thousand-odd rows
    (offsets 0, 1024, 2048): the slice keeps the feature, the row-major reshape [4,2048,1024] → [4,2048,16,64] sends
    feature 64·h + d to head h, lane d, and the transpose swaps the token and head axes.
-/
import proofs.«151496_j75222057222809_2_alg».proof.Proof.Gen.ReferenceIdeal.Read
import proofs.«151496_j75222057222809_2_alg».proof.Proof.RefSpec

noncomputable section

namespace Cert.ReferenceIdeal.RefValue

open Cert.ReferenceIdeal Cert.ReferenceIdeal.Gen Cert.ReferenceIdeal.Read Idealize.ShloMosaic Idealize.ShloMosaic.ValueIdx

variable (x : XIdx → EReal) (wa : WaIdx → EReal) (wp : WpIdx → EReal)

/-- One row of the stacked projection. -/
theorem v0_at (b : Fin 4) (t : Fin 2048) (r : Fin 3072) :
    val_main_v0 (F := Ideal) x wa (ix3 b t r) = projR x wa r b t := by
  rw [val_main_v0_apply]; unfold projR
  refine Finset.sum_congr rfl fun k _ => ?_
  have el : lidx_main_v0 (ix3 b t r) k = ix3 b t k := funext fun a => Fin.ext (by match a with | ⟨0, _⟩ => rfl | ⟨1, _⟩ => rfl | ⟨2, _⟩ => rfl)
  have er : ridx_main_v0 (ix3 b t r) k = ix2 r k := funext fun a => Fin.ext (by match a with | ⟨0, _⟩ => rfl | ⟨1, _⟩ => rfl)
  rw [el, er]

/-- The query at (b, h, t, d): split into heads (feature 64·h + d of token (b, t)), from the first third of the stacked projection. -/
theorem v5_at (b : Fin 4) (h : Fin 16) (t : Fin 2048) (d : Fin 64) :
    val_main_v5 (F := Ideal) x wa (ix4 b h t d) = qR x wa b t (colOf h d) := by
  have e : idx_main_v1 (idx_main_v4 (idx_main_v5 (ix4 b h t d))) = ix3 b t (rowQ (colOf h d)) :=
    funext fun a => Fin.ext (by
      have hb := b.isLt; have hh := h.isLt; have ht := t.isLt; have hd := d.isLt
      match a with
      | ⟨0, _⟩ => show (((b.val * 2048 + t.val) * 16 + h.val) * 64 + d.val) / 2097152 = b.val; omega
      | ⟨1, _⟩ => show (((b.val * 2048 + t.val) * 16 + h.val) * 64 + d.val) / 1024 % 2048 = t.val; omega
      | ⟨2, _⟩ => show (((b.val * 2048 + t.val) * 16 + h.val) * 64 + d.val) % 1024 = (64 * h.val + d.val); omega)
  rw [val_main_v5_apply, val_main_v4_apply, val_main_v1_apply, e]
  exact v0_at x wa b t _

/-- The key at (b, h, t, d): split into heads (feature 64·h + d of token (b, t)), from the second third of the stacked projection. -/
theorem v7_at (b : Fin 4) (h : Fin 16) (t : Fin 2048) (d : Fin 64) :
    val_main_v7 (F := Ideal) x wa (ix4 b h t d) = kR x wa b t (colOf h d) := by
  have e : idx_main_v2 (idx_main_v6 (idx_main_v7 (ix4 b h t d))) = ix3 b t (rowK (colOf h d)) :=
    funext fun a => Fin.ext (by
      have hb := b.isLt; have hh := h.isLt; have ht := t.isLt; have hd := d.isLt
      match a with
      | ⟨0, _⟩ => show (((b.val * 2048 + t.val) * 16 + h.val) * 64 + d.val) / 2097152 = b.val; omega
      | ⟨1, _⟩ => show (((b.val * 2048 + t.val) * 16 + h.val) * 64 + d.val) / 1024 % 2048 = t.val; omega
      | ⟨2, _⟩ => show 1024 + (((b.val * 2048 + t.val) * 16 + h.val) * 64 + d.val) % 1024 = 1024 + (64 * h.val + d.val); omega)
  rw [val_main_v7_apply, val_main_v6_apply, val_main_v2_apply, e]
  exact v0_at x wa b t _

/-- The value at (b, h, t, d): split into heads (feature 64·h + d of token (b, t)), from the third third of the stacked projection. -/
theorem v9_at (b : Fin 4) (h : Fin 16) (t : Fin 2048) (d : Fin 64) :
    val_main_v9 (F := Ideal) x wa (ix4 b h t d) = vR x wa b t (colOf h d) := by
  have e : idx_main_v3 (idx_main_v8 (idx_main_v9 (ix4 b h t d))) = ix3 b t (rowV (colOf h d)) :=
    funext fun a => Fin.ext (by
      have hb := b.isLt; have hh := h.isLt; have ht := t.isLt; have hd := d.isLt
      match a with
      | ⟨0, _⟩ => show (((b.val * 2048 + t.val) * 16 + h.val) * 64 + d.val) / 2097152 = b.val; omega
      | ⟨1, _⟩ => show (((b.val * 2048 + t.val) * 16 + h.val) * 64 + d.val) / 1024 % 2048 = t.val; omega
      | ⟨2, _⟩ => show 2048 + (((b.val * 2048 + t.val) * 16 + h.val) * 64 + d.val) % 1024 = 2048 + (64 * h.val + d.val); omega)
  rw [val_main_v9_apply, val_main_v8_apply, val_main_v3_apply, e]
  exact v0_at x wa b t _

end Cert.ReferenceIdeal.RefValue

end
-- ==== Proof.FloatConsts.lean ====
/-
  The float patterns this certificate's programs and predicate spell, as the extended reals they denote at the ideal
  instance, evaluated once: the f32 patterns of −∞ and +∞ are the bottom and the top extended real, and 0x3E000000
  (sign 0, exponent 124, fraction 0) is 2⁻³ = 1/8.
-/
import Idealize.ShloMosaic.PureOps.Ideal
import Idealize.ShloMosaic.PureOps.Ideal.Laws

noncomputable section

namespace Cert.FloatConsts

open Idealize.ShloMosaic

theorem neg_inf : Ideal.ofBits .f32 0xFF800000#32 = (⊥ : EReal) := by simp [Ideal.ofBits, Ideal.ieee]
theorem pos_inf : Ideal.ofBits .f32 0x7F800000#32 = (⊤ : EReal) := by simp [Ideal.ofBits, Ideal.ieee]
theorem eighth : Ideal.ofBits .f32 0x3E000000#32 = ((1 / 8 : ℝ) : EReal) := by
  simp [Ideal.ofBits, Ideal.ieee, -EReal.coe_mul]; norm_num

end Cert.FloatConsts

end
-- ==== Proof.RefFormula.lean ====
/-
  THE REFERENCE IS THE SPECIFICATION: at the ideal instance the reference program's result array is, index by index, the
  function Gref of the three argument arrays — causal multi-head attention as the specification module writes it.
  The stages are read outermost first; each lemma below identifies one stage of the program, at literal coordinates,
  with the specification's function of the same name:
    the masked score, the row maximum (−∞ at the ideal instance is the bottom extended real), the exponential against
    the maximum, the row sum, the attention weight, the head outputs merged back to features (feature f is lane f % 64
    of head f / 64, and 64 · (f / 64) + f % 64 = f), the output projection.
-/
import proofs.«151496_j75222057222809_2_alg».proof.Proof.Gen.ReferenceIdeal.Read
import proofs.«151496_j75222057222809_2_alg».proof.Proof.RefSpec
import proofs.«151496_j75222057222809_2_alg».proof.Proof.RefOuter
import proofs.«151496_j75222057222809_2_alg».proof.Proof.RefSoftmax
import proofs.«151496_j75222057222809_2_alg».proof.Proof.RefScores
import proofs.«151496_j75222057222809_2_alg».proof.Proof.RefProj
import proofs.«151496_j75222057222809_2_alg».proof.Proof.FloatConsts

noncomputable section

namespace Cert.ReferenceIdeal.RefValue

open Cert.ReferenceIdeal Cert.ReferenceIdeal.Gen Cert.ReferenceIdeal.Read Idealize.ShloMosaic Idealize.ShloMosaic.ValueIdx

variable (x : XIdx → EReal) (wa : WaIdx → EReal) (wp : WpIdx → EReal)

/-- The f32 pattern of −∞ denotes the bottom extended real. -/
theorem neg_inf_eq_bot : Ideal.ofBits .f32 0xFF800000#32 = (⊥ : EReal) := Cert.FloatConsts.neg_inf

theorem sR_at (b : Fin 4) (h : Fin 16) (t j : Fin 2048) :
    val_main_v16 (F := Ideal) x wa (ix4 b h t j) = sR x wa b h t j := by
  rw [v16_at, v10_at, neg_inf_eq_bot]; unfold sR
  simp only [v5_at, v7_at]

theorem mR_at (b : Fin 4) (h : Fin 16) (t : Fin 2048) :
    val_main_v19 (F := Ideal) x wa (ix3 b h t) = mR x wa b h t := by
  rw [v19_at, neg_inf_eq_bot]; unfold mR
  simp only [sR_at]

theorem pR_at (b : Fin 4) (h : Fin 16) (t j : Fin 2048) :
    val_main_v23 (F := Ideal) x wa (ix4 b h t j) = pR x wa b h t j := by
  rw [v23_at, sR_at, mR_at]; rfl

theorem lR_at (b : Fin 4) (h : Fin 16) (t : Fin 2048) :
    val_main_v24 (F := Ideal) x wa (ix3 b h t) = lR x wa b h t := by
  rw [v24_at]; unfold lR
  simp only [pR_at]

theorem weight_at (b : Fin 4) (h : Fin 16) (t j : Fin 2048) :
    val_main_v27 (F := Ideal) x wa (ix4 b h t j) = Ideal.div (pR x wa b h t j) (lR x wa b h t) := by
  rw [v27_at, pR_at, lR_at]

theorem oR_at (b : Fin 4) (t : Fin 2048) (f : Fin 1024) :
    val_main_v30 (F := Ideal) x wa (ix3 b t f) = oR x wa b t f := by
  rw [v30_at, v28_at]; unfold oR
  refine Finset.sum_congr rfl fun j _ => ?_
  rw [weight_at, v9_at, colOf_head_lane]

/-- The reference's result, at the ideal instance, is the specification. -/
theorem ref_eq : val_main_v31 (F := Ideal) x wa wp = Gref x wa wp := by
  funext i
  obtain ⟨b, t, g, rfl⟩ : ∃ (b : Fin 4) (t : Fin 2048) (g : Fin 1024), i = ix3 b t g := ⟨i 0, i 1, i 2, eq_ix3 i⟩
  rw [v31_at, Gref_apply]
  simp only [oR_at]

/-- info: 'Cert.ReferenceIdeal.RefValue.ref_eq' depends on axioms: [propext, Classical.choice, Quot.sound] -/
#guard_msgs in #print axioms ref_eq

end Cert.ReferenceIdeal.RefValue

end
-- ==== Proof.Finite.lean ====
/-
  FINITENESS from the precondition: the printed predicate says, of each argument array, that every entry's absolute
  value is below +∞; conjoined over the three arrays and reduced by "and" to one bit. If that bit is 1 then each
  conjunct is 1, each reduction by "and" into a single result had a 1 at every index, and an extended real whose
  absolute value max(v, −v) is below +∞ is neither −∞ nor +∞: it is a real number.
-/
import proofs.«151496_j75222057222809_2_alg».proof.Defs
import proofs.«151496_j75222057222809_2_alg».proof.Proof.Gen.KernelIdeal
import proofs.«151496_j75222057222809_2_alg».proof.Proof.Gen.Pre_finite_inputs
import proofs.«151496_j75222057222809_2_alg».proof.Proof.FloatConsts
import Idealize.ShloMosaic.Lib.ReduceAll
import Idealize.ShloMosaic.Lib.ValueIdx
import Idealize.ShloMosaic.Lib.Affine
import Idealize.ShloMosaic.PureOps.Ideal.Laws

noncomputable section

namespace Cert.Proof.Fin

open Idealize.ShloMosaic Idealize.SL.Sem

/-- The scalar shape has one index. -/
instance : Subsingleton Cert.Pre_finite_inputs.S_.Idx := ⟨fun a b => funext fun d => d.elim0⟩

/-- An ordered "less than" that answers 1 is a strict inequality of extended reals. -/
theorem lt_of_cmp_olt {u v : EReal} (h : Ideal.cmp .olt u v = 1#1) : u < v := by
  unfold Ideal.cmp at h
  by_contra hn
  simp [hn] at h

/-- The f32 pattern of +∞ denotes the top extended real. -/
theorem pos_inf_eq_top : Ideal.ofBits .f32 0x7F800000#32 = (⊤ : EReal) := Cert.FloatConsts.pos_inf

/-- An extended real whose absolute value is below +∞ is a real number. -/
theorem real_of_abs_lt (v : EReal) (h : Ideal.cmp .olt (max v (-v)) (Ideal.ofBits .f32 0x7F800000#32) = 1#1) :
    ∃ r : ℝ, v = (r : EReal) := by
  have hlt := lt_of_cmp_olt h
  rw [pos_inf_eq_top] at hlt
  revert hlt
  refine @EReal.rec (fun v => max v (-v) < ⊤ → ∃ r : ℝ, v = (r : EReal)) ?_ ?_ ?_ v
  · intro h; simp at h
  · intro r _; exact ⟨r, rfl⟩
  · intro h; simp at h

/-- If the printed predicate is all ones on three arrays, every entry of each is a real number. -/
theorem finite_of_fn (a0 : FVec Ideal Cert.Pre_finite_inputs.S4x2048x1024 .f32) (a1 : FVec Ideal Cert.Pre_finite_inputs.S3072x1024 .f32)
    (a2 : FVec Ideal Cert.Pre_finite_inputs.S1024x1024 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [Cert.Pre_finite_inputs.fn] at h0
  obtain ⟨h01, h2⟩ := IntOp.andi_eq_one.mp h0
  obtain ⟨h0', h1'⟩ := IntOp.andi_eq_one.mp h01
  exact ⟨fun i => real_of_abs_lt _ (Host.reduce_andi_all _ _ _ _ _ h0' i),
    fun i => real_of_abs_lt _ (Host.reduce_andi_all _ _ _ _ _ h1' i),
    fun i => real_of_abs_lt _ (Host.reduce_andi_all _ _ _ _ _ h2 i)⟩

/-- Under the idealized kernel's precondition, on every core, every entry of each argument array is a real number. -/
theorem finite_args (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, (m ((c.tc : Thread Cert.KernelIdeal.nD Cert.KernelIdeal.τ).loc Cert.KernelIdeal.main_arg0) : (⟨3, ![4, 2048, 1024]⟩ : Shape).Idx → EReal) i = (r : EReal))
    ∧ (∀ i, ∃ r : ℝ, (m ((c.tc : Thread Cert.KernelIdeal.nD Cert.KernelIdeal.τ).loc Cert.KernelIdeal.main_arg1) : (⟨2, ![3072, 1024]⟩ : Shape).Idx → EReal) i = (r : EReal))
    ∧ (∀ i, ∃ r : ℝ, (m ((c.tc : Thread Cert.KernelIdeal.nD Cert.KernelIdeal.τ).loc Cert.KernelIdeal.main_arg2) : (⟨2, ![1024, 1024]⟩ : Shape).Idx → EReal) i = (r : EReal)) :=
  finite_of_fn _ _ _ (hpre c)

end Cert.Proof.Fin

end
-- ==== Proof.ResultEq.lean ====
/- The value equation of the idealized kernel against the idealized reference, assembled from the three regions.

   With x, wa, wp the three argument arrays at launch (every entry a real number, by the precondition):
   the host conversions leave the two weight arrays' bf16 copies at wa and wp themselves (a change of format is the
   identity on the extended reals) and x untouched; the first region leaves its three output arrays at the query
   projection scaled by 1/8, the key projection and the value projection of x by wa, each entry a real number (a finite
   sum of products of reals, the first times the real 1/8); the second region leaves its output array at causal
   attention over those three arrays (GIVEN here as a hypothesis: the region's final array), which is the reference's
   head output of x and wa (GIVEN as a hypothesis: the last algebra); the third region leaves the result array at the
   product of that with the transposed wp, which is the specification's result — and the reference's composed term is
   the specification. -/
import proofs.«151496_j75222057222809_2_alg».proof.Defs
import proofs.«151496_j75222057222809_2_alg».proof.Proof.KIRun
import proofs.«151496_j75222057222809_2_alg».proof.Proof.KIValue0
import proofs.«151496_j75222057222809_2_alg».proof.Proof.KIValue2
import proofs.«151496_j75222057222809_2_alg».proof.Proof.AttnSpec
import proofs.«151496_j75222057222809_2_alg».proof.Proof.RefFormula
import proofs.«151496_j75222057222809_2_alg».proof.Proof.Finite
import proofs.«151496_j75222057222809_2_alg».proof.Proof.FloatConsts

set_option maxRecDepth 16384

noncomputable section

namespace Cert.Proof.Res

open Cert.KernelIdeal Cert.KernelIdeal.Gen Cert.KernelIdeal.Hand Cert.KernelIdeal.HandValue
open Idealize.ShloMosaic Idealize.ShloMosaic.TcCoe Idealize.SL.Sem
open Idealize.ShloMosaic.ValueIdx
open Cert.ReferenceIdeal.RefValue (XIdx WaIdx WpIdx oR Gref ref_eq)

/-! ## The three projections of real arrays are real -/

/-- A finite sum of reals, taken in the extended reals, is the real sum. -/
theorem coe_sum {ι : Type} (s : Finset ι) (f : ι → ℝ) : (∑ i ∈ s, ((f i : ℝ) : EReal)) = ((∑ i ∈ s, f i : ℝ) : EReal) := by
  classical
  refine Finset.induction_on s ?_ ?_
  · simp
  · intro a s ha ih
    rw [Finset.sum_insert ha, Finset.sum_insert ha, ih, EReal.coe_add]

section Real

variable (x : XIdx → EReal) (wa : WaIdx → EReal)
variable (hx : ∀ i, ∃ r : ℝ, x i = (r : EReal)) (hwa : ∀ i, ∃ r : ℝ, wa i = (r : EReal))
include hx hwa

/-- One row of the projection of real activations by real weights, at one token, is a real number. -/
theorem row_real (b : Fin 4) (t : Fin 2048) (r : Fin 3072) :
    ∃ y : ℝ, (∑ k : Fin 1024, x (ix3 b t k) * wa (ix2 r k)) = (y : EReal) := by
  choose xr hxr using hx
  choose wr hwr using hwa
  refine ⟨∑ k : Fin 1024, xr (ix3 b t k) * wr (ix2 r k), ?_⟩
  simp only [hxr, hwr, ← EReal.coe_mul]
  exact coe_sum _ _

theorem Gq_real (i : XIdx) : ∃ y : ℝ, Gq x wa i = (y : EReal) := by
  obtain ⟨y, hy⟩ := row_real x wa hx hwa ⟨(i 0).val, (i 0).isLt⟩ ⟨(i 1).val, (i 1).isLt⟩ (wrow 0 (by decide) ⟨(i 2).val, (i 2).isLt⟩)
  refine ⟨y * (1 / 8), ?_⟩
  unfold Gq
  rw [hy, Cert.FloatConsts.eighth, ← EReal.coe_mul]

theorem Gk_real (i : XIdx) : ∃ y : ℝ, Gk x wa i = (y : EReal) :=
  row_real x wa hx hwa ⟨(i 0).val, (i 0).isLt⟩ ⟨(i 1).val, (i 1).isLt⟩ (wrow 1024 (by decide) ⟨(i 2).val, (i 2).isLt⟩)

theorem Gv_real (i : XIdx) : ∃ y : ℝ, Gv x wa i = (y : EReal) :=
  row_real x wa hx hwa ⟨(i 0).val, (i 0).isLt⟩ ⟨(i 1).val, (i 1).isLt⟩ (wrow 2048 (by decide) ⟨(i 2).val, (i 2).isLt⟩)

end Real

/-! ## The buffer contents at the regions' entries, read back to the launch memory -/

variable (m : (ℓ : Loc nD τ sig) → Buf (Elt Ideal) ℓ) (ρ : Dev nD → PrngReg)

/-- The activations enter the first region as launched: no host operation writes them. -/
theorem V1_x (c : Dev nD) : V1 (F := Ideal) m ρ c main_arg0 = m ((c : Thread nD τ).loc main_arg0) :=
  (StableHlo.after_of_writes_sub hostOps0 _ hostOps0_writes (by decide)).trans rfl

/-- The stacked projection weights' bf16 copy is the weights themselves: a change of format is the identity. -/
theorem V1_wa (c : Dev nD) : (V1 (F := Ideal) m ρ c main_v0 : WaIdx → EReal) = m ((c : Thread nD τ).loc main_arg1) := by
  show StableHlo.after hostOps0 (W0 m ρ c) (Proc.devRef .tc main_v0) = _
  after_results
  rfl

/-- The output projection weights' bf16 copy likewise. -/
theorem V1_wp (c : Dev nD) : (V1 (F := Ideal) m ρ c main_v1 : WpIdx → EReal) = m ((c : Thread nD τ).loc main_arg2) := by
  show StableHlo.after hostOps0 (W0 m ρ c) (Proc.devRef .tc main_v1) = _
  after_results
  rfl

/-! ## The chain -/

/-- What the first region leaves in its three output arrays: the three projections of the launch arrays. -/
theorem V2_q (c : Dev nD) : (V2 (F := Ideal) m ρ c main_v2_0 : XIdx → EReal)
    = Gq (m ((c : Thread nD τ).loc main_arg0)) (m ((c : Thread nD τ).loc main_arg1)) := by
  have h := (W2_arr (F := Ideal) m ρ c 2).trans (final0_2 (V1 (F := Ideal) m ρ) c)
  rw [V1_x, V1_wa] at h
  exact h
theorem V2_k (c : Dev nD) : (V2 (F := Ideal) m ρ c main_v2_1 : XIdx → EReal)
    = Gk (m ((c : Thread nD τ).loc main_arg0)) (m ((c : Thread nD τ).loc main_arg1)) := by
  have h := (W2_arr (F := Ideal) m ρ c 3).trans (final0_3 (V1 (F := Ideal) m ρ) c)
  rw [V1_x, V1_wa] at h
  exact h
theorem V2_v (c : Dev nD) : (V2 (F := Ideal) m ρ c main_v2_2 : XIdx → EReal)
    = Gv (m ((c : Thread nD τ).loc main_arg0)) (m ((c : Thread nD τ).loc main_arg1)) := by
  have h := (W2_arr (F := Ideal) m ρ c 4).trans (final0_4 (V1 (F := Ideal) m ρ) c)
  rw [V1_x, V1_wa] at h
  exact h

/-- The output projection weights reach the third region as the host conversion left them: the first two regions
    do not have them among their windows' arrays. -/
theorem V3_wp (c : Dev nD) : (V3 (F := Ideal) m ρ c main_v1 : WpIdx → EReal) = m ((c : Thread nD τ).loc main_arg2) :=
  ((W3_of_ne (F := Ideal) m ρ c main_v1 (by decide)).trans (W2_of_ne (F := Ideal) m ρ c main_v1 (by decide))).trans (V1_wp m ρ c)

/-- The product of an array, given through its literal coordinates, with the transposed output weights is the
    specification's result of the head outputs. -/
theorem G2_oR (x : XIdx → EReal) (wa : WaIdx → EReal) (wp : WpIdx → EReal) :
    G2 (fun i => oR x wa ⟨(i 0).val, (i 0).isLt⟩ ⟨(i 1).val, (i 1).isLt⟩ ⟨(i 2).val, (i 2).isLt⟩) wp = Gref x wa wp :=
  funext fun i => Finset.sum_congr rfl fun k _ => rfl

/-- THE VALUE EQUATION, from the second region's final array (`H1`) and the last algebra (`H2`). -/
theorem result_eq
    (H1 : ∀ (V : (c : Dev nD) → (b : Ref sig .tc) → Buf (Elt Ideal) ((c : Thread nD τ).loc b)) (c : Dev nD),
      (∀ i, ∃ r : ℝ, (V c main_v2_0 : XIdx → EReal) i = (r : EReal)) →
      (∀ i, ∃ r : ℝ, (V c main_v2_1 : XIdx → EReal) i = (r : EReal)) →
      (∀ i, ∃ r : ℝ, (V c main_v2_2 : XIdx → EReal) i = (r : EReal)) →
      (dat1 V c).arrAt 3 cfg1.N = fun i => Cert.AttnSpec.oA (V c main_v2_0) (V c main_v2_1) (V c main_v2_2)
        ⟨(i 0).val, (i 0).isLt⟩ ⟨(i 1).val, (i 1).isLt⟩ ⟨(i 2).val, (i 2).isLt⟩)
    (H2 : ∀ (x : XIdx → EReal) (wa : WaIdx → EReal), (∀ i, ∃ r : ℝ, x i = (r : EReal)) → (∀ i, ∃ r : ℝ, wa i = (r : EReal)) →
      ∀ (b : Fin 4) (t : Fin 2048) (f : Fin 1024), Cert.AttnSpec.oA (Gq x wa) (Gk x wa) (Gv x wa) b t f = oR x wa b t f)
    (hpre : Cert.Pre_KernelIdeal m) (c : Dev nD) :
    (dat2 (V3 (F := Ideal) m ρ) c).arrAt 2 cfg2.N
      = Cert.ReferenceIdeal.Read.val_main_v31 (F := Ideal)
          (m ((c.tc : Thread nD τ).loc main_arg0)) (m ((c.tc : Thread nD τ).loc main_arg1)) (m ((c.tc : Thread nD τ).loc main_arg2)) := by
  obtain ⟨hx, hwa, -⟩ := Cert.Proof.Fin.finite_args m hpre c
  -- the second region's output array, after it
  have h3 : (V3 (F := Ideal) m ρ c main_v3 : XIdx → EReal)
      = fun i => oR (m ((c : Thread nD τ).loc main_arg0)) (m ((c : Thread nD τ).loc main_arg1))
          ⟨(i 0).val, (i 0).isLt⟩ ⟨(i 1).val, (i 1).isLt⟩ ⟨(i 2).val, (i 2).isLt⟩ := by
    have h := (W3_arr (F := Ideal) m ρ c 3).trans (H1 (V2 (F := Ideal) m ρ) c
      (by rw [V2_q]; exact Gq_real _ _ hx hwa) (by rw [V2_k]; exact Gk_real _ _ hx hwa) (by rw [V2_v]; exact Gv_real _ _ hx hwa))
    rw [V2_q, V2_k, V2_v] at h
    refine h.trans (funext fun i => ?_)
    exact H2 _ _ hx hwa _ _ _
  rw [final2 (V3 (F := Ideal) m ρ) c, h3, V3_wp]
  exact (G2_oR _ _ _).trans (ref_eq _ _ _).symm

end Cert.Proof.Res

end
-- ==== Proof.AttnBridge.lean ====
/-
  THE LAST ALGEBRA: causal attention over the three projected arrays, with the 1/8 folded into the query array, is the
  reference's head output — for activations and weights all of whose entries are real numbers.
  (a) Entry by entry the three arrays are the specification's query times 1/8, its key and its value (row f + 1024 of
      the stacked weight is row 1024 + f), and each is a real number: a finite sum of products of reals.
  (b) Over the reals  ∑_d (q_d · c) · k_d = (∑_d q_d · k_d) · c,  so the two masked scores agree. (This is where
      finiteness is needed: on the extended reals the products do not distribute over sums.)
  (c) The row maximum as a supremum is the row maximum as a fold of max from −∞.
  (d) The row sum with a leading zero is the row sum; hence the two head outputs agree term by term.
-/
import proofs.«151496_j75222057222809_2_alg».proof.Proof.RefSpec
import proofs.«151496_j75222057222809_2_alg».proof.Proof.AttnSpec
import proofs.«151496_j75222057222809_2_alg».proof.Proof.FloatConsts

noncomputable section

namespace Cert.AttnSpec

open Idealize.ShloMosaic Idealize.ShloMosaic.ValueIdx Cert.ReferenceIdeal.RefValue

/-- A finite sum of reals, taken in the extended reals, is the real sum. -/
theorem coe_sum {ι : Type} (s : Finset ι) (f : ι → ℝ) : (∑ i ∈ s, ((f i : ℝ) : EReal)) = ((∑ i ∈ s, f i : ℝ) : EReal) := by
  classical
  refine Finset.induction_on s ?_ ?_
  · simp
  · intro a s ha ih
    rw [Finset.sum_insert ha, Finset.sum_insert ha, ih, EReal.coe_add]

/-- Over the reals a common factor of the left operands comes out of a sum of products. -/
theorem sum_mul_scale {ι : Type} (s : Finset ι) (a b : ι → ℝ) (c : ℝ) :
    (∑ i ∈ s, ((a i : ℝ) : EReal) * ((c : ℝ) : EReal) * ((b i : ℝ) : EReal))
      = (∑ i ∈ s, ((a i : ℝ) : EReal) * ((b i : ℝ) : EReal)) * ((c : ℝ) : EReal) := by
  simp only [← EReal.coe_mul, coe_sum]
  refine congrArg _ ?_
  rw [Finset.sum_mul]
  exact Finset.sum_congr rfl fun i _ => by ring

variable (x : XIdx → EReal) (wa : WaIdx → EReal)

/-! ## The three projected arrays (query with the 1/8 folded in, key, value) -/

def Gq' : XIdx → EReal := fun i =>
  (∑ k : Fin 1024, x (ix3 (⟨(i 0).val, (i 0).isLt⟩ : Fin 4) (⟨(i 1).val, (i 1).isLt⟩ : Fin 2048) k)
      * wa (ix2 (⟨(i 2).val, by have h : (i 2).val < 1024 := (i 2).isLt; omega⟩ : Fin 3072) k)) * Ideal.ofBits .f32 0x3E000000#32
def Gk' : XIdx → EReal := fun i =>
  ∑ k : Fin 1024, x (ix3 (⟨(i 0).val, (i 0).isLt⟩ : Fin 4) (⟨(i 1).val, (i 1).isLt⟩ : Fin 2048) k)
      * wa (ix2 (⟨(i 2).val + 1024, by have h : (i 2).val < 1024 := (i 2).isLt; omega⟩ : Fin 3072) k)
def Gv' : XIdx → EReal := fun i =>
  ∑ k : Fin 1024, x (ix3 (⟨(i 0).val, (i 0).isLt⟩ : Fin 4) (⟨(i 1).val, (i 1).isLt⟩ : Fin 2048) k)
      * wa (ix2 (⟨(i 2).val + 2048, by have h : (i 2).val < 1024 := (i 2).isLt; omega⟩ : Fin 3072) k)

/-! ## (a) They are the specification's projections, entry by entry -/

theorem Gq'_at (b : Fin 4) (t : Fin 2048) (f : Fin 1024) :
    Gq' x wa (ix3 b t f) = qR x wa b t f * Ideal.ofBits .f32 0x3E000000#32 := rfl
theorem Gk'_at (b : Fin 4) (t : Fin 2048) (f : Fin 1024) : Gk' x wa (ix3 b t f) = kR x wa b t f := by
  unfold Gk' kR projR
  refine Finset.sum_congr rfl fun k _ => ?_
  refine congrArg₂ (· * ·) rfl (congrArg wa (congrArg (fun r => ix2 r k) (Fin.ext ?_)))
  show f.val + 1024 = 1024 + f.val; omega
theorem Gv'_at (b : Fin 4) (t : Fin 2048) (f : Fin 1024) : Gv' x wa (ix3 b t f) = vR x wa b t f := by
  unfold Gv' vR projR
  refine Finset.sum_congr rfl fun k _ => ?_
  refine congrArg₂ (· * ·) rfl (congrArg wa (congrArg (fun r => ix2 r k) (Fin.ext ?_)))
  show f.val + 2048 = 2048 + f.val; omega

section Real

variable (hx : ∀ i, ∃ r : ℝ, x i = (r : EReal)) (hwa : ∀ i, ∃ r : ℝ, wa i = (r : EReal))
include hx hwa

/-- A row of the projection of real activations by real weights is a real number. -/
theorem projR_real (r : Fin 3072) (b : Fin 4) (t : Fin 2048) : ∃ y : ℝ, projR x wa r b t = (y : EReal) := by
  choose xr hxr using hx
  choose wr hwr using hwa
  refine ⟨∑ k : Fin 1024, xr (ix3 b t k) * wr (ix2 r k), ?_⟩
  unfold projR
  simp only [hxr, hwr, ← EReal.coe_mul]
  exact coe_sum _ _

/-! ## (b) The masked scores agree -/

theorem sA_eq_sR (b : Fin 4) (h : Fin 16) (t j : Fin 2048) :
    sA (Gq' x wa) (Gk' x wa) b h t j = sR x wa b h t j := by
  unfold sA sR
  by_cases hjt : j.val ≤ t.val
  · rw [if_pos hjt, if_pos hjt]
    simp only [Gq'_at, Gk'_at]
    have hq : ∀ f, ∃ y : ℝ, qR x wa b t f = (y : EReal) := fun f => projR_real x wa hx hwa _ b t
    have hk : ∀ f, ∃ y : ℝ, kR x wa b j f = (y : EReal) := fun f => projR_real x wa hx hwa _ b j
    choose qr hqr using hq
    choose kr hkr using hk
    simp only [hqr, hkr, Cert.FloatConsts.eighth]
    exact sum_mul_scale Finset.univ (fun d => qr (colOf h d)) (fun d => kr (colOf h d)) (1 / 8)
  · rw [if_neg hjt, if_neg hjt]

/-! ## (c) The row maxima agree -/

theorem mA_eq_mR (b : Fin 4) (h : Fin 16) (t : Fin 2048) :
    mA (Gq' x wa) (Gk' x wa) b h t = mR x wa b h t := by
  unfold mA
  rw [mR_eq_sup]
  exact congrArg _ (funext fun j => sA_eq_sR x wa hx hwa b h t j)

/-! ## (d) The row sums agree, and the head outputs -/

theorem lA_eq_lR (b : Fin 4) (h : Fin 16) (t : Fin 2048) :
    lA (Gq' x wa) (Gk' x wa) b h t = lR x wa b h t := by
  unfold lA lR pR
  rw [Ideal.ofBits_zero_f32, zero_add]
  exact Finset.sum_congr rfl fun j _ => by rw [sA_eq_sR x wa hx hwa, mA_eq_mR x wa hx hwa]

/-- Attention over the projected arrays is the reference's head output. -/
theorem oA_eq_oR (b : Fin 4) (t : Fin 2048) (f : Fin 1024) :
    oA (Gq' x wa) (Gk' x wa) (Gv' x wa) b t f = oR x wa b t f := by
  unfold oA oR pR
  exact Finset.sum_congr rfl fun j _ => by
    rw [sA_eq_sR x wa hx hwa, mA_eq_mR x wa hx hwa, lA_eq_lR x wa hx hwa, Gv'_at]

end Real

end Cert.AttnSpec

end
-- ==== Proof.ResultEqBridge.lean ====
/- The three projections as the value proofs of the first region state them are, as functions, the three arrays the
   last algebra is stated over: they differ only in how a weight row is spelt (offset + n against n + offset, and the
   proof that it is a row). Hence the last algebra holds of them: causal attention over the three projections of real
   arrays is the reference's head output. -/
import proofs.«151496_j75222057222809_2_alg».proof.Proof.KIValue0
import proofs.«151496_j75222057222809_2_alg».proof.Proof.AttnBridge

noncomputable section

namespace Cert.Proof.Res

open Cert.KernelIdeal.HandValue
open Idealize.ShloMosaic Idealize.ShloMosaic.ValueIdx
open Cert.ReferenceIdeal.RefValue (XIdx WaIdx oR)

variable (x : XIdx → EReal) (wa : WaIdx → EReal)

theorem Gq_eq : Gq x wa = Cert.AttnSpec.Gq' x wa := funext fun i => by
  unfold Gq Cert.AttnSpec.Gq'
  refine congrArg (fun s : EReal => s * Ideal.ofBits .f32 0x3E000000#32) (Finset.sum_congr rfl fun k _ => ?_)
  refine congrArg₂ (· * ·) rfl (congrArg wa (congrArg (fun r => ix2 r k) (Fin.ext ?_)))
  show 0 + (i 2).val = (i 2).val; omega

theorem Gk_eq : Gk x wa = Cert.AttnSpec.Gk' x wa := funext fun i => by
  unfold Gk Cert.AttnSpec.Gk'
  refine Finset.sum_congr rfl fun k _ => ?_
  refine congrArg₂ (· * ·) rfl (congrArg wa (congrArg (fun r => ix2 r k) (Fin.ext ?_)))
  show 1024 + (i 2).val = (i 2).val + 1024; omega

theorem Gv_eq : Gv x wa = Cert.AttnSpec.Gv' x wa := funext fun i => by
  unfold Gv Cert.AttnSpec.Gv'
  refine Finset.sum_congr rfl fun k _ => ?_
  refine congrArg₂ (· * ·) rfl (congrArg wa (congrArg (fun r => ix2 r k) (Fin.ext ?_)))
  show 2048 + (i 2).val = (i 2).val + 2048; omega

/-- The last algebra, over the first region's three projections. -/
theorem oA_proj_eq_oR (hx : ∀ i, ∃ r : ℝ, x i = (r : EReal)) (hwa : ∀ i, ∃ r : ℝ, wa i = (r : EReal))
    (b : Fin 4) (t : Fin 2048) (f : Fin 1024) :
    Cert.AttnSpec.oA (Gq x wa) (Gk x wa) (Gv x wa) b t f = oR x wa b t f := by
  rw [Gq_eq, Gk_eq, Gv_eq]
  exact Cert.AttnSpec.oA_eq_oR x wa hx hwa b t f

end Cert.Proof.Res

end
-- ==== Proof.Algebraic.lean ====
/-
  The algebraic claim, reduced to one equation between two arrays.

  Run from memories that agree on x, w_attn and w_proj, the idealized kernel ends with its result array at what its
  third region leaves — the output projection's blocks, written back over the grid — and the idealized reference
  ends with its result at the last of its host operations applied down the chain to the same three arrays. The claim
  is that these are one array of extended reals. Everything about executions is in the two runs cited here; what is
  left (`result_eq`) is mathematics about the three arguments: causal softmax attention computed tile by tile with
  running maximum, sum and numerator, against the same attention computed whole.
-/
import proofs.«151496_j75222057222809_2_alg».proof.Defs
import proofs.«151496_j75222057222809_2_alg».proof.Proof.KIRun
import proofs.«151496_j75222057222809_2_alg».proof.Proof.Gen.KernelIdeal
import proofs.«151496_j75222057222809_2_alg».proof.Proof.Gen.ReferenceIdeal
import proofs.«151496_j75222057222809_2_alg».proof.Proof.Gen.Pre_finite_inputs
import proofs.«151496_j75222057222809_2_alg».proof.Proof.Gen.ReferenceIdeal.Run
import proofs.«151496_j75222057222809_2_alg».proof.Proof.Gen.ReferenceIdeal.Read
import proofs.«151496_j75222057222809_2_alg».proof.Proof.KIValue1Final
import proofs.«151496_j75222057222809_2_alg».proof.Proof.ResultEq
import proofs.«151496_j75222057222809_2_alg».proof.Proof.ResultEqBridge

noncomputable section

namespace Cert.Proof.Alg

open Idealize.ShloMosaic Idealize.ShloMosaic.TcCoe Idealize.SL.Sem

/-- THE VALUE EQUATION. Under the precondition (every entry of the three arguments is a real number), what the
    output projection's write-backs leave in the kernel's result array is the reference's composed term of the same
    three arrays: index by index, the sum over c of the attention output at c times w_proj at (f, c). -/
theorem result_eq (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    (Cert.KernelIdeal.Hand.dat2 (Cert.KernelIdeal.Hand.V3 (F := Ideal) m ρ) c).arrAt 2 Cert.KernelIdeal.cfg2.N
      = Cert.ReferenceIdeal.Read.val_main_v31 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) :=
  Cert.Proof.Res.result_eq m ρ
    (fun V c h0 h1 h2 => Cert.KernelIdeal.HandValue.final1 V c h0 h1 h2)
    (fun x wa hx hwa b t f => Cert.Proof.Res.oA_proj_eq_oR x wa hx hwa b t f) hpre c

/-- Both idealized programs run, from memories agreeing on the arguments, to equal results and unchanged arguments. -/
theorem algebraic : Cert.algebraic_KernelIdeal_ReferenceIdeal := by
  intro m ρ m' ρ' hpre hagree
  refine ⟨fun c => (Cert.KernelIdeal.Hand.dat2 (Cert.KernelIdeal.Hand.V3 (F := Ideal) m ρ) c).arrAt 2 Cert.KernelIdeal.cfg2.N,
    Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, (hagree c).1, (hagree c).2.1, (hagree c).2.2]
  exact (result_eq m ρ hpre c).symm

end Cert.Proof.Alg

end
-- ==== Proof.lean ====
/-
  The certificate's claim: the three frames, the idealization ledger and the algebraic equivalence.

  The kernel is causal multi-head attention as three pipelined regions — the q/k/v projection, the attention proper
  (an online softmax over key tiles, skipping the tiles above the diagonal) and the output projection. Each kernel
  program's frame is the run of @main over the three regions' proof data (one module per region, one for the run);
  the reference's frame is its generated run; the ledger's two entries are the named fill constant; the algebraic
  claim is the two runs side by side and the equation between their result arrays.
-/
import proofs.«151496_j75222057222809_2_alg».proof.Defs
import proofs.«151496_j75222057222809_2_alg».proof.Proof.Frames
import proofs.«151496_j75222057222809_2_alg».proof.Proof.Small
import proofs.«151496_j75222057222809_2_alg».proof.Proof.Algebraic
import proofs.«151496_j75222057222809_2_alg».proof.Proof.Gen.Kernel
import proofs.«151496_j75222057222809_2_alg».proof.Proof.Gen.KernelIdeal
import proofs.«151496_j75222057222809_2_alg».proof.Proof.Gen.ReferenceIdeal
import proofs.«151496_j75222057222809_2_alg».proof.Proof.Gen.Pre_finite_inputs

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Frames.frame_Kernel, Cert.Proof.Frames.frame_KernelIdeal, Cert.Proof.Small.frame_ReferenceIdeal,
    Cert.Proof.Small.preserves, Cert.Proof.Alg.algebraic⟩

end Cert.Proof

end
